-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1048576 : Shape := ⟨1, ![1048576]⟩
abbrev S10x16 : Shape := ⟨2, ![10, 16]⟩
abbrev S_ : Shape := ⟨0, ![]⟩

class Facts : Prop where
  bcast_S_S10x16 : S_.BroadcastsInDim S10x16 (![] : Fin 0 → Fin S10x16.rank)
  reducesTo_S10x16_S_d0_1 : S10x16.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : IVec S1048576 32) (main_arg1 : FVec F S10x16 .f32) : IVec S_ 1 :=
  let main_v0 : FVec F S10x16 .f32 := Host.absf main_arg1
  let main_cst : FVec F S_ .f32 := constant S_ .f32 0x7F800000#32
  let main_v1 : FVec F S10x16 .f32 := broadcastInDim S10x16 ![] bcast_S_S10x16 main_cst
  let main_v2 : IVec S10x16 1 := cmpf .olt main_v0 main_v1
  let main_c : IVec S_ 1 := constantI S_ 1 1#1
  let main_v3 : IVec S_ 1 := (fun x v => Host.reduce IntOp.andi x v reducesTo_S10x16_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg0 main_v4
  let main_c_1 : IVec S_ 32 := constantI S_ 32 9#32
  let main_v6 : IVec S1048576 32 := broadcastInDim S1048576 ![] bcast_S_S1048576 main_c_1
  let main_v7 : IVec S1048576 1 := cmpi .sle main_arg0 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S1048576 : Shape := ⟨1, ![1048576]⟩
abbrev S10x16 : Shape := ⟨2, ![10, 16]⟩
abbrev S32x16 : Shape := ⟨2, ![32, 16]⟩
abbrev S32768 : Shape := ⟨1, ![32768]⟩
abbrev S16 : Shape := ⟨1, ![16]⟩
abbrev S256 : Shape := ⟨1, ![256]⟩
abbrev S_ : Shape := ⟨0, ![]⟩
abbrev S16128 : Shape := ⟨1, ![16128]⟩
abbrev S16640 : Shape := ⟨1, ![16640]⟩
abbrev S1x16 : Shape := ⟨2, ![1, 16]⟩

abbrev nBuf : Table → Nat
  | .hbm => 5
  | .local .tc .vmem => 2
  | .local .scVector .vmem => 5
  | _ => 0

abbrev bufTy : (tb : Table) → Fin (nBuf tb) → BufTy
  | .hbm, ⟨0, _⟩ => ⟨S1048576, .i32⟩
  | .hbm, ⟨1, _⟩ => ⟨S10x16, .f32⟩
  | .hbm, ⟨2, _⟩ => ⟨S32x16, .f32⟩
  | .hbm, ⟨3, _⟩ => ⟨S1x16, .f32⟩
  | .hbm, ⟨4, _⟩ => ⟨S16, .f32⟩
  | .local .tc .vmem, ⟨0, _⟩ => ⟨S32x16, .f32⟩
  | .local .tc .vmem, ⟨1, _⟩ => ⟨S1x16, .f32⟩
  | .local .scVector .vmem, ⟨0, _⟩ => ⟨S32768, .i32⟩
  | .local .scVector .vmem, ⟨1, _⟩ => ⟨S10x16, .f32⟩
  | .local .scVector .vmem, ⟨2, _⟩ => ⟨S16, .f32⟩
  | .local .scVector .vmem, ⟨3, _⟩ => ⟨S256, .i32⟩
  | .local .scVector .vmem, ⟨4, _⟩ => ⟨S256, .i32⟩
  | _, _ => ⟨S1048576, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32768_i32 : BitVec 32 := 32768#32
  let v2 : BitVec 32 := Scalar.muli v1 c32768_i32
  ![v2.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32768_i32 : BitVec 32 := 32768#32
  let v2 : BitVec 32 := Scalar.muli v1 c32768_i32
  let c16128_i32 : BitVec 32 := 16128#32
  let v7 : BitVec 32 := Scalar.addi v2 c16128_i32
  ![v7.toNat]
@[reducible] def k0_t1_loop : Scf.Loop 32 :=
  let c0_i32_15 : BitVec 32 := 0#32
  let c18_i32 : BitVec 32 := 18#32
  let v26 : BitVec 32 := Scalar.addi c0_i32_15 c18_i32
  let c1_i32 : BitVec 32 := 1#32
  ⟨c0_i32_15, v26, c1_i32⟩
def k0_off3 (k0_t1 : Fin k0_t1_loop.trips) (c0_i32_228 : BitVec 32) (c0_i32_229 : BitVec 32) : Fin 1 → Nat :=
  let c0_i32_15 : BitVec 32 := 0#32
  let c1_i32 : BitVec 32 := 1#32
  let arg12 : BitVec 32 := Scf.iv c0_i32_15 c1_i32 k0_t1
  let c56_i32 : BitVec 32 := 56#32
  let v595 : BitVec 32 := Scalar.muli arg12 c56_i32
  let v600 : BitVec 32 := Scalar.addi v595 c0_i32_228
  let v601 : BitVec 32 := Scalar.addi v600 c0_i32_229
  let c16_i32_230 : BitVec 32 := 16#32
  let v602 : BitVec 32 := Scalar.muli v601 c16_i32_230
  let v603 : Index := Scalar.indexCast v602
  ![v603.toNat]
def k0_off4 (k0_t1 : Fin k0_t1_loop.trips) (c0_i32_383 : BitVec 32) (c0_i32_384 : BitVec 32) : Fin 1 → Nat :=
  let c0_i32_15 : BitVec 32 := 0#32
  let c1_i32 : BitVec 32 := 1#32
  let arg12 : BitVec 32 := Scf.iv c0_i32_15 c1_i32 k0_t1
  let c56_i32 : BitVec 32 := 56#32
  let v595 : BitVec 32 := Scalar.muli arg12 c56_i32
  let c28_i32 : BitVec 32 := 28#32
  let v912 : BitVec 32 := Scalar.addi v595 c28_i32
  let v917 : BitVec 32 := Scalar.addi v912 c0_i32_383
  let v918 : BitVec 32 := Scalar.addi v917 c0_i32_384
  let c16_i32_385 : BitVec 32 := 16#32
  let v919 : BitVec 32 := Scalar.muli v918 c16_i32_385
  let v920 : Index := Scalar.indexCast v919
  ![v920.toNat]
@[reducible] def k0_t2_loop : Scf.Loop 32 :=
  let c18_i32_19 : BitVec 32 := 18#32
  let c18_i32_20 : BitVec 32 := 18#32
  let v32 : BitVec 32 := Scalar.addi c18_i32_19 c18_i32_20
  let c1_i32_21 : BitVec 32 := 1#32
  ⟨c18_i32_19, v32, c1_i32_21⟩
def k0_off5 (k0_t2 : Fin k0_t2_loop.trips) (c0_i32_228 : BitVec 32) (c0_i32_229 : BitVec 32) : Fin 1 → Nat :=
  let c18_i32_19 : BitVec 32 := 18#32
  let c1_i32_21 : BitVec 32 := 1#32
  let arg12 : BitVec 32 := Scf.iv c18_i32_19 c1_i32_21 k0_t2
  let c56_i32 : BitVec 32 := 56#32
  let v595 : BitVec 32 := Scalar.muli arg12 c56_i32
  let v600 : BitVec 32 := Scalar.addi v595 c0_i32_228
  let v601 : BitVec 32 := Scalar.addi v600 c0_i32_229
  let c16_i32_230 : BitVec 32 := 16#32
  let v602 : BitVec 32 := Scalar.muli v601 c16_i32_230
  let v603 : Index := Scalar.indexCast v602
  ![v603.toNat]
def k0_off6 (k0_t2 : Fin k0_t2_loop.trips) (c0_i32_383 : BitVec 32) (c0_i32_384 : BitVec 32) : Fin 1 → Nat :=
  let c18_i32_19 : BitVec 32 := 18#32
  let c1_i32_21 : BitVec 32 := 1#32
  let arg12 : BitVec 32 := Scf.iv c18_i32_19 c1_i32_21 k0_t2
  let c56_i32 : BitVec 32 := 56#32
  let v595 : BitVec 32 := Scalar.muli arg12 c56_i32
  let c28_i32 : BitVec 32 := 28#32
  let v912 : BitVec 32 := Scalar.addi v595 c28_i32
  let v917 : BitVec 32 := Scalar.addi v912 c0_i32_383
  let v918 : BitVec 32 := Scalar.addi v917 c0_i32_384
  let c16_i32_385 : BitVec 32 := 16#32
  let v919 : BitVec 32 := Scalar.muli v918 c16_i32_385
  let v920 : Index := Scalar.indexCast v919
  ![v920.toNat]

def k0_chk1 (v372 : IVec S16 32) : Prop :=
  (∀ a x, ((![v372] : Fin 1 → IVec S16 32) a x).toNat < S256.size a)
instance k0_chk1.dec : ∀ (v372 : IVec S16 32), Decidable (k0_chk1 v372) := fun v372 => decidable_of_iff' _ (Iff.of_eq (k0_chk1.eq_1 v372))
theorem k0_idx1_inb : ∀ (v372 : IVec S16 32) (k0_hw1 : k0_chk1 v372), ∀ a x, ((![v372] : Fin 1 → IVec S16 32) a x).toNat < S256.size a := fun v372 k0_hw1 => k0_hw1

def k0_chk2 (v378 : IVec S16 32) : Prop :=
  (∀ a x, ((![v378] : Fin 1 → IVec S16 32) a x).toNat < S256.size a)
instance k0_chk2.dec : ∀ (v378 : IVec S16 32), Decidable (k0_chk2 v378) := fun v378 => decidable_of_iff' _ (Iff.of_eq (k0_chk2.eq_1 v378))
theorem k0_idx2_inb : ∀ (v378 : IVec S16 32) (k0_hw2 : k0_chk2 v378), ∀ a x, ((![v378] : Fin 1 → IVec S16 32) a x).toNat < S256.size a := fun v378 k0_hw2 => k0_hw2

def k0_chk3 (v384 : IVec S16 32) : Prop :=
  (∀ a x, ((![v384] : Fin 1 → IVec S16 32) a x).toNat < S256.size a)
instance k0_chk3.dec : ∀ (v384 : IVec S16 32), Decidable (k0_chk3 v384) := fun v384 => decidable_of_iff' _ (Iff.of_eq (k0_chk3.eq_1 v384))
theorem k0_idx3_inb : ∀ (v384 : IVec S16 32) (k0_hw3 : k0_chk3 v384), ∀ a x, ((![v384] : Fin 1 → IVec S16 32) a x).toNat < S256.size a := fun v384 k0_hw3 => k0_hw3

def k0_chk4 (v390 : IVec S16 32) : Prop :=
  (∀ a x, ((![v390] : Fin 1 → IVec S16 32) a x).toNat < S256.size a)
instance k0_chk4.dec : ∀ (v390 : IVec S16 32), Decidable (k0_chk4 v390) := fun v390 => decidable_of_iff' _ (Iff.of_eq (k0_chk4.eq_1 v390))
theorem k0_idx4_inb : ∀ (v390 : IVec S16 32) (k0_hw4 : k0_chk4 v390), ∀ a x, ((![v390] : Fin 1 → IVec S16 32) a x).toNat < S256.size a := fun v390 k0_hw4 => k0_hw4

def k0_chk5 (v396 : IVec S16 32) : Prop :=
  (∀ a x, ((![v396] : Fin 1 → IVec S16 32) a x).toNat < S256.size a)
instance k0_chk5.dec : ∀ (v396 : IVec S16 32), Decidable (k0_chk5 v396) := fun v396 => decidable_of_iff' _ (Iff.of_eq (k0_chk5.eq_1 v396))
theorem k0_idx5_inb : ∀ (v396 : IVec S16 32) (k0_hw5 : k0_chk5 v396), ∀ a x, ((![v396] : Fin 1 → IVec S16 32) a x).toNat < S256.size a := fun v396 k0_hw5 => k0_hw5

def k0_chk6 (v402 : IVec S16 32) : Prop :=
  (∀ a x, ((![v402] : Fin 1 → IVec S16 32) a x).toNat < S256.size a)
instance k0_chk6.dec : ∀ (v402 : IVec S16 32), Decidable (k0_chk6 v402) := fun v402 => decidable_of_iff' _ (Iff.of_eq (k0_chk6.eq_1 v402))
theorem k0_idx6_inb : ∀ (v402 : IVec S16 32) (k0_hw6 : k0_chk6 v402), ∀ a x, ((![v402] : Fin 1 → IVec S16 32) a x).toNat < S256.size a := fun v402 k0_hw6 => k0_hw6

def k0_chk7 (v408 : IVec S16 32) : Prop :=
  (∀ a x, ((![v408] : Fin 1 → IVec S16 32) a x).toNat < S256.size a)
instance k0_chk7.dec : ∀ (v408 : IVec S16 32), Decidable (k0_chk7 v408) := fun v408 => decidable_of_iff' _ (Iff.of_eq (k0_chk7.eq_1 v408))
theorem k0_idx7_inb : ∀ (v408 : IVec S16 32) (k0_hw7 : k0_chk7 v408), ∀ a x, ((![v408] : Fin 1 → IVec S16 32) a x).toNat < S256.size a := fun v408 k0_hw7 => k0_hw7

def k0_chk8 (v414 : IVec S16 32) : Prop :=
  (∀ a x, ((![v414] : Fin 1 → IVec S16 32) a x).toNat < S256.size a)
instance k0_chk8.dec : ∀ (v414 : IVec S16 32), Decidable (k0_chk8 v414) := fun v414 => decidable_of_iff' _ (Iff.of_eq (k0_chk8.eq_1 v414))
theorem k0_idx8_inb : ∀ (v414 : IVec S16 32) (k0_hw8 : k0_chk8 v414), ∀ a x, ((![v414] : Fin 1 → IVec S16 32) a x).toNat < S256.size a := fun v414 k0_hw8 => k0_hw8

def k0_chk9 (v420 : IVec S16 32) : Prop :=
  (∀ a x, ((![v420] : Fin 1 → IVec S16 32) a x).toNat < S256.size a)
instance k0_chk9.dec : ∀ (v420 : IVec S16 32), Decidable (k0_chk9 v420) := fun v420 => decidable_of_iff' _ (Iff.of_eq (k0_chk9.eq_1 v420))
theorem k0_idx9_inb : ∀ (v420 : IVec S16 32) (k0_hw9 : k0_chk9 v420), ∀ a x, ((![v420] : Fin 1 → IVec S16 32) a x).toNat < S256.size a := fun v420 k0_hw9 => k0_hw9

def k0_chk10 (v426 : IVec S16 32) : Prop :=
  (∀ a x, ((![v426] : Fin 1 → IVec S16 32) a x).toNat < S256.size a)
instance k0_chk10.dec : ∀ (v426 : IVec S16 32), Decidable (k0_chk10 v426) := fun v426 => decidable_of_iff' _ (Iff.of_eq (k0_chk10.eq_1 v426))
theorem k0_idx10_inb : ∀ (v426 : IVec S16 32) (k0_hw10 : k0_chk10 v426), ∀ a x, ((![v426] : Fin 1 → IVec S16 32) a x).toNat < S256.size a := fun v426 k0_hw10 => k0_hw10

def k0_chk11 (v432 : IVec S16 32) : Prop :=
  (∀ a x, ((![v432] : Fin 1 → IVec S16 32) a x).toNat < S256.size a)
instance k0_chk11.dec : ∀ (v432 : IVec S16 32), Decidable (k0_chk11 v432) := fun v432 => decidable_of_iff' _ (Iff.of_eq (k0_chk11.eq_1 v432))
theorem k0_idx11_inb : ∀ (v432 : IVec S16 32) (k0_hw11 : k0_chk11 v432), ∀ a x, ((![v432] : Fin 1 → IVec S16 32) a x).toNat < S256.size a := fun v432 k0_hw11 => k0_hw11

def k0_chk12 (v438 : IVec S16 32) : Prop :=
  (∀ a x, ((![v438] : Fin 1 → IVec S16 32) a x).toNat < S256.size a)
instance k0_chk12.dec : ∀ (v438 : IVec S16 32), Decidable (k0_chk12 v438) := fun v438 => decidable_of_iff' _ (Iff.of_eq (k0_chk12.eq_1 v438))
theorem k0_idx12_inb : ∀ (v438 : IVec S16 32) (k0_hw12 : k0_chk12 v438), ∀ a x, ((![v438] : Fin 1 → IVec S16 32) a x).toNat < S256.size a := fun v438 k0_hw12 => k0_hw12

def k0_chk13 (v444 : IVec S16 32) : Prop :=
  (∀ a x, ((![v444] : Fin 1 → IVec S16 32) a x).toNat < S256.size a)
instance k0_chk13.dec : ∀ (v444 : IVec S16 32), Decidable (k0_chk13 v444) := fun v444 => decidable_of_iff' _ (Iff.of_eq (k0_chk13.eq_1 v444))
theorem k0_idx13_inb : ∀ (v444 : IVec S16 32) (k0_hw13 : k0_chk13 v444), ∀ a x, ((![v444] : Fin 1 → IVec S16 32) a x).toNat < S256.size a := fun v444 k0_hw13 => k0_hw13

def k0_chk14 (v450 : IVec S16 32) : Prop :=
  (∀ a x, ((![v450] : Fin 1 → IVec S16 32) a x).toNat < S256.size a)
instance k0_chk14.dec : ∀ (v450 : IVec S16 32), Decidable (k0_chk14 v450) := fun v450 => decidable_of_iff' _ (Iff.of_eq (k0_chk14.eq_1 v450))
theorem k0_idx14_inb : ∀ (v450 : IVec S16 32) (k0_hw14 : k0_chk14 v450), ∀ a x, ((![v450] : Fin 1 → IVec S16 32) a x).toNat < S256.size a := fun v450 k0_hw14 => k0_hw14

def k0_chk15 (v456 : IVec S16 32) : Prop :=
  (∀ a x, ((![v456] : Fin 1 → IVec S16 32) a x).toNat < S256.size a)
instance k0_chk15.dec : ∀ (v456 : IVec S16 32), Decidable (k0_chk15 v456) := fun v456 => decidable_of_iff' _ (Iff.of_eq (k0_chk15.eq_1 v456))
theorem k0_idx15_inb : ∀ (v456 : IVec S16 32) (k0_hw15 : k0_chk15 v456), ∀ a x, ((![v456] : Fin 1 → IVec S16 32) a x).toNat < S256.size a := fun v456 k0_hw15 => k0_hw15

def k0_chk16 (v462 : IVec S16 32) : Prop :=
  (∀ a x, ((![v462] : Fin 1 → IVec S16 32) a x).toNat < S256.size a)
instance k0_chk16.dec : ∀ (v462 : IVec S16 32), Decidable (k0_chk16 v462) := fun v462 => decidable_of_iff' _ (Iff.of_eq (k0_chk16.eq_1 v462))
theorem k0_idx16_inb : ∀ (v462 : IVec S16 32) (k0_hw16 : k0_chk16 v462), ∀ a x, ((![v462] : Fin 1 → IVec S16 32) a x).toNat < S256.size a := fun v462 k0_hw16 => k0_hw16

def k0_chk17 (v468 : IVec S16 32) : Prop :=
  (∀ a x, ((![v468] : Fin 1 → IVec S16 32) a x).toNat < S256.size a)
instance k0_chk17.dec : ∀ (v468 : IVec S16 32), Decidable (k0_chk17 v468) := fun v468 => decidable_of_iff' _ (Iff.of_eq (k0_chk17.eq_1 v468))
theorem k0_idx17_inb : ∀ (v468 : IVec S16 32) (k0_hw17 : k0_chk17 v468), ∀ a x, ((![v468] : Fin 1 → IVec S16 32) a x).toNat < S256.size a := fun v468 k0_hw17 => k0_hw17

def k0_chk18 (v472 : IVec S16 32) : Prop :=
  (∀ a x, ((![v472] : Fin 1 → IVec S16 32) a x).toNat < S256.size a)
instance k0_chk18.dec : ∀ (v472 : IVec S16 32), Decidable (k0_chk18 v472) := fun v472 => decidable_of_iff' _ (Iff.of_eq (k0_chk18.eq_1 v472))
theorem k0_idx18_inb : ∀ (v472 : IVec S16 32) (k0_hw18 : k0_chk18 v472), ∀ a x, ((![v472] : Fin 1 → IVec S16 32) a x).toNat < S256.size a := fun v472 k0_hw18 => k0_hw18

def k0_chk19 (v476 : IVec S16 32) : Prop :=
  (∀ a x, ((![v476] : Fin 1 → IVec S16 32) a x).toNat < S256.size a)
instance k0_chk19.dec : ∀ (v476 : IVec S16 32), Decidable (k0_chk19 v476) := fun v476 => decidable_of_iff' _ (Iff.of_eq (k0_chk19.eq_1 v476))
theorem k0_idx19_inb : ∀ (v476 : IVec S16 32) (k0_hw19 : k0_chk19 v476), ∀ a x, ((![v476] : Fin 1 → IVec S16 32) a x).toNat < S256.size a := fun v476 k0_hw19 => k0_hw19

def k0_chk20 (v480 : IVec S16 32) : Prop :=
  (∀ a x, ((![v480] : Fin 1 → IVec S16 32) a x).toNat < S256.size a)
instance k0_chk20.dec : ∀ (v480 : IVec S16 32), Decidable (k0_chk20 v480) := fun v480 => decidable_of_iff' _ (Iff.of_eq (k0_chk20.eq_1 v480))
theorem k0_idx20_inb : ∀ (v480 : IVec S16 32) (k0_hw20 : k0_chk20 v480), ∀ a x, ((![v480] : Fin 1 → IVec S16 32) a x).toNat < S256.size a := fun v480 k0_hw20 => k0_hw20

def k0_chk21 (v484 : IVec S16 32) : Prop :=
  (∀ a x, ((![v484] : Fin 1 → IVec S16 32) a x).toNat < S256.size a)
instance k0_chk21.dec : ∀ (v484 : IVec S16 32), Decidable (k0_chk21 v484) := fun v484 => decidable_of_iff' _ (Iff.of_eq (k0_chk21.eq_1 v484))
theorem k0_idx21_inb : ∀ (v484 : IVec S16 32) (k0_hw21 : k0_chk21 v484), ∀ a x, ((![v484] : Fin 1 → IVec S16 32) a x).toNat < S256.size a := fun v484 k0_hw21 => k0_hw21

def k0_chk22 (v488 : IVec S16 32) : Prop :=
  (∀ a x, ((![v488] : Fin 1 → IVec S16 32) a x).toNat < S256.size a)
instance k0_chk22.dec : ∀ (v488 : IVec S16 32), Decidable (k0_chk22 v488) := fun v488 => decidable_of_iff' _ (Iff.of_eq (k0_chk22.eq_1 v488))
theorem k0_idx22_inb : ∀ (v488 : IVec S16 32) (k0_hw22 : k0_chk22 v488), ∀ a x, ((![v488] : Fin 1 → IVec S16 32) a x).toNat < S256.size a := fun v488 k0_hw22 => k0_hw22

def k0_chk23 (v492 : IVec S16 32) : Prop :=
  (∀ a x, ((![v492] : Fin 1 → IVec S16 32) a x).toNat < S256.size a)
instance k0_chk23.dec : ∀ (v492 : IVec S16 32), Decidable (k0_chk23 v492) := fun v492 => decidable_of_iff' _ (Iff.of_eq (k0_chk23.eq_1 v492))
theorem k0_idx23_inb : ∀ (v492 : IVec S16 32) (k0_hw23 : k0_chk23 v492), ∀ a x, ((![v492] : Fin 1 → IVec S16 32) a x).toNat < S256.size a := fun v492 k0_hw23 => k0_hw23

def k0_chk24 (v496 : IVec S16 32) : Prop :=
  (∀ a x, ((![v496] : Fin 1 → IVec S16 32) a x).toNat < S256.size a)
instance k0_chk24.dec : ∀ (v496 : IVec S16 32), Decidable (k0_chk24 v496) := fun v496 => decidable_of_iff' _ (Iff.of_eq (k0_chk24.eq_1 v496))
theorem k0_idx24_inb : ∀ (v496 : IVec S16 32) (k0_hw24 : k0_chk24 v496), ∀ a x, ((![v496] : Fin 1 → IVec S16 32) a x).toNat < S256.size a := fun v496 k0_hw24 => k0_hw24

def k0_chk25 (v500 : IVec S16 32) : Prop :=
  (∀ a x, ((![v500] : Fin 1 → IVec S16 32) a x).toNat < S256.size a)
instance k0_chk25.dec : ∀ (v500 : IVec S16 32), Decidable (k0_chk25 v500) := fun v500 => decidable_of_iff' _ (Iff.of_eq (k0_chk25.eq_1 v500))
theorem k0_idx25_inb : ∀ (v500 : IVec S16 32) (k0_hw25 : k0_chk25 v500), ∀ a x, ((![v500] : Fin 1 → IVec S16 32) a x).toNat < S256.size a := fun v500 k0_hw25 => k0_hw25

def k0_chk26 (v504 : IVec S16 32) : Prop :=
  (∀ a x, ((![v504] : Fin 1 → IVec S16 32) a x).toNat < S256.size a)
instance k0_chk26.dec : ∀ (v504 : IVec S16 32), Decidable (k0_chk26 v504) := fun v504 => decidable_of_iff' _ (Iff.of_eq (k0_chk26.eq_1 v504))
theorem k0_idx26_inb : ∀ (v504 : IVec S16 32) (k0_hw26 : k0_chk26 v504), ∀ a x, ((![v504] : Fin 1 → IVec S16 32) a x).toNat < S256.size a := fun v504 k0_hw26 => k0_hw26

def k0_chk27 (v508 : IVec S16 32) : Prop :=
  (∀ a x, ((![v508] : Fin 1 → IVec S16 32) a x).toNat < S256.size a)
instance k0_chk27.dec : ∀ (v508 : IVec S16 32), Decidable (k0_chk27 v508) := fun v508 => decidable_of_iff' _ (Iff.of_eq (k0_chk27.eq_1 v508))
theorem k0_idx27_inb : ∀ (v508 : IVec S16 32) (k0_hw27 : k0_chk27 v508), ∀ a x, ((![v508] : Fin 1 → IVec S16 32) a x).toNat < S256.size a := fun v508 k0_hw27 => k0_hw27

def k0_chk28 (v512 : IVec S16 32) : Prop :=
  (∀ a x, ((![v512] : Fin 1 → IVec S16 32) a x).toNat < S256.size a)
instance k0_chk28.dec : ∀ (v512 : IVec S16 32), Decidable (k0_chk28 v512) := fun v512 => decidable_of_iff' _ (Iff.of_eq (k0_chk28.eq_1 v512))
theorem k0_idx28_inb : ∀ (v512 : IVec S16 32) (k0_hw28 : k0_chk28 v512), ∀ a x, ((![v512] : Fin 1 → IVec S16 32) a x).toNat < S256.size a := fun v512 k0_hw28 => k0_hw28

def k0_chk29 (v516 : IVec S16 32) : Prop :=
  (∀ a x, ((![v516] : Fin 1 → IVec S16 32) a x).toNat < S256.size a)
instance k0_chk29.dec : ∀ (v516 : IVec S16 32), Decidable (k0_chk29 v516) := fun v516 => decidable_of_iff' _ (Iff.of_eq (k0_chk29.eq_1 v516))
theorem k0_idx29_inb : ∀ (v516 : IVec S16 32) (k0_hw29 : k0_chk29 v516), ∀ a x, ((![v516] : Fin 1 → IVec S16 32) a x).toNat < S256.size a := fun v516 k0_hw29 => k0_hw29

def k0_chk30 (v520 : IVec S16 32) : Prop :=
  (∀ a x, ((![v520] : Fin 1 → IVec S16 32) a x).toNat < S256.size a)
instance k0_chk30.dec : ∀ (v520 : IVec S16 32), Decidable (k0_chk30 v520) := fun v520 => decidable_of_iff' _ (Iff.of_eq (k0_chk30.eq_1 v520))
theorem k0_idx30_inb : ∀ (v520 : IVec S16 32) (k0_hw30 : k0_chk30 v520), ∀ a x, ((![v520] : Fin 1 → IVec S16 32) a x).toNat < S256.size a := fun v520 k0_hw30 => k0_hw30

def k0_chk31 (v524 : IVec S16 32) : Prop :=
  (∀ a x, ((![v524] : Fin 1 → IVec S16 32) a x).toNat < S256.size a)
instance k0_chk31.dec : ∀ (v524 : IVec S16 32), Decidable (k0_chk31 v524) := fun v524 => decidable_of_iff' _ (Iff.of_eq (k0_chk31.eq_1 v524))
theorem k0_idx31_inb : ∀ (v524 : IVec S16 32) (k0_hw31 : k0_chk31 v524), ∀ a x, ((![v524] : Fin 1 → IVec S16 32) a x).toNat < S256.size a := fun v524 k0_hw31 => k0_hw31

def k0_chk32 (v528 : IVec S16 32) : Prop :=
  (∀ a x, ((![v528] : Fin 1 → IVec S16 32) a x).toNat < S256.size a)
instance k0_chk32.dec : ∀ (v528 : IVec S16 32), Decidable (k0_chk32 v528) := fun v528 => decidable_of_iff' _ (Iff.of_eq (k0_chk32.eq_1 v528))
theorem k0_idx32_inb : ∀ (v528 : IVec S16 32) (k0_hw32 : k0_chk32 v528), ∀ a x, ((![v528] : Fin 1 → IVec S16 32) a x).toNat < S256.size a := fun v528 k0_hw32 => k0_hw32
def k0_off7 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_222_r1 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S32768_S16128_0 : ∀ a, (![0] : Fin 1 → Nat) a + S16128.size a ≤ S32768.size a
  inb_S32768_S16640_16128 : ∀ a, (![16128] : Fin 1 → Nat) a + S16640.size a ≤ S32768.size a
  h_S16 : 0 < S16.numel
  inb_S32768_S16_32256 : ∀ a, (![32256] : Fin 1 → Nat) a + S16.size a ≤ S32768.size a
  inb_S32768_S16_32272 : ∀ a, (![32272] : Fin 1 → Nat) a + S16.size a ≤ S32768.size a
  inb_S32768_S16_32288 : ∀ a, (![32288] : Fin 1 → Nat) a + S16.size a ≤ S32768.size a
  inb_S32768_S16_32304 : ∀ a, (![32304] : Fin 1 → Nat) a + S16.size a ≤ S32768.size a
  inb_S32768_S16_32320 : ∀ a, (![32320] : Fin 1 → Nat) a + S16.size a ≤ S32768.size a
  inb_S32768_S16_32336 : ∀ a, (![32336] : Fin 1 → Nat) a + S16.size a ≤ S32768.size a
  inb_S32768_S16_32352 : ∀ a, (![32352] : Fin 1 → Nat) a + S16.size a ≤ S32768.size a
  inb_S32768_S16_32368 : ∀ a, (![32368] : Fin 1 → Nat) a + S16.size a ≤ S32768.size a
  inb_S32768_S16_32384 : ∀ a, (![32384] : Fin 1 → Nat) a + S16.size a ≤ S32768.size a
  inb_S32768_S16_32400 : ∀ a, (![32400] : Fin 1 → Nat) a + S16.size a ≤ S32768.size a
  inb_S32768_S16_32416 : ∀ a, (![32416] : Fin 1 → Nat) a + S16.size a ≤ S32768.size a
  inb_S32768_S16_32432 : ∀ a, (![32432] : Fin 1 → Nat) a + S16.size a ≤ S32768.size a
  inb_S32768_S16_32448 : ∀ a, (![32448] : Fin 1 → Nat) a + S16.size a ≤ S32768.size a
  inb_S32768_S16_32464 : ∀ a, (![32464] : Fin 1 → Nat) a + S16.size a ≤ S32768.size a
  inb_S32768_S16_32480 : ∀ a, (![32480] : Fin 1 → Nat) a + S16.size a ≤ S32768.size a
  inb_S32768_S16_32496 : ∀ a, (![32496] : Fin 1 → Nat) a + S16.size a ≤ S32768.size a
  inb_S32768_S16_32512 : ∀ a, (![32512] : Fin 1 → Nat) a + S16.size a ≤ S32768.size a
  inb_S32768_S16_32528 : ∀ a, (![32528] : Fin 1 → Nat) a + S16.size a ≤ S32768.size a
  inb_S32768_S16_32544 : ∀ a, (![32544] : Fin 1 → Nat) a + S16.size a ≤ S32768.size a
  inb_S32768_S16_32560 : ∀ a, (![32560] : Fin 1 → Nat) a + S16.size a ≤ S32768.size a
  inb_S32768_S16_32576 : ∀ a, (![32576] : Fin 1 → Nat) a + S16.size a ≤ S32768.size a
  inb_S32768_S16_32592 : ∀ a, (![32592] : Fin 1 → Nat) a + S16.size a ≤ S32768.size a
  inb_S32768_S16_32608 : ∀ a, (![32608] : Fin 1 → Nat) a + S16.size a ≤ S32768.size a
  inb_S32768_S16_32624 : ∀ a, (![32624] : Fin 1 → Nat) a + S16.size a ≤ S32768.size a
  inb_S32768_S16_32640 : ∀ a, (![32640] : Fin 1 → Nat) a + S16.size a ≤ S32768.size a
  inb_S32768_S16_32656 : ∀ a, (![32656] : Fin 1 → Nat) a + S16.size a ≤ S32768.size a
  inb_S32768_S16_32672 : ∀ a, (![32672] : Fin 1 → Nat) a + S16.size a ≤ S32768.size a
  inb_S32768_S16_32688 : ∀ a, (![32688] : Fin 1 → Nat) a + S16.size a ≤ S32768.size a
  inb_S32768_S16_32704 : ∀ a, (![32704] : Fin 1 → Nat) a + S16.size a ≤ S32768.size a
  inb_S32768_S16_32720 : ∀ a, (![32720] : Fin 1 → Nat) a + S16.size a ≤ S32768.size a
  inb_S32768_S16_32736 : ∀ a, (![32736] : Fin 1 → Nat) a + S16.size a ≤ S32768.size a
  inb_S32768_S16_32752 : ∀ a, (![32752] : Fin 1 → Nat) a + S16.size a ≤ S32768.size a
  inb_S256_S16_0 : ∀ a, (![0] : Fin 1 → Nat) a + S16.size a ≤ S256.size a
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  iota_S16_d0_w32_scVector : S16.Iotas .scVector 32 [0]
  h_S256 : 0 < S256.numel
  inb_S10x16_S1x16_0_0 : ∀ a, (![0, 0] : Fin 2 → Nat) a + S1x16.size a ≤ S10x16.size a
  h_S1x16 : 0 < S1x16.numel
  shapeCasts_S1x16_S16 : S1x16.ShapeCasts S16
  inb_S10x16_S1x16_1_0 : ∀ a, (![1, 0] : Fin 2 → Nat) a + S1x16.size a ≤ S10x16.size a
  inb_S10x16_S1x16_2_0 : ∀ a, (![2, 0] : Fin 2 → Nat) a + S1x16.size a ≤ S10x16.size a
  inb_S10x16_S1x16_3_0 : ∀ a, (![3, 0] : Fin 2 → Nat) a + S1x16.size a ≤ S10x16.size a
  inb_S10x16_S1x16_4_0 : ∀ a, (![4, 0] : Fin 2 → Nat) a + S1x16.size a ≤ S10x16.size a
  inb_S10x16_S1x16_5_0 : ∀ a, (![5, 0] : Fin 2 → Nat) a + S1x16.size a ≤ S10x16.size a
  inb_S10x16_S1x16_6_0 : ∀ a, (![6, 0] : Fin 2 → Nat) a + S1x16.size a ≤ S10x16.size a
  inb_S10x16_S1x16_7_0 : ∀ a, (![7, 0] : Fin 2 → Nat) a + S1x16.size a ≤ S10x16.size a
  inb_S10x16_S1x16_8_0 : ∀ a, (![8, 0] : Fin 2 → Nat) a + S1x16.size a ≤ S10x16.size a
  inb_S10x16_S1x16_9_0 : ∀ a, (![9, 0] : Fin 2 → Nat) a + S1x16.size a ≤ S10x16.size a
  inb_S16_S16_0 : ∀ a, (![0] : Fin 1 → Nat) a + S16.size a ≤ S16.size a
  squeezes_S1x16_S16 : S1x16.Squeezes S16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  reduces_S32x16_S16 : S32x16.Reduces [0] S16
  shapeCasts_S16_S1x16 : S16.ShapeCasts S1x16
  inb_S1x16_S1x16_0_0 : ∀ a, (![0, 0] : Fin 2 → Nat) a + S1x16.size a ≤ S1x16.size a
  hcc0_scratch5 : 0 + S_.numel ≤ 6
  hcc0_scratch6 : 1 + S_.numel ≤ 6
  hcc0_scoped0 : 2 + S_.numel ≤ 6
  hcc0_scoped1 : 3 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16128.size a ≤ S1048576.size a
  k0_off2_inb : ∀ i : grid0.Coords, ∀ a, (k0_off2 i) a + S16640.size a ≤ S1048576.size a
  k0_t1_ok : k0_t1_loop.OK
  k0_off3_inb : ∀ k0_t1 : Fin k0_t1_loop.trips, ∀ (r₁ : Fin 4) (r₂ : Fin 7), ∀ a, (k0_off3 k0_t1 (BitVec.ofNat 32 (7 * r₁.val)) (BitVec.ofNat 32 r₂.val)) a + S16.size a ≤ S32768.size a
  k0_off4_inb : ∀ k0_t1 : Fin k0_t1_loop.trips, ∀ (r₁ : Fin 4) (r₂ : Fin 7), ∀ a, (k0_off4 k0_t1 (BitVec.ofNat 32 (7 * r₁.val)) (BitVec.ofNat 32 r₂.val)) a + S16.size a ≤ S32768.size a
  k0_t2_ok : k0_t2_loop.OK
  k0_off5_inb : ∀ k0_t2 : Fin k0_t2_loop.trips, ∀ (r₁ : Fin 4) (r₂ : Fin 7), ∀ a, (k0_off5 k0_t2 (BitVec.ofNat 32 (7 * r₁.val)) (BitVec.ofNat 32 r₂.val)) a + S16.size a ≤ S32768.size a
  k0_off6_inb : ∀ k0_t2 : Fin k0_t2_loop.trips, ∀ (r₁ : Fin 4) (r₂ : Fin 7), ∀ a, (k0_off6 k0_t2 (BitVec.ofNat 32 (7 * r₁.val)) (BitVec.ofNat 32 r₂.val)) a + S16.size a ≤ S32768.size a
  k0_off7_inb : ∀ i : grid0.Coords, ∀ a, (k0_off7 i) a + S1x16.size a ≤ S32x16.size a
  hstage1_0 : ∀ j, (stage1_0 j).IsWhole
  hstage1_1 : ∀ j, (stage1_1 j).IsWhole

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_v1) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1048576 : Shape := ⟨1, ![1048576]⟩
abbrev S10x16 : Shape := ⟨2, ![10, 16]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x16 : Shape := ⟨2, ![1048576, 16]⟩
abbrev S16 : Shape := ⟨1, ![16]⟩

abbrev nBuf : Space → Nat
  | .hbm => 30
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S10x16, .f32⟩
  | .hbm, ⟨2, _⟩ => ⟨S_, .i32⟩
  | .hbm, ⟨3, _⟩ => ⟨S1048576, .i32⟩
  | .hbm, ⟨4, _⟩ => ⟨S1048576, .i1⟩
  | .hbm, ⟨5, _⟩ => ⟨S_, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S1048576x1, .i32⟩
  | .hbm, ⟨10, _⟩ => ⟨S1, .i32⟩
  | .hbm, ⟨11, _⟩ => ⟨S_, .i32⟩
  | .hbm, ⟨12, _⟩ => ⟨S1048576x1, .i32⟩
  | .hbm, ⟨13, _⟩ => ⟨S1048576x1, .i1⟩
  | .hbm, ⟨14, _⟩ => ⟨S1x1, .i32⟩
  | .hbm, ⟨15, _⟩ => ⟨S1048576x1, .i32⟩
  | .hbm, ⟨16, _⟩ => ⟨S1048576x1, .i1⟩
  | .hbm, ⟨17, _⟩ => ⟨S1048576x1, .i1⟩
  | .hbm, ⟨18, _⟩ => ⟨S_, .i1⟩
  | .hbm, ⟨19, _⟩ => ⟨S1048576, .i1⟩
  | .hbm, ⟨20, _⟩ => ⟨S1048576x16, .f32⟩
  | .hbm, ⟨21, _⟩ => ⟨S1048576x16, .i1⟩
  | .hbm, ⟨22, _⟩ => ⟨S_, .f32⟩
  | .hbm, ⟨23, _⟩ => ⟨S1048576x16, .f32⟩
  | .hbm, ⟨24, _⟩ => ⟨S1048576x16, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x16_0 : S1048576.BroadcastsInDim S1048576x16 (![0] : Fin 1 → Fin S1048576x16.rank)
  bcast_S_S1048576x16 : S_.BroadcastsInDim S1048576x16 (![] : Fin 0 → Fin S1048576x16.rank)
  reducesTo_S1048576x16_S16_d0 : S1048576x16.ReducesTo [0] S16
  bcast_S_S16 : S_.BroadcastsInDim S16 (![] : Fin 0 → Fin S16.rank)
  gather_S10x16_S1048576x1_S1048576x16_1_0_n_n_0_1_116_wf : GatherDims.WF S10x16 S1048576x1 S1048576x16 [1] [0] [] [0] [] 1 ![1, 16]

variable [Facts₀]

def gather_S10x16_S1048576x1_S1048576x16_1_0_n_n_0_1_116 : GatherDims S10x16 S1048576x1 S1048576x16 where
  offsetDims := [1]
  collapsedSliceDims := [0]
  operandBatchingDims := []
  startIndicesBatchingDims := []
  startIndexMap := [0]
  indexVectorDim := 1
  sliceSizes := ![1, 16]
  wf := gather_S10x16_S1048576x1_S1048576x16_1_0_n_n_0_1_116_wf

class Facts : Prop extends Facts₀ where

variable [Facts]
-- ==== Proof.K.Setup.lean ====
/-
  The launch set-up of the kernel program, generic in the float instance.

  The program: one device; on it a vector-subcore kernel on a grid of 2 SparseCores by 16 tiles (32 workers), then one
  TensorCore kernel that folds the workers' rows, then a reshape. Worker w = 16 c + i (SparseCore c, tile i) reads the
  digits and the table and writes row w of a 32 x 16 array of partial results.

  What is fixed here: the program as the launch theorem sees it, the ghost state (the handshakes' rounds, the
  TensorCore kernel's staging cells' rounds, the transfers' counters), the three arrays' locations, the worker
  numbering and the rows of the partial-result array, what the handshakes carry (read shares of the digits and the
  table for every worker, row w for worker w, back with the row at contents satisfying an abstract predicate R), and
  the statement of one tile's body obligation, TileBody.
-/
import Idealize.ShloMosaic.Lib.SparseCore.Launch
import Idealize.ShloMosaic.Lib.StableHlo.Run
import Idealize.ShloMosaic.Lib.Pipeline.Kit
import Idealize.ShloMosaic.Lib.Tactic
import proofs.«205564_g40879498729249_retrytranche2_1872_24_alg».proof.Proof.Gen.Kernel

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore kernel's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds, the left factor of the right factor; the counters are found by instance in what remains. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The digits and the table (the arguments), the workers' partial results, as locations of device d. -/
abbrev dLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The same arrays as a vector subcore's kernel names them, whole. -/
abbrev dV : Memref sig .scVector .hbm S1048576 .i32 := Memref.whole main_arg0_scv
abbrev tV : Memref sig .scVector .hbm S10x16 .f32 := Memref.whole main_arg1_scv
abbrev oV : Memref sig .scVector .hbm S32x16 .f32 := Memref.whole main_v0_scv

/-! ## Workers and rows -/

/-- Worker number of tile i of SparseCore c. -/
def wOf (c : Fin 2) (i : Fin 16) : Fin 32 := ⟨16 * c.val + i.val, by omega⟩

theorem wOf_bijective : Function.Bijective fun p : Fin 2 × Fin 16 => wOf p.1 p.2 := by
  constructor
  · rintro ⟨c, i⟩ ⟨c', i'⟩ e
    have e' : 16 * c.val + i.val = 16 * c'.val + i'.val := congrArg Fin.val e
    have hc : c = c' := Fin.ext (by omega)
    have hi : i = i' := Fin.ext (by omega)
    rw [hc, hi]
  · intro w
    refine ⟨(⟨w.val / 16, by omega⟩, ⟨w.val % 16, by omega⟩), Fin.ext ?_⟩
    show 16 * (w.val / 16) + w.val % 16 = w.val
    omega

/-- Workers as pairs (SparseCore, tile). -/
def wEquiv : Fin 2 × Fin 16 ≃ Fin 32 := Equiv.ofBijective _ wOf_bijective

theorem wEquiv_apply (c : Fin 2) (i : Fin 16) : wEquiv (c, i) = wOf c i := rfl

theorem hdiv : 32 ∣ S32x16.size 0 := ⟨1, rfl⟩
/-- Row w of the partial results, as a rectangle and as an index set. -/
abbrev row (w : Fin 32) : Rect S32x16 := Rect.part (s := S32x16) (a₀ := 0) hdiv w
abbrev rowSet (w : Fin 32) : Finset S32x16.Idx := ((oV : Memref sig .scVector .hbm S32x16 .f32).view.slice (row w)).set

theorem rowSet_eq (w : Fin 32) : rowSet w = (row w).set := by
  show ((View.whole (main_v0_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-! ## A tile's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the tile at grid coordinates L: 16 (L 0) + (L 1). -/
abbrev wL (L : grid0.Coords) : Fin 32 := wOf (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

/-- The worker's row as its kernel slices it out of the partial results, squeezed to a vector. -/
abbrev rowK (L : grid0.Coords) : Rect S32x16 := Rect.unit (s := S32x16) (k0_off7 L) S1x16.size (k0_off7_inb L)
abbrev oRowK (L : grid0.Coords) : Memref sig .scVector .hbm S16 .f32 :=
  ((oV : Memref sig .scVector .hbm S32x16 .f32).slice (rowK L) (fun _ => rfl)).squeeze S16 squeezes_S1x16_S16

theorem rowK_eq (L : grid0.Coords) : rowK L = row (wL L) := by
  unfold rowK row Rect.part Rect.block
  congr 1 <;> funext a
  · rw [k0_off7_eq]
    match a with
    | 0 => simp [Shape.partIx, Shape.partSize, wOf]; rfl
    | 1 => simp [Shape.partIx, Shape.partSize]
  · match a with
    | 0 => simp [Shape.partSize]
    | 1 => simp [Shape.partSize]

theorem set_oRowK (L : grid0.Coords) : (oRowK L).view.set = rowSet (wL L) := by
  show (((oV : Memref sig .scVector .hbm S32x16 .f32).view.slice (rowK L)).reshape S16 squeezes_S1x16_S16.numel_eq).set
    = ((oV : Memref sig .scVector .hbm S32x16 .f32).view.slice (row (wL L))).set
  rw [View.set_reshape]
  exact rowK_eq L ▸ rfl

/-! ## Read shares: the whole array's share halved per SparseCore, each half again per tile -/

/-- SparseCore c's read share of an array held whole. -/
abbrev coreShare (c : Fin 2) : PosShare TreeShare := shareTok fullShare 2 c
/-- Tile i of SparseCore c's. -/
abbrev tileShare (c : Fin 2) (i : Fin 16) : PosShare TreeShare := shareTok (coreShare c) 16 i

/-! ## What the handshakes carry -/

variable [FloatOps F]

/-- What a worker's row must hold when its task ends: a predicate of the device, the worker and the contents of the
    partial-result array, meant to speak of row w only. -/
abbrev RowPred : Type := (d : Dev nD) → Fin 32 → Buf (Elt F) (oLoc d) → Prop

/-- A worker's operands: read shares qd, qt of the digits and the table at their launch contents, its row at the
    launch contents; -/
abbrev goRes (d : Dev nD) (w : Fin 32) (qd qt : PosShare TreeShare) : sProp 𝕄 :=
  iprop((dLoc d ↦{qd} m (dLoc d)) ∗ (tLoc d ↦{qt} m (tLoc d)) ∗ oLoc d ↦[rowSet w]{fullShare} m (oLoc d))
/-- and results: the shares back, its row at contents of which R holds. -/
abbrev tdRes (R : RowPred (F := F)) (d : Dev nD) (w : Fin 32) (qd qt : PosShare TreeShare) : sProp 𝕄 :=
  iprop((dLoc d ↦{qd} m (dLoc d)) ∗ (tLoc d ↦{qt} m (tLoc d)) ∗ ∃ f, ⌜R d w f⌝ ∗ oLoc d ↦[rowSet w]{fullShare} f)

/-- The one SparseCore call takes, per SparseCore c, its share of the digits and of the table and its sixteen workers'
    rows, hands tile i its part, and brings all back, the rows at what the workers left. -/
def P (R : RowPred (F := F)) : (K (F := F)).Pay (nD := nD) (Val := Elt F) (Name := ℕ) (U := UU) where
  st := fun q d c => match q with
    | 0 => iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d))
  dn := fun q d c => match q with
    | 0 => iprop((dLoc d ↦{coreShare (Fin.cast nCore_zero c)} m (dLoc d)) ∗ (tLoc d ↦{coreShare (Fin.cast nCore_zero c)} m (tLoc d))
        ∗ bigSep Finset.univ fun i : Fin 16 => iprop(∃ f, ⌜R d (wOf (Fin.cast nCore_zero c) i) f⌝ ∗ oLoc d ↦[rowSet (wOf (Fin.cast nCore_zero c) i)]{fullShare} f))
  go := fun q d c i => match q with
    | 0 => goRes m d (wOf (Fin.cast nCore_zero c) (Fin.cast nSub_zero i))
        (tileShare (Fin.cast nCore_zero c) (Fin.cast nSub_zero i)) (tileShare (Fin.cast nCore_zero c) (Fin.cast nSub_zero i))
  td := fun q d c i => match q with
    | 0 => tdRes m R d (wOf (Fin.cast nCore_zero c) (Fin.cast nSub_zero i))
        (tileShare (Fin.cast nCore_zero c) (Fin.cast nSub_zero i)) (tileShare (Fin.cast nCore_zero c) (Fin.cast nSub_zero i))
  x := fun _ _ => iprop(emp)

instance P_storable (R : RowPred (F := F)) : (P (F := F) m R).IsStorable where
  st q d c := match q with
    | 0 => (inferInstance : BI.Storable (upEmb : UEmb _ 𝕄)
        iprop((dLoc d ↦{coreShare (Fin.cast nCore_zero c)} m (dLoc d)) ∗ (tLoc d ↦{coreShare (Fin.cast nCore_zero c)} m (tLoc d))
          ∗ bigSep Finset.univ fun i : Fin 16 => oLoc d ↦[rowSet (wOf (Fin.cast nCore_zero c) i)]{fullShare} m (oLoc d)))
  dn q d c := match q with
    | 0 => (inferInstance : BI.Storable (upEmb : UEmb _ 𝕄)
        iprop((dLoc d ↦{coreShare (Fin.cast nCore_zero c)} m (dLoc d)) ∗ (tLoc d ↦{coreShare (Fin.cast nCore_zero c)} m (tLoc d))
          ∗ bigSep Finset.univ fun i : Fin 16 => iprop(∃ f, ⌜R d (wOf (Fin.cast nCore_zero c) i) f⌝ ∗ oLoc d ↦[rowSet (wOf (Fin.cast nCore_zero c) i)]{fullShare} f)))
  go q d c i := match q with
    | 0 => (inferInstance : BI.Storable (upEmb : UEmb _ 𝕄) (goRes m d (wOf (Fin.cast nCore_zero c) (Fin.cast nSub_zero i))
        (tileShare (Fin.cast nCore_zero c) (Fin.cast nSub_zero i)) (tileShare (Fin.cast nCore_zero c) (Fin.cast nSub_zero i))))
  td q d c i := match q with
    | 0 => (inferInstance : BI.Storable (upEmb : UEmb _ 𝕄) (tdRes m R d (wOf (Fin.cast nCore_zero c) (Fin.cast nSub_zero i))
        (tileShare (Fin.cast nCore_zero c) (Fin.cast nSub_zero i)) (tileShare (Fin.cast nCore_zero c) (Fin.cast nSub_zero i))))

/-! ## The arrays as a tile addresses them -/

section Tile

variable (d : Dev nD) (L : grid0.Coords)

omit [FloatOps F] in
theorem pts_dV (q : PosShare TreeShare) (f : Buf (Elt F) (dLoc d)) :
    ((dV : Memref sig .scVector .hbm S1048576 .i32).view.loc (V d (cV L) (jV L)) ↦[(dV : Memref sig .scVector .hbm S1048576 .i32).view.set]{q} f : sProp 𝕄)
      = dLoc d ↦{q} f := by
  simp only [Memref.view_whole, View.set_whole]
omit [FloatOps F] in
theorem pts_dV_univ (q : PosShare TreeShare) (f : Buf (Elt F) (dLoc d)) :
    ((dV : Memref sig .scVector .hbm S1048576 .i32).view.loc (V d (cV L) (jV L)) ↦{q} f : sProp 𝕄) = dLoc d ↦{q} f := rfl
omit [FloatOps F] in
theorem pts_tV (q : PosShare TreeShare) (f : Buf (Elt F) (tLoc d)) :
    ((tV : Memref sig .scVector .hbm S10x16 .f32).view.loc (V d (cV L) (jV L)) ↦[(tV : Memref sig .scVector .hbm S10x16 .f32).view.set]{q} f : sProp 𝕄)
      = tLoc d ↦{q} f := by
  simp only [Memref.view_whole, View.set_whole]
omit [FloatOps F] in
theorem pts_tV_univ (q : PosShare TreeShare) (f : Buf (Elt F) (tLoc d)) :
    ((tV : Memref sig .scVector .hbm S10x16 .f32).view.loc (V d (cV L) (jV L)) ↦{q} f : sProp 𝕄) = tLoc d ↦{q} f := rfl
omit [FloatOps F] in
/-- The worker's row, held on the index set its kernel's sliced memref names, is row wL of the partial results. -/
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]

end Tile

/-! ## One tile's body obligation -/

/-- The task of the tile at grid coordinates Lc of device d: from read shares (any) of the digits and the table at their
    launch contents, its row of the partial results at the launch contents, its scoped storage, and what it owes the
    launch (nothing at the index of its own waits), the kernel function, called as the body table calls it, runs to its
    end and gives back the shares, the row at contents of which R holds, the scoped storage, and what it owed, its own
    waits recorded. -/
def TileBody (R : RowPred (F := F)) : Prop :=
  ∀ (d : Dev nD) (Lc : grid0.Coords) (qd qt : PosShare TreeShare) (O : CellTallies nD τ sig (HIx 1)) (W : Waits sig (HIx 1)), (∀ g, O g none = 0) →
    iprop(levAts (K (F := F)).L (K (F := F)).lev ∗ emp ∗ goRes m d (wL Lc) qd qt
        ∗ scopedBufs (V d (cV Lc) (jV Lc)) ∗ scopedSems0 (V d (cV Lc) (jV Lc)) ∗ owes (V d (cV Lc) (jV Lc)) O W)
      ⊢ wp frame (wpE (defs₀ (F := F)) 𝒱₀ (V d (cV Lc) (jV Lc)) none) Set.univ
          (cc0_digit_hist_partial Lc (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1)
          fun _ => iprop(tdRes m R d (wL Lc) qd qt ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W')

end Cert.Proof.K

end
-- ==== Proof.K.LaunchTiles.lean ====
/-
  The launch theorem's obligations for the vector-subcore kernel, from one tile's body obligation.

  Every tile's task is the body obligation at its grid coordinates. A SparseCore's operands split among its sixteen
  tiles: each read share (of the digits, of the table) is halved sixteen times, tile i taking the i-th right half, what
  remains set aside until the tiles' shares come back; the sixteen rows are dealt one per worker and come back each at
  contents of which the row predicate holds.
-/
import proofs.«205564_g40879498729249_retrytranche2_1872_24_alg».proof.Proof.K.Setup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch theorem's obligation for the tiles -/

theorem defs₀_vector (c : Fin τ.nSC) (s : Fin τ.nSub) :
    defs₀ (F := F) (.scVector c s) 0 ()
      = SparseCore.onTile hcore0 hsub0 (fun c s => cc0_digit_hist_partial (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (R : RowPred (F := F)) (hbody : TileBody m R) : (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) _ _ O W hO).trans (wp_mono frame _ _ fun _ => obl_post)

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (R : RowPred (F := F)) : (K (F := F)).VecSplit' (P m R) 0 := by
  intro d c
  show iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d))
      ⊢ |={Set.univ}=> iprop(
      (bigSep Finset.univ fun i : Fin ((K (F := F)).nSub 0) =>
        goRes m d (wOf (Fin.cast nCore_zero c) (Fin.cast nSub_zero i))
          (tileShare (Fin.cast nCore_zero c) (Fin.cast nSub_zero i)) (tileShare (Fin.cast nCore_zero c) (Fin.cast nSub_zero i)))
      ∗ ((bigSep Finset.univ fun i : Fin ((K (F := F)).nSub 0) =>
          tdRes m R d (wOf (Fin.cast nCore_zero c) (Fin.cast nSub_zero i))
            (tileShare (Fin.cast nCore_zero c) (Fin.cast nSub_zero i)) (tileShare (Fin.cast nCore_zero c) (Fin.cast nSub_zero i)))
          -∗ iprop((dLoc d ↦{coreShare (Fin.cast nCore_zero c)} m (dLoc d)) ∗ (tLoc d ↦{coreShare (Fin.cast nCore_zero c)} m (tLoc d))
            ∗ bigSep Finset.univ fun i : Fin 16 => iprop(∃ f, ⌜R d (wOf (Fin.cast nCore_zero c) i) f⌝ ∗ oLoc d ↦[rowSet (wOf (Fin.cast nCore_zero c) i)]{fullShare} f))))
  generalize Fin.cast nCore_zero c = c'
  rw [bigSep_tasks (F := F) (fun i => goRes m d (wOf c' i) (tileShare c' i) (tileShare c' i)),
    bigSep_tasks (F := F) (fun i => tdRes m R d (wOf c' i) (tileShare c' i) (tileShare c' i)), bigSep_sep', bigSep_sep', bigSep_sep', bigSep_sep']
  iintro ⟨Hd, Ht, Ho⟩
  ihave Hd' := (Transfers.pointsTo_toks_split (coreShare c') 16) $$ Hd
  icases Hd' with ⟨Hdr, Hds⟩
  ihave Ht' := (Transfers.pointsTo_toks_split (coreShare c') 16) $$ Ht
  icases Ht' with ⟨Htr, Hts⟩
  imodintro
  isplitl [Hds Hts Ho]
  · isplitl [Hds]; · iexact Hds
    isplitl [Hts]; · iexact Hts
    iexact Ho
  iintro ⟨Hds, Hts, Ho⟩
  isplitl [Hdr Hds]
  · iapply (Transfers.pointsTo_toks_join (coreShare c') 16); isplitl [Hdr] <;> iassumption
  isplitl [Htr Hts]
  · iapply (Transfers.pointsTo_toks_join (coreShare c') 16); isplitl [Htr] <;> iassumption
  iexact Ho

end Cert.Proof.K

end
-- ==== Proof.K.Fold.lean ====
/-
  The TensorCore kernel that folds the thirty-two workers' rows, as one region of @main.

  Its body loads the staged 32 x 16 block, loads the result's staging buffer, and stores the column sums over the rows
  as a 1 x 16 block, overwriting all of that buffer. The region's proof data: the partial results as the region is
  entered with them (a parameter f), fetched whole; the result written back whole. What the result array holds
  afterwards is named foldOut.
-/
import proofs.«205564_g40879498729249_retrytranche2_1872_24_alg».proof.Proof.K.Setup
import proofs.«205564_g40879498729249_retrytranche2_1872_24_alg».proof.Proof.Gen.Kernel.Skeleton
import proofs.«205564_g40879498729249_retrytranche2_1872_24_alg».proof.Proof.Gen.Kernel.Launch
import proofs.«205564_g40879498729249_retrytranche2_1872_24_alg».proof.Proof.Gen.Kernel.Points
import Idealize.ShloMosaic.Lib.Pipeline.Regions

noncomputable section

namespace Cert.Proof.K

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The TensorCore kernel's body: two loads and a store -/

-- the two staging buffers of the kernel's windows, each addressed whole
local notation "sg0" => (Memref.whole Cert.Kernel.cc1_stg0_0 : Memref Cert.Kernel.sig Kind.tc Space.vmem Cert.Kernel.S32x16 EltTy.f32)
local notation "sg1" => (Memref.whole Cert.Kernel.cc1_stg1_0 : Memref Cert.Kernel.sig Kind.tc Space.vmem Cert.Kernel.S1x16 EltTy.f32)

/-- The whole 32 x 16 block as the body loads it from its staging buffer holding f0. -/
abbrev loaded0 (c : Dev nD) (f0 : Buf (Elt F) ((sg0).view.loc (c : Thread nD τ))) : Vec F S32x16 .f32 :=
  View.readAt (Elt F) (sg0).view (Rect.unit (s := S32x16) ![0, 0] S32x16.size inb_S32x16_S32x16_0_0).toLoadRect f0

/-- The body from its two staging buffers held whole: the input's is kept, the result's is overwritten, through the
    whole-block rectangle, by the fold of what was loaded. -/
theorem fold_run (c : Dev nD) (f0 : Buf (Elt F) ((sg0).view.loc (c : Thread nD τ))) (f1 : Buf (Elt F) ((sg1).view.loc (c : Thread nD τ)))
    (Q : PUnit → sProp 𝕄) :
    iprop(((sg0).view.loc (c : Thread nD τ) ↦{fullShare} f0) ∗ ((sg1).view.loc (c : Thread nD τ) ↦{fullShare} f1)
        ∗ (iprop(((sg0).view.loc (c : Thread nD τ) ↦{fullShare} f0)
            ∗ ((sg1).view.loc (c : Thread nD τ) ↦{fullShare} (sg1).view.writes (Elt F) f1
                [⟨Rect.unit (s := S1x16) ![0, 0] S1x16.size inb_S1x16_S1x16_0_0, k1_pay1 (loaded0 c f0)⟩])) -∗ Q ⟨⟩))
      ⊢ wp frame (wpE (defs₀ (F := F)) Variants.none (c : Thread nD τ) none) Set.univ
          (cc1_fold_body (F := F) sg0 (Memref.isWhole_whole _) sg1 (Memref.isWhole_whole _)) Q := by
  iintro ⟨H0, H1, Hk⟩
  rw [cc1_fold_body_eq_skeleton]; unfold cc1_fold_body_skel
  sl_exec
  sl_step
  iapply Hk
  isplitl [H0]; · iexact H0
  iexact H1

omit [FloatOps F] in
/-- The whole-block rectangle of a 1 x 16 buffer places every index at itself. -/
theorem emb_whole1 (x : S1x16.Idx) : (Rect.unit (s := S1x16) ![0, 0] S1x16.size inb_S1x16_S1x16_0_0).emb x = x := by
  funext a; apply Fin.ext
  rw [Rect.emb_apply]
  fin_cases a <;> simp

omit [FloatOps F] in
/-- A store through the whole-block rectangle leaves the payload, whatever the buffer held. -/
theorem writes_whole1 (c : Dev nD) (f1 : Buf (Elt F) ((sg1).view.loc (c : Thread nD τ))) (w : S1x16.Idx → Elt F .f32) :
    (sg1).view.writes (Elt F) f1 [⟨Rect.unit (s := S1x16) ![0, 0] S1x16.size inb_S1x16_S1x16_0_0, w⟩] = w := by
  funext y
  have h := View.read_writes_cons_emb (Val := Elt F) (sg1).view f1 (Rect.unit (s := S1x16) ![0, 0] S1x16.size inb_S1x16_S1x16_0_0) w [] y
  rw [emb_whole1] at h
  exact h

/-! ## The TensorCore kernel's region: its proof data -/

abbrev adm : (p : Fin 1) → (pcfgs (F := F) p).Adm := fun p => (cfgs p).toPCfg_adm

/-- The folded partial results, as a location of device d. -/
abbrev v1Loc (d : Dev nD) : Loc nD τ sig := (SparseCore.T d).loc main_v1

/-- What the fetch stages: the whole partial-result array, read as the window's one block. -/
abbrev xstg (c : Dev nD) (f : Buf (Elt F) (oLoc c)) : (cfg1.win 0).block.Idx → Elt F (cfg1.win 0).elt :=
  ((cfg1.win 0).blk t1_0).view.read (Elt F) f

/-- What the body leaves in the result's staging buffer: the fold of what was staged. -/
abbrev foldedStg (c : Dev nD) (f : Buf (Elt F) (oLoc c)) : (cfg1.win 1).block.Idx → Elt F (cfg1.win 1).elt :=
  k1_pay1 (loaded0 c (xstg c f))

/-- The region's proof data: the partial results as the SparseCore call left them and the result array at its launch
    contents; after the body the input as fetched, the result folded; no invariant of its own; nothing owed. -/
def datF (c : Dev nD) (f : Buf (Elt F) (oLoc c)) : Pipeline.Dat τ (Elt F) (HIx 1) ℕ UU ℕ cfg1 c where
  A w := match w with
    | ⟨0, _⟩ => f
    | ⟨1, _⟩ => m (v1Loc c)
  after w _ := match w with
    | ⟨0, _⟩ => xstg c f
    | ⟨1, _⟩ => foldedStg c f
  Φ _ := iprop(emp)
  q _ := fullShare
  owed _ := 0
  recorded _ := {p | (K (F := F)).lev (SparseCore.T c, p.1) p.2 ≤ 8}

/-- What the result array holds after the region entered with the partial results f. -/
abbrev foldOut (c : Dev nD) (f : Buf (Elt F) (oLoc c)) : Buf (Elt F) (v1Loc c) := (datF m c f).arrAt 1 cfg1.N

theorem before_in (c : Dev nD) (f : Buf (Elt F) (oLoc c)) (d : (cfg1.win 0).block.Idx → Elt F (cfg1.win 0).elt) : (datF m c f).before 0 t1_0 d = xstg c f := by
  unfold Pipeline.Dat.before; rw [if_pos (fetch1_0 t1_0)]; rfl

omit [FloatOps F] in
theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body obligation on device c: the two staging buffers taken apart, the body run, the result's buffer read back. -/
theorem body_obligation (c : Dev nD) (f : Buf (Elt F) (oLoc c)) : Pipeline.BodyObligation (datF (F := F) m c f) (defs₀ (F := F)) 𝒱₀ (none : HIx 1) Set.univ := fun t => by
  obtain rfl := fin_N1 t
  rw [bigSep_W1, bigSep_W1]
  simp only [owns_whole_eq]
  rw [show (datF m c f).Φ t1_0.castSucc = iprop(emp) from rfl, show (datF m c f).Φ t1_0.succ = iprop(emp) from rfl,
    show (datF m c f).owesAt none t1_0.succ = (datF m c f).owesAt none t1_0.castSucc from rfl]
  iintro ⟨-, HO, ⟨%d0, %f0, %hf0, H0⟩, ⟨%d1, %f1, %hf1, H1⟩⟩
  rw [before_in] at hf0
  subst hf0
  iapply (fold_run c (xstg c f) f1 _)
  isplitl [H0]; · iexact H0
  isplitl [H1]; · iexact H1
  iintro ⟨H0, H1⟩
  isplitr; · iempintro
  isplitl [HO]; · iexact HO
  isplitl [H0]
  · iexists _; isplitr; swap; (· iexact H0); ipureintro; rfl
  iexists _; isplitr; swap; (· iexact H1); ipureintro; exact writes_whole1 c f1 _

-- the partial results the region is entered with, on every device
variable (fs : (c : Dev nD) → Buf (Elt F) (oLoc c))

def pdats : (p : Fin 1) → (c : Dev nD) → Pipeline.Dat τ (Elt F) (HIx 1) ℕ UU ℕ (Pipeline.pin (pcfgs (F := F)) adm p) c
  | 0 => fun c => datF m c (fs c)

/-! ## The region's record -/

/-- A buffer of device c at the full share, spelt at the location. -/
abbrev pl (c : Dev nD) (b : Ref sig .tc) (f : b.ty.Contents (Elt F)) : sProp 𝕄 := ((c : Thread nD τ).loc b) ↦{fullShare} f

/-- What the TensorCore owes after its last SparseCore call (nothing), its recorded waits below the level of that call's end. -/
abbrev owesTc (c : Dev nD) : sProp 𝕄 :=
  iprop(∃ W, ⌜(K (F := F)).WBelow (SparseCore.T c) W 8⌝ ∗ owes (SparseCore.T c) (0 : CellTallies nD τ sig (HIx 1)) W)

theorem arrays_eq (c : Dev nD) (Fa) : ((pdats (F := F) m fs 0 c).arrays Fa : sProp 𝕄) = iprop(pl c main_v0 (Fa 0) ∗ pl c main_v1 (Fa 1)) := by
  rw [Pipeline.arrays_eq (Pipeline.pin (pcfgs (F := F)) adm) (pdats m fs) 0 c launch1.arr_whole ((pdats m fs 0 c).share_full fun _ => rfl) Fa, bigSep_W1]

/-- The input array reaches the region's exit as it entered. -/
theorem arrAt_in (c : Dev nD) : (pdats (F := F) m fs 0 c).arrAt 0 (Pipeline.pin (pcfgs (F := F)) adm 0).N = fs c :=
  (datF (F := F) m c (fs c)).arrAt_in 0 rfl _
theorem arrAt_out (c : Dev nD) : (pdats (F := F) m fs 0 c).arrAt 1 (Pipeline.pin (pcfgs (F := F)) adm 0).N = foldOut m c (fs c) := rfl

/-- The region: the two arrays into the pipeline and back, the result folded; nothing else enters; the TensorCore owes
    nothing throughout, so its staging waits (at no call's index) are admissible. -/
def reg : Pipeline.RegionSeg (pcfgs (F := F)) adm (pdats m fs) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c (fs c)).loose
  hwaits := Pipeline.hwaits_of_owed_zero _ _ _ _ (K (F := F)).L (K (F := F)).lev 0 fun _ _ => rfl
  pre c := iprop(pl c main_v0 (fs c) ∗ pl c main_v1 (m (v1Loc c)) ∗ owesTc c)
  post c := iprop(pl c main_v0 (fs c) ∗ pl c main_v1 (foldOut m c (fs c)) ∗ owesTc c)
  X _ := iprop(emp)
  Y _ := iprop(emp)
  Z _ := iprop(emp)
  hentry c := by
    rw [Pipeline.ownSems0_none, arrays_eq]
    iintro ⟨⟨H0, H1, %W, %hW, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_in, arrAt_out]
    iintro ⟨⟨H0, H1⟩, HO, -, -⟩
    imodintro
    isplitl [H0]; · iexact H0
    isplitl [H1]; · iexact H1
    unfold Pipeline.Dat.owesAt Pipeline.owesWithin
    icases HO with ⟨%W, %hW, HO⟩
    iexists W; isplitr
    · ipureintro; intro p hp
      rcases hW hp with h | ⟨w, s, rfl⟩
      · exact h
      · exact Nat.zero_le _
    iexact HO

end Cert.Proof.K

end
-- ==== Proof.K.FoldValue.lean ====
/-
  What the TensorCore kernel's region leaves in the result array, in closed form.

  Both windows of the kernel are whole arrays: the one block of each sits at the array's own indices. So what the body
  loads from the staged block is the partial-result array f itself, and the one write-back writes the whole result
  array with what the body stored: the fold (column sums over the thirty-two rows) of f.
-/
import proofs.«205564_g40879498729249_retrytranche2_1872_24_alg».proof.Proof.K.Fold
import Idealize.ShloMosaic.Lib.Pipeline.Value
import proofs.«205564_g40879498729249_retrytranche2_1872_24_alg».proof.Proof.Gen.Kernel.Skeleton
import proofs.«205564_g40879498729249_retrytranche2_1872_24_alg».proof.Proof.Gen.Kernel.Launch
import proofs.«205564_g40879498729249_retrytranche2_1872_24_alg».proof.Proof.Gen.Kernel.Points
import Idealize.ShloMosaic.Lib.Pipeline.Regions

noncomputable section

namespace Cert.Proof.K

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
/-- The result window's one block is the whole array: an index of the block sits at itself. -/
theorem emb_blk1 (y : ((cfg1.win 1).xblock (cfg1.grid.coords t1_0)).Idx) : ((cfg1.win 1).blk t1_0).view.emb y = y := by
  funext a; apply Fin.ext
  show (((View.whole (main_v1 : Ref sig .tc)).slice ((cfg1.win 1).rect t1_0)).emb y a).val = (y a).val
  rw [View.emb_slice, Function.Embedding.trans_apply, View.emb_whole, Function.Embedding.refl_apply, Rect.emb_apply]
  fin_cases a <;> simp <;> exact Or.inl rfl

omit [FloatOps F] in
theorem emb_blk0 (y : ((cfg1.win 0).xblock (cfg1.grid.coords t1_0)).Idx) : ((cfg1.win 0).blk t1_0).view.emb y = y := by
  funext a; apply Fin.ext
  show (((View.whole (main_v0 : Ref sig .tc)).slice ((cfg1.win 0).rect t1_0)).emb y a).val = (y a).val
  rw [View.emb_slice, Function.Embedding.trans_apply, View.emb_whole, Function.Embedding.refl_apply, Rect.emb_apply]
  fin_cases a <;> simp <;> exact Or.inl rfl

omit [FloatOps F] in
/-- The whole-block load rectangle of the 32 x 16 staging buffer reads every index at itself. -/
theorem idx_whole0 (x : S32x16.Idx) : (Rect.unit (s := S32x16) ![0, 0] S32x16.size inb_S32x16_S32x16_0_0).toLoadRect.idx x = x := by
  funext a; apply Fin.ext
  rw [LoadRect.idx_apply]
  fin_cases a <;> simp

omit [FloatOps F] in
/-- What the body loads from the staged block is the partial-result array itself. -/
theorem loaded0_xstg (c : Dev nD) (f : Buf (Elt F) (oLoc c)) : loaded0 c (xstg c f) = f := by
  funext x
  show View.read (Elt F) (View.whole (cc1_stg0_0 : Ref sig .tc)) (xstg c f) ((Rect.unit (s := S32x16) ![0, 0] S32x16.size inb_S32x16_S32x16_0_0).toLoadRect.idx x) = f x
  rw [idx_whole0, View.read_whole]
  show View.read (Elt F) ((cfg1.win 0).blk t1_0).view f x = f x
  rw [View.read_apply, emb_blk0]
  rfl

theorem foldOut_eq (c : Dev nD) (f : Buf (Elt F) (oLoc c)) : foldOut m c f = (k1_pay1 (F := F) f : Buf (Elt F) (v1Loc c)) := by
  refine (datF m c f).arrAt_eq_of_cover 1 _ (fun t _ => ?_) (fun i => ⟨t1_0, flush1_1 t1_0, ?_⟩)
  · obtain rfl := fin_N1 t
    funext y
    rw [View.read_apply, emb_blk1]
    show k1_pay1 (loaded0 c (xstg c f)) y = k1_pay1 f y
    rw [loaded0_xstg]
  · have h := ((cfg1.win 1).blk t1_0).view.emb_mem_set i
    rwa [emb_blk1] at h

end Cert.Proof.K

end
-- ==== Proof.K.Launch.lean ====
/-
  The launch of the kernel program, generic in the float instance, from one tile's body obligation.

  @main on the TensorCore: the digits' and the table's full shares are halved per SparseCore, what remains kept; the
  partial-result array is cut into its thirty-two rows (pairwise disjoint, covering it); the one SparseCore call takes
  the two SparseCores' parts and brings them back, each row at contents of which the row predicate holds; the shares
  rejoin, the rows rejoin into one array f of which the predicate holds at every worker (the predicate only reads its
  own row); the TensorCore kernel's region folds f; the reshape reads the folded row. The arguments end unchanged and the
  result is the reshape of the fold of f.
-/
import proofs.«205564_g40879498729249_retrytranche2_1872_24_alg».proof.Proof.K.LaunchTiles
import proofs.«205564_g40879498729249_retrytranche2_1872_24_alg».proof.Proof.K.Fold
import proofs.«205564_g40879498729249_retrytranche2_1872_24_alg».proof.Proof.K.FoldValue

noncomputable section

namespace Cert.Proof.K

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The result, as a location of device d. -/
abbrev v2Loc (d : Dev nD) : Loc nD τ sig := (SparseCore.T d).loc main_v2

/-- A row predicate that reads only its own row. -/
def RowLocal (R : RowPred (F := F)) : Prop :=
  ∀ (d : Dev nD) (w : Fin 32) (f f' : Buf (Elt F) (oLoc d)), (∀ x ∈ rowSet w, f x = f' x) → R d w f → R d w f'

/-! ## The launch element: the handshakes' rounds, the staging cells' ghost state; the counters are dropped -/

/-- The staging cells' launch element. -/
abbrev uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

omit [FloatOps F] in
theorem ownR_split : (BI.own ((embR : Emb (UP × Counters) 𝕄) (uP (F := F), (1 : Counters))) : sProp 𝕄)
    ⊢ iprop(BI.own ((EP : Emb UP 𝕄) (uP (F := F))) ∗ BI.own (((Emb.inr : Emb Counters (UP × Counters)).trans (embR : Emb (UP × Counters) 𝕄)) 1)) := by
  unfold EP
  exact own_pair_emb (M' := MT nD τ sig (HIx 1) (Elt F) ℕ UU ℕ) (A := UP) (B := Counters)
    (embR : Emb (UP × Counters) (MT nD τ sig (HIx 1) (Elt F) ℕ UU ℕ)) (uP (F := F)) (1 : Counters)

/-- What @main's proof starts from beyond what the launch deals it: the staging cells' ghost state and the duty tokens
    of the region's two transfers. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

omit [FloatOps F] in
theorem bigSep_pipes (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem hu₀ (R : RowPred (F := F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m R).x q thr) := by
  unfold u₀
  iintro Hu
  ihave H := (ownU_pair _ _) $$ Hu
  icases H with ⟨HH, HR⟩
  ihave H2 := (ownR_split (F := F)) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_pipes (F := F) fun p c => Pipeline.cellsGhost (Pipeline.pin (pcfgs (F := F)) adm) EP p c)); iexact Hg
    · iapply (Entails.of_eq (bigSep_pipes (F := F) fun p c => Pipeline.toksInit (Pipeline.pin (pcfgs (F := F)) adm) EP p c)); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((dLoc d ↦{fullShare} W main_arg0) ∗ (tLoc d ↦{fullShare} W main_arg1) ∗ (oLoc d ↦{fullShare} W main_v0)
      ∗ (v1Loc d ↦{fullShare} W main_v1) ∗ (v2Loc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- Over the two SparseCores' sixteen tiles each is over the thirty-two workers. -/
theorem rows_regroup (Φ : Fin 32 → sProp 𝕄) :
    (bigSep Finset.univ fun c : Fin 2 => bigSep Finset.univ fun i : Fin 16 => Φ (wOf c i)) = bigSep Finset.univ Φ := by
  rw [← bigSep_univ_prod (fun p : Fin 2 × Fin 16 => Φ (wOf p.1 p.2))]
  exact (bigSep_univ_equiv wEquiv Φ).symm

/-- What the call takes for the two SparseCores, -/
theorem st0_eq (R : RowPred (F := F)) (d : Dev nD) : (bigSep Finset.univ fun c : Fin ((K (F := F)).nCore 0) => (P m R).st 0 d c)
    = iprop((bigSep Finset.univ fun c : Fin 2 => dLoc d ↦{coreShare c} m (dLoc d)) ∗ (bigSep Finset.univ fun c : Fin 2 => tLoc d ↦{coreShare c} m (tLoc d))
        ∗ bigSep Finset.univ fun w : Fin 32 => oLoc d ↦[rowSet w]{fullShare} m (oLoc d)) := by
  show (bigSep Finset.univ fun c : Fin ((K (F := F)).nCore 0) =>
      (iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d)) : sProp 𝕄)) = _
  rw [bigSep_cores (F := F) (fun c' : Fin 2 => iprop((dLoc d ↦{coreShare c'} m (dLoc d)) ∗ (tLoc d ↦{coreShare c'} m (tLoc d))
        ∗ bigSep Finset.univ fun i : Fin 16 => oLoc d ↦[rowSet (wOf c' i)]{fullShare} m (oLoc d))),
    bigSep_sep', bigSep_sep', rows_regroup (F := F) fun w => oLoc d ↦[rowSet w]{fullShare} m (oLoc d)]
/-- and what it hands back. -/
theorem dn0_eq (R : RowPred (F := F)) (d : Dev nD) : (bigSep Finset.univ fun c : Fin ((K (F := F)).nCore 0) => (P m R).dn 0 d c)
    = iprop((bigSep Finset.univ fun c : Fin 2 => dLoc d ↦{coreShare c} m (dLoc d)) ∗ (bigSep Finset.univ fun c : Fin 2 => tLoc d ↦{coreShare c} m (tLoc d))
        ∗ bigSep Finset.univ fun w : Fin 32 => iprop(∃ f, ⌜R d w f⌝ ∗ oLoc d ↦[rowSet w]{fullShare} f)) := by
  show (bigSep Finset.univ fun c : Fin ((K (F := F)).nCore 0) =>
      (iprop((dLoc d ↦{coreShare (Fin.cast nCore_zero c)} m (dLoc d)) ∗ (tLoc d ↦{coreShare (Fin.cast nCore_zero c)} m (tLoc d))
        ∗ bigSep Finset.univ fun i : Fin 16 => iprop(∃ f, ⌜R d (wOf (Fin.cast nCore_zero c) i) f⌝ ∗ oLoc d ↦[rowSet (wOf (Fin.cast nCore_zero c) i)]{fullShare} f)) : sProp 𝕄)) = _
  rw [bigSep_cores (F := F) (fun c' : Fin 2 => iprop((dLoc d ↦{coreShare c'} m (dLoc d)) ∗ (tLoc d ↦{coreShare c'} m (tLoc d))
        ∗ bigSep Finset.univ fun i : Fin 16 => iprop(∃ f, ⌜R d (wOf c' i) f⌝ ∗ oLoc d ↦[rowSet (wOf c' i)]{fullShare} f))),
    bigSep_sep', bigSep_sep', rows_regroup (F := F) fun w => iprop(∃ f, ⌜R d w f⌝ ∗ oLoc d ↦[rowSet w]{fullShare} f)]

omit [FloatOps F] in
/-- The partial-result array held whole is its thirty-two rows. -/
theorem oPts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

/-- The rows, each at contents of which the predicate holds, join into one array of which it holds at every worker. -/
theorem oRows_join (R : RowPred (F := F)) (hR : RowLocal R) (d : Dev nD) :
    (bigSep Finset.univ fun w : Fin 32 => iprop(∃ f, ⌜R d w f⌝ ∗ oLoc d ↦[rowSet w]{fullShare} f))
      ⊢ (iprop(∃ f, ⌜∀ w, R d w f⌝ ∗ oLoc d ↦{fullShare} f) : sProp 𝕄) := by
  refine (bigSep_exists_pi Finset.univ (fun w (f : Buf (Elt F) (oLoc d)) => iprop(⌜R d w f⌝ ∗ oLoc d ↦[rowSet w]{fullShare} f))).trans ?_
  iintro ⟨%fs, H⟩
  ihave H' := (bigSep_pure_sep Finset.univ (fun w => R d w (fs w)) (fun w => oLoc d ↦[rowSet w]{fullShare} fs w)) $$ H
  icases H' with ⟨%hfs, H⟩
  ihave H'' := (pointsTo_biUnion_join Finset.univ rowSet fs (fs 0) rows_disjoint) $$ H
  icases H'' with ⟨%g, %hg, Hg⟩
  rw [rows_cover]
  iexists g; isplitr
  · ipureintro; exact fun w => hR d w (fs w) g (fun x hx => (hg w (Finset.mem_univ w) x hx).symm) (hfs w (Finset.mem_univ w))
  · iexact Hg

/-- What @main leaves the claim: the arguments whole at their launch contents, the result at the reshape of the fold of
    an array of partial results of which the row predicate holds at every worker. -/
abbrev FIN (R : RowPred (F := F)) (d : Dev nD) : sProp 𝕄 :=
  iprop((dLoc d ↦{fullShare} m (dLoc d)) ∗ (tLoc d ↦{fullShare} m (tLoc d))
    ∗ ∃ f, ⌜∀ w, R d w f⌝ ∗ v2Loc d ↦{fullShare} (shapeCast S16 (foldOut m d f) shapeCasts_S1x16_S16 : Buf (Elt F) (v2Loc d)))

omit [FloatOps F] in
/-- After its last SparseCore call the TensorCore owes nothing. -/
theorem tcSt_one (d : Dev nD) : ∃ Rst : sProp 𝕄, ((K (F := F)).tcSt EH d 1 : sProp 𝕄) = iprop(owesTc d ∗ Rst) := by
  refine ⟨?_, ?_⟩
  rotate_left
  · unfold SparseCore.Cfg.tcSt; rw [(K (F := F)).Otc_end d (le_refl _)]

/-- The region's call in @main is the lifted call of the pipeline's entry. -/
theorem wp_region_lift (d : Dev nD) (Φ : PUnit → sProp 𝕄) :
    wp frame (wpE (D (F := F)) 𝒱 (SparseCore.T d) none) Set.univ (Prog.op (TpuEff.customCall (Pipeline.entry 0) ()) Prog.ret) Φ
      ⊢ wp frame (wpE ((K (F := F)).defs (D (F := F))) 𝒱 (SparseCore.T d) none) Set.univ
          (Prog.lift (TpuEff.customCall (SparseCore.inner (Pipeline.entry 0)) ())) Φ :=
  (K (F := F)).wp_liftProg (D (F := F)) 𝒱 (SparseCore.T d) Set.univ none _ Φ

/-! ### The reshape -/

abbrev v1' : DevRef τ sig := Proc.devRef .tc (main_v1 : Ref sig .tc)
abbrev v2' : DevRef τ sig := Proc.devRef .tc (main_v2 : Ref sig .tc)
abbrev opR : HloOp τ sig (Elt F) := StableHlo.reshape main_v1 main_v2 rfl shapeCasts_S1x16_S16
abbrev S12 : Finset (DevRef τ sig) := {v1', v2'}

omit [FloatOps F] in
theorem held_S12 (d : Dev nD) (W : Valuation τ sig (Elt F)) :
    (held (T d) S12 W : sProp 𝕄) = iprop((v1Loc d ↦{fullShare} W v1') ∗ (v2Loc d ↦{fullShare} W v2')) := by
  unfold held S12
  rw [SparseCore.bigSep_insert' (by decide), bigSep_singleton]

/-- The launch valuation with the folded row in place. -/
def V0 (d : Dev nD) : Valuation τ sig (Elt F) := fun b => m (d, b)
def V1 (d : Dev nD) (g : Buf (Elt F) (v1Loc d)) : Valuation τ sig (Elt F) := Function.update (V0 m d) v1' g

theorem V1_v1 (d : Dev nD) (g : Buf (Elt F) (v1Loc d)) : V1 m d g v1' = g := Function.update_self _ _ _
theorem V1_v2 (d : Dev nD) (g : Buf (Elt F) (v1Loc d)) : V1 m d g v2' = m (v2Loc d) := Function.update_of_ne (show v2' ≠ v1' by decide) _ _

theorem hReshape : (opR (F := F)).bufs ⊆ S12 := show ({v1', v2'} : Finset (DevRef τ sig)) ⊆ S12 by decide

theorem reg_pre (fs : (c : Dev nD) → Buf (Elt F) (oLoc c)) (d : Dev nD) :
    (reg m fs).pre d = iprop(pl d main_v0 (fs d) ∗ pl d main_v1 (m (v1Loc d)) ∗ owesTc d) := rfl
theorem reg_post (fs : (c : Dev nD) → Buf (Elt F) (oLoc c)) (d : Dev nD) :
    (reg m fs).post d = iprop(pl d main_v0 (fs d) ∗ pl d main_v1 (foldOut m d (fs d)) ∗ owesTc d) := rfl

theorem hmain (R : RowPred (F := F)) (hR : RowLocal R) (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscopedBufs_eq]
  simp only [main, wp_bind, wp_pure]
  iintro ⟨#Hctx, Hst, ⟨Hb, ⟨Hd, Ht, Ho, H1, H2⟩, -, -⟩, ⟨Hcg, Htk⟩⟩
  ihave Hd' := (Transfers.pointsTo_toks_split fullShare 2) $$ Hd
  icases Hd' with ⟨Hdr, Hds⟩
  ihave Ht' := (Transfers.pointsTo_toks_split fullShare 2) $$ Ht
  icases Ht' with ⟨Htr, Hts⟩
  ihave Ho' := (Entails.of_eq (oPts_rows (F := F) d _)) $$ Ho
  -- the call: each SparseCore its shares and its sixteen rows, and back
  iapply ((K (F := F)).wp_run (D (F := F)) 𝒱 (EH := EH) (P := P m R) κ d 0) $$ [Hst Hds Hts Ho' Hdr Htr Hb H1 H2 Hcg Htk]
  isplitr; · iexact Hctx
  isplitl [Hst]; · iexact Hst
  isplitl [Hds Hts Ho']
  · rw [st0_eq]
    isplitl [Hds]; · iexact Hds
    isplitl [Hts]; · iexact Hts
    iexact Ho'
  iintro ⟨Hst, Hdn⟩
  ihave Hdn' := (Entails.of_eq (dn0_eq m R d)) $$ Hdn
  icases Hdn' with ⟨Hds, Hts, Hos⟩
  ihave Hd := (Transfers.pointsTo_toks_join fullShare 2) $$ [Hdr Hds]
  · isplitl [Hdr] <;> iassumption
  ihave Ht := (Transfers.pointsTo_toks_join fullShare 2) $$ [Htr Hts]
  · isplitl [Htr] <;> iassumption
  ihave Ho := (oRows_join R hR d) $$ Hos
  icases Ho with ⟨%f, %hf, Ho⟩
  -- the region
  obtain ⟨fs, rfl⟩ : ∃ fs : (c : Dev nD) → Buf (Elt F) (oLoc c), fs d = f :=
    ⟨Function.update (fun c => m (oLoc c)) d f, Function.update_self ..⟩
  obtain ⟨Rst, hRst⟩ := tcSt_one (F := F) d
  ihave Hst := (Entails.of_eq (show ((K (F := F)).tcSt EH d ((0 : Fin 1).val + 1) : sProp 𝕄) = iprop(owesTc d ∗ Rst) from hRst)) $$ Hst
  icases Hst with ⟨HO, Hrst⟩
  ihave Hlev := (SparseCore.Cfg.ctx_levAts κ) $$ Hctx
  iapply (wp_region_lift (F := F) d _)
  iapply (Pipeline.RegionSeg.wp (pcfgs (F := F)) adm (pdats m fs) (none : HIx 1) cellOf_inj EP defs₀ 𝒱₀ (K (F := F)).L (K (F := F)).lev
      (reg m fs) d none (fun _ h => nomatch h) Prog.ret _) $$ [Hb Ho H1 HO Hcg Htk Hd Ht H2 Hrst]
  isplitr [Hb Ho H1 HO Hcg Htk]
  · iintro ⟨Hb, Hpost⟩
    ihave Hpost := (Entails.of_eq (reg_post m fs d)) $$ Hpost
    icases Hpost with ⟨Ho, H1, HO⟩
    rw [wp_ret]; imodintro
    -- the reshape, over the folded row and the result
    iapply (wp_hlo_within 𝒱 (SparseCore.T d) none Set.univ (op := opR) (S := S12) hReshape (V := V1 m d (foldOut m d (fs d)))) $$ [Hb H1 H2]
    · isplitl [Hb]; · iexact Hb
      rw [held_S12, V1_v1, V1_v2]
      isplitl [H1]; · iexact H1
      iexact H2
    iintro ⟨Hb, Hheld⟩
    ihave Hh := (Entails.of_eq (held_S12 (F := F) d _)) $$ Hheld
    icases Hh with ⟨-, H2⟩
    rw [wp_ret]; imodintro; imodintro
    isplitl [HO Hrst]
    · rw [hRst]; isplitl [HO]; · iexact HO
      iexact Hrst
    isplitl [Hd]; · iexact Hd
    isplitl [Ht]; · iexact Ht
    iexists (fs d); isplitr; · ipureintro; exact hf
    rw [StableHlo.reshape_result', V1_v1]
    iexact H2
  isplitl [Hb]; · iexact Hb
  isplitl [Ho H1 HO]
  · rw [reg_pre]
    isplitl [Ho]; · iexact Ho
    isplitl [H1]; · iexact H1
    iexact HO
  isplitr; · iexact Hlev
  isplitl [Hcg]; · iexact Hcg
  iexact Htk

/-! ## What the final memory holds -/

def fq (R : RowPred (F := F)) (d : Dev nD) (s' : Phys nD τ sig (Elt F)) : Prop :=
  s'.mem.mem (dLoc d) = m (dLoc d) ∧ s'.mem.mem (tLoc d) = m (tLoc d)
    ∧ ∃ f, (∀ w, R d w f) ∧ s'.mem.mem (v2Loc d) = (shapeCast S16 (foldOut m d f) shapeCasts_S1x16_S16 : Buf (Elt F) (v2Loc d))

theorem hfin (R : RowPred (F := F)) (d : Dev nD) (s' : Phys nD τ sig (Elt F)) : iprop(FIN m R d ∗ SI s') ⊢ (⌜fq m R d s'⌝ : sProp 𝕄) := by
  iintro ⟨⟨Hd, Ht, %f, %hf, H2⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v2Loc d) (I := Finset.univ) (q := fullShare)
    (f := (shapeCast S16 (foldOut m d f) shapeCasts_S1x16_S16 : Buf (Elt F) (v2Loc d)))) $$ [HSI H2]
  · isplitl [HSI] <;> iassumption
  icases H with %h3
  ipureintro
  exact ⟨funext fun i => h1 i (Finset.mem_univ i), funext fun i => h2 i (Finset.mem_univ i), f, hf, funext fun i => h3 i (Finset.mem_univ i)⟩

/-! ## The program's run -/

/-- Every final memory: on every device the result is the reshape of the fold of an array of partial results of which
    the row predicate holds at every worker, and the two arguments are unchanged. -/
def QC (R : RowPred (F := F)) : PUnit × MemSt nD τ sig (Elt F) → Prop := fun r => ∀ c : Dev nD,
  (∃ f, (∀ w, R c w f) ∧ r.2.mem (v2Loc c) = (shapeCast S16 (foldOut m c f) shapeCasts_S1x16_S16 : Buf (Elt F) (v2Loc c)))
    ∧ r.2.mem (dLoc c) = m (dLoc c) ∧ r.2.mem (tLoc c) = m (tLoc c)

theorem run_main [∀ e, Nonempty (Elt F e)] (R : RowPred (F := F)) (hR : RowLocal R) (hbody : TileBody m R) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R hbody)
    (fun q _ => match q with | 0 => SparseCore.Cfg.VecSplit.of_plain (vecSplit m R))
    m ρ main (G (F := F)) (FIN m R) (u₀ (F := F)) (sep_elim_left.trans (hu₀ m R)) (hmain m ρ R hR) (fq m R) (hfin m R) (QC m R)
    (fun s' h c => by obtain ⟨h1, h2, h3⟩ := h c; exact ⟨h3, h1, h2⟩)

/-- The same with the fold in closed form: the result is the reshape of the column sums of f. -/
def QCk (R : RowPred (F := F)) : PUnit × MemSt nD τ sig (Elt F) → Prop := fun r => ∀ c : Dev nD,
  (∃ f : Buf (Elt F) (oLoc c), (∀ w, R c w f) ∧ r.2.mem (v2Loc c) = (shapeCast S16 (k1_pay1 (F := F) f) shapeCasts_S1x16_S16 : Buf (Elt F) (v2Loc c)))
    ∧ r.2.mem (dLoc c) = m (dLoc c) ∧ r.2.mem (tLoc c) = m (tLoc c)

theorem run_main_k1 [∀ e, Nonempty (Elt F e)] (R : RowPred (F := F)) (hR : RowLocal R) (hbody : TileBody m R) :
    θ_run (Cert.Kernel.defs (F := F)) (Cert.Kernel.threads (F := F)) ⟨m, fun _ => 0, ρ⟩ (QCk m R) :=
  (θ_run Cert.Kernel.defs _ _).mono (fun r h c => by
    obtain ⟨⟨f, hf, h2⟩, h0, h1⟩ := h c
    exact ⟨⟨f, hf, by rw [h2, foldOut_eq]⟩, h0, h1⟩) (run_main m ρ R hR hbody)

end Cert.Proof.K

end
-- ==== Proof.K.Tile.lean ====
/-
  One worker's task, run to its end.

  Worker w (of 32: two cores of sixteen subcores) is lent read shares of the 1048576 digits and of the 10 x 16 table,
  and row w of the 32 x 16 array of partial results. It copies its 32768 digits into its chunk in two pieces (the first
  16128 words, then the other 16640, on two semaphores) and the table into its own copy, waits for the first piece,
  counts over the first eighteen blocks of 56 vectors while the second piece is still landing — every one of those
  loads lies below word 16128, so it meets none of the words still in flight —, waits for the second piece, counts
  the remaining eighteen blocks and the last 32 vectors, writes the ten count vectors and six zero vectors into a
  256-word scratch, adds that scratch up across lanes by sixteen indexed loads at lane*16 + l, replicates the totals
  by sixteen indexed stores at the same indices (all of them below 256), forms its row from the totals and its copy
  of the table, and copies the row out. Here: every such run ends, with everything lent handed back, the four
  semaphores at zero again, and row w holding what the worker wrote.
-/
import proofs.«205564_g40879498729249_retrytranche2_1872_24_alg».proof.Proof.K.Setup
import Idealize.ShloMosaic.Lib.SparseCore.Ops
import proofs.«205564_g40879498729249_retrytranche2_1872_24_alg».proof.Proof.Gen.Kernel.Skeleton

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "aW" => (Memref.whole Cert.Kernel.main_arg0_scv : Memref Cert.Kernel.sig Kind.scVector Space.hbm Cert.Kernel.S1048576 EltTy.i32)
local notation "tW" => (Memref.whole Cert.Kernel.main_arg1_scv : Memref Cert.Kernel.sig Kind.scVector Space.hbm Cert.Kernel.S10x16 EltTy.f32)
local notation "oW" => (Memref.whole Cert.Kernel.main_v0_scv : Memref Cert.Kernel.sig Kind.scVector Space.hbm Cert.Kernel.S32x16 EltTy.f32)
local notation "s0" => (Memref.whole Cert.Kernel.cc0_scratch0 : Memref Cert.Kernel.sig Kind.scVector Space.vmem Cert.Kernel.S32768 EltTy.i32)
local notation "s1" => (Memref.whole Cert.Kernel.cc0_scratch1 : Memref Cert.Kernel.sig Kind.scVector Space.vmem Cert.Kernel.S10x16 EltTy.f32)
local notation "s2" => (Memref.whole Cert.Kernel.cc0_scratch2 : Memref Cert.Kernel.sig Kind.scVector Space.vmem Cert.Kernel.S16 EltTy.f32)
local notation "s3" => (Memref.whole Cert.Kernel.cc0_scratch3 : Memref Cert.Kernel.sig Kind.scVector Space.vmem Cert.Kernel.S256 EltTy.i32)
local notation "s4" => (Memref.whole Cert.Kernel.cc0_scratch4 : Memref Cert.Kernel.sig Kind.scVector Space.vmem Cert.Kernel.S256 EltTy.i32)

variable [FloatOps F]

abbrev thr (d : Dev nD) (Lc : grid0.Coords) : Thread nD τ := V d (cV Lc) (jV Lc)

/-! ## The chunk's two halves and the two slices of the digits -/

abbrev R10 : Rect S32768 := Rect.unit (s := S32768) ![16128] S16640.size inb_S32768_S16640_16128
abbrev v10m : Memref sig .scVector .vmem S16640 .i32 := (s0).slice R10 (fun _ => rfl)
abbrev v6m (Lc : grid0.Coords) : Memref sig .scVector .hbm S16128 .i32 := (aW).slice (Rect.unit (s := S1048576) (k0_off1 Lc) S16128.size (k0_off1_inb Lc)) (fun _ => rfl)
abbrev v11m (Lc : grid0.Coords) : Memref sig .scVector .hbm S16640 .i32 := (aW).slice (Rect.unit (s := S1048576) (k0_off2 Lc) S16640.size (k0_off2_inb Lc)) (fun _ => rfl)

omit [FloatOps F] in
/-- Sixteen words that end at or before word 16128 of the chunk meet none of its words from 16128 on. -/
theorem lower_disj (off : Fin 1 → Nat) [c : ClosedOff off] (inb : ∀ a, off a + S16.size a ≤ S32768.size a) (h : c.form 0 + 16 ≤ 16128) :
    Disjoint ((s0).view.setOn (Rect.unit (s := S32768) off S16.size inb).set) (v10m).view.set := by
  have e : off 0 = c.form 0 := congrFun c.eq 0
  show Disjoint _ ((s0).view.slice R10).set
  rw [View.set_slice]
  refine (s0).view.disjoint_setOn ?_
  refine LoadRect.disjoint_of_separated (Rect.unit (s := S32768) off S16.size inb).toLoadRect R10.toLoadRect 0 (Or.inl (Or.inr ?_))
  show off 0 + 1 * (16 - 1) < 16128
  omega

omit [FloatOps F] in
/-- A worker's second slice of the digits starts where its first ends. -/
theorem slices_disj (Lc : grid0.Coords) : Disjoint (v11m Lc).view.set (v6m Lc).view.set := by
  show Disjoint ((aW).view.slice (Rect.unit (s := S1048576) (k0_off2 Lc) S16640.size (k0_off2_inb Lc))).set
    ((aW).view.slice (Rect.unit (s := S1048576) (k0_off1 Lc) S16128.size (k0_off1_inb Lc))).set
  rw [View.set_slice, View.set_slice]
  refine (Finset.disjoint_map _).mpr ?_
  refine LoadRect.disjoint_of_separated (Rect.unit (s := S1048576) (k0_off2 Lc) S16640.size (k0_off2_inb Lc)).toLoadRect
    (Rect.unit (s := S1048576) (k0_off1 Lc) S16128.size (k0_off1_inb Lc)).toLoadRect 0 (Or.inr (Or.inr ?_))
  show k0_off1 Lc 0 + 1 * (16128 - 1) < k0_off2 Lc 0
  rw [k0_off1_eq, k0_off2_eq]
  simp only [Matrix.cons_val_zero]
  omega

/-! ## The subcore's own semaphores and buffers, opened -/

abbrev c5cell (d : Dev nD) (c : Fin τ.nSC) (i : Fin τ.nSub) : GSem nD τ sig := (V d c i, .dma cc0_scratch5.sem)
abbrev c6cell (d : Dev nD) (c : Fin τ.nSC) (i : Fin τ.nSub) : GSem nD τ sig := (V d c i, .dma cc0_scratch6.sem)
abbrev r0cell (d : Dev nD) (c : Fin τ.nSC) (i : Fin τ.nSub) : GSem nD τ sig := (V d c i, .dma cc0_scoped0.sem)
abbrev r1cell (d : Dev nD) (c : Fin τ.nSC) (i : Fin τ.nSub) : GSem nD τ sig := (V d c i, .dma cc0_scoped1.sem)

variable (d : Dev nD) (Lc : grid0.Coords)

omit [FloatOps F] in
theorem ownSems0_V :
    (ownSems0 (thr d Lc) : sProp 𝕄)
      = iprop(semVal (c5cell d (cV Lc) (jV Lc)) 0 ∗ semVal (c6cell d (cV Lc) (jV Lc)) 0 ∗ semVal (r0cell d (cV Lc) (jV Lc)) 0 ∗ semVal (r1cell d (cV Lc) (jV Lc)) 0
          ∗ bigSep (((((ownCells (thr d Lc)).erase (c5cell d (cV Lc) (jV Lc))).erase (c6cell d (cV Lc) (jV Lc))).erase (r0cell d (cV Lc) (jV Lc))).erase (r1cell d (cV Lc) (jV Lc)))
              fun g => semVal g 0) := by
  unfold SparseCore.Cfg.ownSems0
  have h5 : c5cell d (cV Lc) (jV Lc) ∈ ownCells (thr d Lc) := (mem_ownCells (g := c5cell d (cV Lc) (jV Lc))).mpr ⟨rfl, by
      show (SemLoc.dma cc0_scratch5.sem : SemLoc sig).isScoped .scVector = true; decide⟩
  have h6 : c6cell d (cV Lc) (jV Lc) ∈ ownCells (thr d Lc) := (mem_ownCells (g := c6cell d (cV Lc) (jV Lc))).mpr ⟨rfl, by
      show (SemLoc.dma cc0_scratch6.sem : SemLoc sig).isScoped .scVector = true; decide⟩
  have h0 : r0cell d (cV Lc) (jV Lc) ∈ ownCells (thr d Lc) := (mem_ownCells (g := r0cell d (cV Lc) (jV Lc))).mpr ⟨rfl, by
      show (SemLoc.dma cc0_scoped0.sem : SemLoc sig).isScoped .scVector = true; decide⟩
  have h1 : r1cell d (cV Lc) (jV Lc) ∈ ownCells (thr d Lc) := (mem_ownCells (g := r1cell d (cV Lc) (jV Lc))).mpr ⟨rfl, by
      show (SemLoc.dma cc0_scoped1.sem : SemLoc sig).isScoped .scVector = true; decide⟩
  have n65 : c6cell d (cV Lc) (jV Lc) ≠ c5cell d (cV Lc) (jV Lc) := by simp [c5cell, c6cell]; decide
  have n05 : r0cell d (cV Lc) (jV Lc) ≠ c5cell d (cV Lc) (jV Lc) := by simp [c5cell, r0cell]; decide
  have n06 : r0cell d (cV Lc) (jV Lc) ≠ c6cell d (cV Lc) (jV Lc) := by simp [c6cell, r0cell]; decide
  have n15 : r1cell d (cV Lc) (jV Lc) ≠ c5cell d (cV Lc) (jV Lc) := by simp [c5cell, r1cell]; decide
  have n16 : r1cell d (cV Lc) (jV Lc) ≠ c6cell d (cV Lc) (jV Lc) := by simp [c6cell, r1cell]; decide
  have n10 : r1cell d (cV Lc) (jV Lc) ≠ r0cell d (cV Lc) (jV Lc) := by simp [r0cell, r1cell]; decide
  rw [SparseCore.bigSep_erase' h5,
    SparseCore.bigSep_erase' (Finset.mem_erase.mpr ⟨n65, h6⟩),
    SparseCore.bigSep_erase' (Finset.mem_erase.mpr ⟨n06, Finset.mem_erase.mpr ⟨n05, h0⟩⟩),
    SparseCore.bigSep_erase' (Finset.mem_erase.mpr ⟨n10, Finset.mem_erase.mpr ⟨n16, Finset.mem_erase.mpr ⟨n15, h1⟩⟩⟩)]

abbrev bRef (r : Ref sig .scVector) : DevRef τ sig := (Proc.scVector (cV Lc) (jV Lc)).devRef r

omit [FloatOps F] in
theorem ownBufs_V :
    (ownBufs (thr d Lc) : sProp 𝕄)
      = iprop((∃ f, (thr d Lc).loc cc0_scratch0 ↦{fullShare} f) ∗ (∃ f, (thr d Lc).loc cc0_scratch1 ↦{fullShare} f)
          ∗ (∃ f, (thr d Lc).loc cc0_scratch2 ↦{fullShare} f) ∗ (∃ f, (thr d Lc).loc cc0_scratch3 ↦{fullShare} f)
          ∗ (∃ f, (thr d Lc).loc cc0_scratch4 ↦{fullShare} f)
          ∗ bigSep ((((((ownRefs (τ := τ) (.scVector (cV Lc) (jV Lc))).erase (bRef Lc cc0_scratch0)).erase (bRef Lc cc0_scratch1)).erase (bRef Lc cc0_scratch2)).erase
              (bRef Lc cc0_scratch3)).erase (bRef Lc cc0_scratch4))
              fun b => iprop(∃ f, ((d, b) : Loc nD τ sig) ↦{fullShare} f)) := by
  unfold SparseCore.Cfg.ownBufs
  have m0 : bRef Lc cc0_scratch0 ∈ ownRefs (τ := τ) (.scVector (cV Lc) (jV Lc)) := SparseCore.Cfg.mem_ownRefs_of_owner (p := Proc.scVector (cV Lc) (jV Lc)) (b := bRef Lc cc0_scratch0) rfl
  have m1 : bRef Lc cc0_scratch1 ∈ ownRefs (τ := τ) (.scVector (cV Lc) (jV Lc)) := SparseCore.Cfg.mem_ownRefs_of_owner (p := Proc.scVector (cV Lc) (jV Lc)) (b := bRef Lc cc0_scratch1) rfl
  have m2 : bRef Lc cc0_scratch2 ∈ ownRefs (τ := τ) (.scVector (cV Lc) (jV Lc)) := SparseCore.Cfg.mem_ownRefs_of_owner (p := Proc.scVector (cV Lc) (jV Lc)) (b := bRef Lc cc0_scratch2) rfl
  have m3 : bRef Lc cc0_scratch3 ∈ ownRefs (τ := τ) (.scVector (cV Lc) (jV Lc)) := SparseCore.Cfg.mem_ownRefs_of_owner (p := Proc.scVector (cV Lc) (jV Lc)) (b := bRef Lc cc0_scratch3) rfl
  have m4 : bRef Lc cc0_scratch4 ∈ ownRefs (τ := τ) (.scVector (cV Lc) (jV Lc)) := SparseCore.Cfg.mem_ownRefs_of_owner (p := Proc.scVector (cV Lc) (jV Lc)) (b := bRef Lc cc0_scratch4) rfl
  have ne (r r' : Ref sig .scVector) (h : r ≠ r') : bRef Lc r ≠ bRef Lc r' := fun e => absurd (Proc.devRef_injective _ e) h
  refine (SparseCore.bigSep_erase' (m0)).trans ?_
  rw [SparseCore.bigSep_erase' (Finset.mem_erase.mpr ⟨ne cc0_scratch1 cc0_scratch0 (by decide), m1⟩),
    SparseCore.bigSep_erase' (Finset.mem_erase.mpr ⟨ne cc0_scratch2 cc0_scratch1 (by decide), Finset.mem_erase.mpr ⟨ne cc0_scratch2 cc0_scratch0 (by decide), m2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), m3⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), m4⟩⟩⟩⟩)]

/-! ## The held forms, as the body's memrefs address them -/

omit [FloatOps F] in
theorem pts_s0 (f : Buf (Elt F) ((thr d Lc).loc cc0_scratch0)) : ((s0).view.loc (thr d Lc) ↦{fullShare} f : sProp 𝕄) = (thr d Lc).loc cc0_scratch0 ↦{fullShare} f := rfl
omit [FloatOps F] in
theorem pts_s1 (f : Buf (Elt F) ((thr d Lc).loc cc0_scratch1)) : ((s1).view.loc (thr d Lc) ↦{fullShare} f : sProp 𝕄) = (thr d Lc).loc cc0_scratch1 ↦{fullShare} f := rfl
omit [FloatOps F] in
theorem pts_s2 (f : Buf (Elt F) ((thr d Lc).loc cc0_scratch2)) : ((s2).view.loc (thr d Lc) ↦{fullShare} f : sProp 𝕄) = (thr d Lc).loc cc0_scratch2 ↦{fullShare} f := rfl
omit [FloatOps F] in
theorem pts_s3 (f : Buf (Elt F) ((thr d Lc).loc cc0_scratch3)) : ((s3).view.loc (thr d Lc) ↦{fullShare} f : sProp 𝕄) = (thr d Lc).loc cc0_scratch3 ↦{fullShare} f := rfl
omit [FloatOps F] in
theorem pts_s4 (f : Buf (Elt F) ((thr d Lc).loc cc0_scratch4)) : ((s4).view.loc (thr d Lc) ↦{fullShare} f : sProp 𝕄) = (thr d Lc).loc cc0_scratch4 ↦{fullShare} f := rfl

abbrev Tup : Type := IVec S16 32 × IVec S16 32 × IVec S16 32 × IVec S16 32 × IVec S16 32 × IVec S16 32 × IVec S16 32 × IVec S16 32 × IVec S16 32 × IVec S16 32

/-- Loop 1 keeps the chunk's lower part (everything but the slice the second copy is landing in). -/
def inv1 (g0 : Buf (Elt F) ((thr d Lc).loc cc0_scratch0)) (_ : Nat) (_ : Tup) : sProp 𝕄 :=
  iprop(((s0).view.loc (thr d Lc) ↦[Finset.univ \ (v10m).view.set]{fullShare} g0))

/-- Loop 2 and everything after hold the chunk whole. -/
def inv2 (g1 : Buf (Elt F) ((thr d Lc).loc cc0_scratch0)) (_ : Nat) (_ : Tup) : sProp 𝕄 :=
  iprop(((s0).view.loc (thr d Lc) ↦{fullShare} g1))

set_option maxHeartbeats 4000000 in
theorem tile_frame : TileBody (F := F) m (fun _ _ _ => True) := by
  intro d Lc qd qt O W hO
  simp only [cc0_digit_hist_partial_eq_skeleton]; unfold cc0_digit_hist_partial_skel
  rw [(K (F := F)).scopedBufs_V facts d (cV Lc) (jV Lc), SparseCore.Cfg.scopedSems0_V (Val := Elt F) d (cV Lc) (jV Lc), ownSems0_V, ownBufs_V]
  iintro ⟨#Hlv, -, ⟨Hd, Ht, Ho⟩, ⟨⟨%f0, Hs0⟩, ⟨%f1, Hs1⟩, ⟨%f2, Hs2⟩, ⟨%f3, Hs3⟩, ⟨%f4, Hs4⟩, Hbufs⟩, ⟨Hsem5, Hsem6, HsemR0, HsemR1, Hsems⟩, HO⟩
  ihave Hmw := ((K (F := F)).mayWaits_none (thr := thr d Lc) hO) $$ Hlv
  have hsl := slices_disj Lc
  ihave Hd := (Entails.of_eq (pts_dV_univ (F := F) d Lc qd _).symm) $$ Hd
  ihave Ht := (Entails.of_eq (pts_tV_univ (F := F) d Lc qt _).symm) $$ Ht
  ihave Ho := (Entails.of_eq (pts_oRowK (F := F) d Lc _).symm) $$ Ho
  ihave Hs0 := (Entails.of_eq (pts_s0 (F := F) d Lc _).symm) $$ Hs0
  ihave Hs1 := (Entails.of_eq (pts_s1 (F := F) d Lc _).symm) $$ Hs1
  ihave Hs2 := (Entails.of_eq (pts_s2 (F := F) d Lc _).symm) $$ Hs2
  ihave Hs3 := (Entails.of_eq (pts_s3 (F := F) d Lc _).symm) $$ Hs3
  ihave Hs4 := (Entails.of_eq (pts_s4 (F := F) d Lc _).symm) $$ Hs4
  ihave Hs0' := (pointsTo_split_subset (Finset.subset_univ (v10m).view.set)).1 $$ Hs0
  icases Hs0' with ⟨Hs0b, Hs0a⟩
  ihave Hs0b := (Entails.of_eq (show (((s0).view.loc (thr d Lc) ↦[(v10m).view.set]{fullShare} f0 : sProp 𝕄)) = ((v10m).view.loc (thr d Lc) ↦[(v10m).view.set]{fullShare} f0) from rfl)) $$ Hs0b
  sl_exec
  generalize (Memref.whole cc0_scratch0).view.writes (Elt F) f0 [⟨Rect.unit (s := S32768) ![0] S16128.size inb_S32768_S16128_0, tile_frame.sl.dma0 m d Lc⟩] = g0
  sl_for (inv1 (F := F) d Lc g0) $$ [Hs0a]
  case region =>
    intro k c
    have hk : k.val < 18 := k.isLt
    unfold inv1
    iintro Hs0a
    sl_exec (disch := (refine lower_disj _ _ ?_; simp only [ClosedOff.form, Matrix.cons_val_zero]; omega))
    sl_step
    iexact Hs0a
  · unfold inv1
    iexact Hs0a
  iintro %c1 HI
  unfold inv1
  sl_exec
  ihave Hs0b := (Entails.of_eq (show ((v10m).view.loc (thr d Lc) ↦[(v10m).view.set]{fullShare} (v10m.view.writes (Elt F) v10m.view.junk [⟨Rect.whole S16640, tile_frame.sl.dma0_1 m d Lc⟩]) : sProp 𝕄)
      = ((s0).view.loc (thr d Lc) ↦[(v10m).view.set]{fullShare} (v10m.view.writes (Elt F) v10m.view.junk [⟨Rect.whole S16640, tile_frame.sl.dma0_1 m d Lc⟩])) from rfl)) $$ Hs0b
  ihave Hs0 := (pointsTo_join_subset (ℓ := (s0).view.loc (thr d Lc)) (I := (v10m).view.set) (S := Finset.univ) (q := fullShare) (Finset.subset_univ _)) $$ [Hs0b HI]
  · isplitl [Hs0b]
    · iexact Hs0b
    · iexact HI
  generalize Finset.piecewise (v10m).view.set (v10m.view.writes (Elt F) v10m.view.junk [⟨Rect.whole S16640, tile_frame.sl.dma0_1 m d Lc⟩]) g0 = g1
  sl_for (inv2 (F := F) d Lc g1) $$ [Hs0]
  case region =>
    intro k c
    unfold inv2
    iintro Hs0
    sl_exec
    sl_step
    iexact Hs0
  · unfold inv2
    iexact Hs0
  iintro %c2 HI2
  unfold inv2
  sl_exec
  repeat ((first
    | rw [SparseCore.vectorLoadIdx_bind (c := thr d Lc)]
    | rw [SparseCore.vectorStoreIdx_bind (c := thr d Lc)]); sl_exec)
  sl_step
  isplitl [Hd Ht Ho]
  · isplitl [Hd]
    · iapply (Entails.of_eq (pts_dV_univ (F := F) d Lc qd _)); iexact Hd
    isplitl [Ht]
    · iapply (Entails.of_eq (pts_tV_univ (F := F) d Lc qt _)); iexact Ht
    ihave Ho := (Entails.of_eq (pts_oRowK (F := F) d Lc _)) $$ Ho
    iexists _; isplitr
    rotate_left
    · iexact Ho
    · ipureintro; trivial
  isplitl [HI2 Hs1 Hs2 Hs3 Hs4 Hbufs]
  · isplitl [HI2]
    · iexists _; iapply (Entails.of_eq (pts_s0 (F := F) d Lc _)); iexact HI2
    isplitl [Hs1]
    · iexists _; iapply (Entails.of_eq (pts_s1 (F := F) d Lc _)); iexact Hs1
    isplitl [Hs2]
    · iexists _; iapply (Entails.of_eq (pts_s2 (F := F) d Lc _)); iexact Hs2
    isplitl [Hs3]
    · iexists _; iapply (Entails.of_eq (pts_s3 (F := F) d Lc _)); iexact Hs3
    isplitl [Hs4]
    · iexists _; iapply (Entails.of_eq (pts_s4 (F := F) d Lc _)); iexact Hs4
    iexact Hbufs
  isplitl [Hsem5 Hsem6 HsemR0 HsemR1 Hsems]
  · isplitl [Hsem5]; · iexact Hsem5
    isplitl [Hsem6]; · iexact Hsem6
    isplitl [HsemR0]; · iexact HsemR0
    isplitl [HsemR1]; · iexact HsemR1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.K

end
-- ==== Proof.KI.Setup.lean ====
/-
  The launch set-up of the idealized kernel program, generic in the float instance.

  The program: one device; on it a vector-subcore kernel on a grid of 2 SparseCores by 16 tiles (32 workers), then one
  TensorCore kernel that folds the workers' rows, then a reshape. Worker w = 16 c + i (SparseCore c, tile i) reads the
  digits and the table and writes row w of a 32 x 16 array of partial results.

  What is fixed here: the program as the launch theorem sees it, the ghost state (the handshakes' rounds, the
  TensorCore kernel's staging cells' rounds, the transfers' counters), the three arrays' locations, the worker
  numbering and the rows of the partial-result array, what the handshakes carry (read shares of the digits and the
  table for every worker, row w for worker w, back with the row at contents satisfying an abstract predicate R), and
  the statement of one tile's body obligation, TileBody.
-/
import Idealize.ShloMosaic.Lib.SparseCore.Launch
import Idealize.ShloMosaic.Lib.StableHlo.Run
import Idealize.ShloMosaic.Lib.Pipeline.Kit
import Idealize.ShloMosaic.Lib.Tactic
import proofs.«205564_g40879498729249_retrytranche2_1872_24_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore kernel's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds, the left factor of the right factor; the counters are found by instance in what remains. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The digits and the table (the arguments), the workers' partial results, as locations of device d. -/
abbrev dLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The same arrays as a vector subcore's kernel names them, whole. -/
abbrev dV : Memref sig .scVector .hbm S1048576 .i32 := Memref.whole main_arg0_scv
abbrev tV : Memref sig .scVector .hbm S10x16 .f32 := Memref.whole main_arg1_scv
abbrev oV : Memref sig .scVector .hbm S32x16 .f32 := Memref.whole main_v0_scv

/-! ## Workers and rows -/

/-- Worker number of tile i of SparseCore c. -/
def wOf (c : Fin 2) (i : Fin 16) : Fin 32 := ⟨16 * c.val + i.val, by omega⟩

theorem wOf_bijective : Function.Bijective fun p : Fin 2 × Fin 16 => wOf p.1 p.2 := by
  constructor
  · rintro ⟨c, i⟩ ⟨c', i'⟩ e
    have e' : 16 * c.val + i.val = 16 * c'.val + i'.val := congrArg Fin.val e
    have hc : c = c' := Fin.ext (by omega)
    have hi : i = i' := Fin.ext (by omega)
    rw [hc, hi]
  · intro w
    refine ⟨(⟨w.val / 16, by omega⟩, ⟨w.val % 16, by omega⟩), Fin.ext ?_⟩
    show 16 * (w.val / 16) + w.val % 16 = w.val
    omega

/-- Workers as pairs (SparseCore, tile). -/
def wEquiv : Fin 2 × Fin 16 ≃ Fin 32 := Equiv.ofBijective _ wOf_bijective

theorem wEquiv_apply (c : Fin 2) (i : Fin 16) : wEquiv (c, i) = wOf c i := rfl

theorem hdiv : 32 ∣ S32x16.size 0 := ⟨1, rfl⟩
/-- Row w of the partial results, as a rectangle and as an index set. -/
abbrev row (w : Fin 32) : Rect S32x16 := Rect.part (s := S32x16) (a₀ := 0) hdiv w
abbrev rowSet (w : Fin 32) : Finset S32x16.Idx := ((oV : Memref sig .scVector .hbm S32x16 .f32).view.slice (row w)).set

theorem rowSet_eq (w : Fin 32) : rowSet w = (row w).set := by
  show ((View.whole (main_v0_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-! ## A tile's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the tile at grid coordinates L: 16 (L 0) + (L 1). -/
abbrev wL (L : grid0.Coords) : Fin 32 := wOf (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

/-- The worker's row as its kernel slices it out of the partial results, squeezed to a vector. -/
abbrev rowK (L : grid0.Coords) : Rect S32x16 := Rect.unit (s := S32x16) (k0_off7 L) S1x16.size (k0_off7_inb L)
abbrev oRowK (L : grid0.Coords) : Memref sig .scVector .hbm S16 .f32 :=
  ((oV : Memref sig .scVector .hbm S32x16 .f32).slice (rowK L) (fun _ => rfl)).squeeze S16 squeezes_S1x16_S16

theorem rowK_eq (L : grid0.Coords) : rowK L = row (wL L) := by
  unfold rowK row Rect.part Rect.block
  congr 1 <;> funext a
  · rw [k0_off7_eq]
    match a with
    | 0 => simp [Shape.partIx, Shape.partSize, wOf]; rfl
    | 1 => simp [Shape.partIx, Shape.partSize]
  · match a with
    | 0 => simp [Shape.partSize]
    | 1 => simp [Shape.partSize]

theorem set_oRowK (L : grid0.Coords) : (oRowK L).view.set = rowSet (wL L) := by
  show (((oV : Memref sig .scVector .hbm S32x16 .f32).view.slice (rowK L)).reshape S16 squeezes_S1x16_S16.numel_eq).set
    = ((oV : Memref sig .scVector .hbm S32x16 .f32).view.slice (row (wL L))).set
  rw [View.set_reshape]
  exact rowK_eq L ▸ rfl

/-! ## Read shares: the whole array's share halved per SparseCore, each half again per tile -/

/-- SparseCore c's read share of an array held whole. -/
abbrev coreShare (c : Fin 2) : PosShare TreeShare := shareTok fullShare 2 c
/-- Tile i of SparseCore c's. -/
abbrev tileShare (c : Fin 2) (i : Fin 16) : PosShare TreeShare := shareTok (coreShare c) 16 i

/-! ## What the handshakes carry -/

variable [FloatOps F]

/-- What a worker's row must hold when its task ends: a predicate of the device, the worker and the contents of the
    partial-result array, meant to speak of row w only. -/
abbrev RowPred : Type := (d : Dev nD) → Fin 32 → Buf (Elt F) (oLoc d) → Prop

/-- A worker's operands: read shares qd, qt of the digits and the table at their launch contents, its row at the
    launch contents; -/
abbrev goRes (d : Dev nD) (w : Fin 32) (qd qt : PosShare TreeShare) : sProp 𝕄 :=
  iprop((dLoc d ↦{qd} m (dLoc d)) ∗ (tLoc d ↦{qt} m (tLoc d)) ∗ oLoc d ↦[rowSet w]{fullShare} m (oLoc d))
/-- and results: the shares back, its row at contents of which R holds. -/
abbrev tdRes (R : RowPred (F := F)) (d : Dev nD) (w : Fin 32) (qd qt : PosShare TreeShare) : sProp 𝕄 :=
  iprop((dLoc d ↦{qd} m (dLoc d)) ∗ (tLoc d ↦{qt} m (tLoc d)) ∗ ∃ f, ⌜R d w f⌝ ∗ oLoc d ↦[rowSet w]{fullShare} f)

/-- The one SparseCore call takes, per SparseCore c, its share of the digits and of the table and its sixteen workers'
    rows, hands tile i its part, and brings all back, the rows at what the workers left. -/
def P (R : RowPred (F := F)) : (K (F := F)).Pay (nD := nD) (Val := Elt F) (Name := ℕ) (U := UU) where
  st := fun q d c => match q with
    | 0 => iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d))
  dn := fun q d c => match q with
    | 0 => iprop((dLoc d ↦{coreShare (Fin.cast nCore_zero c)} m (dLoc d)) ∗ (tLoc d ↦{coreShare (Fin.cast nCore_zero c)} m (tLoc d))
        ∗ bigSep Finset.univ fun i : Fin 16 => iprop(∃ f, ⌜R d (wOf (Fin.cast nCore_zero c) i) f⌝ ∗ oLoc d ↦[rowSet (wOf (Fin.cast nCore_zero c) i)]{fullShare} f))
  go := fun q d c i => match q with
    | 0 => goRes m d (wOf (Fin.cast nCore_zero c) (Fin.cast nSub_zero i))
        (tileShare (Fin.cast nCore_zero c) (Fin.cast nSub_zero i)) (tileShare (Fin.cast nCore_zero c) (Fin.cast nSub_zero i))
  td := fun q d c i => match q with
    | 0 => tdRes m R d (wOf (Fin.cast nCore_zero c) (Fin.cast nSub_zero i))
        (tileShare (Fin.cast nCore_zero c) (Fin.cast nSub_zero i)) (tileShare (Fin.cast nCore_zero c) (Fin.cast nSub_zero i))
  x := fun _ _ => iprop(emp)

instance P_storable (R : RowPred (F := F)) : (P (F := F) m R).IsStorable where
  st q d c := match q with
    | 0 => (inferInstance : BI.Storable (upEmb : UEmb _ 𝕄)
        iprop((dLoc d ↦{coreShare (Fin.cast nCore_zero c)} m (dLoc d)) ∗ (tLoc d ↦{coreShare (Fin.cast nCore_zero c)} m (tLoc d))
          ∗ bigSep Finset.univ fun i : Fin 16 => oLoc d ↦[rowSet (wOf (Fin.cast nCore_zero c) i)]{fullShare} m (oLoc d)))
  dn q d c := match q with
    | 0 => (inferInstance : BI.Storable (upEmb : UEmb _ 𝕄)
        iprop((dLoc d ↦{coreShare (Fin.cast nCore_zero c)} m (dLoc d)) ∗ (tLoc d ↦{coreShare (Fin.cast nCore_zero c)} m (tLoc d))
          ∗ bigSep Finset.univ fun i : Fin 16 => iprop(∃ f, ⌜R d (wOf (Fin.cast nCore_zero c) i) f⌝ ∗ oLoc d ↦[rowSet (wOf (Fin.cast nCore_zero c) i)]{fullShare} f)))
  go q d c i := match q with
    | 0 => (inferInstance : BI.Storable (upEmb : UEmb _ 𝕄) (goRes m d (wOf (Fin.cast nCore_zero c) (Fin.cast nSub_zero i))
        (tileShare (Fin.cast nCore_zero c) (Fin.cast nSub_zero i)) (tileShare (Fin.cast nCore_zero c) (Fin.cast nSub_zero i))))
  td q d c i := match q with
    | 0 => (inferInstance : BI.Storable (upEmb : UEmb _ 𝕄) (tdRes m R d (wOf (Fin.cast nCore_zero c) (Fin.cast nSub_zero i))
        (tileShare (Fin.cast nCore_zero c) (Fin.cast nSub_zero i)) (tileShare (Fin.cast nCore_zero c) (Fin.cast nSub_zero i))))

/-! ## The arrays as a tile addresses them -/

section Tile

variable (d : Dev nD) (L : grid0.Coords)

omit [FloatOps F] in
theorem pts_dV (q : PosShare TreeShare) (f : Buf (Elt F) (dLoc d)) :
    ((dV : Memref sig .scVector .hbm S1048576 .i32).view.loc (V d (cV L) (jV L)) ↦[(dV : Memref sig .scVector .hbm S1048576 .i32).view.set]{q} f : sProp 𝕄)
      = dLoc d ↦{q} f := by
  simp only [Memref.view_whole, View.set_whole]
omit [FloatOps F] in
theorem pts_dV_univ (q : PosShare TreeShare) (f : Buf (Elt F) (dLoc d)) :
    ((dV : Memref sig .scVector .hbm S1048576 .i32).view.loc (V d (cV L) (jV L)) ↦{q} f : sProp 𝕄) = dLoc d ↦{q} f := rfl
omit [FloatOps F] in
theorem pts_tV (q : PosShare TreeShare) (f : Buf (Elt F) (tLoc d)) :
    ((tV : Memref sig .scVector .hbm S10x16 .f32).view.loc (V d (cV L) (jV L)) ↦[(tV : Memref sig .scVector .hbm S10x16 .f32).view.set]{q} f : sProp 𝕄)
      = tLoc d ↦{q} f := by
  simp only [Memref.view_whole, View.set_whole]
omit [FloatOps F] in
theorem pts_tV_univ (q : PosShare TreeShare) (f : Buf (Elt F) (tLoc d)) :
    ((tV : Memref sig .scVector .hbm S10x16 .f32).view.loc (V d (cV L) (jV L)) ↦{q} f : sProp 𝕄) = tLoc d ↦{q} f := rfl
omit [FloatOps F] in
/-- The worker's row, held on the index set its kernel's sliced memref names, is row wL of the partial results. -/
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]

end Tile

/-! ## One tile's body obligation -/

/-- The task of the tile at grid coordinates Lc of device d: from read shares (any) of the digits and the table at their
    launch contents, its row of the partial results at the launch contents, its scoped storage, and what it owes the
    launch (nothing at the index of its own waits), the kernel function, called as the body table calls it, runs to its
    end and gives back the shares, the row at contents of which R holds, the scoped storage, and what it owed, its own
    waits recorded. -/
def TileBody (R : RowPred (F := F)) : Prop :=
  ∀ (d : Dev nD) (Lc : grid0.Coords) (qd qt : PosShare TreeShare) (O : CellTallies nD τ sig (HIx 1)) (W : Waits sig (HIx 1)), (∀ g, O g none = 0) →
    iprop(levAts (K (F := F)).L (K (F := F)).lev ∗ emp ∗ goRes m d (wL Lc) qd qt
        ∗ scopedBufs (V d (cV Lc) (jV Lc)) ∗ scopedSems0 (V d (cV Lc) (jV Lc)) ∗ owes (V d (cV Lc) (jV Lc)) O W)
      ⊢ wp frame (wpE (defs₀ (F := F)) 𝒱₀ (V d (cV Lc) (jV Lc)) none) Set.univ
          (cc0_digit_hist_partial Lc (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1)
          fun _ => iprop(tdRes m R d (wL Lc) qd qt ∗ scopedBufs (V d (cV Lc) (jV Lc)) ∗ scopedSems0 (V d (cV Lc) (jV Lc))
            ∗ ∃ W', ⌜∀ p ∈ W', p ∈ W ∨ p.2 = none⌝ ∗ owes (V d (cV Lc) (jV Lc)) O W')

end Cert.Proof.KI

end
-- ==== Proof.KI.LaunchTiles.lean ====
/-
  The launch theorem's obligations for the vector-subcore kernel, from one tile's body obligation.

  Every tile's task is the body obligation at its grid coordinates. A SparseCore's operands split among its sixteen
  tiles: each read share (of the digits, of the table) is halved sixteen times, tile i taking the i-th right half, what
  remains set aside until the tiles' shares come back; the sixteen rows are dealt one per worker and come back each at
  contents of which the row predicate holds.
-/
import proofs.«205564_g40879498729249_retrytranche2_1872_24_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch theorem's obligation for the tiles -/

theorem defs₀_vector (c : Fin τ.nSC) (s : Fin τ.nSub) :
    defs₀ (F := F) (.scVector c s) 0 ()
      = SparseCore.onTile hcore0 hsub0 (fun c s => cc0_digit_hist_partial (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (R : RowPred (F := F)) (hbody : TileBody m R) : (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) _ _ O W hO).trans (wp_mono frame _ _ fun _ => obl_post)

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (R : RowPred (F := F)) : (K (F := F)).VecSplit' (P m R) 0 := by
  intro d c
  show iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d))
      ⊢ |={Set.univ}=> iprop(
      (bigSep Finset.univ fun i : Fin ((K (F := F)).nSub 0) =>
        goRes m d (wOf (Fin.cast nCore_zero c) (Fin.cast nSub_zero i))
          (tileShare (Fin.cast nCore_zero c) (Fin.cast nSub_zero i)) (tileShare (Fin.cast nCore_zero c) (Fin.cast nSub_zero i)))
      ∗ ((bigSep Finset.univ fun i : Fin ((K (F := F)).nSub 0) =>
          tdRes m R d (wOf (Fin.cast nCore_zero c) (Fin.cast nSub_zero i))
            (tileShare (Fin.cast nCore_zero c) (Fin.cast nSub_zero i)) (tileShare (Fin.cast nCore_zero c) (Fin.cast nSub_zero i)))
          -∗ iprop((dLoc d ↦{coreShare (Fin.cast nCore_zero c)} m (dLoc d)) ∗ (tLoc d ↦{coreShare (Fin.cast nCore_zero c)} m (tLoc d))
            ∗ bigSep Finset.univ fun i : Fin 16 => iprop(∃ f, ⌜R d (wOf (Fin.cast nCore_zero c) i) f⌝ ∗ oLoc d ↦[rowSet (wOf (Fin.cast nCore_zero c) i)]{fullShare} f))))
  generalize Fin.cast nCore_zero c = c'
  rw [bigSep_tasks (F := F) (fun i => goRes m d (wOf c' i) (tileShare c' i) (tileShare c' i)),
    bigSep_tasks (F := F) (fun i => tdRes m R d (wOf c' i) (tileShare c' i) (tileShare c' i)), bigSep_sep', bigSep_sep', bigSep_sep', bigSep_sep']
  iintro ⟨Hd, Ht, Ho⟩
  ihave Hd' := (Transfers.pointsTo_toks_split (coreShare c') 16) $$ Hd
  icases Hd' with ⟨Hdr, Hds⟩
  ihave Ht' := (Transfers.pointsTo_toks_split (coreShare c') 16) $$ Ht
  icases Ht' with ⟨Htr, Hts⟩
  imodintro
  isplitl [Hds Hts Ho]
  · isplitl [Hds]; · iexact Hds
    isplitl [Hts]; · iexact Hts
    iexact Ho
  iintro ⟨Hds, Hts, Ho⟩
  isplitl [Hdr Hds]
  · iapply (Transfers.pointsTo_toks_join (coreShare c') 16); isplitl [Hdr] <;> iassumption
  isplitl [Htr Hts]
  · iapply (Transfers.pointsTo_toks_join (coreShare c') 16); isplitl [Htr] <;> iassumption
  iexact Ho

end Cert.Proof.KI

end
-- ==== Proof.KI.Fold.lean ====
/-
  The TensorCore kernel that folds the thirty-two workers' rows, as one region of @main.

  Its body loads the staged 32 x 16 block, loads the result's staging buffer, and stores the column sums over the rows
  as a 1 x 16 block, overwriting all of that buffer. The region's proof data: the partial results as the region is
  entered with them (a parameter f), fetched whole; the result written back whole. What the result array holds
  afterwards is named foldOut.
-/
import proofs.«205564_g40879498729249_retrytranche2_1872_24_alg».proof.Proof.KI.Setup
import proofs.«205564_g40879498729249_retrytranche2_1872_24_alg».proof.Proof.Gen.KernelIdeal.Skeleton
import proofs.«205564_g40879498729249_retrytranche2_1872_24_alg».proof.Proof.Gen.KernelIdeal.Launch
import proofs.«205564_g40879498729249_retrytranche2_1872_24_alg».proof.Proof.Gen.KernelIdeal.Points
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-! ## The TensorCore kernel's body: two loads and a store -/

-- the two staging buffers of the kernel's windows, each addressed whole
local notation "sg0" => (Memref.whole Cert.KernelIdeal.cc1_stg0_0 : Memref Cert.KernelIdeal.sig Kind.tc Space.vmem Cert.KernelIdeal.S32x16 EltTy.f32)
local notation "sg1" => (Memref.whole Cert.KernelIdeal.cc1_stg1_0 : Memref Cert.KernelIdeal.sig Kind.tc Space.vmem Cert.KernelIdeal.S1x16 EltTy.f32)

/-- The whole 32 x 16 block as the body loads it from its staging buffer holding f0. -/
abbrev loaded0 (c : Dev nD) (f0 : Buf (Elt F) ((sg0).view.loc (c : Thread nD τ))) : Vec F S32x16 .f32 :=
  View.readAt (Elt F) (sg0).view (Rect.unit (s := S32x16) ![0, 0] S32x16.size inb_S32x16_S32x16_0_0).toLoadRect f0

/-- The body from its two staging buffers held whole: the input's is kept, the result's is overwritten, through the
    whole-block rectangle, by the fold of what was loaded. -/
theorem fold_run (c : Dev nD) (f0 : Buf (Elt F) ((sg0).view.loc (c : Thread nD τ))) (f1 : Buf (Elt F) ((sg1).view.loc (c : Thread nD τ)))
    (Q : PUnit → sProp 𝕄) :
    iprop(((sg0).view.loc (c : Thread nD τ) ↦{fullShare} f0) ∗ ((sg1).view.loc (c : Thread nD τ) ↦{fullShare} f1)
        ∗ (iprop(((sg0).view.loc (c : Thread nD τ) ↦{fullShare} f0)
            ∗ ((sg1).view.loc (c : Thread nD τ) ↦{fullShare} (sg1).view.writes (Elt F) f1
                [⟨Rect.unit (s := S1x16) ![0, 0] S1x16.size inb_S1x16_S1x16_0_0, k1_pay1 (loaded0 c f0)⟩])) -∗ Q ⟨⟩))
      ⊢ wp frame (wpE (defs₀ (F := F)) Variants.none (c : Thread nD τ) none) Set.univ
          (cc1_fold_body (F := F) sg0 (Memref.isWhole_whole _) sg1 (Memref.isWhole_whole _)) Q := by
  iintro ⟨H0, H1, Hk⟩
  rw [cc1_fold_body_eq_skeleton]; unfold cc1_fold_body_skel
  sl_exec
  sl_step
  iapply Hk
  isplitl [H0]; · iexact H0
  iexact H1

omit [FloatOps F] in
/-- The whole-block rectangle of a 1 x 16 buffer places every index at itself. -/
theorem emb_whole1 (x : S1x16.Idx) : (Rect.unit (s := S1x16) ![0, 0] S1x16.size inb_S1x16_S1x16_0_0).emb x = x := by
  funext a; apply Fin.ext
  rw [Rect.emb_apply]
  fin_cases a <;> simp

omit [FloatOps F] in
/-- A store through the whole-block rectangle leaves the payload, whatever the buffer held. -/
theorem writes_whole1 (c : Dev nD) (f1 : Buf (Elt F) ((sg1).view.loc (c : Thread nD τ))) (w : S1x16.Idx → Elt F .f32) :
    (sg1).view.writes (Elt F) f1 [⟨Rect.unit (s := S1x16) ![0, 0] S1x16.size inb_S1x16_S1x16_0_0, w⟩] = w := by
  funext y
  have h := View.read_writes_cons_emb (Val := Elt F) (sg1).view f1 (Rect.unit (s := S1x16) ![0, 0] S1x16.size inb_S1x16_S1x16_0_0) w [] y
  rw [emb_whole1] at h
  exact h

/-! ## The TensorCore kernel's region: its proof data -/

abbrev adm : (p : Fin 1) → (pcfgs (F := F) p).Adm := fun p => (cfgs p).toPCfg_adm

/-- The folded partial results, as a location of device d. -/
abbrev v1Loc (d : Dev nD) : Loc nD τ sig := (SparseCore.T d).loc main_v1

/-- What the fetch stages: the whole partial-result array, read as the window's one block. -/
abbrev xstg (c : Dev nD) (f : Buf (Elt F) (oLoc c)) : (cfg1.win 0).block.Idx → Elt F (cfg1.win 0).elt :=
  ((cfg1.win 0).blk t1_0).view.read (Elt F) f

/-- What the body leaves in the result's staging buffer: the fold of what was staged. -/
abbrev foldedStg (c : Dev nD) (f : Buf (Elt F) (oLoc c)) : (cfg1.win 1).block.Idx → Elt F (cfg1.win 1).elt :=
  k1_pay1 (loaded0 c (xstg c f))

/-- The region's proof data: the partial results as the SparseCore call left them and the result array at its launch
    contents; after the body the input as fetched, the result folded; no invariant of its own; nothing owed. -/
def datF (c : Dev nD) (f : Buf (Elt F) (oLoc c)) : Pipeline.Dat τ (Elt F) (HIx 1) ℕ UU ℕ cfg1 c where
  A w := match w with
    | ⟨0, _⟩ => f
    | ⟨1, _⟩ => m (v1Loc c)
  after w _ := match w with
    | ⟨0, _⟩ => xstg c f
    | ⟨1, _⟩ => foldedStg c f
  Φ _ := iprop(emp)
  q _ := fullShare
  owed _ := 0
  recorded _ := {p | (K (F := F)).lev (SparseCore.T c, p.1) p.2 ≤ 8}

/-- What the result array holds after the region entered with the partial results f. -/
abbrev foldOut (c : Dev nD) (f : Buf (Elt F) (oLoc c)) : Buf (Elt F) (v1Loc c) := (datF m c f).arrAt 1 cfg1.N

theorem before_in (c : Dev nD) (f : Buf (Elt F) (oLoc c)) (d : (cfg1.win 0).block.Idx → Elt F (cfg1.win 0).elt) : (datF m c f).before 0 t1_0 d = xstg c f := by
  unfold Pipeline.Dat.before; rw [if_pos (fetch1_0 t1_0)]; rfl

omit [FloatOps F] in
theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body obligation on device c: the two staging buffers taken apart, the body run, the result's buffer read back. -/
theorem body_obligation (c : Dev nD) (f : Buf (Elt F) (oLoc c)) : Pipeline.BodyObligation (datF (F := F) m c f) (defs₀ (F := F)) 𝒱₀ (none : HIx 1) Set.univ := fun t => by
  obtain rfl := fin_N1 t
  rw [bigSep_W1, bigSep_W1]
  simp only [owns_whole_eq]
  rw [show (datF m c f).Φ t1_0.castSucc = iprop(emp) from rfl, show (datF m c f).Φ t1_0.succ = iprop(emp) from rfl,
    show (datF m c f).owesAt none t1_0.succ = (datF m c f).owesAt none t1_0.castSucc from rfl]
  iintro ⟨-, HO, ⟨%d0, %f0, %hf0, H0⟩, ⟨%d1, %f1, %hf1, H1⟩⟩
  rw [before_in] at hf0
  subst hf0
  iapply (fold_run c (xstg c f) f1 _)
  isplitl [H0]; · iexact H0
  isplitl [H1]; · iexact H1
  iintro ⟨H0, H1⟩
  isplitr; · iempintro
  isplitl [HO]; · iexact HO
  isplitl [H0]
  · iexists _; isplitr; swap; (· iexact H0); ipureintro; rfl
  iexists _; isplitr; swap; (· iexact H1); ipureintro; exact writes_whole1 c f1 _

-- the partial results the region is entered with, on every device
variable (fs : (c : Dev nD) → Buf (Elt F) (oLoc c))

def pdats : (p : Fin 1) → (c : Dev nD) → Pipeline.Dat τ (Elt F) (HIx 1) ℕ UU ℕ (Pipeline.pin (pcfgs (F := F)) adm p) c
  | 0 => fun c => datF m c (fs c)

/-! ## The region's record -/

/-- A buffer of device c at the full share, spelt at the location. -/
abbrev pl (c : Dev nD) (b : Ref sig .tc) (f : b.ty.Contents (Elt F)) : sProp 𝕄 := ((c : Thread nD τ).loc b) ↦{fullShare} f

/-- What the TensorCore owes after its last SparseCore call (nothing), its recorded waits below the level of that call's end. -/
abbrev owesTc (c : Dev nD) : sProp 𝕄 :=
  iprop(∃ W, ⌜(K (F := F)).WBelow (SparseCore.T c) W 8⌝ ∗ owes (SparseCore.T c) (0 : CellTallies nD τ sig (HIx 1)) W)

theorem arrays_eq (c : Dev nD) (Fa) : ((pdats (F := F) m fs 0 c).arrays Fa : sProp 𝕄) = iprop(pl c main_v0 (Fa 0) ∗ pl c main_v1 (Fa 1)) := by
  rw [Pipeline.arrays_eq (Pipeline.pin (pcfgs (F := F)) adm) (pdats m fs) 0 c launch1.arr_whole ((pdats m fs 0 c).share_full fun _ => rfl) Fa, bigSep_W1]

/-- The input array reaches the region's exit as it entered. -/
theorem arrAt_in (c : Dev nD) : (pdats (F := F) m fs 0 c).arrAt 0 (Pipeline.pin (pcfgs (F := F)) adm 0).N = fs c :=
  (datF (F := F) m c (fs c)).arrAt_in 0 rfl _
theorem arrAt_out (c : Dev nD) : (pdats (F := F) m fs 0 c).arrAt 1 (Pipeline.pin (pcfgs (F := F)) adm 0).N = foldOut m c (fs c) := rfl

/-- The region: the two arrays into the pipeline and back, the result folded; nothing else enters; the TensorCore owes
    nothing throughout, so its staging waits (at no call's index) are admissible. -/
def reg : Pipeline.RegionSeg (pcfgs (F := F)) adm (pdats m fs) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c (fs c)).loose
  hwaits := Pipeline.hwaits_of_owed_zero _ _ _ _ (K (F := F)).L (K (F := F)).lev 0 fun _ _ => rfl
  pre c := iprop(pl c main_v0 (fs c) ∗ pl c main_v1 (m (v1Loc c)) ∗ owesTc c)
  post c := iprop(pl c main_v0 (fs c) ∗ pl c main_v1 (foldOut m c (fs c)) ∗ owesTc c)
  X _ := iprop(emp)
  Y _ := iprop(emp)
  Z _ := iprop(emp)
  hentry c := by
    rw [Pipeline.ownSems0_none, arrays_eq]
    iintro ⟨⟨H0, H1, %W, %hW, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_in, arrAt_out]
    iintro ⟨⟨H0, H1⟩, HO, -, -⟩
    imodintro
    isplitl [H0]; · iexact H0
    isplitl [H1]; · iexact H1
    unfold Pipeline.Dat.owesAt Pipeline.owesWithin
    icases HO with ⟨%W, %hW, HO⟩
    iexists W; isplitr
    · ipureintro; intro p hp
      rcases hW hp with h | ⟨w, s, rfl⟩
      · exact h
      · exact Nat.zero_le _
    iexact HO

end Cert.Proof.KI

end
-- ==== Proof.KI.FoldValue.lean ====
/-
  What the TensorCore kernel's region leaves in the result array, in closed form.

  Both windows of the kernel are whole arrays: the one block of each sits at the array's own indices. So what the body
  loads from the staged block is the partial-result array f itself, and the one write-back writes the whole result
  array with what the body stored: the fold (column sums over the thirty-two rows) of f.
-/
import proofs.«205564_g40879498729249_retrytranche2_1872_24_alg».proof.Proof.KI.Fold
import Idealize.ShloMosaic.Lib.Pipeline.Value
import proofs.«205564_g40879498729249_retrytranche2_1872_24_alg».proof.Proof.Gen.KernelIdeal.Skeleton
import proofs.«205564_g40879498729249_retrytranche2_1872_24_alg».proof.Proof.Gen.KernelIdeal.Launch
import proofs.«205564_g40879498729249_retrytranche2_1872_24_alg».proof.Proof.Gen.KernelIdeal.Points
import Idealize.ShloMosaic.Lib.Pipeline.Regions

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
/-- The result window's one block is the whole array: an index of the block sits at itself. -/
theorem emb_blk1 (y : ((cfg1.win 1).xblock (cfg1.grid.coords t1_0)).Idx) : ((cfg1.win 1).blk t1_0).view.emb y = y := by
  funext a; apply Fin.ext
  show (((View.whole (main_v1 : Ref sig .tc)).slice ((cfg1.win 1).rect t1_0)).emb y a).val = (y a).val
  rw [View.emb_slice, Function.Embedding.trans_apply, View.emb_whole, Function.Embedding.refl_apply, Rect.emb_apply]
  fin_cases a <;> simp <;> exact Or.inl rfl

omit [FloatOps F] in
theorem emb_blk0 (y : ((cfg1.win 0).xblock (cfg1.grid.coords t1_0)).Idx) : ((cfg1.win 0).blk t1_0).view.emb y = y := by
  funext a; apply Fin.ext
  show (((View.whole (main_v0 : Ref sig .tc)).slice ((cfg1.win 0).rect t1_0)).emb y a).val = (y a).val
  rw [View.emb_slice, Function.Embedding.trans_apply, View.emb_whole, Function.Embedding.refl_apply, Rect.emb_apply]
  fin_cases a <;> simp <;> exact Or.inl rfl

omit [FloatOps F] in
/-- The whole-block load rectangle of the 32 x 16 staging buffer reads every index at itself. -/
theorem idx_whole0 (x : S32x16.Idx) : (Rect.unit (s := S32x16) ![0, 0] S32x16.size inb_S32x16_S32x16_0_0).toLoadRect.idx x = x := by
  funext a; apply Fin.ext
  rw [LoadRect.idx_apply]
  fin_cases a <;> simp

omit [FloatOps F] in
/-- What the body loads from the staged block is the partial-result array itself. -/
theorem loaded0_xstg (c : Dev nD) (f : Buf (Elt F) (oLoc c)) : loaded0 c (xstg c f) = f := by
  funext x
  show View.read (Elt F) (View.whole (cc1_stg0_0 : Ref sig .tc)) (xstg c f) ((Rect.unit (s := S32x16) ![0, 0] S32x16.size inb_S32x16_S32x16_0_0).toLoadRect.idx x) = f x
  rw [idx_whole0, View.read_whole]
  show View.read (Elt F) ((cfg1.win 0).blk t1_0).view f x = f x
  rw [View.read_apply, emb_blk0]
  rfl

theorem foldOut_eq (c : Dev nD) (f : Buf (Elt F) (oLoc c)) : foldOut m c f = (k1_pay1 (F := F) f : Buf (Elt F) (v1Loc c)) := by
  refine (datF m c f).arrAt_eq_of_cover 1 _ (fun t _ => ?_) (fun i => ⟨t1_0, flush1_1 t1_0, ?_⟩)
  · obtain rfl := fin_N1 t
    funext y
    rw [View.read_apply, emb_blk1]
    show k1_pay1 (loaded0 c (xstg c f)) y = k1_pay1 f y
    rw [loaded0_xstg]
  · have h := ((cfg1.win 1).blk t1_0).view.emb_mem_set i
    rwa [emb_blk1] at h

end Cert.Proof.KI

end
-- ==== Proof.KI.Launch.lean ====
/-
  The launch of the idealized kernel program, generic in the float instance, from one tile's body obligation.

  @main on the TensorCore: the digits' and the table's full shares are halved per SparseCore, what remains kept; the
  partial-result array is cut into its thirty-two rows (pairwise disjoint, covering it); the one SparseCore call takes
  the two SparseCores' parts and brings them back, each row at contents of which the row predicate holds; the shares
  rejoin, the rows rejoin into one array f of which the predicate holds at every worker (the predicate only reads its
  own row); the TensorCore kernel's region folds f; the reshape reads the folded row. The arguments end unchanged and the
  result is the reshape of the fold of f.
-/
import proofs.«205564_g40879498729249_retrytranche2_1872_24_alg».proof.Proof.KI.LaunchTiles
import proofs.«205564_g40879498729249_retrytranche2_1872_24_alg».proof.Proof.KI.Fold
import proofs.«205564_g40879498729249_retrytranche2_1872_24_alg».proof.Proof.KI.FoldValue

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The result, as a location of device d. -/
abbrev v2Loc (d : Dev nD) : Loc nD τ sig := (SparseCore.T d).loc main_v2

/-- A row predicate that reads only its own row. -/
def RowLocal (R : RowPred (F := F)) : Prop :=
  ∀ (d : Dev nD) (w : Fin 32) (f f' : Buf (Elt F) (oLoc d)), (∀ x ∈ rowSet w, f x = f' x) → R d w f → R d w f'

/-! ## The launch element: the handshakes' rounds, the staging cells' ghost state; the counters are dropped -/

/-- The staging cells' launch element. -/
abbrev uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

omit [FloatOps F] in
theorem ownR_split : (BI.own ((embR : Emb (UP × Counters) 𝕄) (uP (F := F), (1 : Counters))) : sProp 𝕄)
    ⊢ iprop(BI.own ((EP : Emb UP 𝕄) (uP (F := F))) ∗ BI.own (((Emb.inr : Emb Counters (UP × Counters)).trans (embR : Emb (UP × Counters) 𝕄)) 1)) := by
  unfold EP
  exact own_pair_emb (M' := MT nD τ sig (HIx 1) (Elt F) ℕ UU ℕ) (A := UP) (B := Counters)
    (embR : Emb (UP × Counters) (MT nD τ sig (HIx 1) (Elt F) ℕ UU ℕ)) (uP (F := F)) (1 : Counters)

/-- What @main's proof starts from beyond what the launch deals it: the staging cells' ghost state and the duty tokens
    of the region's two transfers. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

omit [FloatOps F] in
theorem bigSep_pipes (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem hu₀ (R : RowPred (F := F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m R).x q thr) := by
  unfold u₀
  iintro Hu
  ihave H := (ownU_pair _ _) $$ Hu
  icases H with ⟨HH, HR⟩
  ihave H2 := (ownR_split (F := F)) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_pipes (F := F) fun p c => Pipeline.cellsGhost (Pipeline.pin (pcfgs (F := F)) adm) EP p c)); iexact Hg
    · iapply (Entails.of_eq (bigSep_pipes (F := F) fun p c => Pipeline.toksInit (Pipeline.pin (pcfgs (F := F)) adm) EP p c)); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((dLoc d ↦{fullShare} W main_arg0) ∗ (tLoc d ↦{fullShare} W main_arg1) ∗ (oLoc d ↦{fullShare} W main_v0)
      ∗ (v1Loc d ↦{fullShare} W main_v1) ∗ (v2Loc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- Over the two SparseCores' sixteen tiles each is over the thirty-two workers. -/
theorem rows_regroup (Φ : Fin 32 → sProp 𝕄) :
    (bigSep Finset.univ fun c : Fin 2 => bigSep Finset.univ fun i : Fin 16 => Φ (wOf c i)) = bigSep Finset.univ Φ := by
  rw [← bigSep_univ_prod (fun p : Fin 2 × Fin 16 => Φ (wOf p.1 p.2))]
  exact (bigSep_univ_equiv wEquiv Φ).symm

/-- What the call takes for the two SparseCores, -/
theorem st0_eq (R : RowPred (F := F)) (d : Dev nD) : (bigSep Finset.univ fun c : Fin ((K (F := F)).nCore 0) => (P m R).st 0 d c)
    = iprop((bigSep Finset.univ fun c : Fin 2 => dLoc d ↦{coreShare c} m (dLoc d)) ∗ (bigSep Finset.univ fun c : Fin 2 => tLoc d ↦{coreShare c} m (tLoc d))
        ∗ bigSep Finset.univ fun w : Fin 32 => oLoc d ↦[rowSet w]{fullShare} m (oLoc d)) := by
  show (bigSep Finset.univ fun c : Fin ((K (F := F)).nCore 0) =>
      (iprop((dLoc d ↦{coreShare (Fin.cast nCore_zero c)} m (dLoc d)) ∗ (tLoc d ↦{coreShare (Fin.cast nCore_zero c)} m (tLoc d))
        ∗ bigSep Finset.univ fun i : Fin 16 => oLoc d ↦[rowSet (wOf (Fin.cast nCore_zero c) i)]{fullShare} m (oLoc d)) : sProp 𝕄)) = _
  rw [bigSep_cores (F := F) (fun c' : Fin 2 => iprop((dLoc d ↦{coreShare c'} m (dLoc d)) ∗ (tLoc d ↦{coreShare c'} m (tLoc d))
        ∗ bigSep Finset.univ fun i : Fin 16 => oLoc d ↦[rowSet (wOf c' i)]{fullShare} m (oLoc d))),
    bigSep_sep', bigSep_sep', rows_regroup (F := F) fun w => oLoc d ↦[rowSet w]{fullShare} m (oLoc d)]
/-- and what it hands back. -/
theorem dn0_eq (R : RowPred (F := F)) (d : Dev nD) : (bigSep Finset.univ fun c : Fin ((K (F := F)).nCore 0) => (P m R).dn 0 d c)
    = iprop((bigSep Finset.univ fun c : Fin 2 => dLoc d ↦{coreShare c} m (dLoc d)) ∗ (bigSep Finset.univ fun c : Fin 2 => tLoc d ↦{coreShare c} m (tLoc d))
        ∗ bigSep Finset.univ fun w : Fin 32 => iprop(∃ f, ⌜R d w f⌝ ∗ oLoc d ↦[rowSet w]{fullShare} f)) := by
  show (bigSep Finset.univ fun c : Fin ((K (F := F)).nCore 0) =>
      (iprop((dLoc d ↦{coreShare (Fin.cast nCore_zero c)} m (dLoc d)) ∗ (tLoc d ↦{coreShare (Fin.cast nCore_zero c)} m (tLoc d))
        ∗ bigSep Finset.univ fun i : Fin 16 => iprop(∃ f, ⌜R d (wOf (Fin.cast nCore_zero c) i) f⌝ ∗ oLoc d ↦[rowSet (wOf (Fin.cast nCore_zero c) i)]{fullShare} f)) : sProp 𝕄)) = _
  rw [bigSep_cores (F := F) (fun c' : Fin 2 => iprop((dLoc d ↦{coreShare c'} m (dLoc d)) ∗ (tLoc d ↦{coreShare c'} m (tLoc d))
        ∗ bigSep Finset.univ fun i : Fin 16 => iprop(∃ f, ⌜R d (wOf c' i) f⌝ ∗ oLoc d ↦[rowSet (wOf c' i)]{fullShare} f))),
    bigSep_sep', bigSep_sep', rows_regroup (F := F) fun w => iprop(∃ f, ⌜R d w f⌝ ∗ oLoc d ↦[rowSet w]{fullShare} f)]

omit [FloatOps F] in
/-- The partial-result array held whole is its thirty-two rows. -/
theorem oPts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

/-- The rows, each at contents of which the predicate holds, join into one array of which it holds at every worker. -/
theorem oRows_join (R : RowPred (F := F)) (hR : RowLocal R) (d : Dev nD) :
    (bigSep Finset.univ fun w : Fin 32 => iprop(∃ f, ⌜R d w f⌝ ∗ oLoc d ↦[rowSet w]{fullShare} f))
      ⊢ (iprop(∃ f, ⌜∀ w, R d w f⌝ ∗ oLoc d ↦{fullShare} f) : sProp 𝕄) := by
  refine (bigSep_exists_pi Finset.univ (fun w (f : Buf (Elt F) (oLoc d)) => iprop(⌜R d w f⌝ ∗ oLoc d ↦[rowSet w]{fullShare} f))).trans ?_
  iintro ⟨%fs, H⟩
  ihave H' := (bigSep_pure_sep Finset.univ (fun w => R d w (fs w)) (fun w => oLoc d ↦[rowSet w]{fullShare} fs w)) $$ H
  icases H' with ⟨%hfs, H⟩
  ihave H'' := (pointsTo_biUnion_join Finset.univ rowSet fs (fs 0) rows_disjoint) $$ H
  icases H'' with ⟨%g, %hg, Hg⟩
  rw [rows_cover]
  iexists g; isplitr
  · ipureintro; exact fun w => hR d w (fs w) g (fun x hx => (hg w (Finset.mem_univ w) x hx).symm) (hfs w (Finset.mem_univ w))
  · iexact Hg

/-- What @main leaves the claim: the arguments whole at their launch contents, the result at the reshape of the fold of
    an array of partial results of which the row predicate holds at every worker. -/
abbrev FIN (R : RowPred (F := F)) (d : Dev nD) : sProp 𝕄 :=
  iprop((dLoc d ↦{fullShare} m (dLoc d)) ∗ (tLoc d ↦{fullShare} m (tLoc d))
    ∗ ∃ f, ⌜∀ w, R d w f⌝ ∗ v2Loc d ↦{fullShare} (shapeCast S16 (foldOut m d f) shapeCasts_S1x16_S16 : Buf (Elt F) (v2Loc d)))

omit [FloatOps F] in
/-- After its last SparseCore call the TensorCore owes nothing. -/
theorem tcSt_one (d : Dev nD) : ∃ Rst : sProp 𝕄, ((K (F := F)).tcSt EH d 1 : sProp 𝕄) = iprop(owesTc d ∗ Rst) := by
  refine ⟨?_, ?_⟩
  rotate_left
  · unfold SparseCore.Cfg.tcSt; rw [(K (F := F)).Otc_end d (le_refl _)]

/-- The region's call in @main is the lifted call of the pipeline's entry. -/
theorem wp_region_lift (d : Dev nD) (Φ : PUnit → sProp 𝕄) :
    wp frame (wpE (D (F := F)) 𝒱 (SparseCore.T d) none) Set.univ (Prog.op (TpuEff.customCall (Pipeline.entry 0) ()) Prog.ret) Φ
      ⊢ wp frame (wpE ((K (F := F)).defs (D (F := F))) 𝒱 (SparseCore.T d) none) Set.univ
          (Prog.lift (TpuEff.customCall (SparseCore.inner (Pipeline.entry 0)) ())) Φ :=
  (K (F := F)).wp_liftProg (D (F := F)) 𝒱 (SparseCore.T d) Set.univ none _ Φ

/-! ### The reshape -/

abbrev v1' : DevRef τ sig := Proc.devRef .tc (main_v1 : Ref sig .tc)
abbrev v2' : DevRef τ sig := Proc.devRef .tc (main_v2 : Ref sig .tc)
abbrev opR : HloOp τ sig (Elt F) := StableHlo.reshape main_v1 main_v2 rfl shapeCasts_S1x16_S16
abbrev S12 : Finset (DevRef τ sig) := {v1', v2'}

omit [FloatOps F] in
theorem held_S12 (d : Dev nD) (W : Valuation τ sig (Elt F)) :
    (held (T d) S12 W : sProp 𝕄) = iprop((v1Loc d ↦{fullShare} W v1') ∗ (v2Loc d ↦{fullShare} W v2')) := by
  unfold held S12
  rw [SparseCore.bigSep_insert' (by decide), bigSep_singleton]

/-- The launch valuation with the folded row in place. -/
def V0 (d : Dev nD) : Valuation τ sig (Elt F) := fun b => m (d, b)
def V1 (d : Dev nD) (g : Buf (Elt F) (v1Loc d)) : Valuation τ sig (Elt F) := Function.update (V0 m d) v1' g

theorem V1_v1 (d : Dev nD) (g : Buf (Elt F) (v1Loc d)) : V1 m d g v1' = g := Function.update_self _ _ _
theorem V1_v2 (d : Dev nD) (g : Buf (Elt F) (v1Loc d)) : V1 m d g v2' = m (v2Loc d) := Function.update_of_ne (show v2' ≠ v1' by decide) _ _

theorem hReshape : (opR (F := F)).bufs ⊆ S12 := show ({v1', v2'} : Finset (DevRef τ sig)) ⊆ S12 by decide

theorem reg_pre (fs : (c : Dev nD) → Buf (Elt F) (oLoc c)) (d : Dev nD) :
    (reg m fs).pre d = iprop(pl d main_v0 (fs d) ∗ pl d main_v1 (m (v1Loc d)) ∗ owesTc d) := rfl
theorem reg_post (fs : (c : Dev nD) → Buf (Elt F) (oLoc c)) (d : Dev nD) :
    (reg m fs).post d = iprop(pl d main_v0 (fs d) ∗ pl d main_v1 (foldOut m d (fs d)) ∗ owesTc d) := rfl

theorem hmain (R : RowPred (F := F)) (hR : RowLocal R) (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscopedBufs_eq]
  simp only [main, wp_bind, wp_pure]
  iintro ⟨#Hctx, Hst, ⟨Hb, ⟨Hd, Ht, Ho, H1, H2⟩, -, -⟩, ⟨Hcg, Htk⟩⟩
  ihave Hd' := (Transfers.pointsTo_toks_split fullShare 2) $$ Hd
  icases Hd' with ⟨Hdr, Hds⟩
  ihave Ht' := (Transfers.pointsTo_toks_split fullShare 2) $$ Ht
  icases Ht' with ⟨Htr, Hts⟩
  ihave Ho' := (Entails.of_eq (oPts_rows (F := F) d _)) $$ Ho
  -- the call: each SparseCore its shares and its sixteen rows, and back
  iapply ((K (F := F)).wp_run (D (F := F)) 𝒱 (EH := EH) (P := P m R) κ d 0) $$ [Hst Hds Hts Ho' Hdr Htr Hb H1 H2 Hcg Htk]
  isplitr; · iexact Hctx
  isplitl [Hst]; · iexact Hst
  isplitl [Hds Hts Ho']
  · rw [st0_eq]
    isplitl [Hds]; · iexact Hds
    isplitl [Hts]; · iexact Hts
    iexact Ho'
  iintro ⟨Hst, Hdn⟩
  ihave Hdn' := (Entails.of_eq (dn0_eq m R d)) $$ Hdn
  icases Hdn' with ⟨Hds, Hts, Hos⟩
  ihave Hd := (Transfers.pointsTo_toks_join fullShare 2) $$ [Hdr Hds]
  · isplitl [Hdr] <;> iassumption
  ihave Ht := (Transfers.pointsTo_toks_join fullShare 2) $$ [Htr Hts]
  · isplitl [Htr] <;> iassumption
  ihave Ho := (oRows_join R hR d) $$ Hos
  icases Ho with ⟨%f, %hf, Ho⟩
  -- the region
  obtain ⟨fs, rfl⟩ : ∃ fs : (c : Dev nD) → Buf (Elt F) (oLoc c), fs d = f :=
    ⟨Function.update (fun c => m (oLoc c)) d f, Function.update_self ..⟩
  obtain ⟨Rst, hRst⟩ := tcSt_one (F := F) d
  ihave Hst := (Entails.of_eq (show ((K (F := F)).tcSt EH d ((0 : Fin 1).val + 1) : sProp 𝕄) = iprop(owesTc d ∗ Rst) from hRst)) $$ Hst
  icases Hst with ⟨HO, Hrst⟩
  ihave Hlev := (SparseCore.Cfg.ctx_levAts κ) $$ Hctx
  iapply (wp_region_lift (F := F) d _)
  iapply (Pipeline.RegionSeg.wp (pcfgs (F := F)) adm (pdats m fs) (none : HIx 1) cellOf_inj EP defs₀ 𝒱₀ (K (F := F)).L (K (F := F)).lev
      (reg m fs) d none (fun _ h => nomatch h) Prog.ret _) $$ [Hb Ho H1 HO Hcg Htk Hd Ht H2 Hrst]
  isplitr [Hb Ho H1 HO Hcg Htk]
  · iintro ⟨Hb, Hpost⟩
    ihave Hpost := (Entails.of_eq (reg_post m fs d)) $$ Hpost
    icases Hpost with ⟨Ho, H1, HO⟩
    rw [wp_ret]; imodintro
    -- the reshape, over the folded row and the result
    iapply (wp_hlo_within 𝒱 (SparseCore.T d) none Set.univ (op := opR) (S := S12) hReshape (V := V1 m d (foldOut m d (fs d)))) $$ [Hb H1 H2]
    · isplitl [Hb]; · iexact Hb
      rw [held_S12, V1_v1, V1_v2]
      isplitl [H1]; · iexact H1
      iexact H2
    iintro ⟨Hb, Hheld⟩
    ihave Hh := (Entails.of_eq (held_S12 (F := F) d _)) $$ Hheld
    icases Hh with ⟨-, H2⟩
    rw [wp_ret]; imodintro; imodintro
    isplitl [HO Hrst]
    · rw [hRst]; isplitl [HO]; · iexact HO
      iexact Hrst
    isplitl [Hd]; · iexact Hd
    isplitl [Ht]; · iexact Ht
    iexists (fs d); isplitr; · ipureintro; exact hf
    rw [StableHlo.reshape_result', V1_v1]
    iexact H2
  isplitl [Hb]; · iexact Hb
  isplitl [Ho H1 HO]
  · rw [reg_pre]
    isplitl [Ho]; · iexact Ho
    isplitl [H1]; · iexact H1
    iexact HO
  isplitr; · iexact Hlev
  isplitl [Hcg]; · iexact Hcg
  iexact Htk

/-! ## What the final memory holds -/

def fq (R : RowPred (F := F)) (d : Dev nD) (s' : Phys nD τ sig (Elt F)) : Prop :=
  s'.mem.mem (dLoc d) = m (dLoc d) ∧ s'.mem.mem (tLoc d) = m (tLoc d)
    ∧ ∃ f, (∀ w, R d w f) ∧ s'.mem.mem (v2Loc d) = (shapeCast S16 (foldOut m d f) shapeCasts_S1x16_S16 : Buf (Elt F) (v2Loc d))

theorem hfin (R : RowPred (F := F)) (d : Dev nD) (s' : Phys nD τ sig (Elt F)) : iprop(FIN m R d ∗ SI s') ⊢ (⌜fq m R d s'⌝ : sProp 𝕄) := by
  iintro ⟨⟨Hd, Ht, %f, %hf, H2⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := v2Loc d) (I := Finset.univ) (q := fullShare)
    (f := (shapeCast S16 (foldOut m d f) shapeCasts_S1x16_S16 : Buf (Elt F) (v2Loc d)))) $$ [HSI H2]
  · isplitl [HSI] <;> iassumption
  icases H with %h3
  ipureintro
  exact ⟨funext fun i => h1 i (Finset.mem_univ i), funext fun i => h2 i (Finset.mem_univ i), f, hf, funext fun i => h3 i (Finset.mem_univ i)⟩

/-! ## The program's run -/

/-- Every final memory: on every device the result is the reshape of the fold of an array of partial results of which
    the row predicate holds at every worker, and the two arguments are unchanged. -/
def QC (R : RowPred (F := F)) : PUnit × MemSt nD τ sig (Elt F) → Prop := fun r => ∀ c : Dev nD,
  (∃ f, (∀ w, R c w f) ∧ r.2.mem (v2Loc c) = (shapeCast S16 (foldOut m c f) shapeCasts_S1x16_S16 : Buf (Elt F) (v2Loc c)))
    ∧ r.2.mem (dLoc c) = m (dLoc c) ∧ r.2.mem (tLoc c) = m (tLoc c)

theorem run_main [∀ e, Nonempty (Elt F e)] (R : RowPred (F := F)) (hR : RowLocal R) (hbody : TileBody m R) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R hbody)
    (fun q _ => match q with | 0 => SparseCore.Cfg.VecSplit.of_plain (vecSplit m R))
    m ρ main (G (F := F)) (FIN m R) (u₀ (F := F)) (sep_elim_left.trans (hu₀ m R)) (hmain m ρ R hR) (fq m R) (hfin m R) (QC m R)
    (fun s' h c => by obtain ⟨h1, h2, h3⟩ := h c; exact ⟨h3, h1, h2⟩)

/-- The same with the fold in closed form: the result is the reshape of the column sums of f. -/
def QCk (R : RowPred (F := F)) : PUnit × MemSt nD τ sig (Elt F) → Prop := fun r => ∀ c : Dev nD,
  (∃ f : Buf (Elt F) (oLoc c), (∀ w, R c w f) ∧ r.2.mem (v2Loc c) = (shapeCast S16 (k1_pay1 (F := F) f) shapeCasts_S1x16_S16 : Buf (Elt F) (v2Loc c)))
    ∧ r.2.mem (dLoc c) = m (dLoc c) ∧ r.2.mem (tLoc c) = m (tLoc c)

theorem run_main_k1 [∀ e, Nonempty (Elt F e)] (R : RowPred (F := F)) (hR : RowLocal R) (hbody : TileBody m R) :
    θ_run (Cert.KernelIdeal.defs (F := F)) (Cert.KernelIdeal.threads (F := F)) ⟨m, fun _ => 0, ρ⟩ (QCk m R) :=
  (θ_run Cert.KernelIdeal.defs _ _).mono (fun r h c => by
    obtain ⟨⟨f, hf, h2⟩, h0, h1⟩ := h c
    exact ⟨⟨f, hf, by rw [h2, foldOut_eq]⟩, h0, h1⟩) (run_main m ρ R hR hbody)

end Cert.Proof.KI

end
-- ==== Proof.KI.Tile.lean ====
/-
  One worker's task, run to its end.

  Worker w (of 32: two cores of sixteen subcores) is lent read shares of the 1048576 digits and of the 10 x 16 table,
  and row w of the 32 x 16 array of partial results. It copies its 32768 digits into its chunk in two pieces (the first
  16128 words, then the other 16640, on two semaphores) and the table into its own copy, waits for the first piece,
  counts over the first eighteen blocks of 56 vectors while the second piece is still landing — every one of those
  loads lies below word 16128, so it meets none of the words still in flight —, waits for the second piece, counts
  the remaining eighteen blocks and the last 32 vectors, writes the ten count vectors and six zero vectors into a
  256-word scratch, adds that scratch up across lanes by sixteen indexed loads at lane*16 + l, replicates the totals
  by sixteen indexed stores at the same indices (all of them below 256), forms its row from the totals and its copy
  of the table, and copies the row out. Here: every such run ends, with everything lent handed back, the four
  semaphores at zero again, and row w holding what the worker wrote.
-/
import proofs.«205564_g40879498729249_retrytranche2_1872_24_alg».proof.Proof.KI.Setup
import Idealize.ShloMosaic.Lib.SparseCore.Ops
import proofs.«205564_g40879498729249_retrytranche2_1872_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "aW" => (Memref.whole Cert.KernelIdeal.main_arg0_scv : Memref Cert.KernelIdeal.sig Kind.scVector Space.hbm Cert.KernelIdeal.S1048576 EltTy.i32)
local notation "tW" => (Memref.whole Cert.KernelIdeal.main_arg1_scv : Memref Cert.KernelIdeal.sig Kind.scVector Space.hbm Cert.KernelIdeal.S10x16 EltTy.f32)
local notation "oW" => (Memref.whole Cert.KernelIdeal.main_v0_scv : Memref Cert.KernelIdeal.sig Kind.scVector Space.hbm Cert.KernelIdeal.S32x16 EltTy.f32)
local notation "s0" => (Memref.whole Cert.KernelIdeal.cc0_scratch0 : Memref Cert.KernelIdeal.sig Kind.scVector Space.vmem Cert.KernelIdeal.S32768 EltTy.i32)
local notation "s1" => (Memref.whole Cert.KernelIdeal.cc0_scratch1 : Memref Cert.KernelIdeal.sig Kind.scVector Space.vmem Cert.KernelIdeal.S10x16 EltTy.f32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S256 EltTy.i32)
local notation "s4" => (Memref.whole Cert.KernelIdeal.cc0_scratch4 : Memref Cert.KernelIdeal.sig Kind.scVector Space.vmem Cert.KernelIdeal.S256 EltTy.i32)

variable [FloatOps F]

abbrev thr (d : Dev nD) (Lc : grid0.Coords) : Thread nD τ := V d (cV Lc) (jV Lc)

/-! ## The chunk's two halves and the two slices of the digits -/

abbrev R10 : Rect S32768 := Rect.unit (s := S32768) ![16128] S16640.size inb_S32768_S16640_16128
abbrev v10m : Memref sig .scVector .vmem S16640 .i32 := (s0).slice R10 (fun _ => rfl)
abbrev v6m (Lc : grid0.Coords) : Memref sig .scVector .hbm S16128 .i32 := (aW).slice (Rect.unit (s := S1048576) (k0_off1 Lc) S16128.size (k0_off1_inb Lc)) (fun _ => rfl)
abbrev v11m (Lc : grid0.Coords) : Memref sig .scVector .hbm S16640 .i32 := (aW).slice (Rect.unit (s := S1048576) (k0_off2 Lc) S16640.size (k0_off2_inb Lc)) (fun _ => rfl)

omit [FloatOps F] in
/-- Sixteen words that end at or before word 16128 of the chunk meet none of its words from 16128 on. -/
theorem lower_disj (off : Fin 1 → Nat) [c : ClosedOff off] (inb : ∀ a, off a + S16.size a ≤ S32768.size a) (h : c.form 0 + 16 ≤ 16128) :
    Disjoint ((s0).view.setOn (Rect.unit (s := S32768) off S16.size inb).set) (v10m).view.set := by
  have e : off 0 = c.form 0 := congrFun c.eq 0
  show Disjoint _ ((s0).view.slice R10).set
  rw [View.set_slice]
  refine (s0).view.disjoint_setOn ?_
  refine LoadRect.disjoint_of_separated (Rect.unit (s := S32768) off S16.size inb).toLoadRect R10.toLoadRect 0 (Or.inl (Or.inr ?_))
  show off 0 + 1 * (16 - 1) < 16128
  omega

omit [FloatOps F] in
/-- A worker's second slice of the digits starts where its first ends. -/
theorem slices_disj (Lc : grid0.Coords) : Disjoint (v11m Lc).view.set (v6m Lc).view.set := by
  show Disjoint ((aW).view.slice (Rect.unit (s := S1048576) (k0_off2 Lc) S16640.size (k0_off2_inb Lc))).set
    ((aW).view.slice (Rect.unit (s := S1048576) (k0_off1 Lc) S16128.size (k0_off1_inb Lc))).set
  rw [View.set_slice, View.set_slice]
  refine (Finset.disjoint_map _).mpr ?_
  refine LoadRect.disjoint_of_separated (Rect.unit (s := S1048576) (k0_off2 Lc) S16640.size (k0_off2_inb Lc)).toLoadRect
    (Rect.unit (s := S1048576) (k0_off1 Lc) S16128.size (k0_off1_inb Lc)).toLoadRect 0 (Or.inr (Or.inr ?_))
  show k0_off1 Lc 0 + 1 * (16128 - 1) < k0_off2 Lc 0
  rw [k0_off1_eq, k0_off2_eq]
  simp only [Matrix.cons_val_zero]
  omega

/-! ## The subcore's own semaphores and buffers, opened -/

abbrev c5cell (d : Dev nD) (c : Fin τ.nSC) (i : Fin τ.nSub) : GSem nD τ sig := (V d c i, .dma cc0_scratch5.sem)
abbrev c6cell (d : Dev nD) (c : Fin τ.nSC) (i : Fin τ.nSub) : GSem nD τ sig := (V d c i, .dma cc0_scratch6.sem)
abbrev r0cell (d : Dev nD) (c : Fin τ.nSC) (i : Fin τ.nSub) : GSem nD τ sig := (V d c i, .dma cc0_scoped0.sem)
abbrev r1cell (d : Dev nD) (c : Fin τ.nSC) (i : Fin τ.nSub) : GSem nD τ sig := (V d c i, .dma cc0_scoped1.sem)

variable (d : Dev nD) (Lc : grid0.Coords)

omit [FloatOps F] in
theorem ownSems0_V :
    (ownSems0 (thr d Lc) : sProp 𝕄)
      = iprop(semVal (c5cell d (cV Lc) (jV Lc)) 0 ∗ semVal (c6cell d (cV Lc) (jV Lc)) 0 ∗ semVal (r0cell d (cV Lc) (jV Lc)) 0 ∗ semVal (r1cell d (cV Lc) (jV Lc)) 0
          ∗ bigSep (((((ownCells (thr d Lc)).erase (c5cell d (cV Lc) (jV Lc))).erase (c6cell d (cV Lc) (jV Lc))).erase (r0cell d (cV Lc) (jV Lc))).erase (r1cell d (cV Lc) (jV Lc)))
              fun g => semVal g 0) := by
  unfold SparseCore.Cfg.ownSems0
  have h5 : c5cell d (cV Lc) (jV Lc) ∈ ownCells (thr d Lc) := (mem_ownCells (g := c5cell d (cV Lc) (jV Lc))).mpr ⟨rfl, by
      show (SemLoc.dma cc0_scratch5.sem : SemLoc sig).isScoped .scVector = true; decide⟩
  have h6 : c6cell d (cV Lc) (jV Lc) ∈ ownCells (thr d Lc) := (mem_ownCells (g := c6cell d (cV Lc) (jV Lc))).mpr ⟨rfl, by
      show (SemLoc.dma cc0_scratch6.sem : SemLoc sig).isScoped .scVector = true; decide⟩
  have h0 : r0cell d (cV Lc) (jV Lc) ∈ ownCells (thr d Lc) := (mem_ownCells (g := r0cell d (cV Lc) (jV Lc))).mpr ⟨rfl, by
      show (SemLoc.dma cc0_scoped0.sem : SemLoc sig).isScoped .scVector = true; decide⟩
  have h1 : r1cell d (cV Lc) (jV Lc) ∈ ownCells (thr d Lc) := (mem_ownCells (g := r1cell d (cV Lc) (jV Lc))).mpr ⟨rfl, by
      show (SemLoc.dma cc0_scoped1.sem : SemLoc sig).isScoped .scVector = true; decide⟩
  have n65 : c6cell d (cV Lc) (jV Lc) ≠ c5cell d (cV Lc) (jV Lc) := by simp [c5cell, c6cell]; decide
  have n05 : r0cell d (cV Lc) (jV Lc) ≠ c5cell d (cV Lc) (jV Lc) := by simp [c5cell, r0cell]; decide
  have n06 : r0cell d (cV Lc) (jV Lc) ≠ c6cell d (cV Lc) (jV Lc) := by simp [c6cell, r0cell]; decide
  have n15 : r1cell d (cV Lc) (jV Lc) ≠ c5cell d (cV Lc) (jV Lc) := by simp [c5cell, r1cell]; decide
  have n16 : r1cell d (cV Lc) (jV Lc) ≠ c6cell d (cV Lc) (jV Lc) := by simp [c6cell, r1cell]; decide
  have n10 : r1cell d (cV Lc) (jV Lc) ≠ r0cell d (cV Lc) (jV Lc) := by simp [r0cell, r1cell]; decide
  rw [SparseCore.bigSep_erase' h5,
    SparseCore.bigSep_erase' (Finset.mem_erase.mpr ⟨n65, h6⟩),
    SparseCore.bigSep_erase' (Finset.mem_erase.mpr ⟨n06, Finset.mem_erase.mpr ⟨n05, h0⟩⟩),
    SparseCore.bigSep_erase' (Finset.mem_erase.mpr ⟨n10, Finset.mem_erase.mpr ⟨n16, Finset.mem_erase.mpr ⟨n15, h1⟩⟩⟩)]

abbrev bRef (r : Ref sig .scVector) : DevRef τ sig := (Proc.scVector (cV Lc) (jV Lc)).devRef r

omit [FloatOps F] in
theorem ownBufs_V :
    (ownBufs (thr d Lc) : sProp 𝕄)
      = iprop((∃ f, (thr d Lc).loc cc0_scratch0 ↦{fullShare} f) ∗ (∃ f, (thr d Lc).loc cc0_scratch1 ↦{fullShare} f)
          ∗ (∃ f, (thr d Lc).loc cc0_scratch2 ↦{fullShare} f) ∗ (∃ f, (thr d Lc).loc cc0_scratch3 ↦{fullShare} f)
          ∗ (∃ f, (thr d Lc).loc cc0_scratch4 ↦{fullShare} f)
          ∗ bigSep ((((((ownRefs (τ := τ) (.scVector (cV Lc) (jV Lc))).erase (bRef Lc cc0_scratch0)).erase (bRef Lc cc0_scratch1)).erase (bRef Lc cc0_scratch2)).erase
              (bRef Lc cc0_scratch3)).erase (bRef Lc cc0_scratch4))
              fun b => iprop(∃ f, ((d, b) : Loc nD τ sig) ↦{fullShare} f)) := by
  unfold SparseCore.Cfg.ownBufs
  have m0 : bRef Lc cc0_scratch0 ∈ ownRefs (τ := τ) (.scVector (cV Lc) (jV Lc)) := SparseCore.Cfg.mem_ownRefs_of_owner (p := Proc.scVector (cV Lc) (jV Lc)) (b := bRef Lc cc0_scratch0) rfl
  have m1 : bRef Lc cc0_scratch1 ∈ ownRefs (τ := τ) (.scVector (cV Lc) (jV Lc)) := SparseCore.Cfg.mem_ownRefs_of_owner (p := Proc.scVector (cV Lc) (jV Lc)) (b := bRef Lc cc0_scratch1) rfl
  have m2 : bRef Lc cc0_scratch2 ∈ ownRefs (τ := τ) (.scVector (cV Lc) (jV Lc)) := SparseCore.Cfg.mem_ownRefs_of_owner (p := Proc.scVector (cV Lc) (jV Lc)) (b := bRef Lc cc0_scratch2) rfl
  have m3 : bRef Lc cc0_scratch3 ∈ ownRefs (τ := τ) (.scVector (cV Lc) (jV Lc)) := SparseCore.Cfg.mem_ownRefs_of_owner (p := Proc.scVector (cV Lc) (jV Lc)) (b := bRef Lc cc0_scratch3) rfl
  have m4 : bRef Lc cc0_scratch4 ∈ ownRefs (τ := τ) (.scVector (cV Lc) (jV Lc)) := SparseCore.Cfg.mem_ownRefs_of_owner (p := Proc.scVector (cV Lc) (jV Lc)) (b := bRef Lc cc0_scratch4) rfl
  have ne (r r' : Ref sig .scVector) (h : r ≠ r') : bRef Lc r ≠ bRef Lc r' := fun e => absurd (Proc.devRef_injective _ e) h
  refine (SparseCore.bigSep_erase' (m0)).trans ?_
  rw [SparseCore.bigSep_erase' (Finset.mem_erase.mpr ⟨ne cc0_scratch1 cc0_scratch0 (by decide), m1⟩),
    SparseCore.bigSep_erase' (Finset.mem_erase.mpr ⟨ne cc0_scratch2 cc0_scratch1 (by decide), Finset.mem_erase.mpr ⟨ne cc0_scratch2 cc0_scratch0 (by decide), m2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), m3⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), m4⟩⟩⟩⟩)]

/-! ## The held forms, as the body's memrefs address them -/

omit [FloatOps F] in
theorem pts_s0 (f : Buf (Elt F) ((thr d Lc).loc cc0_scratch0)) : ((s0).view.loc (thr d Lc) ↦{fullShare} f : sProp 𝕄) = (thr d Lc).loc cc0_scratch0 ↦{fullShare} f := rfl
omit [FloatOps F] in
theorem pts_s1 (f : Buf (Elt F) ((thr d Lc).loc cc0_scratch1)) : ((s1).view.loc (thr d Lc) ↦{fullShare} f : sProp 𝕄) = (thr d Lc).loc cc0_scratch1 ↦{fullShare} f := rfl
omit [FloatOps F] in
theorem pts_s2 (f : Buf (Elt F) ((thr d Lc).loc cc0_scratch2)) : ((s2).view.loc (thr d Lc) ↦{fullShare} f : sProp 𝕄) = (thr d Lc).loc cc0_scratch2 ↦{fullShare} f := rfl
omit [FloatOps F] in
theorem pts_s3 (f : Buf (Elt F) ((thr d Lc).loc cc0_scratch3)) : ((s3).view.loc (thr d Lc) ↦{fullShare} f : sProp 𝕄) = (thr d Lc).loc cc0_scratch3 ↦{fullShare} f := rfl
omit [FloatOps F] in
theorem pts_s4 (f : Buf (Elt F) ((thr d Lc).loc cc0_scratch4)) : ((s4).view.loc (thr d Lc) ↦{fullShare} f : sProp 𝕄) = (thr d Lc).loc cc0_scratch4 ↦{fullShare} f := rfl

abbrev Tup : Type := IVec S16 32 × IVec S16 32 × IVec S16 32 × IVec S16 32 × IVec S16 32 × IVec S16 32 × IVec S16 32 × IVec S16 32 × IVec S16 32 × IVec S16 32

/-- Loop 1 keeps the chunk's lower part (everything but the slice the second copy is landing in). -/
def inv1 (g0 : Buf (Elt F) ((thr d Lc).loc cc0_scratch0)) (_ : Nat) (_ : Tup) : sProp 𝕄 :=
  iprop(((s0).view.loc (thr d Lc) ↦[Finset.univ \ (v10m).view.set]{fullShare} g0))

/-- Loop 2 and everything after hold the chunk whole. -/
def inv2 (g1 : Buf (Elt F) ((thr d Lc).loc cc0_scratch0)) (_ : Nat) (_ : Tup) : sProp 𝕄 :=
  iprop(((s0).view.loc (thr d Lc) ↦{fullShare} g1))

set_option maxHeartbeats 4000000 in
theorem tile_frame : TileBody (F := F) m (fun _ _ _ => True) := by
  intro d Lc qd qt O W hO
  simp only [cc0_digit_hist_partial_eq_skeleton]; unfold cc0_digit_hist_partial_skel
  rw [(K (F := F)).scopedBufs_V facts d (cV Lc) (jV Lc), SparseCore.Cfg.scopedSems0_V (Val := Elt F) d (cV Lc) (jV Lc), ownSems0_V, ownBufs_V]
  iintro ⟨#Hlv, -, ⟨Hd, Ht, Ho⟩, ⟨⟨%f0, Hs0⟩, ⟨%f1, Hs1⟩, ⟨%f2, Hs2⟩, ⟨%f3, Hs3⟩, ⟨%f4, Hs4⟩, Hbufs⟩, ⟨Hsem5, Hsem6, HsemR0, HsemR1, Hsems⟩, HO⟩
  ihave Hmw := ((K (F := F)).mayWaits_none (thr := thr d Lc) hO) $$ Hlv
  have hsl := slices_disj Lc
  ihave Hd := (Entails.of_eq (pts_dV_univ (F := F) d Lc qd _).symm) $$ Hd
  ihave Ht := (Entails.of_eq (pts_tV_univ (F := F) d Lc qt _).symm) $$ Ht
  ihave Ho := (Entails.of_eq (pts_oRowK (F := F) d Lc _).symm) $$ Ho
  ihave Hs0 := (Entails.of_eq (pts_s0 (F := F) d Lc _).symm) $$ Hs0
  ihave Hs1 := (Entails.of_eq (pts_s1 (F := F) d Lc _).symm) $$ Hs1
  ihave Hs2 := (Entails.of_eq (pts_s2 (F := F) d Lc _).symm) $$ Hs2
  ihave Hs3 := (Entails.of_eq (pts_s3 (F := F) d Lc _).symm) $$ Hs3
  ihave Hs4 := (Entails.of_eq (pts_s4 (F := F) d Lc _).symm) $$ Hs4
  ihave Hs0' := (pointsTo_split_subset (Finset.subset_univ (v10m).view.set)).1 $$ Hs0
  icases Hs0' with ⟨Hs0b, Hs0a⟩
  ihave Hs0b := (Entails.of_eq (show (((s0).view.loc (thr d Lc) ↦[(v10m).view.set]{fullShare} f0 : sProp 𝕄)) = ((v10m).view.loc (thr d Lc) ↦[(v10m).view.set]{fullShare} f0) from rfl)) $$ Hs0b
  sl_exec
  generalize (Memref.whole cc0_scratch0).view.writes (Elt F) f0 [⟨Rect.unit (s := S32768) ![0] S16128.size inb_S32768_S16128_0, tile_frame.sl.dma0 m d Lc⟩] = g0
  sl_for (inv1 (F := F) d Lc g0) $$ [Hs0a]
  case region =>
    intro k c
    have hk : k.val < 18 := k.isLt
    unfold inv1
    iintro Hs0a
    sl_exec (disch := (refine lower_disj _ _ ?_; simp only [ClosedOff.form, Matrix.cons_val_zero]; omega))
    sl_step
    iexact Hs0a
  · unfold inv1
    iexact Hs0a
  iintro %c1 HI
  unfold inv1
  sl_exec
  ihave Hs0b := (Entails.of_eq (show ((v10m).view.loc (thr d Lc) ↦[(v10m).view.set]{fullShare} (v10m.view.writes (Elt F) v10m.view.junk [⟨Rect.whole S16640, tile_frame.sl.dma0_1 m d Lc⟩]) : sProp 𝕄)
      = ((s0).view.loc (thr d Lc) ↦[(v10m).view.set]{fullShare} (v10m.view.writes (Elt F) v10m.view.junk [⟨Rect.whole S16640, tile_frame.sl.dma0_1 m d Lc⟩])) from rfl)) $$ Hs0b
  ihave Hs0 := (pointsTo_join_subset (ℓ := (s0).view.loc (thr d Lc)) (I := (v10m).view.set) (S := Finset.univ) (q := fullShare) (Finset.subset_univ _)) $$ [Hs0b HI]
  · isplitl [Hs0b]
    · iexact Hs0b
    · iexact HI
  generalize Finset.piecewise (v10m).view.set (v10m.view.writes (Elt F) v10m.view.junk [⟨Rect.whole S16640, tile_frame.sl.dma0_1 m d Lc⟩]) g0 = g1
  sl_for (inv2 (F := F) d Lc g1) $$ [Hs0]
  case region =>
    intro k c
    unfold inv2
    iintro Hs0
    sl_exec
    sl_step
    iexact Hs0
  · unfold inv2
    iexact Hs0
  iintro %c2 HI2
  unfold inv2
  sl_exec
  repeat ((first
    | rw [SparseCore.vectorLoadIdx_bind (c := thr d Lc)]
    | rw [SparseCore.vectorStoreIdx_bind (c := thr d Lc)]); sl_exec)
  sl_step
  isplitl [Hd Ht Ho]
  · isplitl [Hd]
    · iapply (Entails.of_eq (pts_dV_univ (F := F) d Lc qd _)); iexact Hd
    isplitl [Ht]
    · iapply (Entails.of_eq (pts_tV_univ (F := F) d Lc qt _)); iexact Ht
    ihave Ho := (Entails.of_eq (pts_oRowK (F := F) d Lc _)) $$ Ho
    iexists _; isplitr
    rotate_left
    · iexact Ho
    · ipureintro; trivial
  isplitl [HI2 Hs1 Hs2 Hs3 Hs4 Hbufs]
  · isplitl [HI2]
    · iexists _; iapply (Entails.of_eq (pts_s0 (F := F) d Lc _)); iexact HI2
    isplitl [Hs1]
    · iexists _; iapply (Entails.of_eq (pts_s1 (F := F) d Lc _)); iexact Hs1
    isplitl [Hs2]
    · iexists _; iapply (Entails.of_eq (pts_s2 (F := F) d Lc _)); iexact Hs2
    isplitl [Hs3]
    · iexists _; iapply (Entails.of_eq (pts_s3 (F := F) d Lc _)); iexact Hs3
    isplitl [Hs4]
    · iexists _; iapply (Entails.of_eq (pts_s4 (F := F) d Lc _)); iexact Hs4
    iexact Hbufs
  isplitl [Hsem5 Hsem6 HsemR0 HsemR1 Hsems]
  · isplitl [Hsem5]; · iexact Hsem5
    isplitl [Hsem6]; · iexact Hsem6
    isplitl [HsemR0]; · iexact HsemR0
    isplitl [HsemR1]; · iexact HsemR1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KI

end
-- ==== Proof.KI.ValDefs.lean ====
/-
  The worker's counting, as functions: one block of 56 vectors added to the ten running lane counts (first half and
  second half of the chunk), the running counts after k blocks, the last 32 vectors added, and what the two copies
  leave in the chunk. They are the values the run of the task computes, named here so that their arithmetic can be
  done apart from the run.
-/
import proofs.«205564_g40879498729249_retrytranche2_1872_24_alg».proof.Proof.KI.Tile

noncomputable section

namespace Cert.Proof.KI

open Cert.KernelIdeal Cert.KernelIdeal.Gen
open Idealize.ShloMosaic

variable {F : FTy → Type}

/-- What the chunk holds: 32768 words. -/
abbrev Chunk (F : FTy → Type) : Type := BufTy.Contents (Elt F) (Memref.whole cc0_scratch0 : Memref sig .scVector .vmem S32768 .i32).view.ty

/-- Block k of the first eighteen: its 56 vectors' digits added to the ten lane-count vectors. -/
noncomputable def step1 (g : Chunk F) (k : Fin (Scf.trips k0_t1_loop.lb k0_t1_loop.ub k0_t1_loop.st)) (c : Tup) : Tup :=
  (tile_frame.sl.v1233 g k c, tile_frame.sl.v1238 g k c, tile_frame.sl.v1243 g k c, tile_frame.sl.v1248 g k c, tile_frame.sl.v1253 g k c, tile_frame.sl.v1258 g k c, tile_frame.sl.v1263 g k c, tile_frame.sl.v1268 g k c, tile_frame.sl.v1273 g k c, k0_pay96 c.2.2.2.2.2.2.2.2.2 (tile_frame.sl.v1275 g k) 63#32)

/-- Block 18 + k of the last eighteen. -/
noncomputable def step2 (g : Chunk F) (k : Fin (Scf.trips k0_t2_loop.lb k0_t2_loop.ub k0_t2_loop.st)) (c : Tup) : Tup :=
  (tile_frame.sl.v1233_1 g k c, tile_frame.sl.v1238_1 g k c, tile_frame.sl.v1243_1 g k c, tile_frame.sl.v1248_1 g k c, tile_frame.sl.v1253_1 g k c, tile_frame.sl.v1258_1 g k c, tile_frame.sl.v1263_1 g k c, tile_frame.sl.v1268_1 g k c, tile_frame.sl.v1273_1 g k c, k0_pay97 c.2.2.2.2.2.2.2.2.2 (tile_frame.sl.v1275_1 g k) 63#32)

/-- No vector counted yet. -/
noncomputable def init1 : Tup :=
  (tile_frame.sl.v12, tile_frame.sl.v12, tile_frame.sl.v12, tile_frame.sl.v12, tile_frame.sl.v12, tile_frame.sl.v12, tile_frame.sl.v12, tile_frame.sl.v12, tile_frame.sl.v12, tile_frame.sl.v12)

/-- The lane counts after the first k blocks. -/
noncomputable def iter1 (g : Chunk F) : ℕ → Tup
  | 0 => init1
  | k + 1 => if h : k < Scf.trips k0_t1_loop.lb k0_t1_loop.ub k0_t1_loop.st then step1 g ⟨k, h⟩ (iter1 g k) else iter1 g k

/-- The lane counts after k more blocks, from c1. -/
noncomputable def iter2 (g : Chunk F) (c1 : Tup) : ℕ → Tup
  | 0 => c1
  | k + 1 => if h : k < Scf.trips k0_t2_loop.lb k0_t2_loop.ub k0_t2_loop.st then step2 g ⟨k, h⟩ (iter2 g c1 k) else iter2 g c1 k

/-- The last 32 vectors added: the ten final lane-count vectors. -/
noncomputable def tailC (g : Chunk F) (c : Tup) : Tup :=
  (tile_frame.sl.v304 g c, tile_frame.sl.v309 g c, tile_frame.sl.v314 g c, tile_frame.sl.v319 g c, tile_frame.sl.v324 g c, tile_frame.sl.v329 g c, tile_frame.sl.v334 g c, tile_frame.sl.v339 g c, tile_frame.sl.v344 g c, tile_frame.sl.v349 g c)

variable [∀ e, Nonempty (Elt F e)] (m : (ℓ : Loc nD τ sig) → Buf (Elt F) ℓ) (d : Dev nD) (Lc : grid0.Coords)

/-- The chunk once the first copy has landed: the worker's first 16128 digits over whatever it held. -/
noncomputable def landed0 (f0 : Chunk F) : Chunk F :=
  (Memref.whole cc0_scratch0 : Memref sig .scVector .vmem S32768 .i32).view.writes (Elt F) f0
    [⟨Rect.unit (s := S32768) ![0] S16128.size inb_S32768_S16128_0, tile_frame.sl.dma0 m d Lc⟩]

/-- The chunk once both copies have landed: the worker's 32768 digits. -/
noncomputable def landed1 (f0 : Chunk F) : Chunk F :=
  Finset.piecewise (v10m).view.set (v10m.view.writes (Elt F) v10m.view.junk [⟨Rect.whole S16640, tile_frame.sl.dma0_1 m d Lc⟩]) (landed0 m d Lc f0)

end Cert.Proof.KI

end
-- ==== Proof.Spec.lean ====
/-
  The function both programs compute, and what the precondition gives.

  The digits are 1048576 words, each naming a row of a 10 x 16 table of extended reals. The result is, per column j,
  the sum over all positions n of the table's entry at (row named by digit n, column j), scaled by 1/1048576:
  the mean of the looked-up rows. The row a word names is its unsigned value capped at 9; under the precondition every
  word is at most 9, so the cap is never active, and every table entry is a real number.
-/
import Idealize.ShloMosaic.PureOps.Ideal
import Idealize.ShloMosaic.Lib.ValueIdx

noncomputable section

namespace Cert.Spec

open Idealize.ShloMosaic Idealize.ShloMosaic.ValueIdx

abbrev SN : Shape := ⟨1, ![1048576]⟩
abbrev ST : Shape := ⟨2, ![10, 16]⟩
abbrev SO : Shape := ⟨1, ![16]⟩

/-- Every digit word is at most 9; every table entry is a real number. -/
def PreOK (dg : IVec SN 32) (tb : FVec Ideal ST .f32) : Prop :=
  (∀ n, (dg n).toNat ≤ 9) ∧ (∀ i, ∃ r : ℝ, tb i = ((r : ℝ) : EReal))

/-- The table row a word names: its unsigned value, capped at the last row. -/
def rowOf (w : BitVec 32) : Fin 10 := ⟨min w.toNat 9, by omega⟩

/-- Column j of the mean of the looked-up rows: the sum over all positions of the table at (row of the digit, j),
    times 1/1048576. -/
def meanRow (dg : IVec SN 32) (tb : FVec Ideal ST .f32) : FVec Ideal SO .f32 :=
  fun j => (∑ n : Fin 1048576, tb (ix2 (rowOf (dg (ix1 n))) (j 0))) * (((1 / 1048576 : ℝ) : ℝ) : EReal)

end Cert.Spec

end
-- ==== Proof.KI.RowIs.lean ====
/-
  The value a worker's row must hold, at the ideal values.

  Worker w reads the block of 32768 digits at positions 32768 w ... 32768 w + 32767. Its count of digit dd is the number
  of positions of its block whose word reads dd. Its row must hold, at column j, the sum over the ten digits of (count
  of dd) times (table at (dd, j)), times 1/1048576. The predicate speaks of row w only.
-/
import proofs.«205564_g40879498729249_retrytranche2_1872_24_alg».proof.Proof.KI.Setup
import proofs.«205564_g40879498729249_retrytranche2_1872_24_alg».proof.Proof.Spec
import Idealize.ShloMosaic.PureOps.Ideal
import Idealize.ShloMosaic.Lib.ValueIdx

noncomputable section

namespace Cert.Proof.KI

open Cert.KernelIdeal Cert.KernelIdeal.Gen

open Idealize.ShloMosaic Idealize.ShloMosaic.ValueIdx
open Idealize.SL.Sem

variable (m : (ℓ : Loc nD τ sig) → Buf (Elt Ideal) ℓ)

/-- Worker w's count of digit dd: the positions of its block of 32768 whose word reads dd. -/
def cntOf (dg : IVec Cert.Spec.SN 32) (w : Fin 32) (dd : Fin 10) : ℕ :=
  (Finset.univ.filter (fun p : Fin 32768 => (dg (ix1 ⟨w.val * 32768 + p.val, by omega⟩)).toNat = dd.val)).card

/-- Row w of the partial results holds the worker's value: per column, the count-weighted sum of the table's rows,
    scaled by 1/1048576. -/
def RowIs : RowPred (F := Ideal) := fun d w f =>
  ∀ j : Fin 16, f (ix2 w j)
    = (∑ dd : Fin 10, ((cntOf (m (dLoc d)) w dd : ℝ) : EReal) * (m (tLoc d)) (ix2 dd j)) * (((1 / 1048576 : ℝ) : ℝ) : EReal)

/-- The index (w, j) lies in row w. -/
theorem ix2_mem_rowSet (w : Fin 32) (j : Fin 16) : (ix2 w j : S32x16.Idx) ∈ rowSet w := by
  rw [rowSet_eq]
  unfold row Rect.part Rect.block
  rw [Rect.mem_set_unit]
  intro a
  match a with
  | 0 => simp [Shape.partIx, Shape.partSize]
  | 1 => simp [Shape.partIx, Shape.partSize]

end Cert.Proof.KI

end
-- ==== Proof.KI.TileValOf.lean ====
/-
  One worker's task, run to its end, with what it leaves in its row.

  The same run as the task's frame, keeping track of the values: the ten lane-count vectors after k blocks of the
  first half are the k-th iterate of the block step on the chunk's landed first part, after 18 + k blocks the k-th
  iterate of the second step on the whole landed chunk, and the row written out is the run's last value of those.
  That this row is the worker's share of the mean is arithmetic, done apart; it enters here as a hypothesis.
-/
import proofs.«205564_g40879498729249_retrytranche2_1872_24_alg».proof.Proof.KI.ValDefs
import proofs.«205564_g40879498729249_retrytranche2_1872_24_alg».proof.Proof.KI.RowIs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

variable (m : (ℓ : Loc nD τ sig) → Buf (Elt Ideal) ℓ)

local notation "aW" => (Memref.whole Cert.KernelIdeal.main_arg0_scv : Memref Cert.KernelIdeal.sig Kind.scVector Space.hbm Cert.KernelIdeal.S1048576 EltTy.i32)
local notation "s0" => (Memref.whole Cert.KernelIdeal.cc0_scratch0 : Memref Cert.KernelIdeal.sig Kind.scVector Space.vmem Cert.KernelIdeal.S32768 EltTy.i32)

variable (d : Dev nD) (Lc : grid0.Coords)

/-- Loop 1 keeps the chunk's lower part, and its ten vectors are the counts after k blocks. -/
def inv1v (g0 : Buf (Elt Ideal) ((thr d Lc).loc cc0_scratch0)) (k : Nat) (c : Tup) : sProp 𝕄 :=
  iprop(((s0).view.loc (thr d Lc) ↦[Finset.univ \ (v10m).view.set]{fullShare} g0) ∗ ⌜c = iter1 (F := Ideal) g0 k⌝)

/-- Loop 2 holds the chunk whole, and its ten vectors are the counts after 18 + k blocks. -/
def inv2v (g1 : Buf (Elt Ideal) ((thr d Lc).loc cc0_scratch0)) (c1 : Tup) (k : Nat) (c : Tup) : sProp 𝕄 :=
  iprop(((s0).view.loc (thr d Lc) ↦{fullShare} g1) ∗ ⌜c = iter2 (F := Ideal) g1 c1 k⌝)

set_option maxHeartbeats 4000000 in
theorem tile_val_of
    (hrow : ∀ (d : Dev nD) (Lc : grid0.Coords) (f0 : Chunk Ideal) (f1 : Buf (Elt Ideal) ((thr d Lc).loc cc0_scratch1)) (f2 : Buf (Elt Ideal) ((thr d Lc).loc cc0_scratch2))
      (f4 : Buf (Elt Ideal) ((thr d Lc).loc cc0_scratch4)),
      RowIs m d (wL Lc) ((oRowK Lc).view.writes (Elt Ideal) (m (oLoc d))
        [⟨Rect.whole S16, tile_frame.sl.dma24 m d Lc f1 f2 f4 (landed1 m d Lc f0) (iter2 (landed1 m d Lc f0) (iter1 (landed0 m d Lc f0) 18) 18)⟩])) :
    TileBody (F := Ideal) m (RowIs m) := by
  intro d Lc qd qt O W hO
  simp only [cc0_digit_hist_partial_eq_skeleton]; unfold cc0_digit_hist_partial_skel
  rw [(K (F := Ideal)).scopedBufs_V facts d (cV Lc) (jV Lc), SparseCore.Cfg.scopedSems0_V (Val := Elt Ideal) d (cV Lc) (jV Lc), ownSems0_V, ownBufs_V]
  iintro ⟨#Hlv, -, ⟨Hd, Ht, Ho⟩, ⟨⟨%f0, Hs0⟩, ⟨%f1, Hs1⟩, ⟨%f2, Hs2⟩, ⟨%f3, Hs3⟩, ⟨%f4, Hs4⟩, Hbufs⟩, ⟨Hsem5, Hsem6, HsemR0, HsemR1, Hsems⟩, HO⟩
  ihave Hmw := ((K (F := Ideal)).mayWaits_none (thr := thr d Lc) hO) $$ Hlv
  have hsl := slices_disj Lc
  ihave Hd := (Entails.of_eq (pts_dV_univ (F := Ideal) d Lc qd _).symm) $$ Hd
  ihave Ht := (Entails.of_eq (pts_tV_univ (F := Ideal) d Lc qt _).symm) $$ Ht
  ihave Ho := (Entails.of_eq (pts_oRowK (F := Ideal) d Lc _).symm) $$ Ho
  ihave Hs0 := (Entails.of_eq (pts_s0 (F := Ideal) d Lc _).symm) $$ Hs0
  ihave Hs1 := (Entails.of_eq (pts_s1 (F := Ideal) d Lc _).symm) $$ Hs1
  ihave Hs2 := (Entails.of_eq (pts_s2 (F := Ideal) d Lc _).symm) $$ Hs2
  ihave Hs3 := (Entails.of_eq (pts_s3 (F := Ideal) d Lc _).symm) $$ Hs3
  ihave Hs4 := (Entails.of_eq (pts_s4 (F := Ideal) d Lc _).symm) $$ Hs4
  ihave Hs0' := (pointsTo_split_subset (Finset.subset_univ (v10m).view.set)).1 $$ Hs0
  icases Hs0' with ⟨Hs0b, Hs0a⟩
  ihave Hs0b := (Entails.of_eq (show (((s0).view.loc (thr d Lc) ↦[(v10m).view.set]{fullShare} f0 : sProp 𝕄)) = ((v10m).view.loc (thr d Lc) ↦[(v10m).view.set]{fullShare} f0) from rfl)) $$ Hs0b
  sl_exec
  generalize hg0 : (Memref.whole cc0_scratch0).view.writes (Elt Ideal) f0 [⟨Rect.unit (s := S32768) ![0] S16128.size inb_S32768_S16128_0, tile_val_of.sl.dma0 m d Lc⟩] = g0
  sl_for (inv1v d Lc g0) $$ [Hs0a]
  case region =>
    intro k c
    have hk : k.val < 18 := k.isLt
    unfold inv1v
    iintro ⟨Hs0a, %hc⟩
    sl_exec (disch := (refine lower_disj _ _ ?_; simp only [ClosedOff.form, Matrix.cons_val_zero]; omega))
    sl_step
    isplitl [Hs0a]
    · iexact Hs0a
    · ipureintro
      subst hc
      have e : iter1 (F := Ideal) g0 (k.val + 1) = step1 g0 k (iter1 g0 k.val) := by
        show (if h : k.val < _ then step1 g0 ⟨k.val, h⟩ (iter1 g0 k.val) else _) = _
        rw [dif_pos k.isLt]
      rw [e]
      rfl
  · unfold inv1v
    isplitl [Hs0a]
    · iexact Hs0a
    · ipureintro; rfl
  iintro %c1 HI
  unfold inv1v
  icases HI with ⟨HI, %hc1⟩
  sl_exec
  ihave Hs0b := (Entails.of_eq (show ((v10m).view.loc (thr d Lc) ↦[(v10m).view.set]{fullShare} (v10m.view.writes (Elt Ideal) v10m.view.junk [⟨Rect.whole S16640, tile_val_of.sl.dma0_1 m d Lc⟩]) : sProp 𝕄)
      = ((s0).view.loc (thr d Lc) ↦[(v10m).view.set]{fullShare} (v10m.view.writes (Elt Ideal) v10m.view.junk [⟨Rect.whole S16640, tile_val_of.sl.dma0_1 m d Lc⟩])) from rfl)) $$ Hs0b
  ihave Hs0 := (pointsTo_join_subset (ℓ := (s0).view.loc (thr d Lc)) (I := (v10m).view.set) (S := Finset.univ) (q := fullShare) (Finset.subset_univ _)) $$ [Hs0b HI]
  · isplitl [Hs0b]
    · iexact Hs0b
    · iexact HI
  generalize hg1 : Finset.piecewise (v10m).view.set (v10m.view.writes (Elt Ideal) v10m.view.junk [⟨Rect.whole S16640, tile_val_of.sl.dma0_1 m d Lc⟩]) g0 = g1
  sl_for (inv2v d Lc g1 c1) $$ [Hs0]
  case region =>
    intro k c
    unfold inv2v
    iintro ⟨Hs0, %hc⟩
    sl_exec
    sl_step
    isplitl [Hs0]
    · iexact Hs0
    · ipureintro
      subst hc
      have e : iter2 (F := Ideal) g1 c1 (k.val + 1) = step2 g1 k (iter2 g1 c1 k.val) := by
        show (if h : k.val < _ then step2 g1 ⟨k.val, h⟩ (iter2 g1 c1 k.val) else _) = _
        rw [dif_pos k.isLt]
      rw [e]
      rfl
  · unfold inv2v
    isplitl [Hs0]
    · iexact Hs0
    · ipureintro; rfl
  iintro %c2 HI2
  unfold inv2v
  icases HI2 with ⟨HI2, %hc2⟩
  sl_exec
  repeat ((first
    | rw [SparseCore.vectorLoadIdx_bind (c := thr d Lc)]
    | rw [SparseCore.vectorStoreIdx_bind (c := thr d Lc)]); sl_exec)
  sl_step
  isplitl [Hd Ht Ho]
  · isplitl [Hd]
    · iapply (Entails.of_eq (pts_dV_univ (F := Ideal) d Lc qd _)); iexact Hd
    isplitl [Ht]
    · iapply (Entails.of_eq (pts_tV_univ (F := Ideal) d Lc qt _)); iexact Ht
    ihave Ho := (Entails.of_eq (pts_oRowK (F := Ideal) d Lc _)) $$ Ho
    iexists _; isplitr
    rotate_left
    · iexact Ho
    · ipureintro
      subst hc2; subst hc1; subst hg1; subst hg0
      exact hrow d Lc f0 f1 f2 f4
  isplitl [HI2 Hs1 Hs2 Hs3 Hs4 Hbufs]
  · isplitl [HI2]
    · iexists _; iapply (Entails.of_eq (pts_s0 (F := Ideal) d Lc _)); iexact HI2
    isplitl [Hs1]
    · iexists _; iapply (Entails.of_eq (pts_s1 (F := Ideal) d Lc _)); iexact Hs1
    isplitl [Hs2]
    · iexists _; iapply (Entails.of_eq (pts_s2 (F := Ideal) d Lc _)); iexact Hs2
    isplitl [Hs3]
    · iexists _; iapply (Entails.of_eq (pts_s3 (F := Ideal) d Lc _)); iexact Hs3
    isplitl [Hs4]
    · iexists _; iapply (Entails.of_eq (pts_s4 (F := Ideal) d Lc _)); iexact Hs4
    iexact Hbufs
  isplitl [Hsem5 Hsem6 HsemR0 HsemR1 Hsems]
  · isplitl [Hsem5]; · iexact Hsem5
    isplitl [Hsem6]; · iexact Hsem6
    isplitl [HsemR0]; · iexact HsemR0
    isplitl [HsemR1]; · iexact HsemR1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KI

end
-- ==== Proof.KI.ValGlue.lean ====
/-
  What the tile's copies leave, read index by index.

  Worker w's two slices of the digits (16128 words from word 32768 w, then 16640 words) land in its chunk buffer at
  words 0 ... 16127 and 16128 ... 32767: after both, word i of the chunk is digit 32768 w + i. The table's copy is the
  table. The row written out through the worker's sliced and squeezed view of the partial results sits at (w, j).
-/
import proofs.«205564_g40879498729249_retrytranche2_1872_24_alg».proof.Proof.KI.ValDefs
import Idealize.ShloMosaic.Lib.Writes
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.SL.Sem

variable {F : FTy → Type}

variable (m : (ℓ : Loc nD τ sig) → Buf (Elt F) ℓ)

local notation "aW" => (Memref.whole Cert.KernelIdeal.main_arg0_scv : Memref Cert.KernelIdeal.sig Kind.scVector Space.hbm Cert.KernelIdeal.S1048576 EltTy.i32)
local notation "tW" => (Memref.whole Cert.KernelIdeal.main_arg1_scv : Memref Cert.KernelIdeal.sig Kind.scVector Space.hbm Cert.KernelIdeal.S10x16 EltTy.f32)
local notation "s0" => (Memref.whole Cert.KernelIdeal.cc0_scratch0 : Memref Cert.KernelIdeal.sig Kind.scVector Space.vmem Cert.KernelIdeal.S32768 EltTy.i32)
local notation "s1" => (Memref.whole Cert.KernelIdeal.cc0_scratch1 : Memref Cert.KernelIdeal.sig Kind.scVector Space.vmem Cert.KernelIdeal.S10x16 EltTy.f32)

variable (d : Dev nD) (Lc : grid0.Coords)

omit m d in
theorem wL_val : (wL Lc).val = 16 * (Lc 0).val + (Lc 1).val := rfl

omit m d in
/-- Word x of the worker's first slice of the digits is digit 32768 w + x. -/
theorem emb_v6m (x : Fin 16128) :
    (v6m Lc).view.emb (ix1 x) = (ix1 (⟨32768 * (wL Lc).val + x.val, by have := (wL Lc).isLt; omega⟩ : Fin 1048576) : S1048576.Idx) := by
  funext a; apply Fin.ext
  show (((View.whole (main_arg0_scv : Ref sig .scVector)).slice (Rect.unit (s := S1048576) (k0_off1 Lc) S16128.size (k0_off1_inb Lc))).emb (ix1 x) a).val = _
  rw [View.emb_slice, Function.Embedding.trans_apply, View.emb_whole, Function.Embedding.refl_apply, Rect.emb_apply]
  fin_cases a
  show k0_off1 Lc 0 + 1 * x.val = 32768 * (wL Lc).val + x.val
  have e : k0_off1 Lc 0 = 524288 * (Lc 0).val + 32768 * (Lc 1).val := congrFun (k0_off1_eq Lc) 0
  rw [e, wL_val]; omega

omit m d in
/-- Word x of the worker's second slice is digit 32768 w + 16128 + x. -/
theorem emb_v11m (x : Fin 16640) :
    (v11m Lc).view.emb (ix1 x) = (ix1 (⟨32768 * (wL Lc).val + (16128 + x.val), by have := (wL Lc).isLt; omega⟩ : Fin 1048576) : S1048576.Idx) := by
  funext a; apply Fin.ext
  show (((View.whole (main_arg0_scv : Ref sig .scVector)).slice (Rect.unit (s := S1048576) (k0_off2 Lc) S16640.size (k0_off2_inb Lc))).emb (ix1 x) a).val = _
  rw [View.emb_slice, Function.Embedding.trans_apply, View.emb_whole, Function.Embedding.refl_apply, Rect.emb_apply]
  fin_cases a
  show k0_off2 Lc 0 + 1 * x.val = 32768 * (wL Lc).val + (16128 + x.val)
  have e : k0_off2 Lc 0 = 524288 * (Lc 0).val + 32768 * (Lc 1).val + 16128 := congrFun (k0_off2_eq Lc) 0
  rw [e, wL_val]; omega

omit m d Lc in
/-- The first copy's rectangle of the chunk places word x at word x. -/
theorem emb_R0 (x : Fin 16128) :
    (Rect.unit (s := S32768) ![0] S16128.size inb_S32768_S16128_0).emb (ix1 x) = (ix1 (⟨x.val, by omega⟩ : Fin 32768) : S32768.Idx) := by
  funext a; apply Fin.ext
  rw [Rect.emb_apply]
  fin_cases a
  show 0 + 1 * x.val = x.val
  omega

omit m d Lc in
/-- The second copy's part of the chunk places word x at word 16128 + x. -/
theorem emb_v10m (x : Fin 16640) : (v10m).view.emb (ix1 x) = (ix1 (⟨16128 + x.val, by omega⟩ : Fin 32768) : S32768.Idx) := by
  funext a; apply Fin.ext
  show (((View.whole (cc0_scratch0 : Ref sig .scVector)).slice R10).emb (ix1 x) a).val = _
  rw [View.emb_slice, Function.Embedding.trans_apply, View.emb_whole, Function.Embedding.refl_apply, Rect.emb_apply]
  fin_cases a
  show 16128 + 1 * x.val = 16128 + x.val
  omega

omit m d Lc in
/-- A word of the chunk lies in the second copy's part exactly from word 16128 on. -/
theorem mem_v10m (i : Fin 32768) : (ix1 i : S32768.Idx) ∈ (v10m).view.set ↔ 16128 ≤ i.val := by
  constructor
  · intro h
    obtain ⟨x, -, hx⟩ := Finset.mem_map.mp h
    obtain ⟨x0, rfl⟩ : ∃ x0 : Fin 16640, x = ix1 x0 := ⟨x 0, eq_ix1 x⟩
    rw [emb_v10m] at hx
    have := congrArg (fun y : S32768.Idx => (y 0).val) hx
    simp only at this
    show 16128 ≤ i.val
    have h2 : 16128 + x0.val = i.val := this
    omega
  · intro h
    have hx : i.val - 16128 < 16640 := by omega
    have e : (ix1 i : S32768.Idx) = (v10m).view.emb (ix1 (⟨i.val - 16128, hx⟩ : Fin 16640)) := by
      rw [emb_v10m]
      exact congrArg (fun k : Fin 32768 => (ix1 k : S32768.Idx)) (Fin.ext (by show i.val = 16128 + (i.val - 16128); omega))
    rw [e]; exact View.emb_mem_set _ _

section Landed

variable [∀ e, Nonempty (Elt F e)]

omit m d Lc in
theorem cast_self {α : Type} (h : α = α) (a : α) : _root_.cast h a = a := rfl

/-- G1. Once the first copy has landed, word i < 16128 of the chunk is digit 32768 w + i. -/
theorem landed0_apply (f0 : Chunk F) (i : ℕ) (hi : i < 16128) :
    landed0 m d Lc f0 (ix1 (⟨i, by omega⟩ : Fin 32768))
      = (m (dLoc d)) (ix1 (⟨32768 * (wL Lc).val + i, by have := (wL Lc).isLt; omega⟩ : Fin 1048576)) := by
  have e : (ix1 (⟨i, by omega⟩ : Fin 32768) : S32768.Idx)
      = ((s0).view.slice (Rect.unit (s := S32768) ![0] S16128.size inb_S32768_S16128_0)).emb (ix1 (⟨i, hi⟩ : Fin 16128)) := by
    show _ = ((View.whole (cc0_scratch0 : Ref sig .scVector)).slice (Rect.unit (s := S32768) ![0] S16128.size inb_S32768_S16128_0)).emb (ix1 (⟨i, hi⟩ : Fin 16128))
    rw [View.emb_slice, Function.Embedding.trans_apply, View.emb_whole, Function.Embedding.refl_apply, emb_R0]
  unfold landed0
  rw [View.writes_singleton, e, View.write_emb_of_mem _ _ (Finset.mem_univ _)]
  refine Eq.trans (cast_self _ _) ?_
  show (v6m Lc).view.read (Elt F) (m (dLoc d)) (ix1 (⟨i, hi⟩ : Fin 16128)) = _
  rw [View.read_apply, emb_v6m]
  exact cast_self _ _

/-- G2. Once both copies have landed, word i of the chunk is digit 32768 w + i. -/
theorem landed1_apply (f0 : Chunk F) (i : ℕ) (hi : i < 32768) :
    landed1 m d Lc f0 (ix1 (⟨i, hi⟩ : Fin 32768))
      = (m (dLoc d)) (ix1 (⟨32768 * (wL Lc).val + i, by have := (wL Lc).isLt; omega⟩ : Fin 1048576)) := by
  unfold landed1
  by_cases h : i < 16128
  · rw [Finset.piecewise_eq_of_notMem _ _ _ (fun hm => by have := (mem_v10m ⟨i, hi⟩).mp hm; simp only at this; omega)]
    exact landed0_apply m d Lc f0 i h
  · rw [Finset.piecewise_eq_of_mem _ _ _ ((mem_v10m ⟨i, hi⟩).mpr (by show 16128 ≤ i; omega))]
    have hx : i - 16128 < 16640 := by omega
    have e : (ix1 (⟨i, hi⟩ : Fin 32768) : S32768.Idx)
        = ((v10m).view.slice (Rect.whole S16640)).emb (ix1 (⟨i - 16128, hx⟩ : Fin 16640)) := by
      rw [View.emb_slice, Function.Embedding.trans_apply, Rect.emb_whole_apply, emb_v10m]
      exact congrArg (fun k : Fin 32768 => (ix1 k : S32768.Idx)) (Fin.ext (by show i = 16128 + (i - 16128); omega))
    rw [View.writes_singleton, e, View.write_emb_of_mem _ _ (Finset.mem_univ _)]
    refine Eq.trans (cast_self _ _) ?_
    show (v11m Lc).view.read (Elt F) (m (dLoc d)) (ix1 (⟨i - 16128, hx⟩ : Fin 16640)) = _
    rw [View.read_apply, emb_v11m]
    refine Eq.trans (cast_self _ _) ?_
    exact congrArg (fun k : Fin 1048576 => (m (dLoc d)) (ix1 k)) (Fin.ext (by show 32768 * (wL Lc).val + (16128 + (i - 16128)) = 32768 * (wL Lc).val + i; omega))

end Landed

omit Lc in
/-- G3. The table's copy over the whole table buffer leaves the table. -/
theorem table_copy_apply (f1 : Buf (Elt F) ((V d (0 : Fin τ.nSC) (0 : Fin τ.nSub)).loc cc0_scratch1)) (p : S10x16.Idx → Elt F .f32)
    (hp : p = (tW).view.read (Elt F) (m (tLoc d))) (i : S10x16.Idx) :
    (View.write (Elt F) (s1).view f1 p Finset.univ) i = (m (tLoc d)) i := by
  subst hp
  show (View.write (Elt F) (View.whole (cc0_scratch1 : Ref sig .scVector)) f1 (m (tLoc d)) Finset.univ) i = _
  rw [View.write_whole_univ]

omit m d Lc in
/-- Column j of a 16-vector, matched with the 1 x 16 block, is (0, j). -/
theorem reshapeEquiv_ix1_1a (h : S16.numel = (⟨2, S1x16.size⟩ : Shape).numel) (j : Fin 16) :
    Shape.reshapeEquiv h (ix1 j : S16.Idx) = (ix2 (⟨0, Nat.one_pos⟩ : Fin 1) j : (⟨2, S1x16.size⟩ : Shape).Idx) :=
  Shape.reshapeEquiv_eq_of_rowMajor h (by
    rw [Shape.rowMajor_val_two, Shape.rowMajor_val_one]
    show 0 * 16 + j.val = j.val
    omega)

omit m d in
/-- Column j of the worker's squeezed row view sits at (w, j) of the partial results. -/
theorem emb_oRowK (j : Fin 16) : (oRowK Lc).view.emb (ix1 j) = (ix2 (wL Lc) j : S32x16.Idx) := by
  show (((View.whole (main_v0_scv : Ref sig .scVector)).slice (rowK Lc)).reshape S16 squeezes_S1x16_S16.numel_eq).emb (ix1 j) = _
  rw [View.emb_reshape, Function.Embedding.trans_apply, Equiv.toEmbedding_apply, reshapeEquiv_ix1_1a, View.emb_slice,
    Function.Embedding.trans_apply, View.emb_whole, Function.Embedding.refl_apply]
  funext a; apply Fin.ext
  rw [Rect.emb_apply]
  have e : k0_off7 Lc = ![16 * (Lc 0).val + (Lc 1).val, 0] := k0_off7_eq Lc
  fin_cases a
  · show k0_off7 Lc 0 + 1 * 0 = (wL Lc).val
    rw [e, wL_val]; simp
  · show k0_off7 Lc 1 + 1 * j.val = j.val
    rw [e]; simp

/-- G4. The row written out through the worker's view, read at (w, j), is the written vector at j. -/
theorem rowK_write_apply (row : S16.Idx → Elt F .f32) (j : Fin 16) :
    ((oRowK Lc).view.writes (Elt F) (m (oLoc d)) [⟨Rect.whole S16, row⟩]) (ix2 (wL Lc) j) = row (ix1 j) := by
  have h := View.read_writes_cons_emb (Val := Elt F) (oRowK Lc).view (m (oLoc d)) (Rect.whole S16) row [] (ix1 j)
  rw [Rect.emb_whole_apply, View.read_apply, emb_oRowK] at h
  exact h

end Cert.Proof.KI

end
-- ==== Proof.LibPackedCounters.lean ====
/-
  Packed counters in one 32-bit word.

  A word holds ten 3-bit counters, counter d at bits 3d .. 3d+2.  Adding 1 <<< (3*d) for each of at most seven
  digits d in 0..9 never carries between counters, so the word is the base-8 numeral whose d-th figure is the number
  of occurrences of d.  Masking with 0x71C71C7 keeps the figures of the even digits (now 6 bits apart), and the same
  mask after a shift by 3 keeps those of the odd digits.  Sums of such masked words are base-64 numerals as long as
  every figure stays below 64, and a shift by 6k with the mask 63 reads figure k.
-/
import Mathlib.Data.BitVec
import Mathlib.Tactic
import Idealize.ShloMosaic.PureOps.Vector

namespace Cert.PackedCounters

open Idealize.ShloMosaic

/-! ## Natural numbers -/

/-- Bitwise and acts separately above and below bit k when the low parts fit in k bits. -/
theorem and_split (k a b m1 m0 : ℕ) (hb : b < 2 ^ k) (hm : m0 < 2 ^ k) :
    (b + 2 ^ k * a) &&& (m0 + 2 ^ k * m1) = (b &&& m0) + 2 ^ k * (a &&& m1) := by
  have hbm : b &&& m0 < 2 ^ k := Nat.and_lt_two_pow _ hm
  apply Nat.eq_of_testBit_eq
  intro i
  rw [Nat.testBit_and, add_comm b, add_comm m0, add_comm (b &&& m0),
    Nat.testBit_two_pow_mul_add _ hb, Nat.testBit_two_pow_mul_add _ hm, Nat.testBit_two_pow_mul_add _ hbm]
  split <;> simp [Nat.testBit_and]

/-- The numeral with the given figures in base b, least significant first. -/
def horner (b : ℕ) : List ℕ → ℕ
  | [] => 0
  | c :: cs => c + b * horner b cs

@[simp] theorem horner_nil (b : ℕ) : horner b [] = 0 := rfl
@[simp] theorem horner_cons (b c : ℕ) (cs : List ℕ) : horner b (c :: cs) = c + b * horner b cs := rfl

/-- Bitwise and of two base-8 numerals with figures below 8 is the numeral of the figurewise and. -/
theorem horner8_and : ∀ (cs ms : List ℕ), (∀ c ∈ cs, c < 8) → (∀ m ∈ ms, m < 8) → cs.length = ms.length →
    horner 8 cs &&& horner 8 ms = horner 8 (List.zipWith (· &&& ·) cs ms)
  | [], [], _, _, _ => by simp
  | c :: cs, m :: ms, hc, hm, hl => by
    have ih := horner8_and cs ms (fun x hx => hc x (List.mem_cons_of_mem _ hx))
      (fun x hx => hm x (List.mem_cons_of_mem _ hx)) (by simpa using hl)
    have h := and_split 3 (horner 8 cs) c (horner 8 ms) m (hc c (List.mem_cons_self ..)) (hm m (List.mem_cons_self ..))
    simp only [horner_cons, List.zipWith_cons_cons]
    rw [← ih]; exact h
  | [], _ :: _, _, _, hl => by simp at hl
  | _ :: _, [], _, _, hl => by simp at hl

/-- The sum of 8^d over a list of digits. -/
def pack (l : List ℕ) : ℕ := (l.map (fun d => 8 ^ d)).sum

@[simp] theorem pack_nil : pack [] = 0 := rfl
@[simp] theorem pack_cons (d : ℕ) (l : List ℕ) : pack (d :: l) = 8 ^ d + pack l := by simp [pack]

/-- The figures of a digit list: how often each of 0..9 occurs. -/
def figs (l : List ℕ) : List ℕ :=
  [l.count 0, l.count 1, l.count 2, l.count 3, l.count 4, l.count 5, l.count 6, l.count 7, l.count 8, l.count 9]

/-- The packed sum of digits 0..9 is the base-8 numeral of the occurrence counts (as a number: no bound needed). -/
theorem sum_map_eq_sum_count (f : ℕ → ℕ) (n : ℕ) (l : List ℕ) (h : ∀ d ∈ l, d < n) :
    (l.map f).sum = ∑ x ∈ Finset.range n, l.count x * f x := by
  induction l with
  | nil => simp
  | cons d l ih =>
    have hd : d < n := h d (List.mem_cons_self ..)
    have ih' := ih (fun x hx => h x (List.mem_cons_of_mem _ hx))
    simp only [List.map_cons, List.sum_cons, List.count_cons, ih', add_mul, Finset.sum_add_distrib]
    have : ∑ x ∈ Finset.range n, (if (d == x) = true then 1 else 0) * f x = f d := by
      simp [Finset.sum_ite_eq, hd]
    rw [this, add_comm]

theorem pack_eq_horner (l : List ℕ) (h : ∀ d ∈ l, d ≤ 9) : pack l = horner 8 (figs l) := by
  rw [pack, sum_map_eq_sum_count _ 10 l (fun d hd => Nat.lt_succ_of_le (h d hd))]
  simp only [figs, horner_cons, horner_nil, Finset.sum_range_succ, Finset.sum_range_zero]
  ring

/-- Masking with 0x71C71C7 keeps the figures of the even digits: a base-64 numeral. -/
theorem horner8_and_mask (c0 c1 c2 c3 c4 c5 c6 c7 c8 c9 : ℕ)
    (h : ∀ c ∈ [c0, c1, c2, c3, c4, c5, c6, c7, c8, c9], c < 8) :
    horner 8 [c0, c1, c2, c3, c4, c5, c6, c7, c8, c9] &&& 0x71C71C7 = horner 64 [c0, c2, c4, c6, c8] := by
  have hm : (0x71C71C7 : ℕ) = horner 8 [7, 0, 7, 0, 7, 0, 7, 0, 7, 0] := by norm_num [horner]
  have h7 : ∀ c, c < 8 → c &&& 7 = c := fun c hc => by
    rw [show (7 : ℕ) = 2 ^ 3 - 1 by norm_num, Nat.and_two_pow_sub_one_eq_mod]; exact Nat.mod_eq_of_lt hc
  rw [hm, horner8_and _ _ h (by decide) (by simp)]
  simp only [List.mem_cons, List.not_mem_nil, or_false, forall_eq_or_imp, forall_eq] at h
  obtain ⟨h0, h1, h2, h3, h4, h5, h6, h7', h8, h9⟩ := h
  simp only [List.zipWith_cons_cons, List.zipWith_nil_right, horner_cons, horner_nil, Nat.and_zero,
    h7 _ h0, h7 _ h2, h7 _ h4, h7 _ h6, h7 _ h8]
  ring

/-- Shifting a base-8 numeral right by 3 drops its lowest figure. -/
theorem horner8_shiftRight (c : ℕ) (cs : List ℕ) (hc : c < 8) : horner 8 (c :: cs) >>> 3 = horner 8 cs := by
  rw [Nat.shiftRight_eq_div_pow, horner_cons]; omega

/-- The even-digit part of a packed word of at most seven digits 0..9. -/
theorem pack_and_mask (l : List ℕ) (hd : ∀ d ∈ l, d ≤ 9) (hl : l.length ≤ 7) :
    pack l &&& 0x71C71C7 = horner 64 [l.count 0, l.count 2, l.count 4, l.count 6, l.count 8] := by
  rw [pack_eq_horner l hd, figs]
  apply horner8_and_mask
  intro c hc
  simp only [List.mem_cons, List.not_mem_nil, or_false] at hc
  have := fun d => (List.count_le_length (a := d) (l := l))
  rcases hc with rfl | rfl | rfl | rfl | rfl | rfl | rfl | rfl | rfl | rfl <;> exact lt_of_le_of_lt (this _) (by omega)

/-- The odd-digit part of a packed word of at most seven digits 0..9. -/
theorem pack_shift_and_mask (l : List ℕ) (hd : ∀ d ∈ l, d ≤ 9) (hl : l.length ≤ 7) :
    (pack l >>> 3) &&& 0x71C71C7 = horner 64 [l.count 1, l.count 3, l.count 5, l.count 7, l.count 9] := by
  have hc := fun d => lt_of_le_of_lt (List.count_le_length (a := d) (l := l)) (Nat.lt_succ_of_le hl)
  rw [pack_eq_horner l hd, figs, horner8_shiftRight _ _ (hc 0)]
  have := horner8_and_mask (l.count 1) (l.count 2) (l.count 3) (l.count 4) (l.count 5) (l.count 6) (l.count 7)
    (l.count 8) (l.count 9) 0 (by
      intro c hc'
      simp only [List.mem_cons, List.not_mem_nil, or_false] at hc'
      rcases hc' with rfl | rfl | rfl | rfl | rfl | rfl | rfl | rfl | rfl | rfl <;> first | exact hc _ | norm_num)
  rw [← this]
  simp only [horner_cons, horner_nil]

/-- A numeral with n figures below the base b is below b^n. -/
theorem horner_lt (b : ℕ) : ∀ cs : List ℕ, (∀ c ∈ cs, c < b) → horner b cs < b ^ cs.length
  | [], _ => by simp
  | c :: cs, h => by
    have ih := horner_lt b cs (fun x hx => h x (List.mem_cons_of_mem _ hx))
    have hc := h c (List.mem_cons_self ..)
    simp only [horner_cons, List.length_cons, pow_succ]
    calc c + b * horner b cs < b + b * horner b cs := by omega
      _ = b * (horner b cs + 1) := by ring
      _ ≤ b * b ^ cs.length := Nat.mul_le_mul_left _ ih
      _ = b ^ cs.length * b := by ring

/-- A base-8 numeral with ten figures below 8 is below 2^30. -/
theorem horner8_lt (c0 c1 c2 c3 c4 c5 c6 c7 c8 c9 : ℕ) (h0 : c0 < 8) (h1 : c1 < 8) (h2 : c2 < 8) (h3 : c3 < 8)
    (h4 : c4 < 8) (h5 : c5 < 8) (h6 : c6 < 8) (h7 : c7 < 8) (h8 : c8 < 8) (h9 : c9 < 8) :
    horner 8 [c0, c1, c2, c3, c4, c5, c6, c7, c8, c9] < 2 ^ 30 := by
  have := horner_lt 8 [c0, c1, c2, c3, c4, c5, c6, c7, c8, c9] (by
    simp only [List.mem_cons, List.not_mem_nil, or_false, forall_eq_or_imp, forall_eq]
    exact ⟨h0, h1, h2, h3, h4, h5, h6, h7, h8, h9⟩)
  calc _ < 8 ^ 10 := this
    _ = 2 ^ 30 := by norm_num

/-- A packed word of at most seven digits 0..9 is below 2^30. -/
theorem pack_lt (l : List ℕ) (hd : ∀ d ∈ l, d ≤ 9) (hl : l.length ≤ 7) : pack l < 2 ^ 30 := by
  have hc := fun d => lt_of_le_of_lt (List.count_le_length (a := d) (l := l)) (Nat.lt_succ_of_le hl)
  rw [pack_eq_horner l hd, figs]
  exact horner8_lt _ _ _ _ _ _ _ _ _ _ (hc _) (hc _) (hc _) (hc _) (hc _) (hc _) (hc _) (hc _) (hc _) (hc _)

/-- The sum of the even-digit parts of the packed words of several digit lists. -/
def esum (ls : List (List ℕ)) : ℕ := (ls.map (fun l => pack l &&& 0x71C71C7)).sum

/-- The sum of the odd-digit parts of the packed words of several digit lists. -/
def fsum (ls : List (List ℕ)) : ℕ := (ls.map (fun l => (pack l >>> 3) &&& 0x71C71C7)).sum

@[simp] theorem esum_nil : esum [] = 0 := rfl
@[simp] theorem esum_cons (l : List ℕ) (ls : List (List ℕ)) : esum (l :: ls) = (pack l &&& 0x71C71C7) + esum ls := by
  simp [esum]
@[simp] theorem fsum_nil : fsum [] = 0 := rfl
@[simp] theorem fsum_cons (l : List ℕ) (ls : List (List ℕ)) :
    fsum (l :: ls) = ((pack l >>> 3) &&& 0x71C71C7) + fsum ls := by
  simp [fsum]

/-- The summed even-digit parts form the base-64 numeral of the total occurrence counts of 0, 2, 4, 6, 8. -/
theorem esum_eq (ls : List (List ℕ)) (hd : ∀ l ∈ ls, ∀ d ∈ l, d ≤ 9) (hl : ∀ l ∈ ls, l.length ≤ 7) :
    esum ls = horner 64 [ls.flatten.count 0, ls.flatten.count 2, ls.flatten.count 4, ls.flatten.count 6,
      ls.flatten.count 8] := by
  induction ls with
  | nil => simp
  | cons l ls ih =>
    rw [esum_cons, ih (fun x hx => hd x (List.mem_cons_of_mem _ hx)) (fun x hx => hl x (List.mem_cons_of_mem _ hx)),
      pack_and_mask l (hd l (List.mem_cons_self ..)) (hl l (List.mem_cons_self ..))]
    simp only [horner_cons, horner_nil, List.flatten_cons, List.count_append]
    ring

/-- The summed odd-digit parts form the base-64 numeral of the total occurrence counts of 1, 3, 5, 7, 9. -/
theorem fsum_eq (ls : List (List ℕ)) (hd : ∀ l ∈ ls, ∀ d ∈ l, d ≤ 9) (hl : ∀ l ∈ ls, l.length ≤ 7) :
    fsum ls = horner 64 [ls.flatten.count 1, ls.flatten.count 3, ls.flatten.count 5, ls.flatten.count 7,
      ls.flatten.count 9] := by
  induction ls with
  | nil => simp
  | cons l ls ih =>
    rw [fsum_cons, ih (fun x hx => hd x (List.mem_cons_of_mem _ hx)) (fun x hx => hl x (List.mem_cons_of_mem _ hx)),
      pack_shift_and_mask l (hd l (List.mem_cons_self ..)) (hl l (List.mem_cons_self ..))]
    simp only [horner_cons, horner_nil, List.flatten_cons, List.count_append]
    ring

/-- Figure k of a base-64 numeral with five figures below 64: shift by 6k, mask 63. -/
theorem horner64_field (C0 C1 C2 C3 C4 : ℕ) (h0 : C0 < 64) (h1 : C1 < 64) (h2 : C2 < 64) (h3 : C3 < 64)
    (h4 : C4 < 64) (k : ℕ) (hk : k < 5) :
    (horner 64 [C0, C1, C2, C3, C4] >>> (6 * k)) &&& 63 = [C0, C1, C2, C3, C4].getD k 0 := by
  rw [show (63 : ℕ) = 2 ^ 6 - 1 by norm_num, Nat.and_two_pow_sub_one_eq_mod, Nat.shiftRight_eq_div_pow]
  simp only [horner_cons, horner_nil]
  interval_cases k <;> simp <;> omega

/-- A base-64 numeral with five figures below 64 is below 2^30. -/
theorem horner64_lt (C0 C1 C2 C3 C4 : ℕ) (h0 : C0 < 64) (h1 : C1 < 64) (h2 : C2 < 64) (h3 : C3 < 64)
    (h4 : C4 < 64) : horner 64 [C0, C1, C2, C3, C4] < 2 ^ 30 := by
  have := horner_lt 64 [C0, C1, C2, C3, C4] (by
    simp only [List.mem_cons, List.not_mem_nil, or_false, forall_eq_or_imp, forall_eq]
    exact ⟨h0, h1, h2, h3, h4⟩)
  calc _ < 64 ^ 5 := this
    _ = 2 ^ 30 := by norm_num

/-- With at most 63 digits in all, field k of the summed even parts counts the digit 2k. -/
theorem esum_field (ls : List (List ℕ)) (hd : ∀ l ∈ ls, ∀ d ∈ l, d ≤ 9) (hl : ∀ l ∈ ls, l.length ≤ 7)
    (ht : ls.flatten.length ≤ 63) (k : ℕ) (hk : k < 5) :
    (esum ls >>> (6 * k)) &&& 63 = ls.flatten.count (2 * k) := by
  have hc := fun d => lt_of_le_of_lt (List.count_le_length (a := d) (l := ls.flatten)) (Nat.lt_succ_of_le ht)
  rw [esum_eq ls hd hl, horner64_field _ _ _ _ _ (hc _) (hc _) (hc _) (hc _) (hc _) k hk]
  interval_cases k <;> rfl

/-- With at most 63 digits in all, field k of the summed odd parts counts the digit 2k+1. -/
theorem fsum_field (ls : List (List ℕ)) (hd : ∀ l ∈ ls, ∀ d ∈ l, d ≤ 9) (hl : ∀ l ∈ ls, l.length ≤ 7)
    (ht : ls.flatten.length ≤ 63) (k : ℕ) (hk : k < 5) :
    (fsum ls >>> (6 * k)) &&& 63 = ls.flatten.count (2 * k + 1) := by
  have hc := fun d => lt_of_le_of_lt (List.count_le_length (a := d) (l := ls.flatten)) (Nat.lt_succ_of_le ht)
  rw [fsum_eq ls hd hl, horner64_field _ _ _ _ _ (hc _) (hc _) (hc _) (hc _) (hc _) k hk]
  interval_cases k <;> rfl

/-- The summed even parts stay below 2^30 (so the word is nonnegative read signed). -/
theorem esum_lt (ls : List (List ℕ)) (hd : ∀ l ∈ ls, ∀ d ∈ l, d ≤ 9) (hl : ∀ l ∈ ls, l.length ≤ 7)
    (ht : ls.flatten.length ≤ 63) : esum ls < 2 ^ 30 := by
  have hc := fun d => lt_of_le_of_lt (List.count_le_length (a := d) (l := ls.flatten)) (Nat.lt_succ_of_le ht)
  rw [esum_eq ls hd hl]; exact horner64_lt _ _ _ _ _ (hc _) (hc _) (hc _) (hc _) (hc _)

/-- The summed odd parts stay below 2^30. -/
theorem fsum_lt (ls : List (List ℕ)) (hd : ∀ l ∈ ls, ∀ d ∈ l, d ≤ 9) (hl : ∀ l ∈ ls, l.length ≤ 7)
    (ht : ls.flatten.length ≤ 63) : fsum ls < 2 ^ 30 := by
  have hc := fun d => lt_of_le_of_lt (List.count_le_length (a := d) (l := ls.flatten)) (Nat.lt_succ_of_le ht)
  rw [fsum_eq ls hd hl]; exact horner64_lt _ _ _ _ _ (hc _) (hc _) (hc _) (hc _) (hc _)

/-! ## Words -/

/-- Adding words given by numbers. -/
theorem ofNat_add_ofNat (a b : ℕ) : BitVec.ofNat 32 a + BitVec.ofNat 32 b = BitVec.ofNat 32 (a + b) := by
  apply BitVec.eq_of_toNat_eq; simp [BitVec.toNat_add, BitVec.toNat_ofNat]

/-- Bitwise and of words given by numbers. -/
theorem ofNat_and_ofNat (a b : ℕ) : BitVec.ofNat 32 a &&& BitVec.ofNat 32 b = BitVec.ofNat 32 (a &&& b) := by
  apply BitVec.eq_of_toNat_eq; simp [BitVec.toNat_and, BitVec.toNat_ofNat, Nat.and_mod_two_pow]

/-- The vector unit's 1 <<< (3 * v) for a digit word v at most 9 is the word 8^v. -/
theorem shli_digit (v : BitVec 32) (h : v.toNat ≤ 9) :
    IntOp.shli .vector 1#32 (IntOp.muli v 3#32) = BitVec.ofNat 32 (8 ^ v.toNat) := by
  have h3 : (v * 3#32).toNat = 3 * v.toNat := by
    rw [BitVec.toNat_mul]; simp only [BitVec.toNat_ofNat]; omega
  unfold IntOp.shli IntOp.muli
  rw [if_pos (by rw [h3]; omega)]
  apply BitVec.eq_of_toNat_eq
  rw [BitVec.shiftLeft_eq', h3, BitVec.toNat_shiftLeft]
  simp [Nat.shiftLeft_eq, pow_mul]

/-- The vector unit's arithmetic shift right of a word below 2^31 by an amount below 32 is the number's shift. -/
theorem shrsi_ofNat (n k : ℕ) (hn : n < 2 ^ 31) (hk : k < 32) :
    IntOp.shrsi .vector (BitVec.ofNat 32 n) (BitVec.ofNat 32 k) = BitVec.ofNat 32 (n >>> k) := by
  have hk' : (BitVec.ofNat 32 k).toNat = k := by simp only [BitVec.toNat_ofNat]; omega
  have hn' : (BitVec.ofNat 32 n).toNat = n := by simp only [BitVec.toNat_ofNat]; omega
  unfold IntOp.shrsi
  rw [if_pos (by rw [hk']; exact hk), BitVec.sshiftRight_eq', hk', BitVec.sshiftRight_eq_of_msb_false]
  · apply BitVec.eq_of_toNat_eq
    rw [BitVec.toNat_ushiftRight, hn', BitVec.toNat_ofNat, Nat.mod_eq_of_lt]
    exact lt_of_le_of_lt (Nat.shiftRight_le _ _) (by omega)
  · rw [BitVec.msb_eq_false_iff_two_mul_lt, hn']; omega

/-- Reading field k of the accumulated even parts as the vector unit does (arithmetic shift by 6k, mask 63) gives
    the number of occurrences of the digit 2k among all the digits (at most 63 of them, in lists of at most 7). -/
theorem word_esum_field (ls : List (List ℕ)) (hd : ∀ l ∈ ls, ∀ d ∈ l, d ≤ 9) (hl : ∀ l ∈ ls, l.length ≤ 7)
    (ht : ls.flatten.length ≤ 63) (k s d : ℕ) (hk : k < 5) (hs : s = 6 * k) (hd' : d = 2 * k) :
    IntOp.andi (IntOp.shrsi .vector (BitVec.ofNat 32 (esum ls)) (BitVec.ofNat 32 s)) 63#32
      = BitVec.ofNat 32 (ls.flatten.count d) := by
  subst hs hd'
  rw [shrsi_ofNat _ _ (lt_trans (esum_lt ls hd hl ht) (by norm_num)) (by omega)]
  unfold IntOp.andi
  rw [ofNat_and_ofNat, esum_field ls hd hl ht k hk]

/-- Reading field k of the accumulated odd parts gives the number of occurrences of the digit 2k+1. -/
theorem word_fsum_field (ls : List (List ℕ)) (hd : ∀ l ∈ ls, ∀ d ∈ l, d ≤ 9) (hl : ∀ l ∈ ls, l.length ≤ 7)
    (ht : ls.flatten.length ≤ 63) (k s d : ℕ) (hk : k < 5) (hs : s = 6 * k) (hd' : d = 2 * k + 1) :
    IntOp.andi (IntOp.shrsi .vector (BitVec.ofNat 32 (fsum ls)) (BitVec.ofNat 32 s)) 63#32
      = BitVec.ofNat 32 (ls.flatten.count d) := by
  subst hs hd'
  rw [shrsi_ofNat _ _ (lt_trans (fsum_lt ls hd hl ht) (by norm_num)) (by omega)]
  unfold IntOp.andi
  rw [ofNat_and_ofNat, fsum_field ls hd hl ht k hk]

/-- One accumulator step: adding the vector unit's 1 <<< (3 * v), for a digit word v at most 9, to the packed word of
    the digit list l gives the packed word of l with v's digit appended. -/
theorem addi_shli_digit (l : List ℕ) (v : BitVec 32) (h : v.toNat ≤ 9) :
    IntOp.addi (BitVec.ofNat 32 (pack l)) (IntOp.shli .vector 1#32 (IntOp.muli v 3#32))
      = BitVec.ofNat 32 (pack (l ++ [v.toNat])) := by
  rw [shli_digit v h]
  unfold IntOp.addi
  rw [ofNat_add_ofNat]
  congr 1
  simp [pack]

/-- The even part of an accumulator word, and its addition to a sum of even parts. -/
theorem addi_andi_mask (ls : List (List ℕ)) (l : List ℕ) :
    IntOp.addi (BitVec.ofNat 32 (esum ls)) (IntOp.andi (BitVec.ofNat 32 (pack l)) 119304647#32)
      = BitVec.ofNat 32 (esum (ls ++ [l])) := by
  unfold IntOp.addi IntOp.andi
  rw [ofNat_and_ofNat, ofNat_add_ofNat]
  congr 1
  simp [esum]

/-- The odd part of an accumulator word (of at most seven digits 0..9), and its addition to a sum of odd parts. -/
theorem addi_shrsi_andi_mask (ls : List (List ℕ)) (l : List ℕ) (hd : ∀ d ∈ l, d ≤ 9) (hl : l.length ≤ 7) :
    IntOp.addi (BitVec.ofNat 32 (fsum ls))
        (IntOp.andi (IntOp.shrsi .vector (BitVec.ofNat 32 (pack l)) 3#32) 119304647#32)
      = BitVec.ofNat 32 (fsum (ls ++ [l])) := by
  rw [show (3#32 : BitVec 32) = BitVec.ofNat 32 3 from rfl,
    shrsi_ofNat _ _ (lt_trans (pack_lt l hd hl) (by norm_num)) (by norm_num)]
  unfold IntOp.addi IntOp.andi
  rw [ofNat_and_ofNat, ofNat_add_ofNat]
  congr 1
  simp [fsum]

/-! ## Invariants of the accumulation, one lane at a time -/

/-- The word x is an accumulator holding the digits L (each at most 9): its number is their packed sum. -/
def IsAcc (x : BitVec 32) (L : List ℕ) : Prop := x = BitVec.ofNat 32 (pack L) ∧ ∀ d ∈ L, d ≤ 9

/-- The word x is the sum of the even parts of the accumulators holding the digit lists ls (digits at most 9, at most
    seven to a list). -/
def IsE (x : BitVec 32) (ls : List (List ℕ)) : Prop :=
  x = BitVec.ofNat 32 (esum ls) ∧ (∀ L ∈ ls, ∀ d ∈ L, d ≤ 9) ∧ (∀ L ∈ ls, L.length ≤ 7)

/-- The word x is the sum of the odd parts of the accumulators holding the digit lists ls. -/
def IsF (x : BitVec 32) (ls : List (List ℕ)) : Prop :=
  x = BitVec.ofNat 32 (fsum ls) ∧ (∀ L ∈ ls, ∀ d ∈ L, d ≤ 9) ∧ (∀ L ∈ ls, L.length ≤ 7)

/-- The zero word is the empty accumulator. -/
theorem isAcc_zero : IsAcc 0#32 [] := ⟨rfl, by simp⟩
/-- The zero word is the empty sum of even parts. -/
theorem isE_zero : IsE 0#32 [] := ⟨rfl, by simp, by simp⟩
/-- The zero word is the empty sum of odd parts. -/
theorem isF_zero : IsF 0#32 [] := ⟨rfl, by simp, by simp⟩

/-- Adding 1 <<< (3 * v) for a digit word v at most 9 appends v's digit to the accumulator. -/
theorem IsAcc.step {x : BitVec 32} {L : List ℕ} (h : IsAcc x L) (v : BitVec 32) (hv : v.toNat ≤ 9) :
    IsAcc (IntOp.addi x (IntOp.shli .vector 1#32 (IntOp.muli v 3#32))) (L ++ [v.toNat]) := by
  refine ⟨by rw [h.1, addi_shli_digit _ _ hv], ?_⟩
  intro d hd
  rcases List.mem_append.mp hd with h' | h'
  · exact h.2 d h'
  · rw [List.mem_singleton.mp h']; exact hv

/-- Adding the even part of a finished accumulator (at most seven digits) appends its digit list. -/
theorem IsE.step {x a : BitVec 32} {ls : List (List ℕ)} {L : List ℕ} (h : IsE x ls) (ha : IsAcc a L)
    (hL : L.length ≤ 7) : IsE (IntOp.addi x (IntOp.andi a 119304647#32)) (ls ++ [L]) := by
  refine ⟨by rw [h.1, ha.1, addi_andi_mask], ?_, ?_⟩
  · intro M hM
    rcases List.mem_append.mp hM with h' | h'
    · exact h.2.1 M h'
    · rw [List.mem_singleton.mp h']; exact ha.2
  · intro M hM
    rcases List.mem_append.mp hM with h' | h'
    · exact h.2.2 M h'
    · rw [List.mem_singleton.mp h']; exact hL

/-- Adding the odd part of a finished accumulator (at most seven digits) appends its digit list. -/
theorem IsF.step {x a : BitVec 32} {ls : List (List ℕ)} {L : List ℕ} (h : IsF x ls) (ha : IsAcc a L)
    (hL : L.length ≤ 7) :
    IsF (IntOp.addi x (IntOp.andi (IntOp.shrsi .vector a 3#32) 119304647#32)) (ls ++ [L]) := by
  refine ⟨by rw [h.1, ha.1, addi_shrsi_andi_mask _ _ ha.2 hL], ?_, ?_⟩
  · intro M hM
    rcases List.mem_append.mp hM with h' | h'
    · exact h.2.1 M h'
    · rw [List.mem_singleton.mp h']; exact ha.2
  · intro M hM
    rcases List.mem_append.mp hM with h' | h'
    · exact h.2.2 M h'
    · rw [List.mem_singleton.mp h']; exact hL

/-- Field k of the summed even parts (shift 6k, mask 63) counts the digit 2k, for at most 63 digits in all. -/
theorem IsE.field {x : BitVec 32} {ls : List (List ℕ)} (h : IsE x ls) (ht : ls.flatten.length ≤ 63)
    (k s d : ℕ) (hk : k < 5) (hs : s = 6 * k) (hd : d = 2 * k) :
    IntOp.andi (IntOp.shrsi .vector x (BitVec.ofNat 32 s)) 63#32 = BitVec.ofNat 32 (ls.flatten.count d) := by
  rw [h.1]; exact word_esum_field ls h.2.1 h.2.2 ht k s d hk hs hd

/-- Field k of the summed odd parts counts the digit 2k+1. -/
theorem IsF.field {x : BitVec 32} {ls : List (List ℕ)} (h : IsF x ls) (ht : ls.flatten.length ≤ 63)
    (k s d : ℕ) (hk : k < 5) (hs : s = 6 * k) (hd : d = 2 * k + 1) :
    IntOp.andi (IntOp.shrsi .vector x (BitVec.ofNat 32 s)) 63#32 = BitVec.ofNat 32 (ls.flatten.count d) := by
  rw [h.1]; exact word_fsum_field ls h.2.1 h.2.2 ht k s d hk hs hd

/-- The shifted word of the summed odd parts (the shift alone, the mask applied later). -/
theorem IsF.shift {x : BitVec 32} {ls : List (List ℕ)} (h : IsF x ls) (ht : ls.flatten.length ≤ 63)
    (s : ℕ) (hs : s < 32) :
    IntOp.shrsi .vector x (BitVec.ofNat 32 s) = BitVec.ofNat 32 (fsum ls >>> s) := by
  rw [h.1]; exact shrsi_ofNat _ _ (lt_trans (fsum_lt ls h.2.1 h.2.2 ht) (by norm_num)) hs

end Cert.PackedCounters
-- ==== Proof.KI.Counts.lean ====
/-
  The counting loops, lane by lane: every payload of a trip as a packed word of the digits seen so far.

  In one lane, an accumulator is the word whose number is the packed sum of the digits added to it; the even and odd
  running sums are the words of the summed masked halves of the finished accumulators; and the ten yielded counters
  are the carried counters plus the number of occurrences of each digit among the trip's loaded vectors.
-/
import proofs.«205564_g40879498729249_retrytranche2_1872_24_alg».proof.Proof.Gen.KernelIdeal.Skeleton
import proofs.«205564_g40879498729249_retrytranche2_1872_24_alg».proof.Proof.LibPackedCounters

noncomputable section

namespace Cert.KernelIdeal.Gen

open Idealize.ShloMosaic Cert.PackedCounters

variable {F : FTy → Type} [FloatOps F]

/-- The zero word is the packed word of no digits. -/
theorem zero_eq_pack_nil : (0#32 : BitVec 32) = BitVec.ofNat 32 (pack []) := rfl

/-- The zero word is the empty sum of even (or odd) parts. -/
theorem zero_eq_esum_nil : (0#32 : BitVec 32) = BitVec.ofNat 32 (esum []) := rfl
theorem zero_eq_fsum_nil : (0#32 : BitVec 32) = BitVec.ofNat 32 (fsum []) := rfl

/-- The digits the given vectors hold in lane l, in order. -/
def lanes (vs : List (Vec F S16 .i32)) (l : S16.Idx) : List ℕ := vs.map (fun v => BitVec.toNat (v l))

/-! ## The first counting loop: its payloads, one lane at a time -/

/-- The zero vector: in every lane the empty sum of even parts. -/
theorem k0_pay2_lane (l : S16.Idx) : IsE (k0_pay2 l) [] := isE_zero

/-- The zero vector: in every lane the empty sum of odd parts. -/
theorem k0_pay3_lane (l : S16.Idx) : IsF (k0_pay3 l) [] := isF_zero

/-- The zero vector: in every lane the empty accumulator. -/
theorem k0_pay4_lane (l : S16.Idx) : IsAcc (k0_pay4 l) [] := isAcc_zero

/-- The zero vector: in every lane the empty accumulator. -/
theorem k0_pay5_lane (l : S16.Idx) : IsAcc (k0_pay5 l) [] := isAcc_zero

/-- The zero vector: in every lane the empty accumulator. -/
theorem k0_pay6_lane (l : S16.Idx) : IsAcc (k0_pay6 l) [] := isAcc_zero

/-- The zero vector: in every lane the empty accumulator. -/
theorem k0_pay19_lane (l : S16.Idx) : IsAcc (k0_pay19 l) [] := isAcc_zero

/-- The zero vector: in every lane the empty accumulator. -/
theorem k0_pay20_lane (l : S16.Idx) : IsAcc (k0_pay20 l) [] := isAcc_zero

/-- The zero vector: in every lane the empty accumulator. -/
theorem k0_pay21_lane (l : S16.Idx) : IsAcc (k0_pay21 l) [] := isAcc_zero

/-- In one lane: the fresh accumulator after 3 more digits added. -/
theorem k0_pay7_lane (v604 v614 v624 : Vec F S16 .i32) (l : S16.Idx)
    (b0 : BitVec.toNat (v604 l) ≤ 9) (b1 : BitVec.toNat (v614 l) ≤ 9) (b2 : BitVec.toNat (v624 l) ≤ 9) :
    IsAcc (k0_pay7 v604 v614 v624 l) ([BitVec.toNat (v604 l), BitVec.toNat (v614 l), BitVec.toNat (v624 l)]) := by
  have := (((isAcc_zero.step _ b0).step _ b1).step _ b2)
  simpa only [k0_pay7, addi, muli, shli, broadcast, List.append_assoc, List.cons_append, List.nil_append] using this

/-- In one lane: the accumulator with 4 more digits added. -/
theorem k0_pay8_lane (v629 : IVec S16 32) (v634 v644 v654 v664 : Vec F S16 .i32) (l : S16.Idx) (L : List ℕ)
    (h0 : IsAcc (v629 l) L) (b0 : BitVec.toNat (v634 l) ≤ 9) (b1 : BitVec.toNat (v644 l) ≤ 9) (b2 : BitVec.toNat (v654 l) ≤ 9) (b3 : BitVec.toNat (v664 l) ≤ 9) :
    IsAcc (k0_pay8 v629 v634 v644 v654 v664 l) (L ++ [BitVec.toNat (v634 l), BitVec.toNat (v644 l), BitVec.toNat (v654 l), BitVec.toNat (v664 l)]) := by
  have := ((((h0.step _ b0).step _ b1).step _ b2).step _ b3)
  simpa only [k0_pay8, addi, muli, shli, broadcast, List.append_assoc, List.cons_append, List.nil_append] using this

/-- In one lane: the accumulator with 4 more digits added. -/
theorem k0_pay9_lane (v597 : IVec S16 32) (v674 v684 v694 v704 : Vec F S16 .i32) (l : S16.Idx) (L : List ℕ)
    (h0 : IsAcc (v597 l) L) (b0 : BitVec.toNat (v674 l) ≤ 9) (b1 : BitVec.toNat (v684 l) ≤ 9) (b2 : BitVec.toNat (v694 l) ≤ 9) (b3 : BitVec.toNat (v704 l) ≤ 9) :
    IsAcc (k0_pay9 v597 v674 v684 v694 v704 l) (L ++ [BitVec.toNat (v674 l), BitVec.toNat (v684 l), BitVec.toNat (v694 l), BitVec.toNat (v704 l)]) := by
  have := ((((h0.step _ b0).step _ b1).step _ b2).step _ b3)
  simpa only [k0_pay9, addi, muli, shli, broadcast, List.append_assoc, List.cons_append, List.nil_append] using this

/-- In one lane: the accumulator with 3 more digits added. -/
theorem k0_pay10_lane (v709 : IVec S16 32) (v714 v724 v734 : Vec F S16 .i32) (l : S16.Idx) (L : List ℕ)
    (h0 : IsAcc (v709 l) L) (b0 : BitVec.toNat (v714 l) ≤ 9) (b1 : BitVec.toNat (v724 l) ≤ 9) (b2 : BitVec.toNat (v734 l) ≤ 9) :
    IsAcc (k0_pay10 v709 v714 v724 v734 l) (L ++ [BitVec.toNat (v714 l), BitVec.toNat (v724 l), BitVec.toNat (v734 l)]) := by
  have := (((h0.step _ b0).step _ b1).step _ b2)
  simpa only [k0_pay10, addi, muli, shli, broadcast, List.append_assoc, List.cons_append, List.nil_append] using this

/-- In one lane: the accumulator with 1 more digit added. -/
theorem k0_pay11_lane (v598 : IVec S16 32) (v744 : Vec F S16 .i32) (l : S16.Idx) (L : List ℕ)
    (h0 : IsAcc (v598 l) L) (b0 : BitVec.toNat (v744 l) ≤ 9) :
    IsAcc (k0_pay11 v598 v744 l) (L ++ [BitVec.toNat (v744 l)]) := by
  have := (h0.step _ b0)
  simpa only [k0_pay11, addi, muli, shli, broadcast, List.append_assoc, List.cons_append, List.nil_append] using this

/-- In one lane: the accumulator with 4 more digits added. -/
theorem k0_pay12_lane (v749 : IVec S16 32) (v754 v764 v774 v784 : Vec F S16 .i32) (l : S16.Idx) (L : List ℕ)
    (h0 : IsAcc (v749 l) L) (b0 : BitVec.toNat (v754 l) ≤ 9) (b1 : BitVec.toNat (v764 l) ≤ 9) (b2 : BitVec.toNat (v774 l) ≤ 9) (b3 : BitVec.toNat (v784 l) ≤ 9) :
    IsAcc (k0_pay12 v749 v754 v764 v774 v784 l) (L ++ [BitVec.toNat (v754 l), BitVec.toNat (v764 l), BitVec.toNat (v774 l), BitVec.toNat (v784 l)]) := by
  have := ((((h0.step _ b0).step _ b1).step _ b2).step _ b3)
  simpa only [k0_pay12, addi, muli, shli, broadcast, List.append_assoc, List.cons_append, List.nil_append] using this

/-- In one lane: the accumulator with 2 more digits added. -/
theorem k0_pay13_lane (v789 : IVec S16 32) (v794 v804 : Vec F S16 .i32) (l : S16.Idx) (L : List ℕ)
    (h0 : IsAcc (v789 l) L) (b0 : BitVec.toNat (v794 l) ≤ 9) (b1 : BitVec.toNat (v804 l) ≤ 9) :
    IsAcc (k0_pay13 v789 v794 v804 l) (L ++ [BitVec.toNat (v794 l), BitVec.toNat (v804 l)]) := by
  have := ((h0.step _ b0).step _ b1)
  simpa only [k0_pay13, addi, muli, shli, broadcast, List.append_assoc, List.cons_append, List.nil_append] using this

/-- In one lane: the accumulator with 2 more digits added. -/
theorem k0_pay14_lane (v599 : IVec S16 32) (v814 v824 : Vec F S16 .i32) (l : S16.Idx) (L : List ℕ)
    (h0 : IsAcc (v599 l) L) (b0 : BitVec.toNat (v814 l) ≤ 9) (b1 : BitVec.toNat (v824 l) ≤ 9) :
    IsAcc (k0_pay14 v599 v814 v824 l) (L ++ [BitVec.toNat (v814 l), BitVec.toNat (v824 l)]) := by
  have := ((h0.step _ b0).step _ b1)
  simpa only [k0_pay14, addi, muli, shli, broadcast, List.append_assoc, List.cons_append, List.nil_append] using this

/-- In one lane: the accumulator with 4 more digits added. -/
theorem k0_pay15_lane (v829 : IVec S16 32) (v834 v844 v854 v864 : Vec F S16 .i32) (l : S16.Idx) (L : List ℕ)
    (h0 : IsAcc (v829 l) L) (b0 : BitVec.toNat (v834 l) ≤ 9) (b1 : BitVec.toNat (v844 l) ≤ 9) (b2 : BitVec.toNat (v854 l) ≤ 9) (b3 : BitVec.toNat (v864 l) ≤ 9) :
    IsAcc (k0_pay15 v829 v834 v844 v854 v864 l) (L ++ [BitVec.toNat (v834 l), BitVec.toNat (v844 l), BitVec.toNat (v854 l), BitVec.toNat (v864 l)]) := by
  have := ((((h0.step _ b0).step _ b1).step _ b2).step _ b3)
  simpa only [k0_pay15, addi, muli, shli, broadcast, List.append_assoc, List.cons_append, List.nil_append] using this

/-- In one lane: the accumulator with 1 more digit added. -/
theorem k0_pay16_lane (v869 : IVec S16 32) (v874 : Vec F S16 .i32) (l : S16.Idx) (L : List ℕ)
    (h0 : IsAcc (v869 l) L) (b0 : BitVec.toNat (v874 l) ≤ 9) :
    IsAcc (k0_pay16 v869 v874 l) (L ++ [BitVec.toNat (v874 l)]) := by
  have := (h0.step _ b0)
  simpa only [k0_pay16, addi, muli, shli, broadcast, List.append_assoc, List.cons_append, List.nil_append] using this

/-- In one lane: the fresh accumulator after 3 more digits added. -/
theorem k0_pay22_lane (v921 v931 v941 : Vec F S16 .i32) (l : S16.Idx)
    (b0 : BitVec.toNat (v921 l) ≤ 9) (b1 : BitVec.toNat (v931 l) ≤ 9) (b2 : BitVec.toNat (v941 l) ≤ 9) :
    IsAcc (k0_pay22 v921 v931 v941 l) ([BitVec.toNat (v921 l), BitVec.toNat (v931 l), BitVec.toNat (v941 l)]) := by
  have := (((isAcc_zero.step _ b0).step _ b1).step _ b2)
  simpa only [k0_pay22, addi, muli, shli, broadcast, List.append_assoc, List.cons_append, List.nil_append] using this

/-- In one lane: the accumulator with 4 more digits added. -/
theorem k0_pay23_lane (v946 : IVec S16 32) (v951 v961 v971 v981 : Vec F S16 .i32) (l : S16.Idx) (L : List ℕ)
    (h0 : IsAcc (v946 l) L) (b0 : BitVec.toNat (v951 l) ≤ 9) (b1 : BitVec.toNat (v961 l) ≤ 9) (b2 : BitVec.toNat (v971 l) ≤ 9) (b3 : BitVec.toNat (v981 l) ≤ 9) :
    IsAcc (k0_pay23 v946 v951 v961 v971 v981 l) (L ++ [BitVec.toNat (v951 l), BitVec.toNat (v961 l), BitVec.toNat (v971 l), BitVec.toNat (v981 l)]) := by
  have := ((((h0.step _ b0).step _ b1).step _ b2).step _ b3)
  simpa only [k0_pay23, addi, muli, shli, broadcast, List.append_assoc, List.cons_append, List.nil_append] using this

/-- In one lane: the accumulator with 4 more digits added. -/
theorem k0_pay24_lane (v914 : IVec S16 32) (v991 v1001 v1011 v1021 : Vec F S16 .i32) (l : S16.Idx) (L : List ℕ)
    (h0 : IsAcc (v914 l) L) (b0 : BitVec.toNat (v991 l) ≤ 9) (b1 : BitVec.toNat (v1001 l) ≤ 9) (b2 : BitVec.toNat (v1011 l) ≤ 9) (b3 : BitVec.toNat (v1021 l) ≤ 9) :
    IsAcc (k0_pay24 v914 v991 v1001 v1011 v1021 l) (L ++ [BitVec.toNat (v991 l), BitVec.toNat (v1001 l), BitVec.toNat (v1011 l), BitVec.toNat (v1021 l)]) := by
  have := ((((h0.step _ b0).step _ b1).step _ b2).step _ b3)
  simpa only [k0_pay24, addi, muli, shli, broadcast, List.append_assoc, List.cons_append, List.nil_append] using this

/-- In one lane: the accumulator with 3 more digits added. -/
theorem k0_pay25_lane (v1026 : IVec S16 32) (v1031 v1041 v1051 : Vec F S16 .i32) (l : S16.Idx) (L : List ℕ)
    (h0 : IsAcc (v1026 l) L) (b0 : BitVec.toNat (v1031 l) ≤ 9) (b1 : BitVec.toNat (v1041 l) ≤ 9) (b2 : BitVec.toNat (v1051 l) ≤ 9) :
    IsAcc (k0_pay25 v1026 v1031 v1041 v1051 l) (L ++ [BitVec.toNat (v1031 l), BitVec.toNat (v1041 l), BitVec.toNat (v1051 l)]) := by
  have := (((h0.step _ b0).step _ b1).step _ b2)
  simpa only [k0_pay25, addi, muli, shli, broadcast, List.append_assoc, List.cons_append, List.nil_append] using this

/-- In one lane: the accumulator with 1 more digit added. -/
theorem k0_pay26_lane (v915 : IVec S16 32) (v1061 : Vec F S16 .i32) (l : S16.Idx) (L : List ℕ)
    (h0 : IsAcc (v915 l) L) (b0 : BitVec.toNat (v1061 l) ≤ 9) :
    IsAcc (k0_pay26 v915 v1061 l) (L ++ [BitVec.toNat (v1061 l)]) := by
  have := (h0.step _ b0)
  simpa only [k0_pay26, addi, muli, shli, broadcast, List.append_assoc, List.cons_append, List.nil_append] using this

/-- In one lane: the accumulator with 4 more digits added. -/
theorem k0_pay27_lane (v1066 : IVec S16 32) (v1071 v1081 v1091 v1101 : Vec F S16 .i32) (l : S16.Idx) (L : List ℕ)
    (h0 : IsAcc (v1066 l) L) (b0 : BitVec.toNat (v1071 l) ≤ 9) (b1 : BitVec.toNat (v1081 l) ≤ 9) (b2 : BitVec.toNat (v1091 l) ≤ 9) (b3 : BitVec.toNat (v1101 l) ≤ 9) :
    IsAcc (k0_pay27 v1066 v1071 v1081 v1091 v1101 l) (L ++ [BitVec.toNat (v1071 l), BitVec.toNat (v1081 l), BitVec.toNat (v1091 l), BitVec.toNat (v1101 l)]) := by
  have := ((((h0.step _ b0).step _ b1).step _ b2).step _ b3)
  simpa only [k0_pay27, addi, muli, shli, broadcast, List.append_assoc, List.cons_append, List.nil_append] using this

/-- In one lane: the accumulator with 2 more digits added. -/
theorem k0_pay28_lane (v1106 : IVec S16 32) (v1111 v1121 : Vec F S16 .i32) (l : S16.Idx) (L : List ℕ)
    (h0 : IsAcc (v1106 l) L) (b0 : BitVec.toNat (v1111 l) ≤ 9) (b1 : BitVec.toNat (v1121 l) ≤ 9) :
    IsAcc (k0_pay28 v1106 v1111 v1121 l) (L ++ [BitVec.toNat (v1111 l), BitVec.toNat (v1121 l)]) := by
  have := ((h0.step _ b0).step _ b1)
  simpa only [k0_pay28, addi, muli, shli, broadcast, List.append_assoc, List.cons_append, List.nil_append] using this

/-- In one lane: the accumulator with 2 more digits added. -/
theorem k0_pay29_lane (v916 : IVec S16 32) (v1131 v1141 : Vec F S16 .i32) (l : S16.Idx) (L : List ℕ)
    (h0 : IsAcc (v916 l) L) (b0 : BitVec.toNat (v1131 l) ≤ 9) (b1 : BitVec.toNat (v1141 l) ≤ 9) :
    IsAcc (k0_pay29 v916 v1131 v1141 l) (L ++ [BitVec.toNat (v1131 l), BitVec.toNat (v1141 l)]) := by
  have := ((h0.step _ b0).step _ b1)
  simpa only [k0_pay29, addi, muli, shli, broadcast, List.append_assoc, List.cons_append, List.nil_append] using this

/-- In one lane: the accumulator with 4 more digits added. -/
theorem k0_pay30_lane (v1146 : IVec S16 32) (v1151 v1161 v1171 v1181 : Vec F S16 .i32) (l : S16.Idx) (L : List ℕ)
    (h0 : IsAcc (v1146 l) L) (b0 : BitVec.toNat (v1151 l) ≤ 9) (b1 : BitVec.toNat (v1161 l) ≤ 9) (b2 : BitVec.toNat (v1171 l) ≤ 9) (b3 : BitVec.toNat (v1181 l) ≤ 9) :
    IsAcc (k0_pay30 v1146 v1151 v1161 v1171 v1181 l) (L ++ [BitVec.toNat (v1151 l), BitVec.toNat (v1161 l), BitVec.toNat (v1171 l), BitVec.toNat (v1181 l)]) := by
  have := ((((h0.step _ b0).step _ b1).step _ b2).step _ b3)
  simpa only [k0_pay30, addi, muli, shli, broadcast, List.append_assoc, List.cons_append, List.nil_append] using this

/-- In one lane: the accumulator with 1 more digit added. -/
theorem k0_pay31_lane (v1186 : IVec S16 32) (v1191 : Vec F S16 .i32) (l : S16.Idx) (L : List ℕ)
    (h0 : IsAcc (v1186 l) L) (b0 : BitVec.toNat (v1191 l) ≤ 9) :
    IsAcc (k0_pay31 v1186 v1191 l) (L ++ [BitVec.toNat (v1191 l)]) := by
  have := (h0.step _ b0)
  simpa only [k0_pay31, addi, muli, shli, broadcast, List.append_assoc, List.cons_append, List.nil_append] using this

/-- In one lane: the running sum of even parts after four more accumulators, the last one taking its seventh digit here. -/
theorem k0_pay17_lane (v593 v669 v739 v809 v869 : IVec S16 32) (v874 : Vec F S16 .i32) (l : S16.Idx)
    (E : List (List ℕ)) (L0 L1 L2 L3 : List ℕ) (he : IsE (v593 l) E)
    (h0 : IsAcc (v669 l) L0) (h1 : IsAcc (v739 l) L1) (h2 : IsAcc (v809 l) L2) (h3 : IsAcc (v869 l) L3)
    (hv : BitVec.toNat (v874 l) ≤ 9) (n0 : L0.length ≤ 7) (n1 : L1.length ≤ 7) (n2 : L2.length ≤ 7) (n3 : L3.length ≤ 6) :
    IsE (k0_pay17 v593 v669 v739 v809 v869 v874 l) (E ++ [L0, L1, L2, L3 ++ [BitVec.toNat (v874 l)]]) := by
  have n3' : (L3 ++ [BitVec.toNat (v874 l)]).length ≤ 7 := by rw [List.length_append, List.length_singleton]; omega
  have := (((he.step h0 n0).step h1 n1).step h2 n2).step (h3.step _ hv) n3'
  simpa only [k0_pay17, k0_pay16, addi, muli, shli, andi, broadcast, List.append_assoc, List.cons_append, List.nil_append] using this

/-- In one lane: the running sum of odd parts after four more accumulators, the last one taking its seventh digit here. -/
theorem k0_pay18_lane (v594 v669 v739 v809 v869 : IVec S16 32) (v874 : Vec F S16 .i32) (l : S16.Idx)
    (E : List (List ℕ)) (L0 L1 L2 L3 : List ℕ) (he : IsF (v594 l) E)
    (h0 : IsAcc (v669 l) L0) (h1 : IsAcc (v739 l) L1) (h2 : IsAcc (v809 l) L2) (h3 : IsAcc (v869 l) L3)
    (hv : BitVec.toNat (v874 l) ≤ 9) (n0 : L0.length ≤ 7) (n1 : L1.length ≤ 7) (n2 : L2.length ≤ 7) (n3 : L3.length ≤ 6) :
    IsF (k0_pay18 v594 v669 v739 v809 v869 v874 l) (E ++ [L0, L1, L2, L3 ++ [BitVec.toNat (v874 l)]]) := by
  have n3' : (L3 ++ [BitVec.toNat (v874 l)]).length ≤ 7 := by rw [List.length_append, List.length_singleton]; omega
  have := (((he.step h0 n0).step h1 n1).step h2 n2).step (h3.step _ hv) n3'
  simpa only [k0_pay18, k0_pay16, addi, muli, shli, shrsi, andi, broadcast, List.append_assoc, List.cons_append, List.nil_append] using this

/-- In one lane: the running sum of even parts after four more accumulators, the last one taking its seventh digit here. -/
theorem k0_pay32_lane (v906 v986 v1056 v1126 v1186 : IVec S16 32) (v1191 : Vec F S16 .i32) (l : S16.Idx)
    (E : List (List ℕ)) (L0 L1 L2 L3 : List ℕ) (he : IsE (v906 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6) :
    IsE (k0_pay32 v906 v986 v1056 v1126 v1186 v1191 l) (E ++ [L0, L1, L2, L3 ++ [BitVec.toNat (v1191 l)]]) := by
  have n3' : (L3 ++ [BitVec.toNat (v1191 l)]).length ≤ 7 := by rw [List.length_append, List.length_singleton]; omega
  have := (((he.step h0 n0).step h1 n1).step h2 n2).step (h3.step _ hv) n3'
  simpa only [k0_pay32, k0_pay31, addi, muli, shli, andi, broadcast, List.append_assoc, List.cons_append, List.nil_append] using this

/-- In one lane: the running sum of odd parts after four more accumulators, the last one taking its seventh digit here. -/
theorem k0_pay33_lane (v911 v986 v1056 v1126 v1186 : IVec S16 32) (v1191 : Vec F S16 .i32) (l : S16.Idx)
    (E : List (List ℕ)) (L0 L1 L2 L3 : List ℕ) (he : IsF (v911 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6) :
    IsF (k0_pay33 v911 v986 v1056 v1126 v1186 v1191 l) (E ++ [L0, L1, L2, L3 ++ [BitVec.toNat (v1191 l)]]) := by
  have n3' : (L3 ++ [BitVec.toNat (v1191 l)]).length ≤ 7 := by rw [List.length_append, List.length_singleton]; omega
  have := (((he.step h0 n0).step h1 n1).step h2 n2).step (h3.step _ hv) n3'
  simpa only [k0_pay33, k0_pay31, addi, muli, shli, shrsi, andi, broadcast, List.append_assoc, List.cons_append, List.nil_append] using this

/-- In one lane: the counter of digit 0 after the trip. -/
theorem k0_pay34_lane (arg13 v906 v986 v1056 v1126 v1186 : IVec S16 32) (v1191 : Vec F S16 .i32) (l : S16.Idx)
    (E : List (List ℕ)) (L0 L1 L2 L3 : List ℕ) (he : IsE (v906 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6)
    (ht : (E ++ [L0, L1, L2, L3 ++ [BitVec.toNat (v1191 l)]]).flatten.length ≤ 63) :
    k0_pay34 arg13 v906 v986 v1056 v1126 v1186 v1191 l
      = arg13 l + BitVec.ofNat 32 ((E ++ [L0, L1, L2, L3 ++ [BitVec.toNat (v1191 l)]]).flatten.count 0) := by
  have hE := k0_pay32_lane v906 v986 v1056 v1126 v1186 v1191 l E L0 L1 L2 L3 he h0 h1 h2 h3 hv n0 n1 n2 n3
  have := hE.field ht 0 0 0 (by norm_num) rfl rfl
  simp only [k0_pay34, addi, shrsi, andi, broadcast]
  rw [this]; rfl

/-- In one lane: the counter of digit 1 after the trip. -/
theorem k0_pay35_lane (arg14 v1228 : IVec S16 32) (l : S16.Idx) (ls : List (List ℕ)) (h : IsF (v1228 l) ls)
    (ht : ls.flatten.length ≤ 63) :
    k0_pay35 arg14 v1228 l = arg14 l + BitVec.ofNat 32 (ls.flatten.count 1) := by
  have := h.field ht 0 0 1 (by norm_num) rfl rfl
  simp only [k0_pay35, addi, shrsi, andi, broadcast]
  rw [this]; rfl

/-- In one lane: the counter of digit 2 after the trip. -/
theorem k0_pay36_lane (arg15 v1223 : IVec S16 32) (l : S16.Idx) (ls : List (List ℕ)) (h : IsE (v1223 l) ls)
    (ht : ls.flatten.length ≤ 63) :
    k0_pay36 arg15 v1223 l = arg15 l + BitVec.ofNat 32 (ls.flatten.count 2) := by
  have := h.field ht 1 6 2 (by norm_num) rfl rfl
  simp only [k0_pay36, addi, shrsi, andi, broadcast]
  rw [this]; rfl

/-- In one lane: the counter of digit 3 after the trip. -/
theorem k0_pay37_lane (arg16 v1228 : IVec S16 32) (l : S16.Idx) (ls : List (List ℕ)) (h : IsF (v1228 l) ls)
    (ht : ls.flatten.length ≤ 63) :
    k0_pay37 arg16 v1228 l = arg16 l + BitVec.ofNat 32 (ls.flatten.count 3) := by
  have := h.field ht 1 6 3 (by norm_num) rfl rfl
  simp only [k0_pay37, addi, shrsi, andi, broadcast]
  rw [this]; rfl

/-- In one lane: the counter of digit 4 after the trip. -/
theorem k0_pay38_lane (arg17 v1223 : IVec S16 32) (l : S16.Idx) (ls : List (List ℕ)) (h : IsE (v1223 l) ls)
    (ht : ls.flatten.length ≤ 63) :
    k0_pay38 arg17 v1223 l = arg17 l + BitVec.ofNat 32 (ls.flatten.count 4) := by
  have := h.field ht 2 12 4 (by norm_num) rfl rfl
  simp only [k0_pay38, addi, shrsi, andi, broadcast]
  rw [this]; rfl

/-- In one lane: the counter of digit 5 after the trip. -/
theorem k0_pay39_lane (arg18 v1228 : IVec S16 32) (l : S16.Idx) (ls : List (List ℕ)) (h : IsF (v1228 l) ls)
    (ht : ls.flatten.length ≤ 63) :
    k0_pay39 arg18 v1228 l = arg18 l + BitVec.ofNat 32 (ls.flatten.count 5) := by
  have := h.field ht 2 12 5 (by norm_num) rfl rfl
  simp only [k0_pay39, addi, shrsi, andi, broadcast]
  rw [this]; rfl

/-- In one lane: the counter of digit 6 after the trip. -/
theorem k0_pay40_lane (arg19 v1223 : IVec S16 32) (l : S16.Idx) (ls : List (List ℕ)) (h : IsE (v1223 l) ls)
    (ht : ls.flatten.length ≤ 63) :
    k0_pay40 arg19 v1223 l = arg19 l + BitVec.ofNat 32 (ls.flatten.count 6) := by
  have := h.field ht 3 18 6 (by norm_num) rfl rfl
  simp only [k0_pay40, addi, shrsi, andi, broadcast]
  rw [this]; rfl

/-- In one lane: the counter of digit 7 after the trip. -/
theorem k0_pay41_lane (arg20 v1228 : IVec S16 32) (l : S16.Idx) (ls : List (List ℕ)) (h : IsF (v1228 l) ls)
    (ht : ls.flatten.length ≤ 63) :
    k0_pay41 arg20 v1228 l = arg20 l + BitVec.ofNat 32 (ls.flatten.count 7) := by
  have := h.field ht 3 18 7 (by norm_num) rfl rfl
  simp only [k0_pay41, addi, shrsi, andi, broadcast]
  rw [this]; rfl

/-- In one lane: the counter of digit 8 after the trip. -/
theorem k0_pay42_lane (arg21 v1223 : IVec S16 32) (l : S16.Idx) (ls : List (List ℕ)) (h : IsE (v1223 l) ls)
    (ht : ls.flatten.length ≤ 63) :
    k0_pay42 arg21 v1223 l = arg21 l + BitVec.ofNat 32 (ls.flatten.count 8) := by
  have := h.field ht 4 24 8 (by norm_num) rfl rfl
  simp only [k0_pay42, addi, shrsi, andi, broadcast]
  rw [this]; rfl

/-- In one lane: the counter of digit 9 after the trip (the shift is one payload, the mask and the addition the next). -/
theorem k0_pay96_lane (arg22 v1228 : IVec S16 32) (l : S16.Idx) (ls : List (List ℕ)) (h : IsF (v1228 l) ls)
    (ht : ls.flatten.length ≤ 63) :
    k0_pay96 arg22 (k0_pay43 v1228) 63#32 l = arg22 l + BitVec.ofNat 32 (ls.flatten.count 9) := by
  have := h.field ht 4 24 9 (by norm_num) rfl rfl
  simp only [k0_pay96, k0_pay43, addi, shrsi, andi, broadcast]
  rw [this]; rfl

/-! ## A whole trip of the first loop, in the nested form its parts compose -/

/-- In one lane, for the 56 vectors a trip loads (in program order), all with digits at most 9: the running sums
    after the first half, the accumulators of the second half, and the two running sums at the end of the trip. -/
theorem k0_t1_sums_lane (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    IsE ((k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) l) [[BitVec.toNat (v604 l), BitVec.toNat (v614 l), BitVec.toNat (v624 l), BitVec.toNat (v634 l), BitVec.toNat (v644 l), BitVec.toNat (v654 l), BitVec.toNat (v664 l)], [BitVec.toNat (v674 l), BitVec.toNat (v684 l), BitVec.toNat (v694 l), BitVec.toNat (v704 l), BitVec.toNat (v714 l), BitVec.toNat (v724 l), BitVec.toNat (v734 l)], [BitVec.toNat (v744 l), BitVec.toNat (v754 l), BitVec.toNat (v764 l), BitVec.toNat (v774 l), BitVec.toNat (v784 l), BitVec.toNat (v794 l), BitVec.toNat (v804 l)], [BitVec.toNat (v814 l), BitVec.toNat (v824 l), BitVec.toNat (v834 l), BitVec.toNat (v844 l), BitVec.toNat (v854 l), BitVec.toNat (v864 l), BitVec.toNat (v874 l)]] ∧
    IsAcc ((k0_pay23 (k0_pay22 v921 v931 v941) v951 v961 v971 v981) l) [BitVec.toNat (v921 l), BitVec.toNat (v931 l), BitVec.toNat (v941 l), BitVec.toNat (v951 l), BitVec.toNat (v961 l), BitVec.toNat (v971 l), BitVec.toNat (v981 l)] ∧
    IsAcc ((k0_pay25 (k0_pay24 k0_pay19 v991 v1001 v1011 v1021) v1031 v1041 v1051) l) [BitVec.toNat (v991 l), BitVec.toNat (v1001 l), BitVec.toNat (v1011 l), BitVec.toNat (v1021 l), BitVec.toNat (v1031 l), BitVec.toNat (v1041 l), BitVec.toNat (v1051 l)] ∧
    IsAcc ((k0_pay28 (k0_pay27 (k0_pay26 k0_pay20 v1061) v1071 v1081 v1091 v1101) v1111 v1121) l) [BitVec.toNat (v1061 l), BitVec.toNat (v1071 l), BitVec.toNat (v1081 l), BitVec.toNat (v1091 l), BitVec.toNat (v1101 l), BitVec.toNat (v1111 l), BitVec.toNat (v1121 l)] ∧
    IsAcc ((k0_pay30 (k0_pay29 k0_pay21 v1131 v1141) v1151 v1161 v1171 v1181) l) [BitVec.toNat (v1131 l), BitVec.toNat (v1141 l), BitVec.toNat (v1151 l), BitVec.toNat (v1161 l), BitVec.toNat (v1171 l), BitVec.toNat (v1181 l)] ∧
    IsE ((k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l) [[BitVec.toNat (v604 l), BitVec.toNat (v614 l), BitVec.toNat (v624 l), BitVec.toNat (v634 l), BitVec.toNat (v644 l), BitVec.toNat (v654 l), BitVec.toNat (v664 l)],
      [BitVec.toNat (v674 l), BitVec.toNat (v684 l), BitVec.toNat (v694 l), BitVec.toNat (v704 l), BitVec.toNat (v714 l), BitVec.toNat (v724 l), BitVec.toNat (v734 l)],
      [BitVec.toNat (v744 l), BitVec.toNat (v754 l), BitVec.toNat (v764 l), BitVec.toNat (v774 l), BitVec.toNat (v784 l), BitVec.toNat (v794 l), BitVec.toNat (v804 l)],
      [BitVec.toNat (v814 l), BitVec.toNat (v824 l), BitVec.toNat (v834 l), BitVec.toNat (v844 l), BitVec.toNat (v854 l), BitVec.toNat (v864 l), BitVec.toNat (v874 l)],
      [BitVec.toNat (v921 l), BitVec.toNat (v931 l), BitVec.toNat (v941 l), BitVec.toNat (v951 l), BitVec.toNat (v961 l), BitVec.toNat (v971 l), BitVec.toNat (v981 l)],
      [BitVec.toNat (v991 l), BitVec.toNat (v1001 l), BitVec.toNat (v1011 l), BitVec.toNat (v1021 l), BitVec.toNat (v1031 l), BitVec.toNat (v1041 l), BitVec.toNat (v1051 l)],
      [BitVec.toNat (v1061 l), BitVec.toNat (v1071 l), BitVec.toNat (v1081 l), BitVec.toNat (v1091 l), BitVec.toNat (v1101 l), BitVec.toNat (v1111 l), BitVec.toNat (v1121 l)],
      [BitVec.toNat (v1131 l), BitVec.toNat (v1141 l), BitVec.toNat (v1151 l), BitVec.toNat (v1161 l), BitVec.toNat (v1171 l), BitVec.toNat (v1181 l), BitVec.toNat (v1191 l)]] ∧
    IsF ((k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l) [[BitVec.toNat (v604 l), BitVec.toNat (v614 l), BitVec.toNat (v624 l), BitVec.toNat (v634 l), BitVec.toNat (v644 l), BitVec.toNat (v654 l), BitVec.toNat (v664 l)],
      [BitVec.toNat (v674 l), BitVec.toNat (v684 l), BitVec.toNat (v694 l), BitVec.toNat (v704 l), BitVec.toNat (v714 l), BitVec.toNat (v724 l), BitVec.toNat (v734 l)],
      [BitVec.toNat (v744 l), BitVec.toNat (v754 l), BitVec.toNat (v764 l), BitVec.toNat (v774 l), BitVec.toNat (v784 l), BitVec.toNat (v794 l), BitVec.toNat (v804 l)],
      [BitVec.toNat (v814 l), BitVec.toNat (v824 l), BitVec.toNat (v834 l), BitVec.toNat (v844 l), BitVec.toNat (v854 l), BitVec.toNat (v864 l), BitVec.toNat (v874 l)],
      [BitVec.toNat (v921 l), BitVec.toNat (v931 l), BitVec.toNat (v941 l), BitVec.toNat (v951 l), BitVec.toNat (v961 l), BitVec.toNat (v971 l), BitVec.toNat (v981 l)],
      [BitVec.toNat (v991 l), BitVec.toNat (v1001 l), BitVec.toNat (v1011 l), BitVec.toNat (v1021 l), BitVec.toNat (v1031 l), BitVec.toNat (v1041 l), BitVec.toNat (v1051 l)],
      [BitVec.toNat (v1061 l), BitVec.toNat (v1071 l), BitVec.toNat (v1081 l), BitVec.toNat (v1091 l), BitVec.toNat (v1101 l), BitVec.toNat (v1111 l), BitVec.toNat (v1121 l)],
      [BitVec.toNat (v1131 l), BitVec.toNat (v1141 l), BitVec.toNat (v1151 l), BitVec.toNat (v1161 l), BitVec.toNat (v1171 l), BitVec.toNat (v1181 l), BitVec.toNat (v1191 l)]] := by
  have b0 := hb v604 (by simp)
  have b1 := hb v614 (by simp)
  have b2 := hb v624 (by simp)
  have b3 := hb v634 (by simp)
  have b4 := hb v644 (by simp)
  have b5 := hb v654 (by simp)
  have b6 := hb v664 (by simp)
  have b7 := hb v674 (by simp)
  have b8 := hb v684 (by simp)
  have b9 := hb v694 (by simp)
  have b10 := hb v704 (by simp)
  have b11 := hb v714 (by simp)
  have b12 := hb v724 (by simp)
  have b13 := hb v734 (by simp)
  have b14 := hb v744 (by simp)
  have b15 := hb v754 (by simp)
  have b16 := hb v764 (by simp)
  have b17 := hb v774 (by simp)
  have b18 := hb v784 (by simp)
  have b19 := hb v794 (by simp)
  have b20 := hb v804 (by simp)
  have b21 := hb v814 (by simp)
  have b22 := hb v824 (by simp)
  have b23 := hb v834 (by simp)
  have b24 := hb v844 (by simp)
  have b25 := hb v854 (by simp)
  have b26 := hb v864 (by simp)
  have b27 := hb v874 (by simp)
  have c0 := hb v921 (by simp)
  have c1 := hb v931 (by simp)
  have c2 := hb v941 (by simp)
  have c3 := hb v951 (by simp)
  have c4 := hb v961 (by simp)
  have c5 := hb v971 (by simp)
  have c6 := hb v981 (by simp)
  have c7 := hb v991 (by simp)
  have c8 := hb v1001 (by simp)
  have c9 := hb v1011 (by simp)
  have c10 := hb v1021 (by simp)
  have c11 := hb v1031 (by simp)
  have c12 := hb v1041 (by simp)
  have c13 := hb v1051 (by simp)
  have c14 := hb v1061 (by simp)
  have c15 := hb v1071 (by simp)
  have c16 := hb v1081 (by simp)
  have c17 := hb v1091 (by simp)
  have c18 := hb v1101 (by simp)
  have c19 := hb v1111 (by simp)
  have c20 := hb v1121 (by simp)
  have c21 := hb v1131 (by simp)
  have c22 := hb v1141 (by simp)
  have c23 := hb v1151 (by simp)
  have c24 := hb v1161 (by simp)
  have c25 := hb v1171 (by simp)
  have c26 := hb v1181 (by simp)
  have c27 := hb v1191 (by simp)
  have hA0 := k0_pay8_lane _ v634 v644 v654 v664 l _ (k0_pay7_lane v604 v614 v624 l b0 b1 b2) b3 b4 b5 b6
  have hA1 := k0_pay10_lane _ v714 v724 v734 l _ (k0_pay9_lane _ v674 v684 v694 v704 l _ (k0_pay4_lane l) b7 b8 b9 b10) b11 b12 b13
  have hA2 := k0_pay13_lane _ v794 v804 l _ (k0_pay12_lane _ v754 v764 v774 v784 l _ (k0_pay11_lane _ v744 l _ (k0_pay5_lane l) b14) b15 b16 b17 b18) b19 b20
  have hA3 := k0_pay15_lane _ v834 v844 v854 v864 l _ (k0_pay14_lane _ v814 v824 l _ (k0_pay6_lane l) b21 b22) b23 b24 b25 b26
  have hE1 := k0_pay17_lane _ _ _ _ _ v874 l _ _ _ _ _ (k0_pay2_lane l) hA0 hA1 hA2 hA3 b27 (by simp) (by simp) (by simp) (by simp)
  have hF1 := k0_pay18_lane _ _ _ _ _ v874 l _ _ _ _ _ (k0_pay3_lane l) hA0 hA1 hA2 hA3 b27 (by simp) (by simp) (by simp) (by simp)
  have hB0 := k0_pay23_lane _ v951 v961 v971 v981 l _ (k0_pay22_lane v921 v931 v941 l c0 c1 c2) c3 c4 c5 c6
  have hB1 := k0_pay25_lane _ v1031 v1041 v1051 l _ (k0_pay24_lane _ v991 v1001 v1011 v1021 l _ (k0_pay19_lane l) c7 c8 c9 c10) c11 c12 c13
  have hB2 := k0_pay28_lane _ v1111 v1121 l _ (k0_pay27_lane _ v1071 v1081 v1091 v1101 l _ (k0_pay26_lane _ v1061 l _ (k0_pay20_lane l) c14) c15 c16 c17 c18) c19 c20
  have hB3 := k0_pay30_lane _ v1151 v1161 v1171 v1181 l _ (k0_pay29_lane _ v1131 v1141 l _ (k0_pay21_lane l) c21 c22) c23 c24 c25 c26
  have hE2 := k0_pay32_lane _ _ _ _ _ v1191 l _ _ _ _ _ hE1 hB0 hB1 hB2 hB3 c27 (by simp) (by simp) (by simp) (by simp)
  have hF2 := k0_pay33_lane _ _ _ _ _ v1191 l _ _ _ _ _ hF1 hB0 hB1 hB2 hB3 c27 (by simp) (by simp) (by simp) (by simp)
  exact ⟨hE1, hB0, hB1, hB2, hB3, hE2, hF2⟩

/-- The counter of digit 0 a trip yields, in one lane: the carried counter plus the number of the trip's 56 loaded
    vectors whose lane holds 0. -/
theorem k0_t1_out0_lane (arg13 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay34 arg13 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191 l
      = arg13 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 0) := by
  obtain ⟨hE1, hB0, hB1, hB2, hB3, -, -⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay34_lane arg13 _ _ _ _ _ v1191 l _ _ _ _ _ hE1 hB0 hB1 hB2 hB3 (hb v1191 (by simp)) (by simp) (by simp) (by simp) (by simp) (by simp)]
  rfl

/-- The counter of digit 1 a trip yields, in one lane: the carried counter plus the number of the trip's 56 loaded
    vectors whose lane holds 1. -/
theorem k0_t1_out1_lane (arg14 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay35 arg14 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg14 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 1) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay35_lane arg14 _ l _ hF2 (by simp)]
  rfl

/-- The counter of digit 2 a trip yields, in one lane: the carried counter plus the number of the trip's 56 loaded
    vectors whose lane holds 2. -/
theorem k0_t1_out2_lane (arg15 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay36 arg15 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg15 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 2) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay36_lane arg15 _ l _ hE2 (by simp)]
  rfl

/-- The counter of digit 3 a trip yields, in one lane: the carried counter plus the number of the trip's 56 loaded
    vectors whose lane holds 3. -/
theorem k0_t1_out3_lane (arg16 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay37 arg16 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg16 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 3) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay37_lane arg16 _ l _ hF2 (by simp)]
  rfl

/-- The counter of digit 4 a trip yields, in one lane: the carried counter plus the number of the trip's 56 loaded
    vectors whose lane holds 4. -/
theorem k0_t1_out4_lane (arg17 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay38 arg17 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg17 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 4) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay38_lane arg17 _ l _ hE2 (by simp)]
  rfl

/-- The counter of digit 5 a trip yields, in one lane: the carried counter plus the number of the trip's 56 loaded
    vectors whose lane holds 5. -/
theorem k0_t1_out5_lane (arg18 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay39 arg18 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg18 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 5) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay39_lane arg18 _ l _ hF2 (by simp)]
  rfl

/-- The counter of digit 6 a trip yields, in one lane: the carried counter plus the number of the trip's 56 loaded
    vectors whose lane holds 6. -/
theorem k0_t1_out6_lane (arg19 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay40 arg19 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg19 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 6) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay40_lane arg19 _ l _ hE2 (by simp)]
  rfl

/-- The counter of digit 7 a trip yields, in one lane: the carried counter plus the number of the trip's 56 loaded
    vectors whose lane holds 7. -/
theorem k0_t1_out7_lane (arg20 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay41 arg20 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg20 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 7) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay41_lane arg20 _ l _ hF2 (by simp)]
  rfl

/-- The counter of digit 8 a trip yields, in one lane: the carried counter plus the number of the trip's 56 loaded
    vectors whose lane holds 8. -/
theorem k0_t1_out8_lane (arg21 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay42 arg21 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191) l
      = arg21 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 8) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay42_lane arg21 _ l _ hE2 (by simp)]
  rfl

/-- The counter of digit 9 a trip yields, in one lane: the carried counter plus the number of the trip's 56 loaded
    vectors whose lane holds 9. -/
theorem k0_t1_out9_lane (arg22 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay96 arg22 (k0_pay43 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191)) 63#32 l
      = arg22 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 9) := by
  obtain ⟨-, -, -, -, -, hE2, hF2⟩ := k0_t1_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay96_lane arg22 _ l _ hF2 (by simp)]
  rfl

/-! ## The second counting loop: its payloads, one lane at a time -/

/-- The zero vector: in every lane the empty sum of even parts. -/
theorem k0_pay44_lane (l : S16.Idx) : IsE (k0_pay44 l) [] := isE_zero

/-- The zero vector: in every lane the empty sum of odd parts. -/
theorem k0_pay45_lane (l : S16.Idx) : IsF (k0_pay45 l) [] := isF_zero

/-- The zero vector: in every lane the empty accumulator. -/
theorem k0_pay46_lane (l : S16.Idx) : IsAcc (k0_pay46 l) [] := isAcc_zero

/-- The zero vector: in every lane the empty accumulator. -/
theorem k0_pay47_lane (l : S16.Idx) : IsAcc (k0_pay47 l) [] := isAcc_zero

/-- The zero vector: in every lane the empty accumulator. -/
theorem k0_pay48_lane (l : S16.Idx) : IsAcc (k0_pay48 l) [] := isAcc_zero

/-- The zero vector: in every lane the empty accumulator. -/
theorem k0_pay61_lane (l : S16.Idx) : IsAcc (k0_pay61 l) [] := isAcc_zero

/-- The zero vector: in every lane the empty accumulator. -/
theorem k0_pay62_lane (l : S16.Idx) : IsAcc (k0_pay62 l) [] := isAcc_zero

/-- The zero vector: in every lane the empty accumulator. -/
theorem k0_pay63_lane (l : S16.Idx) : IsAcc (k0_pay63 l) [] := isAcc_zero

/-- In one lane: the fresh accumulator after 3 more digits added. -/
theorem k0_pay49_lane (v604 v614 v624 : Vec F S16 .i32) (l : S16.Idx)
    (b0 : BitVec.toNat (v604 l) ≤ 9) (b1 : BitVec.toNat (v614 l) ≤ 9) (b2 : BitVec.toNat (v624 l) ≤ 9) :
    IsAcc (k0_pay49 v604 v614 v624 l) ([BitVec.toNat (v604 l), BitVec.toNat (v614 l), BitVec.toNat (v624 l)]) := by
  have := (((isAcc_zero.step _ b0).step _ b1).step _ b2)
  simpa only [k0_pay49, addi, muli, shli, broadcast, List.append_assoc, List.cons_append, List.nil_append] using this

/-- In one lane: the accumulator with 4 more digits added. -/
theorem k0_pay50_lane (v629 : IVec S16 32) (v634 v644 v654 v664 : Vec F S16 .i32) (l : S16.Idx) (L : List ℕ)
    (h0 : IsAcc (v629 l) L) (b0 : BitVec.toNat (v634 l) ≤ 9) (b1 : BitVec.toNat (v644 l) ≤ 9) (b2 : BitVec.toNat (v654 l) ≤ 9) (b3 : BitVec.toNat (v664 l) ≤ 9) :
    IsAcc (k0_pay50 v629 v634 v644 v654 v664 l) (L ++ [BitVec.toNat (v634 l), BitVec.toNat (v644 l), BitVec.toNat (v654 l), BitVec.toNat (v664 l)]) := by
  have := ((((h0.step _ b0).step _ b1).step _ b2).step _ b3)
  simpa only [k0_pay50, addi, muli, shli, broadcast, List.append_assoc, List.cons_append, List.nil_append] using this

/-- In one lane: the accumulator with 4 more digits added. -/
theorem k0_pay51_lane (v597 : IVec S16 32) (v674 v684 v694 v704 : Vec F S16 .i32) (l : S16.Idx) (L : List ℕ)
    (h0 : IsAcc (v597 l) L) (b0 : BitVec.toNat (v674 l) ≤ 9) (b1 : BitVec.toNat (v684 l) ≤ 9) (b2 : BitVec.toNat (v694 l) ≤ 9) (b3 : BitVec.toNat (v704 l) ≤ 9) :
    IsAcc (k0_pay51 v597 v674 v684 v694 v704 l) (L ++ [BitVec.toNat (v674 l), BitVec.toNat (v684 l), BitVec.toNat (v694 l), BitVec.toNat (v704 l)]) := by
  have := ((((h0.step _ b0).step _ b1).step _ b2).step _ b3)
  simpa only [k0_pay51, addi, muli, shli, broadcast, List.append_assoc, List.cons_append, List.nil_append] using this

/-- In one lane: the accumulator with 3 more digits added. -/
theorem k0_pay52_lane (v709 : IVec S16 32) (v714 v724 v734 : Vec F S16 .i32) (l : S16.Idx) (L : List ℕ)
    (h0 : IsAcc (v709 l) L) (b0 : BitVec.toNat (v714 l) ≤ 9) (b1 : BitVec.toNat (v724 l) ≤ 9) (b2 : BitVec.toNat (v734 l) ≤ 9) :
    IsAcc (k0_pay52 v709 v714 v724 v734 l) (L ++ [BitVec.toNat (v714 l), BitVec.toNat (v724 l), BitVec.toNat (v734 l)]) := by
  have := (((h0.step _ b0).step _ b1).step _ b2)
  simpa only [k0_pay52, addi, muli, shli, broadcast, List.append_assoc, List.cons_append, List.nil_append] using this

/-- In one lane: the accumulator with 1 more digit added. -/
theorem k0_pay53_lane (v598 : IVec S16 32) (v744 : Vec F S16 .i32) (l : S16.Idx) (L : List ℕ)
    (h0 : IsAcc (v598 l) L) (b0 : BitVec.toNat (v744 l) ≤ 9) :
    IsAcc (k0_pay53 v598 v744 l) (L ++ [BitVec.toNat (v744 l)]) := by
  have := (h0.step _ b0)
  simpa only [k0_pay53, addi, muli, shli, broadcast, List.append_assoc, List.cons_append, List.nil_append] using this

/-- In one lane: the accumulator with 4 more digits added. -/
theorem k0_pay54_lane (v749 : IVec S16 32) (v754 v764 v774 v784 : Vec F S16 .i32) (l : S16.Idx) (L : List ℕ)
    (h0 : IsAcc (v749 l) L) (b0 : BitVec.toNat (v754 l) ≤ 9) (b1 : BitVec.toNat (v764 l) ≤ 9) (b2 : BitVec.toNat (v774 l) ≤ 9) (b3 : BitVec.toNat (v784 l) ≤ 9) :
    IsAcc (k0_pay54 v749 v754 v764 v774 v784 l) (L ++ [BitVec.toNat (v754 l), BitVec.toNat (v764 l), BitVec.toNat (v774 l), BitVec.toNat (v784 l)]) := by
  have := ((((h0.step _ b0).step _ b1).step _ b2).step _ b3)
  simpa only [k0_pay54, addi, muli, shli, broadcast, List.append_assoc, List.cons_append, List.nil_append] using this

/-- In one lane: the accumulator with 2 more digits added. -/
theorem k0_pay55_lane (v789 : IVec S16 32) (v794 v804 : Vec F S16 .i32) (l : S16.Idx) (L : List ℕ)
    (h0 : IsAcc (v789 l) L) (b0 : BitVec.toNat (v794 l) ≤ 9) (b1 : BitVec.toNat (v804 l) ≤ 9) :
    IsAcc (k0_pay55 v789 v794 v804 l) (L ++ [BitVec.toNat (v794 l), BitVec.toNat (v804 l)]) := by
  have := ((h0.step _ b0).step _ b1)
  simpa only [k0_pay55, addi, muli, shli, broadcast, List.append_assoc, List.cons_append, List.nil_append] using this

/-- In one lane: the accumulator with 2 more digits added. -/
theorem k0_pay56_lane (v599 : IVec S16 32) (v814 v824 : Vec F S16 .i32) (l : S16.Idx) (L : List ℕ)
    (h0 : IsAcc (v599 l) L) (b0 : BitVec.toNat (v814 l) ≤ 9) (b1 : BitVec.toNat (v824 l) ≤ 9) :
    IsAcc (k0_pay56 v599 v814 v824 l) (L ++ [BitVec.toNat (v814 l), BitVec.toNat (v824 l)]) := by
  have := ((h0.step _ b0).step _ b1)
  simpa only [k0_pay56, addi, muli, shli, broadcast, List.append_assoc, List.cons_append, List.nil_append] using this

/-- In one lane: the accumulator with 4 more digits added. -/
theorem k0_pay57_lane (v829 : IVec S16 32) (v834 v844 v854 v864 : Vec F S16 .i32) (l : S16.Idx) (L : List ℕ)
    (h0 : IsAcc (v829 l) L) (b0 : BitVec.toNat (v834 l) ≤ 9) (b1 : BitVec.toNat (v844 l) ≤ 9) (b2 : BitVec.toNat (v854 l) ≤ 9) (b3 : BitVec.toNat (v864 l) ≤ 9) :
    IsAcc (k0_pay57 v829 v834 v844 v854 v864 l) (L ++ [BitVec.toNat (v834 l), BitVec.toNat (v844 l), BitVec.toNat (v854 l), BitVec.toNat (v864 l)]) := by
  have := ((((h0.step _ b0).step _ b1).step _ b2).step _ b3)
  simpa only [k0_pay57, addi, muli, shli, broadcast, List.append_assoc, List.cons_append, List.nil_append] using this

/-- In one lane: the accumulator with 1 more digit added. -/
theorem k0_pay58_lane (v869 : IVec S16 32) (v874 : Vec F S16 .i32) (l : S16.Idx) (L : List ℕ)
    (h0 : IsAcc (v869 l) L) (b0 : BitVec.toNat (v874 l) ≤ 9) :
    IsAcc (k0_pay58 v869 v874 l) (L ++ [BitVec.toNat (v874 l)]) := by
  have := (h0.step _ b0)
  simpa only [k0_pay58, addi, muli, shli, broadcast, List.append_assoc, List.cons_append, List.nil_append] using this

/-- In one lane: the fresh accumulator after 3 more digits added. -/
theorem k0_pay64_lane (v921 v931 v941 : Vec F S16 .i32) (l : S16.Idx)
    (b0 : BitVec.toNat (v921 l) ≤ 9) (b1 : BitVec.toNat (v931 l) ≤ 9) (b2 : BitVec.toNat (v941 l) ≤ 9) :
    IsAcc (k0_pay64 v921 v931 v941 l) ([BitVec.toNat (v921 l), BitVec.toNat (v931 l), BitVec.toNat (v941 l)]) := by
  have := (((isAcc_zero.step _ b0).step _ b1).step _ b2)
  simpa only [k0_pay64, addi, muli, shli, broadcast, List.append_assoc, List.cons_append, List.nil_append] using this

/-- In one lane: the accumulator with 4 more digits added. -/
theorem k0_pay65_lane (v946 : IVec S16 32) (v951 v961 v971 v981 : Vec F S16 .i32) (l : S16.Idx) (L : List ℕ)
    (h0 : IsAcc (v946 l) L) (b0 : BitVec.toNat (v951 l) ≤ 9) (b1 : BitVec.toNat (v961 l) ≤ 9) (b2 : BitVec.toNat (v971 l) ≤ 9) (b3 : BitVec.toNat (v981 l) ≤ 9) :
    IsAcc (k0_pay65 v946 v951 v961 v971 v981 l) (L ++ [BitVec.toNat (v951 l), BitVec.toNat (v961 l), BitVec.toNat (v971 l), BitVec.toNat (v981 l)]) := by
  have := ((((h0.step _ b0).step _ b1).step _ b2).step _ b3)
  simpa only [k0_pay65, addi, muli, shli, broadcast, List.append_assoc, List.cons_append, List.nil_append] using this

/-- In one lane: the accumulator with 4 more digits added. -/
theorem k0_pay66_lane (v914 : IVec S16 32) (v991 v1001 v1011 v1021 : Vec F S16 .i32) (l : S16.Idx) (L : List ℕ)
    (h0 : IsAcc (v914 l) L) (b0 : BitVec.toNat (v991 l) ≤ 9) (b1 : BitVec.toNat (v1001 l) ≤ 9) (b2 : BitVec.toNat (v1011 l) ≤ 9) (b3 : BitVec.toNat (v1021 l) ≤ 9) :
    IsAcc (k0_pay66 v914 v991 v1001 v1011 v1021 l) (L ++ [BitVec.toNat (v991 l), BitVec.toNat (v1001 l), BitVec.toNat (v1011 l), BitVec.toNat (v1021 l)]) := by
  have := ((((h0.step _ b0).step _ b1).step _ b2).step _ b3)
  simpa only [k0_pay66, addi, muli, shli, broadcast, List.append_assoc, List.cons_append, List.nil_append] using this

/-- In one lane: the accumulator with 3 more digits added. -/
theorem k0_pay67_lane (v1026 : IVec S16 32) (v1031 v1041 v1051 : Vec F S16 .i32) (l : S16.Idx) (L : List ℕ)
    (h0 : IsAcc (v1026 l) L) (b0 : BitVec.toNat (v1031 l) ≤ 9) (b1 : BitVec.toNat (v1041 l) ≤ 9) (b2 : BitVec.toNat (v1051 l) ≤ 9) :
    IsAcc (k0_pay67 v1026 v1031 v1041 v1051 l) (L ++ [BitVec.toNat (v1031 l), BitVec.toNat (v1041 l), BitVec.toNat (v1051 l)]) := by
  have := (((h0.step _ b0).step _ b1).step _ b2)
  simpa only [k0_pay67, addi, muli, shli, broadcast, List.append_assoc, List.cons_append, List.nil_append] using this

/-- In one lane: the accumulator with 1 more digit added. -/
theorem k0_pay68_lane (v915 : IVec S16 32) (v1061 : Vec F S16 .i32) (l : S16.Idx) (L : List ℕ)
    (h0 : IsAcc (v915 l) L) (b0 : BitVec.toNat (v1061 l) ≤ 9) :
    IsAcc (k0_pay68 v915 v1061 l) (L ++ [BitVec.toNat (v1061 l)]) := by
  have := (h0.step _ b0)
  simpa only [k0_pay68, addi, muli, shli, broadcast, List.append_assoc, List.cons_append, List.nil_append] using this

/-- In one lane: the accumulator with 4 more digits added. -/
theorem k0_pay69_lane (v1066 : IVec S16 32) (v1071 v1081 v1091 v1101 : Vec F S16 .i32) (l : S16.Idx) (L : List ℕ)
    (h0 : IsAcc (v1066 l) L) (b0 : BitVec.toNat (v1071 l) ≤ 9) (b1 : BitVec.toNat (v1081 l) ≤ 9) (b2 : BitVec.toNat (v1091 l) ≤ 9) (b3 : BitVec.toNat (v1101 l) ≤ 9) :
    IsAcc (k0_pay69 v1066 v1071 v1081 v1091 v1101 l) (L ++ [BitVec.toNat (v1071 l), BitVec.toNat (v1081 l), BitVec.toNat (v1091 l), BitVec.toNat (v1101 l)]) := by
  have := ((((h0.step _ b0).step _ b1).step _ b2).step _ b3)
  simpa only [k0_pay69, addi, muli, shli, broadcast, List.append_assoc, List.cons_append, List.nil_append] using this

/-- In one lane: the accumulator with 2 more digits added. -/
theorem k0_pay70_lane (v1106 : IVec S16 32) (v1111 v1121 : Vec F S16 .i32) (l : S16.Idx) (L : List ℕ)
    (h0 : IsAcc (v1106 l) L) (b0 : BitVec.toNat (v1111 l) ≤ 9) (b1 : BitVec.toNat (v1121 l) ≤ 9) :
    IsAcc (k0_pay70 v1106 v1111 v1121 l) (L ++ [BitVec.toNat (v1111 l), BitVec.toNat (v1121 l)]) := by
  have := ((h0.step _ b0).step _ b1)
  simpa only [k0_pay70, addi, muli, shli, broadcast, List.append_assoc, List.cons_append, List.nil_append] using this

/-- In one lane: the accumulator with 2 more digits added. -/
theorem k0_pay71_lane (v916 : IVec S16 32) (v1131 v1141 : Vec F S16 .i32) (l : S16.Idx) (L : List ℕ)
    (h0 : IsAcc (v916 l) L) (b0 : BitVec.toNat (v1131 l) ≤ 9) (b1 : BitVec.toNat (v1141 l) ≤ 9) :
    IsAcc (k0_pay71 v916 v1131 v1141 l) (L ++ [BitVec.toNat (v1131 l), BitVec.toNat (v1141 l)]) := by
  have := ((h0.step _ b0).step _ b1)
  simpa only [k0_pay71, addi, muli, shli, broadcast, List.append_assoc, List.cons_append, List.nil_append] using this

/-- In one lane: the accumulator with 4 more digits added. -/
theorem k0_pay72_lane (v1146 : IVec S16 32) (v1151 v1161 v1171 v1181 : Vec F S16 .i32) (l : S16.Idx) (L : List ℕ)
    (h0 : IsAcc (v1146 l) L) (b0 : BitVec.toNat (v1151 l) ≤ 9) (b1 : BitVec.toNat (v1161 l) ≤ 9) (b2 : BitVec.toNat (v1171 l) ≤ 9) (b3 : BitVec.toNat (v1181 l) ≤ 9) :
    IsAcc (k0_pay72 v1146 v1151 v1161 v1171 v1181 l) (L ++ [BitVec.toNat (v1151 l), BitVec.toNat (v1161 l), BitVec.toNat (v1171 l), BitVec.toNat (v1181 l)]) := by
  have := ((((h0.step _ b0).step _ b1).step _ b2).step _ b3)
  simpa only [k0_pay72, addi, muli, shli, broadcast, List.append_assoc, List.cons_append, List.nil_append] using this

/-- In one lane: the accumulator with 1 more digit added. -/
theorem k0_pay73_lane (v1186 : IVec S16 32) (v1191 : Vec F S16 .i32) (l : S16.Idx) (L : List ℕ)
    (h0 : IsAcc (v1186 l) L) (b0 : BitVec.toNat (v1191 l) ≤ 9) :
    IsAcc (k0_pay73 v1186 v1191 l) (L ++ [BitVec.toNat (v1191 l)]) := by
  have := (h0.step _ b0)
  simpa only [k0_pay73, addi, muli, shli, broadcast, List.append_assoc, List.cons_append, List.nil_append] using this

/-- In one lane: the running sum of even parts after four more accumulators, the last one taking its seventh digit here. -/
theorem k0_pay59_lane (v593 v669 v739 v809 v869 : IVec S16 32) (v874 : Vec F S16 .i32) (l : S16.Idx)
    (E : List (List ℕ)) (L0 L1 L2 L3 : List ℕ) (he : IsE (v593 l) E)
    (h0 : IsAcc (v669 l) L0) (h1 : IsAcc (v739 l) L1) (h2 : IsAcc (v809 l) L2) (h3 : IsAcc (v869 l) L3)
    (hv : BitVec.toNat (v874 l) ≤ 9) (n0 : L0.length ≤ 7) (n1 : L1.length ≤ 7) (n2 : L2.length ≤ 7) (n3 : L3.length ≤ 6) :
    IsE (k0_pay59 v593 v669 v739 v809 v869 v874 l) (E ++ [L0, L1, L2, L3 ++ [BitVec.toNat (v874 l)]]) := by
  have n3' : (L3 ++ [BitVec.toNat (v874 l)]).length ≤ 7 := by rw [List.length_append, List.length_singleton]; omega
  have := (((he.step h0 n0).step h1 n1).step h2 n2).step (h3.step _ hv) n3'
  simpa only [k0_pay59, k0_pay58, addi, muli, shli, andi, broadcast, List.append_assoc, List.cons_append, List.nil_append] using this

/-- In one lane: the running sum of odd parts after four more accumulators, the last one taking its seventh digit here. -/
theorem k0_pay60_lane (v594 v669 v739 v809 v869 : IVec S16 32) (v874 : Vec F S16 .i32) (l : S16.Idx)
    (E : List (List ℕ)) (L0 L1 L2 L3 : List ℕ) (he : IsF (v594 l) E)
    (h0 : IsAcc (v669 l) L0) (h1 : IsAcc (v739 l) L1) (h2 : IsAcc (v809 l) L2) (h3 : IsAcc (v869 l) L3)
    (hv : BitVec.toNat (v874 l) ≤ 9) (n0 : L0.length ≤ 7) (n1 : L1.length ≤ 7) (n2 : L2.length ≤ 7) (n3 : L3.length ≤ 6) :
    IsF (k0_pay60 v594 v669 v739 v809 v869 v874 l) (E ++ [L0, L1, L2, L3 ++ [BitVec.toNat (v874 l)]]) := by
  have n3' : (L3 ++ [BitVec.toNat (v874 l)]).length ≤ 7 := by rw [List.length_append, List.length_singleton]; omega
  have := (((he.step h0 n0).step h1 n1).step h2 n2).step (h3.step _ hv) n3'
  simpa only [k0_pay60, k0_pay58, addi, muli, shli, shrsi, andi, broadcast, List.append_assoc, List.cons_append, List.nil_append] using this

/-- In one lane: the running sum of even parts after four more accumulators, the last one taking its seventh digit here. -/
theorem k0_pay74_lane (v906 v986 v1056 v1126 v1186 : IVec S16 32) (v1191 : Vec F S16 .i32) (l : S16.Idx)
    (E : List (List ℕ)) (L0 L1 L2 L3 : List ℕ) (he : IsE (v906 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6) :
    IsE (k0_pay74 v906 v986 v1056 v1126 v1186 v1191 l) (E ++ [L0, L1, L2, L3 ++ [BitVec.toNat (v1191 l)]]) := by
  have n3' : (L3 ++ [BitVec.toNat (v1191 l)]).length ≤ 7 := by rw [List.length_append, List.length_singleton]; omega
  have := (((he.step h0 n0).step h1 n1).step h2 n2).step (h3.step _ hv) n3'
  simpa only [k0_pay74, k0_pay73, addi, muli, shli, andi, broadcast, List.append_assoc, List.cons_append, List.nil_append] using this

/-- In one lane: the running sum of odd parts after four more accumulators, the last one taking its seventh digit here. -/
theorem k0_pay75_lane (v911 v986 v1056 v1126 v1186 : IVec S16 32) (v1191 : Vec F S16 .i32) (l : S16.Idx)
    (E : List (List ℕ)) (L0 L1 L2 L3 : List ℕ) (he : IsF (v911 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6) :
    IsF (k0_pay75 v911 v986 v1056 v1126 v1186 v1191 l) (E ++ [L0, L1, L2, L3 ++ [BitVec.toNat (v1191 l)]]) := by
  have n3' : (L3 ++ [BitVec.toNat (v1191 l)]).length ≤ 7 := by rw [List.length_append, List.length_singleton]; omega
  have := (((he.step h0 n0).step h1 n1).step h2 n2).step (h3.step _ hv) n3'
  simpa only [k0_pay75, k0_pay73, addi, muli, shli, shrsi, andi, broadcast, List.append_assoc, List.cons_append, List.nil_append] using this

/-- In one lane: the counter of digit 0 after the trip. -/
theorem k0_pay76_lane (arg13 v906 v986 v1056 v1126 v1186 : IVec S16 32) (v1191 : Vec F S16 .i32) (l : S16.Idx)
    (E : List (List ℕ)) (L0 L1 L2 L3 : List ℕ) (he : IsE (v906 l) E)
    (h0 : IsAcc (v986 l) L0) (h1 : IsAcc (v1056 l) L1) (h2 : IsAcc (v1126 l) L2) (h3 : IsAcc (v1186 l) L3)
    (hv : BitVec.toNat (v1191 l) ≤ 9) (n0 : L0.length ≤ 7) (n1 : L1.length ≤ 7) (n2 : L2.length ≤ 7) (n3 : L3.length ≤ 6)
    (ht : (E ++ [L0, L1, L2, L3 ++ [BitVec.toNat (v1191 l)]]).flatten.length ≤ 63) :
    k0_pay76 arg13 v906 v986 v1056 v1126 v1186 v1191 l
      = arg13 l + BitVec.ofNat 32 ((E ++ [L0, L1, L2, L3 ++ [BitVec.toNat (v1191 l)]]).flatten.count 0) := by
  have hE := k0_pay74_lane v906 v986 v1056 v1126 v1186 v1191 l E L0 L1 L2 L3 he h0 h1 h2 h3 hv n0 n1 n2 n3
  have := hE.field ht 0 0 0 (by norm_num) rfl rfl
  simp only [k0_pay76, addi, shrsi, andi, broadcast]
  rw [this]; rfl

/-- In one lane: the counter of digit 1 after the trip. -/
theorem k0_pay77_lane (arg14 v1228 : IVec S16 32) (l : S16.Idx) (ls : List (List ℕ)) (h : IsF (v1228 l) ls)
    (ht : ls.flatten.length ≤ 63) :
    k0_pay77 arg14 v1228 l = arg14 l + BitVec.ofNat 32 (ls.flatten.count 1) := by
  have := h.field ht 0 0 1 (by norm_num) rfl rfl
  simp only [k0_pay77, addi, shrsi, andi, broadcast]
  rw [this]; rfl

/-- In one lane: the counter of digit 2 after the trip. -/
theorem k0_pay78_lane (arg15 v1223 : IVec S16 32) (l : S16.Idx) (ls : List (List ℕ)) (h : IsE (v1223 l) ls)
    (ht : ls.flatten.length ≤ 63) :
    k0_pay78 arg15 v1223 l = arg15 l + BitVec.ofNat 32 (ls.flatten.count 2) := by
  have := h.field ht 1 6 2 (by norm_num) rfl rfl
  simp only [k0_pay78, addi, shrsi, andi, broadcast]
  rw [this]; rfl

/-- In one lane: the counter of digit 3 after the trip. -/
theorem k0_pay79_lane (arg16 v1228 : IVec S16 32) (l : S16.Idx) (ls : List (List ℕ)) (h : IsF (v1228 l) ls)
    (ht : ls.flatten.length ≤ 63) :
    k0_pay79 arg16 v1228 l = arg16 l + BitVec.ofNat 32 (ls.flatten.count 3) := by
  have := h.field ht 1 6 3 (by norm_num) rfl rfl
  simp only [k0_pay79, addi, shrsi, andi, broadcast]
  rw [this]; rfl

/-- In one lane: the counter of digit 4 after the trip. -/
theorem k0_pay80_lane (arg17 v1223 : IVec S16 32) (l : S16.Idx) (ls : List (List ℕ)) (h : IsE (v1223 l) ls)
    (ht : ls.flatten.length ≤ 63) :
    k0_pay80 arg17 v1223 l = arg17 l + BitVec.ofNat 32 (ls.flatten.count 4) := by
  have := h.field ht 2 12 4 (by norm_num) rfl rfl
  simp only [k0_pay80, addi, shrsi, andi, broadcast]
  rw [this]; rfl

/-- In one lane: the counter of digit 5 after the trip. -/
theorem k0_pay81_lane (arg18 v1228 : IVec S16 32) (l : S16.Idx) (ls : List (List ℕ)) (h : IsF (v1228 l) ls)
    (ht : ls.flatten.length ≤ 63) :
    k0_pay81 arg18 v1228 l = arg18 l + BitVec.ofNat 32 (ls.flatten.count 5) := by
  have := h.field ht 2 12 5 (by norm_num) rfl rfl
  simp only [k0_pay81, addi, shrsi, andi, broadcast]
  rw [this]; rfl

/-- In one lane: the counter of digit 6 after the trip. -/
theorem k0_pay82_lane (arg19 v1223 : IVec S16 32) (l : S16.Idx) (ls : List (List ℕ)) (h : IsE (v1223 l) ls)
    (ht : ls.flatten.length ≤ 63) :
    k0_pay82 arg19 v1223 l = arg19 l + BitVec.ofNat 32 (ls.flatten.count 6) := by
  have := h.field ht 3 18 6 (by norm_num) rfl rfl
  simp only [k0_pay82, addi, shrsi, andi, broadcast]
  rw [this]; rfl

/-- In one lane: the counter of digit 7 after the trip. -/
theorem k0_pay83_lane (arg20 v1228 : IVec S16 32) (l : S16.Idx) (ls : List (List ℕ)) (h : IsF (v1228 l) ls)
    (ht : ls.flatten.length ≤ 63) :
    k0_pay83 arg20 v1228 l = arg20 l + BitVec.ofNat 32 (ls.flatten.count 7) := by
  have := h.field ht 3 18 7 (by norm_num) rfl rfl
  simp only [k0_pay83, addi, shrsi, andi, broadcast]
  rw [this]; rfl

/-- In one lane: the counter of digit 8 after the trip. -/
theorem k0_pay84_lane (arg21 v1223 : IVec S16 32) (l : S16.Idx) (ls : List (List ℕ)) (h : IsE (v1223 l) ls)
    (ht : ls.flatten.length ≤ 63) :
    k0_pay84 arg21 v1223 l = arg21 l + BitVec.ofNat 32 (ls.flatten.count 8) := by
  have := h.field ht 4 24 8 (by norm_num) rfl rfl
  simp only [k0_pay84, addi, shrsi, andi, broadcast]
  rw [this]; rfl

/-- In one lane: the counter of digit 9 after the trip (the shift is one payload, the mask and the addition the next). -/
theorem k0_pay97_lane (arg22 v1228 : IVec S16 32) (l : S16.Idx) (ls : List (List ℕ)) (h : IsF (v1228 l) ls)
    (ht : ls.flatten.length ≤ 63) :
    k0_pay97 arg22 (k0_pay85 v1228) 63#32 l = arg22 l + BitVec.ofNat 32 (ls.flatten.count 9) := by
  have := h.field ht 4 24 9 (by norm_num) rfl rfl
  simp only [k0_pay97, k0_pay85, addi, shrsi, andi, broadcast]
  rw [this]; rfl

/-! ## A whole trip of the second loop, in the nested form its parts compose -/

/-- In one lane, for the 56 vectors a trip loads (in program order), all with digits at most 9: the running sums
    after the first half, the accumulators of the second half, and the two running sums at the end of the trip. -/
theorem k0_t2_sums_lane (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    IsE ((k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) l) [[BitVec.toNat (v604 l), BitVec.toNat (v614 l), BitVec.toNat (v624 l), BitVec.toNat (v634 l), BitVec.toNat (v644 l), BitVec.toNat (v654 l), BitVec.toNat (v664 l)], [BitVec.toNat (v674 l), BitVec.toNat (v684 l), BitVec.toNat (v694 l), BitVec.toNat (v704 l), BitVec.toNat (v714 l), BitVec.toNat (v724 l), BitVec.toNat (v734 l)], [BitVec.toNat (v744 l), BitVec.toNat (v754 l), BitVec.toNat (v764 l), BitVec.toNat (v774 l), BitVec.toNat (v784 l), BitVec.toNat (v794 l), BitVec.toNat (v804 l)], [BitVec.toNat (v814 l), BitVec.toNat (v824 l), BitVec.toNat (v834 l), BitVec.toNat (v844 l), BitVec.toNat (v854 l), BitVec.toNat (v864 l), BitVec.toNat (v874 l)]] ∧
    IsAcc ((k0_pay65 (k0_pay64 v921 v931 v941) v951 v961 v971 v981) l) [BitVec.toNat (v921 l), BitVec.toNat (v931 l), BitVec.toNat (v941 l), BitVec.toNat (v951 l), BitVec.toNat (v961 l), BitVec.toNat (v971 l), BitVec.toNat (v981 l)] ∧
    IsAcc ((k0_pay67 (k0_pay66 k0_pay61 v991 v1001 v1011 v1021) v1031 v1041 v1051) l) [BitVec.toNat (v991 l), BitVec.toNat (v1001 l), BitVec.toNat (v1011 l), BitVec.toNat (v1021 l), BitVec.toNat (v1031 l), BitVec.toNat (v1041 l), BitVec.toNat (v1051 l)] ∧
    IsAcc ((k0_pay70 (k0_pay69 (k0_pay68 k0_pay62 v1061) v1071 v1081 v1091 v1101) v1111 v1121) l) [BitVec.toNat (v1061 l), BitVec.toNat (v1071 l), BitVec.toNat (v1081 l), BitVec.toNat (v1091 l), BitVec.toNat (v1101 l), BitVec.toNat (v1111 l), BitVec.toNat (v1121 l)] ∧
    IsAcc ((k0_pay72 (k0_pay71 k0_pay63 v1131 v1141) v1151 v1161 v1171 v1181) l) [BitVec.toNat (v1131 l), BitVec.toNat (v1141 l), BitVec.toNat (v1151 l), BitVec.toNat (v1161 l), BitVec.toNat (v1171 l), BitVec.toNat (v1181 l)] ∧
    IsE ((k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l) [[BitVec.toNat (v604 l), BitVec.toNat (v614 l), BitVec.toNat (v624 l), BitVec.toNat (v634 l), BitVec.toNat (v644 l), BitVec.toNat (v654 l), BitVec.toNat (v664 l)],
      [BitVec.toNat (v674 l), BitVec.toNat (v684 l), BitVec.toNat (v694 l), BitVec.toNat (v704 l), BitVec.toNat (v714 l), BitVec.toNat (v724 l), BitVec.toNat (v734 l)],
      [BitVec.toNat (v744 l), BitVec.toNat (v754 l), BitVec.toNat (v764 l), BitVec.toNat (v774 l), BitVec.toNat (v784 l), BitVec.toNat (v794 l), BitVec.toNat (v804 l)],
      [BitVec.toNat (v814 l), BitVec.toNat (v824 l), BitVec.toNat (v834 l), BitVec.toNat (v844 l), BitVec.toNat (v854 l), BitVec.toNat (v864 l), BitVec.toNat (v874 l)],
      [BitVec.toNat (v921 l), BitVec.toNat (v931 l), BitVec.toNat (v941 l), BitVec.toNat (v951 l), BitVec.toNat (v961 l), BitVec.toNat (v971 l), BitVec.toNat (v981 l)],
      [BitVec.toNat (v991 l), BitVec.toNat (v1001 l), BitVec.toNat (v1011 l), BitVec.toNat (v1021 l), BitVec.toNat (v1031 l), BitVec.toNat (v1041 l), BitVec.toNat (v1051 l)],
      [BitVec.toNat (v1061 l), BitVec.toNat (v1071 l), BitVec.toNat (v1081 l), BitVec.toNat (v1091 l), BitVec.toNat (v1101 l), BitVec.toNat (v1111 l), BitVec.toNat (v1121 l)],
      [BitVec.toNat (v1131 l), BitVec.toNat (v1141 l), BitVec.toNat (v1151 l), BitVec.toNat (v1161 l), BitVec.toNat (v1171 l), BitVec.toNat (v1181 l), BitVec.toNat (v1191 l)]] ∧
    IsF ((k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l) [[BitVec.toNat (v604 l), BitVec.toNat (v614 l), BitVec.toNat (v624 l), BitVec.toNat (v634 l), BitVec.toNat (v644 l), BitVec.toNat (v654 l), BitVec.toNat (v664 l)],
      [BitVec.toNat (v674 l), BitVec.toNat (v684 l), BitVec.toNat (v694 l), BitVec.toNat (v704 l), BitVec.toNat (v714 l), BitVec.toNat (v724 l), BitVec.toNat (v734 l)],
      [BitVec.toNat (v744 l), BitVec.toNat (v754 l), BitVec.toNat (v764 l), BitVec.toNat (v774 l), BitVec.toNat (v784 l), BitVec.toNat (v794 l), BitVec.toNat (v804 l)],
      [BitVec.toNat (v814 l), BitVec.toNat (v824 l), BitVec.toNat (v834 l), BitVec.toNat (v844 l), BitVec.toNat (v854 l), BitVec.toNat (v864 l), BitVec.toNat (v874 l)],
      [BitVec.toNat (v921 l), BitVec.toNat (v931 l), BitVec.toNat (v941 l), BitVec.toNat (v951 l), BitVec.toNat (v961 l), BitVec.toNat (v971 l), BitVec.toNat (v981 l)],
      [BitVec.toNat (v991 l), BitVec.toNat (v1001 l), BitVec.toNat (v1011 l), BitVec.toNat (v1021 l), BitVec.toNat (v1031 l), BitVec.toNat (v1041 l), BitVec.toNat (v1051 l)],
      [BitVec.toNat (v1061 l), BitVec.toNat (v1071 l), BitVec.toNat (v1081 l), BitVec.toNat (v1091 l), BitVec.toNat (v1101 l), BitVec.toNat (v1111 l), BitVec.toNat (v1121 l)],
      [BitVec.toNat (v1131 l), BitVec.toNat (v1141 l), BitVec.toNat (v1151 l), BitVec.toNat (v1161 l), BitVec.toNat (v1171 l), BitVec.toNat (v1181 l), BitVec.toNat (v1191 l)]] := by
  have b0 := hb v604 (by simp)
  have b1 := hb v614 (by simp)
  have b2 := hb v624 (by simp)
  have b3 := hb v634 (by simp)
  have b4 := hb v644 (by simp)
  have b5 := hb v654 (by simp)
  have b6 := hb v664 (by simp)
  have b7 := hb v674 (by simp)
  have b8 := hb v684 (by simp)
  have b9 := hb v694 (by simp)
  have b10 := hb v704 (by simp)
  have b11 := hb v714 (by simp)
  have b12 := hb v724 (by simp)
  have b13 := hb v734 (by simp)
  have b14 := hb v744 (by simp)
  have b15 := hb v754 (by simp)
  have b16 := hb v764 (by simp)
  have b17 := hb v774 (by simp)
  have b18 := hb v784 (by simp)
  have b19 := hb v794 (by simp)
  have b20 := hb v804 (by simp)
  have b21 := hb v814 (by simp)
  have b22 := hb v824 (by simp)
  have b23 := hb v834 (by simp)
  have b24 := hb v844 (by simp)
  have b25 := hb v854 (by simp)
  have b26 := hb v864 (by simp)
  have b27 := hb v874 (by simp)
  have c0 := hb v921 (by simp)
  have c1 := hb v931 (by simp)
  have c2 := hb v941 (by simp)
  have c3 := hb v951 (by simp)
  have c4 := hb v961 (by simp)
  have c5 := hb v971 (by simp)
  have c6 := hb v981 (by simp)
  have c7 := hb v991 (by simp)
  have c8 := hb v1001 (by simp)
  have c9 := hb v1011 (by simp)
  have c10 := hb v1021 (by simp)
  have c11 := hb v1031 (by simp)
  have c12 := hb v1041 (by simp)
  have c13 := hb v1051 (by simp)
  have c14 := hb v1061 (by simp)
  have c15 := hb v1071 (by simp)
  have c16 := hb v1081 (by simp)
  have c17 := hb v1091 (by simp)
  have c18 := hb v1101 (by simp)
  have c19 := hb v1111 (by simp)
  have c20 := hb v1121 (by simp)
  have c21 := hb v1131 (by simp)
  have c22 := hb v1141 (by simp)
  have c23 := hb v1151 (by simp)
  have c24 := hb v1161 (by simp)
  have c25 := hb v1171 (by simp)
  have c26 := hb v1181 (by simp)
  have c27 := hb v1191 (by simp)
  have hA0 := k0_pay50_lane _ v634 v644 v654 v664 l _ (k0_pay49_lane v604 v614 v624 l b0 b1 b2) b3 b4 b5 b6
  have hA1 := k0_pay52_lane _ v714 v724 v734 l _ (k0_pay51_lane _ v674 v684 v694 v704 l _ (k0_pay46_lane l) b7 b8 b9 b10) b11 b12 b13
  have hA2 := k0_pay55_lane _ v794 v804 l _ (k0_pay54_lane _ v754 v764 v774 v784 l _ (k0_pay53_lane _ v744 l _ (k0_pay47_lane l) b14) b15 b16 b17 b18) b19 b20
  have hA3 := k0_pay57_lane _ v834 v844 v854 v864 l _ (k0_pay56_lane _ v814 v824 l _ (k0_pay48_lane l) b21 b22) b23 b24 b25 b26
  have hE1 := k0_pay59_lane _ _ _ _ _ v874 l _ _ _ _ _ (k0_pay44_lane l) hA0 hA1 hA2 hA3 b27 (by simp) (by simp) (by simp) (by simp)
  have hF1 := k0_pay60_lane _ _ _ _ _ v874 l _ _ _ _ _ (k0_pay45_lane l) hA0 hA1 hA2 hA3 b27 (by simp) (by simp) (by simp) (by simp)
  have hB0 := k0_pay65_lane _ v951 v961 v971 v981 l _ (k0_pay64_lane v921 v931 v941 l c0 c1 c2) c3 c4 c5 c6
  have hB1 := k0_pay67_lane _ v1031 v1041 v1051 l _ (k0_pay66_lane _ v991 v1001 v1011 v1021 l _ (k0_pay61_lane l) c7 c8 c9 c10) c11 c12 c13
  have hB2 := k0_pay70_lane _ v1111 v1121 l _ (k0_pay69_lane _ v1071 v1081 v1091 v1101 l _ (k0_pay68_lane _ v1061 l _ (k0_pay62_lane l) c14) c15 c16 c17 c18) c19 c20
  have hB3 := k0_pay72_lane _ v1151 v1161 v1171 v1181 l _ (k0_pay71_lane _ v1131 v1141 l _ (k0_pay63_lane l) c21 c22) c23 c24 c25 c26
  have hE2 := k0_pay74_lane _ _ _ _ _ v1191 l _ _ _ _ _ hE1 hB0 hB1 hB2 hB3 c27 (by simp) (by simp) (by simp) (by simp)
  have hF2 := k0_pay75_lane _ _ _ _ _ v1191 l _ _ _ _ _ hF1 hB0 hB1 hB2 hB3 c27 (by simp) (by simp) (by simp) (by simp)
  exact ⟨hE1, hB0, hB1, hB2, hB3, hE2, hF2⟩

/-- The counter of digit 0 a trip yields, in one lane: the carried counter plus the number of the trip's 56 loaded
    vectors whose lane holds 0. -/
theorem k0_t2_out0_lane (arg13 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay76 arg13 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191 l
      = arg13 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 0) := by
  obtain ⟨hE1, hB0, hB1, hB2, hB3, -, -⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay76_lane arg13 _ _ _ _ _ v1191 l _ _ _ _ _ hE1 hB0 hB1 hB2 hB3 (hb v1191 (by simp)) (by simp) (by simp) (by simp) (by simp) (by simp)]
  rfl

/-- The counter of digit 1 a trip yields, in one lane: the carried counter plus the number of the trip's 56 loaded
    vectors whose lane holds 1. -/
theorem k0_t2_out1_lane (arg14 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay77 arg14 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg14 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 1) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay77_lane arg14 _ l _ hF2 (by simp)]
  rfl

/-- The counter of digit 2 a trip yields, in one lane: the carried counter plus the number of the trip's 56 loaded
    vectors whose lane holds 2. -/
theorem k0_t2_out2_lane (arg15 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay78 arg15 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg15 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 2) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay78_lane arg15 _ l _ hE2 (by simp)]
  rfl

/-- The counter of digit 3 a trip yields, in one lane: the carried counter plus the number of the trip's 56 loaded
    vectors whose lane holds 3. -/
theorem k0_t2_out3_lane (arg16 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay79 arg16 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg16 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 3) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay79_lane arg16 _ l _ hF2 (by simp)]
  rfl

/-- The counter of digit 4 a trip yields, in one lane: the carried counter plus the number of the trip's 56 loaded
    vectors whose lane holds 4. -/
theorem k0_t2_out4_lane (arg17 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay80 arg17 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg17 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 4) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay80_lane arg17 _ l _ hE2 (by simp)]
  rfl

/-- The counter of digit 5 a trip yields, in one lane: the carried counter plus the number of the trip's 56 loaded
    vectors whose lane holds 5. -/
theorem k0_t2_out5_lane (arg18 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay81 arg18 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg18 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 5) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay81_lane arg18 _ l _ hF2 (by simp)]
  rfl

/-- The counter of digit 6 a trip yields, in one lane: the carried counter plus the number of the trip's 56 loaded
    vectors whose lane holds 6. -/
theorem k0_t2_out6_lane (arg19 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay82 arg19 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg19 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 6) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay82_lane arg19 _ l _ hE2 (by simp)]
  rfl

/-- The counter of digit 7 a trip yields, in one lane: the carried counter plus the number of the trip's 56 loaded
    vectors whose lane holds 7. -/
theorem k0_t2_out7_lane (arg20 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay83 arg20 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg20 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 7) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay83_lane arg20 _ l _ hF2 (by simp)]
  rfl

/-- The counter of digit 8 a trip yields, in one lane: the carried counter plus the number of the trip's 56 loaded
    vectors whose lane holds 8. -/
theorem k0_t2_out8_lane (arg21 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay84 arg21 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191) l
      = arg21 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 8) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay84_lane arg21 _ l _ hE2 (by simp)]
  rfl

/-- The counter of digit 9 a trip yields, in one lane: the carried counter plus the number of the trip's 56 loaded
    vectors whose lane holds 9. -/
theorem k0_t2_out9_lane (arg22 : IVec S16 32) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) (l : S16.Idx)
    (hb : ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    k0_pay97 arg22 (k0_pay85 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191)) 63#32 l
      = arg22 l + BitVec.ofNat 32 ((lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count 9) := by
  obtain ⟨-, -, -, -, -, hE2, hF2⟩ := k0_t2_sums_lane v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l hb
  rw [k0_pay97_lane arg22 _ l _ hF2 (by simp)]
  rfl

/-! ## The tail after the loops (28 + 4 vectors): its payloads, one lane at a time -/

/-- The zero vector: in every lane the empty sum of even parts. -/
theorem k0_pay98_lane (l : S16.Idx) : IsE (k0_pay98 l) [] := isE_zero

/-- The zero vector: in every lane the empty sum of odd parts. -/
theorem k0_pay99_lane (l : S16.Idx) : IsF (k0_pay99 l) [] := isF_zero

/-- The zero vector: in every lane the empty accumulator. -/
theorem k0_pay100_lane (l : S16.Idx) : IsAcc (k0_pay100 l) [] := isAcc_zero

/-- The zero vector: in every lane the empty accumulator. -/
theorem k0_pay101_lane (l : S16.Idx) : IsAcc (k0_pay101 l) [] := isAcc_zero

/-- The zero vector: in every lane the empty accumulator. -/
theorem k0_pay102_lane (l : S16.Idx) : IsAcc (k0_pay102 l) [] := isAcc_zero

/-- The zero vector: in every lane the empty accumulator. -/
theorem k0_pay119_lane (l : S16.Idx) : IsAcc (k0_pay119 l) [] := isAcc_zero

/-- In one lane: the fresh accumulator after 4 more digits added. -/
theorem k0_pay103_lane (v40 v46 v52 v58 : Vec F S16 .i32) (l : S16.Idx)
    (b0 : BitVec.toNat (v40 l) ≤ 9) (b1 : BitVec.toNat (v46 l) ≤ 9) (b2 : BitVec.toNat (v52 l) ≤ 9) (b3 : BitVec.toNat (v58 l) ≤ 9) :
    IsAcc (k0_pay103 v40 v46 v52 v58 l) ([BitVec.toNat (v40 l), BitVec.toNat (v46 l), BitVec.toNat (v52 l), BitVec.toNat (v58 l)]) := by
  have := ((((isAcc_zero.step _ b0).step _ b1).step _ b2).step _ b3)
  simpa only [k0_pay103, addi, muli, shli, broadcast, List.append_assoc, List.cons_append, List.nil_append] using this

/-- In one lane: the accumulator with 3 more digits added. -/
theorem k0_pay104_lane (v63 : IVec S16 32) (v64 v70 v76 : Vec F S16 .i32) (l : S16.Idx) (L : List ℕ)
    (h0 : IsAcc (v63 l) L) (b0 : BitVec.toNat (v64 l) ≤ 9) (b1 : BitVec.toNat (v70 l) ≤ 9) (b2 : BitVec.toNat (v76 l) ≤ 9) :
    IsAcc (k0_pay104 v63 v64 v70 v76 l) (L ++ [BitVec.toNat (v64 l), BitVec.toNat (v70 l), BitVec.toNat (v76 l)]) := by
  have := (((h0.step _ b0).step _ b1).step _ b2)
  simpa only [k0_pay104, addi, muli, shli, broadcast, List.append_assoc, List.cons_append, List.nil_append] using this

/-- In one lane: the accumulator with 3 more digits added. -/
theorem k0_pay105_lane (v37 : IVec S16 32) (v82 v88 v94 : Vec F S16 .i32) (l : S16.Idx) (L : List ℕ)
    (h0 : IsAcc (v37 l) L) (b0 : BitVec.toNat (v82 l) ≤ 9) (b1 : BitVec.toNat (v88 l) ≤ 9) (b2 : BitVec.toNat (v94 l) ≤ 9) :
    IsAcc (k0_pay105 v37 v82 v88 v94 l) (L ++ [BitVec.toNat (v82 l), BitVec.toNat (v88 l), BitVec.toNat (v94 l)]) := by
  have := (((h0.step _ b0).step _ b1).step _ b2)
  simpa only [k0_pay105, addi, muli, shli, broadcast, List.append_assoc, List.cons_append, List.nil_append] using this

/-- In one lane: the accumulator with 3 more digits added. -/
theorem k0_pay109_lane (v38 : IVec S16 32) (v124 v130 v136 : Vec F S16 .i32) (l : S16.Idx) (L : List ℕ)
    (h0 : IsAcc (v38 l) L) (b0 : BitVec.toNat (v124 l) ≤ 9) (b1 : BitVec.toNat (v130 l) ≤ 9) (b2 : BitVec.toNat (v136 l) ≤ 9) :
    IsAcc (k0_pay109 v38 v124 v130 v136 l) (L ++ [BitVec.toNat (v124 l), BitVec.toNat (v130 l), BitVec.toNat (v136 l)]) := by
  have := (((h0.step _ b0).step _ b1).step _ b2)
  simpa only [k0_pay109, addi, muli, shli, broadcast, List.append_assoc, List.cons_append, List.nil_append] using this

/-- In one lane: the accumulator with 3 more digits added. -/
theorem k0_pay112_lane (v39 : IVec S16 32) (v166 v172 v178 : Vec F S16 .i32) (l : S16.Idx) (L : List ℕ)
    (h0 : IsAcc (v39 l) L) (b0 : BitVec.toNat (v166 l) ≤ 9) (b1 : BitVec.toNat (v172 l) ≤ 9) (b2 : BitVec.toNat (v178 l) ≤ 9) :
    IsAcc (k0_pay112 v39 v166 v172 v178 l) (L ++ [BitVec.toNat (v166 l), BitVec.toNat (v172 l), BitVec.toNat (v178 l)]) := by
  have := (((h0.step _ b0).step _ b1).step _ b2)
  simpa only [k0_pay112, addi, muli, shli, broadcast, List.append_assoc, List.cons_append, List.nil_append] using this

/-- In one lane: the accumulator with 4 more digits added. -/
theorem k0_pay113_lane (v183 : IVec S16 32) (v184 v190 v196 v202 : Vec F S16 .i32) (l : S16.Idx) (L : List ℕ)
    (h0 : IsAcc (v183 l) L) (b0 : BitVec.toNat (v184 l) ≤ 9) (b1 : BitVec.toNat (v190 l) ≤ 9) (b2 : BitVec.toNat (v196 l) ≤ 9) (b3 : BitVec.toNat (v202 l) ≤ 9) :
    IsAcc (k0_pay113 v183 v184 v190 v196 v202 l) (L ++ [BitVec.toNat (v184 l), BitVec.toNat (v190 l), BitVec.toNat (v196 l), BitVec.toNat (v202 l)]) := by
  have := ((((h0.step _ b0).step _ b1).step _ b2).step _ b3)
  simpa only [k0_pay113, addi, muli, shli, broadcast, List.append_assoc, List.cons_append, List.nil_append] using this

/-- In one lane: the fresh accumulator after 1 more digit added. -/
theorem k0_pay120_lane (v244 : Vec F S16 .i32) (l : S16.Idx)
    (b0 : BitVec.toNat (v244 l) ≤ 9) :
    IsAcc (k0_pay120 v244 l) ([BitVec.toNat (v244 l)]) := by
  have := (isAcc_zero.step _ b0)
  simpa only [k0_pay120, addi, muli, shli, broadcast, List.append_assoc, List.cons_append, List.nil_append] using this

/-- In one lane: the fresh accumulator after 1 more digit added. -/
theorem k0_pay121_lane (v250 : Vec F S16 .i32) (l : S16.Idx)
    (b0 : BitVec.toNat (v250 l) ≤ 9) :
    IsAcc (k0_pay121 v250 l) ([BitVec.toNat (v250 l)]) := by
  have := (isAcc_zero.step _ b0)
  simpa only [k0_pay121, addi, muli, shli, broadcast, List.append_assoc, List.cons_append, List.nil_append] using this

/-- In one lane: the fresh accumulator after 1 more digit added. -/
theorem k0_pay122_lane (v256 : Vec F S16 .i32) (l : S16.Idx)
    (b0 : BitVec.toNat (v256 l) ≤ 9) :
    IsAcc (k0_pay122 v256 l) ([BitVec.toNat (v256 l)]) := by
  have := (isAcc_zero.step _ b0)
  simpa only [k0_pay122, addi, muli, shli, broadcast, List.append_assoc, List.cons_append, List.nil_append] using this

/-- In one lane: the accumulator with 4 more digits added, the first one's tripled digit and the constant 1 coming
    from the two payloads before. -/
theorem k0_pay108_lane (v99 : IVec S16 32) (v100 v106 v112 v118 : Vec F S16 .i32) (l : S16.Idx) (L : List ℕ)
    (h0 : IsAcc (v99 l) L) (b0 : BitVec.toNat (v100 l) ≤ 9) (b1 : BitVec.toNat (v106 l) ≤ 9) (b2 : BitVec.toNat (v112 l) ≤ 9) (b3 : BitVec.toNat (v118 l) ≤ 9) :
    IsAcc (k0_pay108 v99 (k0_pay106 v100) k0_pay107 v106 v112 v118 l) (L ++ [BitVec.toNat (v100 l), BitVec.toNat (v106 l), BitVec.toNat (v112 l), BitVec.toNat (v118 l)]) := by
  have := ((((h0.step _ b0).step _ b1).step _ b2).step _ b3)
  simpa only [k0_pay108, k0_pay106, k0_pay107, addi, muli, shli, broadcast, List.append_assoc, List.cons_append, List.nil_append] using this

/-- In one lane: the accumulator with 4 more digits added, the constant 3 of the first one coming from the payload
    before. -/
theorem k0_pay111_lane (v141 : IVec S16 32) (v142 v148 v154 v160 : Vec F S16 .i32) (l : S16.Idx) (L : List ℕ)
    (h0 : IsAcc (v141 l) L) (b0 : BitVec.toNat (v142 l) ≤ 9) (b1 : BitVec.toNat (v148 l) ≤ 9) (b2 : BitVec.toNat (v154 l) ≤ 9) (b3 : BitVec.toNat (v160 l) ≤ 9) :
    IsAcc (k0_pay111 v141 v142 k0_pay110 v148 v154 v160 l) (L ++ [BitVec.toNat (v142 l), BitVec.toNat (v148 l), BitVec.toNat (v154 l), BitVec.toNat (v160 l)]) := by
  have := ((((h0.step _ b0).step _ b1).step _ b2).step _ b3)
  simpa only [k0_pay111, k0_pay110, addi, muli, shli, broadcast, List.append_assoc, List.cons_append, List.nil_append] using this

/-- In one lane: the running sum of even parts after the first two accumulators. -/
theorem k0_pay114_lane (v34 v81 v123 : IVec S16 32) (l : S16.Idx) (E : List (List ℕ)) (L0 L1 : List ℕ)
    (he : IsE (v34 l) E) (h0 : IsAcc (v81 l) L0) (h1 : IsAcc (v123 l) L1) (n0 : L0.length ≤ 7) (n1 : L1.length ≤ 7) :
    IsE (k0_pay114 v34 v81 v123 l) (E ++ [L0, L1]) := by
  have := (he.step h0 n0).step h1 n1
  simpa only [k0_pay114, addi, andi, broadcast, List.append_assoc, List.cons_append, List.nil_append] using this

/-- In one lane: the running sum of odd parts after the first two accumulators. -/
theorem k0_pay115_lane (v35 v81 v123 : IVec S16 32) (l : S16.Idx) (E : List (List ℕ)) (L0 L1 : List ℕ)
    (he : IsF (v35 l) E) (h0 : IsAcc (v81 l) L0) (h1 : IsAcc (v123 l) L1) (n0 : L0.length ≤ 7) (n1 : L1.length ≤ 7) :
    IsF (k0_pay115 v35 v81 v123 l) (E ++ [L0, L1]) := by
  have := (he.step h0 n0).step h1 n1
  simpa only [k0_pay115, addi, shrsi, andi, broadcast, List.append_assoc, List.cons_append, List.nil_append] using this

/-- In one lane: the running sum of even parts after the third and fourth accumulators (the third one's even part
    is the payload before). -/
theorem k0_pay117_lane (v207 v218 v165 : IVec S16 32) (l : S16.Idx) (E : List (List ℕ)) (L2 L3 : List ℕ)
    (he : IsE (v218 l) E) (h2 : IsAcc (v165 l) L2) (h3 : IsAcc (v207 l) L3) (n2 : L2.length ≤ 7) (n3 : L3.length ≤ 7) :
    IsE (k0_pay117 v207 v218 (k0_pay116 v165) l) (E ++ [L2, L3]) := by
  have := (he.step h2 n2).step h3 n3
  simpa only [k0_pay117, k0_pay116, addi, andi, broadcast, List.append_assoc, List.cons_append, List.nil_append] using this

/-- In one lane: the running sum of odd parts after the third and fourth accumulators. -/
theorem k0_pay118_lane (v165 v207 v223 : IVec S16 32) (l : S16.Idx) (E : List (List ℕ)) (L2 L3 : List ℕ)
    (he : IsF (v223 l) E) (h2 : IsAcc (v165 l) L2) (h3 : IsAcc (v207 l) L3) (n2 : L2.length ≤ 7) (n3 : L3.length ≤ 7) :
    IsF (k0_pay118 v165 v207 v223 l) (E ++ [L2, L3]) := by
  have := (he.step h2 n2).step h3 n3
  simpa only [k0_pay118, addi, shrsi, andi, broadcast, List.append_assoc, List.cons_append, List.nil_append] using this

/-- In one lane: the running sum of even parts after the four one-digit accumulators of the last block (the fourth
    one takes its digit here, tripled by the payload before). -/
theorem k0_pay125_lane (v234 v243 v249 v255 v261 : IVec S16 32) (v262 : Vec F S16 .i32) (l : S16.Idx)
    (E : List (List ℕ)) (L0 L1 L2 L3 : List ℕ) (he : IsE (v234 l) E)
    (h0 : IsAcc (v249 l) L0) (h1 : IsAcc (v255 l) L1) (h2 : IsAcc (v261 l) L2) (h3 : IsAcc (v243 l) L3)
    (hv : BitVec.toNat (v262 l) ≤ 9) (n0 : L0.length ≤ 7) (n1 : L1.length ≤ 7) (n2 : L2.length ≤ 7) (n3 : L3.length ≤ 6) :
    IsE (k0_pay125 v234 v243 v249 v255 v261 (k0_pay123 v262) 1#32 l) (E ++ [L0, L1, L2, L3 ++ [BitVec.toNat (v262 l)]]) := by
  have n3' : (L3 ++ [BitVec.toNat (v262 l)]).length ≤ 7 := by rw [List.length_append, List.length_singleton]; omega
  have := (((he.step h0 n0).step h1 n1).step h2 n2).step (h3.step _ hv) n3'
  simpa only [k0_pay125, k0_pay124, k0_pay123, addi, muli, shli, andi, broadcast, List.append_assoc, List.cons_append, List.nil_append] using this

/-- In one lane: the running sum of odd parts after the four one-digit accumulators of the last block (the fourth
    one takes its digit here, tripled by the payload before). -/
theorem k0_pay126_lane (v239 v243 v249 v255 v261 : IVec S16 32) (v262 : Vec F S16 .i32) (l : S16.Idx)
    (E : List (List ℕ)) (L0 L1 L2 L3 : List ℕ) (he : IsF (v239 l) E)
    (h0 : IsAcc (v249 l) L0) (h1 : IsAcc (v255 l) L1) (h2 : IsAcc (v261 l) L2) (h3 : IsAcc (v243 l) L3)
    (hv : BitVec.toNat (v262 l) ≤ 9) (n0 : L0.length ≤ 7) (n1 : L1.length ≤ 7) (n2 : L2.length ≤ 7) (n3 : L3.length ≤ 6) :
    IsF (k0_pay126 v239 v243 v249 v255 v261 (k0_pay123 v262) 1#32 l) (E ++ [L0, L1, L2, L3 ++ [BitVec.toNat (v262 l)]]) := by
  have n3' : (L3 ++ [BitVec.toNat (v262 l)]).length ≤ 7 := by rw [List.length_append, List.length_singleton]; omega
  have := (((he.step h0 n0).step h1 n1).step h2 n2).step (h3.step _ hv) n3'
  simpa only [k0_pay126, k0_pay124, k0_pay123, addi, muli, shli, shrsi, andi, broadcast, List.append_assoc, List.cons_append, List.nil_append] using this

/-- In one lane: the final counter of digit 0. -/
theorem k0_pay127_lane (v33_0 v234 v243 v249 v255 v261 : IVec S16 32) (v262 : Vec F S16 .i32) (l : S16.Idx)
    (E : List (List ℕ)) (L0 L1 L2 L3 : List ℕ) (he : IsE (v234 l) E)
    (h0 : IsAcc (v249 l) L0) (h1 : IsAcc (v255 l) L1) (h2 : IsAcc (v261 l) L2) (h3 : IsAcc (v243 l) L3)
    (hv : BitVec.toNat (v262 l) ≤ 9) (n0 : L0.length ≤ 7) (n1 : L1.length ≤ 7) (n2 : L2.length ≤ 7) (n3 : L3.length ≤ 6)
    (ht : (E ++ [L0, L1, L2, L3 ++ [BitVec.toNat (v262 l)]]).flatten.length ≤ 63) :
    k0_pay127 v33_0 v234 v243 v249 v255 v261 (k0_pay123 v262) 1#32 l
      = v33_0 l + BitVec.ofNat 32 ((E ++ [L0, L1, L2, L3 ++ [BitVec.toNat (v262 l)]]).flatten.count 0) := by
  have hE := k0_pay125_lane v234 v243 v249 v255 v261 v262 l E L0 L1 L2 L3 he h0 h1 h2 h3 hv n0 n1 n2 n3
  have := hE.field ht 0 0 0 (by norm_num) rfl rfl
  simp only [k0_pay127, addi, shrsi, andi, broadcast]
  rw [this]; rfl

/-- In one lane: the final counter of digit 1 (the field is one payload, the addition the next). -/
theorem k0_pay129_lane (v33_1 v239 v243 v249 v255 v261 : IVec S16 32) (v262 : Vec F S16 .i32) (l : S16.Idx)
    (E : List (List ℕ)) (L0 L1 L2 L3 : List ℕ) (he : IsF (v239 l) E)
    (h0 : IsAcc (v249 l) L0) (h1 : IsAcc (v255 l) L1) (h2 : IsAcc (v261 l) L2) (h3 : IsAcc (v243 l) L3)
    (hv : BitVec.toNat (v262 l) ≤ 9) (n0 : L0.length ≤ 7) (n1 : L1.length ≤ 7) (n2 : L2.length ≤ 7) (n3 : L3.length ≤ 6)
    (ht : (E ++ [L0, L1, L2, L3 ++ [BitVec.toNat (v262 l)]]).flatten.length ≤ 63) :
    k0_pay129 v33_1 (k0_pay128 v239 v243 v249 v255 v261 (k0_pay123 v262) 1#32) l
      = v33_1 l + BitVec.ofNat 32 ((E ++ [L0, L1, L2, L3 ++ [BitVec.toNat (v262 l)]]).flatten.count 1) := by
  have hF := k0_pay126_lane v239 v243 v249 v255 v261 v262 l E L0 L1 L2 L3 he h0 h1 h2 h3 hv n0 n1 n2 n3
  have := hF.field ht 0 0 1 (by norm_num) rfl rfl
  simp only [k0_pay129, k0_pay128, addi, shrsi, andi, broadcast]
  rw [this]; rfl

/-- In one lane: the final counter of digit 2. -/
theorem k0_pay130_lane (v33_2 v294 : IVec S16 32) (l : S16.Idx) (ls : List (List ℕ)) (h : IsE (v294 l) ls)
    (ht : ls.flatten.length ≤ 63) :
    k0_pay130 v33_2 v294 l = v33_2 l + BitVec.ofNat 32 (ls.flatten.count 2) := by
  have := h.field ht 1 6 2 (by norm_num) rfl rfl
  simp only [k0_pay130, addi, shrsi, andi, broadcast]
  rw [this]; rfl

/-- In one lane: the final counter of digit 3. -/
theorem k0_pay131_lane (v33_3 v299 : IVec S16 32) (l : S16.Idx) (ls : List (List ℕ)) (h : IsF (v299 l) ls)
    (ht : ls.flatten.length ≤ 63) :
    k0_pay131 v33_3 v299 l = v33_3 l + BitVec.ofNat 32 (ls.flatten.count 3) := by
  have := h.field ht 1 6 3 (by norm_num) rfl rfl
  simp only [k0_pay131, addi, shrsi, andi, broadcast]
  rw [this]; rfl

/-- In one lane: the final counter of digit 4. -/
theorem k0_pay132_lane (v33_4 v294 : IVec S16 32) (l : S16.Idx) (ls : List (List ℕ)) (h : IsE (v294 l) ls)
    (ht : ls.flatten.length ≤ 63) :
    k0_pay132 v33_4 v294 l = v33_4 l + BitVec.ofNat 32 (ls.flatten.count 4) := by
  have := h.field ht 2 12 4 (by norm_num) rfl rfl
  simp only [k0_pay132, addi, shrsi, andi, broadcast]
  rw [this]; rfl

/-- In one lane: the final counter of digit 5. -/
theorem k0_pay133_lane (v33_5 v299 : IVec S16 32) (l : S16.Idx) (ls : List (List ℕ)) (h : IsF (v299 l) ls)
    (ht : ls.flatten.length ≤ 63) :
    k0_pay133 v33_5 v299 l = v33_5 l + BitVec.ofNat 32 (ls.flatten.count 5) := by
  have := h.field ht 2 12 5 (by norm_num) rfl rfl
  simp only [k0_pay133, addi, shrsi, andi, broadcast]
  rw [this]; rfl

/-- In one lane: the final counter of digit 6. -/
theorem k0_pay134_lane (v33_6 v294 : IVec S16 32) (l : S16.Idx) (ls : List (List ℕ)) (h : IsE (v294 l) ls)
    (ht : ls.flatten.length ≤ 63) :
    k0_pay134 v33_6 v294 l = v33_6 l + BitVec.ofNat 32 (ls.flatten.count 6) := by
  have := h.field ht 3 18 6 (by norm_num) rfl rfl
  simp only [k0_pay134, addi, shrsi, andi, broadcast]
  rw [this]; rfl

/-- In one lane: the final counter of digit 7. -/
theorem k0_pay135_lane (v33_7 v299 : IVec S16 32) (l : S16.Idx) (ls : List (List ℕ)) (h : IsF (v299 l) ls)
    (ht : ls.flatten.length ≤ 63) :
    k0_pay135 v33_7 v299 l = v33_7 l + BitVec.ofNat 32 (ls.flatten.count 7) := by
  have := h.field ht 3 18 7 (by norm_num) rfl rfl
  simp only [k0_pay135, addi, shrsi, andi, broadcast]
  rw [this]; rfl

/-- In one lane: the final counter of digit 8. -/
theorem k0_pay136_lane (v33_8 v294 : IVec S16 32) (l : S16.Idx) (ls : List (List ℕ)) (h : IsE (v294 l) ls)
    (ht : ls.flatten.length ≤ 63) :
    k0_pay136 v33_8 v294 l = v33_8 l + BitVec.ofNat 32 (ls.flatten.count 8) := by
  have := h.field ht 4 24 8 (by norm_num) rfl rfl
  simp only [k0_pay136, addi, shrsi, andi, broadcast]
  rw [this]; rfl

/-- In one lane: the final counter of digit 9. -/
theorem k0_pay137_lane (v33_9 v299 : IVec S16 32) (l : S16.Idx) (ls : List (List ℕ)) (h : IsF (v299 l) ls)
    (ht : ls.flatten.length ≤ 63) :
    k0_pay137 v33_9 v299 l = v33_9 l + BitVec.ofNat 32 (ls.flatten.count 9) := by
  have := h.field ht 4 24 9 (by norm_num) rfl rfl
  simp only [k0_pay137, addi, shrsi, andi, broadcast]
  rw [this]; rfl

/-! ## The whole tail, in the nested form its parts compose -/

/-- In one lane, for the 32 vectors the tail loads (in program order), all with digits at most 9: the running sums
    after the block of 28, the three finished one-digit accumulators, and the two running sums at the end. -/
theorem k0_tail_sums_lane (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    IsE ((k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) l) [[BitVec.toNat (v40 l), BitVec.toNat (v46 l), BitVec.toNat (v52 l), BitVec.toNat (v58 l), BitVec.toNat (v64 l), BitVec.toNat (v70 l), BitVec.toNat (v76 l)],
      [BitVec.toNat (v82 l), BitVec.toNat (v88 l), BitVec.toNat (v94 l), BitVec.toNat (v100 l), BitVec.toNat (v106 l), BitVec.toNat (v112 l), BitVec.toNat (v118 l)],
      [BitVec.toNat (v124 l), BitVec.toNat (v130 l), BitVec.toNat (v136 l), BitVec.toNat (v142 l), BitVec.toNat (v148 l), BitVec.toNat (v154 l), BitVec.toNat (v160 l)],
      [BitVec.toNat (v166 l), BitVec.toNat (v172 l), BitVec.toNat (v178 l), BitVec.toNat (v184 l), BitVec.toNat (v190 l), BitVec.toNat (v196 l), BitVec.toNat (v202 l)]] ∧
    IsF ((k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) l) [[BitVec.toNat (v40 l), BitVec.toNat (v46 l), BitVec.toNat (v52 l), BitVec.toNat (v58 l), BitVec.toNat (v64 l), BitVec.toNat (v70 l), BitVec.toNat (v76 l)],
      [BitVec.toNat (v82 l), BitVec.toNat (v88 l), BitVec.toNat (v94 l), BitVec.toNat (v100 l), BitVec.toNat (v106 l), BitVec.toNat (v112 l), BitVec.toNat (v118 l)],
      [BitVec.toNat (v124 l), BitVec.toNat (v130 l), BitVec.toNat (v136 l), BitVec.toNat (v142 l), BitVec.toNat (v148 l), BitVec.toNat (v154 l), BitVec.toNat (v160 l)],
      [BitVec.toNat (v166 l), BitVec.toNat (v172 l), BitVec.toNat (v178 l), BitVec.toNat (v184 l), BitVec.toNat (v190 l), BitVec.toNat (v196 l), BitVec.toNat (v202 l)]] ∧
    IsAcc ((k0_pay120 v244) l) [BitVec.toNat (v244 l)] ∧ IsAcc ((k0_pay121 v250) l) [BitVec.toNat (v250 l)] ∧ IsAcc ((k0_pay122 v256) l) [BitVec.toNat (v256 l)] ∧
    IsE ((k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32) l) [[BitVec.toNat (v40 l), BitVec.toNat (v46 l), BitVec.toNat (v52 l), BitVec.toNat (v58 l), BitVec.toNat (v64 l), BitVec.toNat (v70 l), BitVec.toNat (v76 l)],
      [BitVec.toNat (v82 l), BitVec.toNat (v88 l), BitVec.toNat (v94 l), BitVec.toNat (v100 l), BitVec.toNat (v106 l), BitVec.toNat (v112 l), BitVec.toNat (v118 l)],
      [BitVec.toNat (v124 l), BitVec.toNat (v130 l), BitVec.toNat (v136 l), BitVec.toNat (v142 l), BitVec.toNat (v148 l), BitVec.toNat (v154 l), BitVec.toNat (v160 l)],
      [BitVec.toNat (v166 l), BitVec.toNat (v172 l), BitVec.toNat (v178 l), BitVec.toNat (v184 l), BitVec.toNat (v190 l), BitVec.toNat (v196 l), BitVec.toNat (v202 l)],
      [BitVec.toNat (v244 l)],
      [BitVec.toNat (v250 l)],
      [BitVec.toNat (v256 l)],
      [BitVec.toNat (v262 l)]] ∧
    IsF ((k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l) [[BitVec.toNat (v40 l), BitVec.toNat (v46 l), BitVec.toNat (v52 l), BitVec.toNat (v58 l), BitVec.toNat (v64 l), BitVec.toNat (v70 l), BitVec.toNat (v76 l)],
      [BitVec.toNat (v82 l), BitVec.toNat (v88 l), BitVec.toNat (v94 l), BitVec.toNat (v100 l), BitVec.toNat (v106 l), BitVec.toNat (v112 l), BitVec.toNat (v118 l)],
      [BitVec.toNat (v124 l), BitVec.toNat (v130 l), BitVec.toNat (v136 l), BitVec.toNat (v142 l), BitVec.toNat (v148 l), BitVec.toNat (v154 l), BitVec.toNat (v160 l)],
      [BitVec.toNat (v166 l), BitVec.toNat (v172 l), BitVec.toNat (v178 l), BitVec.toNat (v184 l), BitVec.toNat (v190 l), BitVec.toNat (v196 l), BitVec.toNat (v202 l)],
      [BitVec.toNat (v244 l)],
      [BitVec.toNat (v250 l)],
      [BitVec.toNat (v256 l)],
      [BitVec.toNat (v262 l)]] := by
  have b0 := hb v40 (by simp)
  have b1 := hb v46 (by simp)
  have b2 := hb v52 (by simp)
  have b3 := hb v58 (by simp)
  have b4 := hb v64 (by simp)
  have b5 := hb v70 (by simp)
  have b6 := hb v76 (by simp)
  have b7 := hb v82 (by simp)
  have b8 := hb v88 (by simp)
  have b9 := hb v94 (by simp)
  have b10 := hb v100 (by simp)
  have b11 := hb v106 (by simp)
  have b12 := hb v112 (by simp)
  have b13 := hb v118 (by simp)
  have b14 := hb v124 (by simp)
  have b15 := hb v130 (by simp)
  have b16 := hb v136 (by simp)
  have b17 := hb v142 (by simp)
  have b18 := hb v148 (by simp)
  have b19 := hb v154 (by simp)
  have b20 := hb v160 (by simp)
  have b21 := hb v166 (by simp)
  have b22 := hb v172 (by simp)
  have b23 := hb v178 (by simp)
  have b24 := hb v184 (by simp)
  have b25 := hb v190 (by simp)
  have b26 := hb v196 (by simp)
  have b27 := hb v202 (by simp)
  have b28 := hb v244 (by simp)
  have b29 := hb v250 (by simp)
  have b30 := hb v256 (by simp)
  have b31 := hb v262 (by simp)
  have hT0 := k0_pay104_lane _ v64 v70 v76 l _ (k0_pay103_lane v40 v46 v52 v58 l b0 b1 b2 b3) b4 b5 b6
  have hT1 := k0_pay108_lane _ v100 v106 v112 v118 l _ (k0_pay105_lane _ v82 v88 v94 l _ (k0_pay100_lane l) b7 b8 b9) b10 b11 b12 b13
  have hT2 := k0_pay111_lane _ v142 v148 v154 v160 l _ (k0_pay109_lane _ v124 v130 v136 l _ (k0_pay101_lane l) b14 b15 b16) b17 b18 b19 b20
  have hT3 := k0_pay113_lane _ v184 v190 v196 v202 l _ (k0_pay112_lane _ v166 v172 v178 l _ (k0_pay102_lane l) b21 b22 b23) b24 b25 b26 b27
  have hEa := k0_pay114_lane _ _ _ l _ _ _ (k0_pay98_lane l) hT0 hT1 (by simp) (by simp)
  have hFa := k0_pay115_lane _ _ _ l _ _ _ (k0_pay99_lane l) hT0 hT1 (by simp) (by simp)
  have hEb := k0_pay117_lane _ _ _ l _ _ _ hEa hT2 hT3 (by simp) (by simp)
  have hFb := k0_pay118_lane _ _ _ l _ _ _ hFa hT2 hT3 (by simp) (by simp)
  have hU0 := k0_pay120_lane v244 l b28
  have hU1 := k0_pay121_lane v250 l b29
  have hU2 := k0_pay122_lane v256 l b30
  have hEc := k0_pay125_lane _ _ _ _ _ v262 l _ _ _ _ _ hEb hU0 hU1 hU2 (k0_pay119_lane l) b31 (by simp) (by simp) (by simp) (by simp)
  have hFc := k0_pay126_lane _ _ _ _ _ v262 l _ _ _ _ _ hFb hU0 hU1 hU2 (k0_pay119_lane l) b31 (by simp) (by simp) (by simp) (by simp)
  exact ⟨hEb, hFb, hU0, hU1, hU2, hEc, hFc⟩

/-- The final counter of digit 0, in one lane: the loops' counter plus the number of the tail's 32 loaded vectors whose
    lane holds 0. -/
theorem k0_tail_out0_lane (v33_0 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay127 v33_0 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32 l
      = v33_0 l + BitVec.ofNat 32 ((lanes [v40, v46, v52, v58, v64, v70, v76, v82, v88, v94, v100, v106, v112, v118, v124, v130, v136, v142, v148, v154, v160, v166, v172, v178, v184, v190, v196, v202, v244, v250, v256, v262] l).count 0) := by
  obtain ⟨hEb, -, hU0, hU1, hU2, -, -⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay127_lane v33_0 _ _ _ _ _ v262 l _ _ _ _ _ hEb hU0 hU1 hU2 (k0_pay119_lane l) (hb v262 (by simp)) (by simp) (by simp) (by simp) (by simp) (by simp)]
  rfl

/-- The final counter of digit 1, in one lane. -/
theorem k0_tail_out1_lane (v33_1 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay129 v33_1 (k0_pay128 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l
      = v33_1 l + BitVec.ofNat 32 ((lanes [v40, v46, v52, v58, v64, v70, v76, v82, v88, v94, v100, v106, v112, v118, v124, v130, v136, v142, v148, v154, v160, v166, v172, v178, v184, v190, v196, v202, v244, v250, v256, v262] l).count 1) := by
  obtain ⟨-, hFb, hU0, hU1, hU2, -, -⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay129_lane v33_1 _ _ _ _ _ v262 l _ _ _ _ _ hFb hU0 hU1 hU2 (k0_pay119_lane l) (hb v262 (by simp)) (by simp) (by simp) (by simp) (by simp) (by simp)]
  rfl

/-- The final counter of digit 2, in one lane. -/
theorem k0_tail_out2_lane (v33_2 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay130 v33_2 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32) l
      = v33_2 l + BitVec.ofNat 32 ((lanes [v40, v46, v52, v58, v64, v70, v76, v82, v88, v94, v100, v106, v112, v118, v124, v130, v136, v142, v148, v154, v160, v166, v172, v178, v184, v190, v196, v202, v244, v250, v256, v262] l).count 2) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay130_lane v33_2 _ l _ hEc (by simp)]
  rfl

/-- The final counter of digit 3, in one lane. -/
theorem k0_tail_out3_lane (v33_3 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay131 v33_3 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l
      = v33_3 l + BitVec.ofNat 32 ((lanes [v40, v46, v52, v58, v64, v70, v76, v82, v88, v94, v100, v106, v112, v118, v124, v130, v136, v142, v148, v154, v160, v166, v172, v178, v184, v190, v196, v202, v244, v250, v256, v262] l).count 3) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay131_lane v33_3 _ l _ hFc (by simp)]
  rfl

/-- The final counter of digit 4, in one lane. -/
theorem k0_tail_out4_lane (v33_4 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay132 v33_4 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32) l
      = v33_4 l + BitVec.ofNat 32 ((lanes [v40, v46, v52, v58, v64, v70, v76, v82, v88, v94, v100, v106, v112, v118, v124, v130, v136, v142, v148, v154, v160, v166, v172, v178, v184, v190, v196, v202, v244, v250, v256, v262] l).count 4) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay132_lane v33_4 _ l _ hEc (by simp)]
  rfl

/-- The final counter of digit 5, in one lane. -/
theorem k0_tail_out5_lane (v33_5 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay133 v33_5 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l
      = v33_5 l + BitVec.ofNat 32 ((lanes [v40, v46, v52, v58, v64, v70, v76, v82, v88, v94, v100, v106, v112, v118, v124, v130, v136, v142, v148, v154, v160, v166, v172, v178, v184, v190, v196, v202, v244, v250, v256, v262] l).count 5) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay133_lane v33_5 _ l _ hFc (by simp)]
  rfl

/-- The final counter of digit 6, in one lane. -/
theorem k0_tail_out6_lane (v33_6 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay134 v33_6 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32) l
      = v33_6 l + BitVec.ofNat 32 ((lanes [v40, v46, v52, v58, v64, v70, v76, v82, v88, v94, v100, v106, v112, v118, v124, v130, v136, v142, v148, v154, v160, v166, v172, v178, v184, v190, v196, v202, v244, v250, v256, v262] l).count 6) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay134_lane v33_6 _ l _ hEc (by simp)]
  rfl

/-- The final counter of digit 7, in one lane. -/
theorem k0_tail_out7_lane (v33_7 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay135 v33_7 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l
      = v33_7 l + BitVec.ofNat 32 ((lanes [v40, v46, v52, v58, v64, v70, v76, v82, v88, v94, v100, v106, v112, v118, v124, v130, v136, v142, v148, v154, v160, v166, v172, v178, v184, v190, v196, v202, v244, v250, v256, v262] l).count 7) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay135_lane v33_7 _ l _ hFc (by simp)]
  rfl

/-- The final counter of digit 8, in one lane. -/
theorem k0_tail_out8_lane (v33_8 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay136 v33_8 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32) l
      = v33_8 l + BitVec.ofNat 32 ((lanes [v40, v46, v52, v58, v64, v70, v76, v82, v88, v94, v100, v106, v112, v118, v124, v130, v136, v142, v148, v154, v160, v166, v172, v178, v184, v190, v196, v202, v244, v250, v256, v262] l).count 8) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay136_lane v33_8 _ l _ hEc (by simp)]
  rfl

/-- The final counter of digit 9, in one lane. -/
theorem k0_tail_out9_lane (v33_9 : IVec S16 32) (v40 v46 v52 v58 v64 v70 v76 v82 v88 v94 v100 v106 v112 v118 v124 v130 v136 v142 v148 v154 v160 v166 v172 v178 v184 v190 v196 v202 v244 v250 v256 v262 : Vec F S16 .i32) (l : S16.Idx)
    (hb : ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    k0_pay137 v33_9 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32) l
      = v33_9 l + BitVec.ofNat 32 ((lanes [v40, v46, v52, v58, v64, v70, v76, v82, v88, v94, v100, v106, v112, v118, v124, v130, v136, v142, v148, v154, v160, v166, v172, v178, v184, v190, v196, v202, v244, v250, v256, v262] l).count 9) := by
  obtain ⟨-, -, -, -, -, hEc, hFc⟩ := k0_tail_sums_lane v40 v46 v52 v58 v64 v70 v76 v82 v88 v94 v100 v106 v112 v118 v124 v130 v136 v142 v148 v154 v160 v166 v172 v178 v184 v190 v196 v202 v244 v250 v256 v262 l hb
  rw [k0_pay137_lane v33_9 _ l _ hFc (by simp)]
  rfl

end Cert.KernelIdeal.Gen

end
-- ==== Proof.KI.ValLoops.lean ====
/-
  The counting loops and the tail as explicit functions of the chunk's contents, and what they count.

  A trip of either loop loads 56 consecutive vectors of the chunk and yields ten counters; the tail loads the last 32.
  Written over the chunk's contents, each is a function of the carried counters; iterated from zero, the counters of a
  lane hold, digit by digit, the number of vectors seen so far whose word in that lane is the digit.
-/
import proofs.«205564_g40879498729249_retrytranche2_1872_24_alg».proof.Proof.KI.ValDefs
import Idealize.ShloMosaic.Lib.ValueIdx
import proofs.«205564_g40879498729249_retrytranche2_1872_24_alg».proof.Proof.KI.Counts

noncomputable section

namespace Cert.Proof.KI

open Cert.KernelIdeal Cert.KernelIdeal.Gen

open Idealize.ShloMosaic Idealize.ShloMosaic.ValueIdx Cert.PackedCounters

variable {F : FTy → Type} [FloatOps F]

/-- The vector of sixteen consecutive words of the chunk starting at a given offset. -/
abbrev ld (g : Chunk F) (off : Fin 1 → ℕ) (inb : ∀ a, off a + S16.size a ≤ S32768.size a) : Vec F S16 .i32 :=
  (Memref.whole cc0_scratch0).view.readAt (Elt F) (Rect.unit (s := S32768) off S16.size inb).toLoadRect g

/-- The ten counters a trip of the first loop yields, from the carried ones and the 56 vectors it loads (in program
    order). -/
def trip1 (c : Tup) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) : Tup :=
  (k0_pay34 c.1 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191,
   k0_pay35 c.2.1 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay36 c.2.2.1 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay37 c.2.2.2.1 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay38 c.2.2.2.2.1 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay39 c.2.2.2.2.2.1 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay40 c.2.2.2.2.2.2.1 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay41 c.2.2.2.2.2.2.2.1 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay42 c.2.2.2.2.2.2.2.2.1 (k0_pay32 (k0_pay17 k0_pay2 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191),
   k0_pay96 c.2.2.2.2.2.2.2.2.2 (k0_pay43 (k0_pay33 (k0_pay18 k0_pay3 (k0_pay8 (k0_pay7 v604 v614 v624) v634 v644 v654 v664) (k0_pay10 (k0_pay9 k0_pay4 v674 v684 v694 v704) v714 v724 v734) (k0_pay13 (k0_pay12 (k0_pay11 k0_pay5 v744) v754 v764 v774 v784) v794 v804) (k0_pay15 (k0_pay14 k0_pay6 v814 v824) v834 v844 v854 v864) v874) (k0_pay23 (k0_pay22 v921 v931 v941) v951 v961 v971 v981) (k0_pay25 (k0_pay24 k0_pay19 v991 v1001 v1011 v1021) v1031 v1041 v1051) (k0_pay28 (k0_pay27 (k0_pay26 k0_pay20 v1061) v1071 v1081 v1091 v1101) v1111 v1121) (k0_pay30 (k0_pay29 k0_pay21 v1131 v1141) v1151 v1161 v1171 v1181) v1191)) 63#32)

/-- The same for the second loop. -/
def trip2 (c : Tup) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32) : Tup :=
  (k0_pay76 c.1 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191,
   k0_pay77 c.2.1 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay78 c.2.2.1 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay79 c.2.2.2.1 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay80 c.2.2.2.2.1 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay81 c.2.2.2.2.2.1 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay82 c.2.2.2.2.2.2.1 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay83 c.2.2.2.2.2.2.2.1 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay84 c.2.2.2.2.2.2.2.2.1 (k0_pay74 (k0_pay59 k0_pay44 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191),
   k0_pay97 c.2.2.2.2.2.2.2.2.2 (k0_pay85 (k0_pay75 (k0_pay60 k0_pay45 (k0_pay50 (k0_pay49 v604 v614 v624) v634 v644 v654 v664) (k0_pay52 (k0_pay51 k0_pay46 v674 v684 v694 v704) v714 v724 v734) (k0_pay55 (k0_pay54 (k0_pay53 k0_pay47 v744) v754 v764 v774 v784) v794 v804) (k0_pay57 (k0_pay56 k0_pay48 v814 v824) v834 v844 v854 v864) v874) (k0_pay65 (k0_pay64 v921 v931 v941) v951 v961 v971 v981) (k0_pay67 (k0_pay66 k0_pay61 v991 v1001 v1011 v1021) v1031 v1041 v1051) (k0_pay70 (k0_pay69 (k0_pay68 k0_pay62 v1061) v1071 v1081 v1091 v1101) v1111 v1121) (k0_pay72 (k0_pay71 k0_pay63 v1131 v1141) v1151 v1161 v1171 v1181) v1191)) 63#32)

/-- The ten final counters, from the loops' counters and the 32 vectors the tail loads (in program order). -/
def tailT (c : Tup) (v40 v46 v52 v58 v64 v70 v76 v82 v88 v94 v100 v106 v112 v118 v124 v130 v136 v142 v148 v154 v160 v166 v172 v178 v184 v190 v196 v202 v244 v250 v256 v262 : Vec F S16 .i32) : Tup :=
  (k0_pay127 c.1 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32,
   k0_pay129 c.2.1 (k0_pay128 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32),
   k0_pay130 c.2.2.1 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32),
   k0_pay131 c.2.2.2.1 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32),
   k0_pay132 c.2.2.2.2.1 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32),
   k0_pay133 c.2.2.2.2.2.1 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32),
   k0_pay134 c.2.2.2.2.2.2.1 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32),
   k0_pay135 c.2.2.2.2.2.2.2.1 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32),
   k0_pay136 c.2.2.2.2.2.2.2.2.1 (k0_pay125 (k0_pay117 (k0_pay113 (k0_pay112 k0_pay102 v166 v172 v178) v184 v190 v196 v202) (k0_pay114 k0_pay98 (k0_pay104 (k0_pay103 v40 v46 v52 v58) v64 v70 v76) (k0_pay108 (k0_pay105 k0_pay100 v82 v88 v94) (k0_pay106 v100) k0_pay107 v106 v112 v118)) (k0_pay116 (k0_pay111 (k0_pay109 k0_pay101 v124 v130 v136) v142 k0_pay110 v148 v154 v160))) k0_pay119 (k0_pay120 v244) (k0_pay121 v250) (k0_pay122 v256) (k0_pay123 v262) 1#32),
   k0_pay137 c.2.2.2.2.2.2.2.2.2 (k0_pay126 (k0_pay118 (k0_pay111 (k0_pay109 k0_pay101 v124 v130 v136) v142 k0_pay110 v148 v154 v160) (k0_pay113 (k0_pay112 k0_pay102 v166 v172 v178) v184 v190 v196 v202) (k0_pay115 k0_pay99 (k0_pay104 (k0_pay103 v40 v46 v52 v58) v64 v70 v76) (k0_pay108 (k0_pay105 k0_pay100 v82 v88 v94) (k0_pay106 v100) k0_pay107 v106 v112 v118))) k0_pay119 (k0_pay120 v244) (k0_pay121 v250) (k0_pay122 v256) (k0_pay123 v262) 1#32))

set_option maxHeartbeats 4000000 in
set_option maxRecDepth 65536 in
/-- Trip k of the first loop is the explicit nest over the 56 vectors from vector 56 k on. -/
theorem step1_eq_trip1 (g : Chunk F) (k : Fin (Scf.trips k0_t1_loop.lb k0_t1_loop.ub k0_t1_loop.st)) (c : Tup) :
    step1 g k c = trip1 c (ld g (k0_off3 k 0#32 0#32) (k0_off3_inb k 0 0))
      (ld g (k0_off3 k 0#32 1#32) (k0_off3_inb k 0 1))
      (ld g (k0_off3 k 0#32 2#32) (k0_off3_inb k 0 2))
      (ld g (k0_off3 k 0#32 3#32) (k0_off3_inb k 0 3))
      (ld g (k0_off3 k 0#32 4#32) (k0_off3_inb k 0 4))
      (ld g (k0_off3 k 0#32 5#32) (k0_off3_inb k 0 5))
      (ld g (k0_off3 k 0#32 6#32) (k0_off3_inb k 0 6))
      (ld g (k0_off3 k 7#32 0#32) (k0_off3_inb k 1 0))
      (ld g (k0_off3 k 7#32 1#32) (k0_off3_inb k 1 1))
      (ld g (k0_off3 k 7#32 2#32) (k0_off3_inb k 1 2))
      (ld g (k0_off3 k 7#32 3#32) (k0_off3_inb k 1 3))
      (ld g (k0_off3 k 7#32 4#32) (k0_off3_inb k 1 4))
      (ld g (k0_off3 k 7#32 5#32) (k0_off3_inb k 1 5))
      (ld g (k0_off3 k 7#32 6#32) (k0_off3_inb k 1 6))
      (ld g (k0_off3 k 14#32 0#32) (k0_off3_inb k 2 0))
      (ld g (k0_off3 k 14#32 1#32) (k0_off3_inb k 2 1))
      (ld g (k0_off3 k 14#32 2#32) (k0_off3_inb k 2 2))
      (ld g (k0_off3 k 14#32 3#32) (k0_off3_inb k 2 3))
      (ld g (k0_off3 k 14#32 4#32) (k0_off3_inb k 2 4))
      (ld g (k0_off3 k 14#32 5#32) (k0_off3_inb k 2 5))
      (ld g (k0_off3 k 14#32 6#32) (k0_off3_inb k 2 6))
      (ld g (k0_off3 k 21#32 0#32) (k0_off3_inb k 3 0))
      (ld g (k0_off3 k 21#32 1#32) (k0_off3_inb k 3 1))
      (ld g (k0_off3 k 21#32 2#32) (k0_off3_inb k 3 2))
      (ld g (k0_off3 k 21#32 3#32) (k0_off3_inb k 3 3))
      (ld g (k0_off3 k 21#32 4#32) (k0_off3_inb k 3 4))
      (ld g (k0_off3 k 21#32 5#32) (k0_off3_inb k 3 5))
      (ld g (k0_off3 k 21#32 6#32) (k0_off3_inb k 3 6))
      (ld g (k0_off4 k 0#32 0#32) (k0_off4_inb k 0 0))
      (ld g (k0_off4 k 0#32 1#32) (k0_off4_inb k 0 1))
      (ld g (k0_off4 k 0#32 2#32) (k0_off4_inb k 0 2))
      (ld g (k0_off4 k 0#32 3#32) (k0_off4_inb k 0 3))
      (ld g (k0_off4 k 0#32 4#32) (k0_off4_inb k 0 4))
      (ld g (k0_off4 k 0#32 5#32) (k0_off4_inb k 0 5))
      (ld g (k0_off4 k 0#32 6#32) (k0_off4_inb k 0 6))
      (ld g (k0_off4 k 7#32 0#32) (k0_off4_inb k 1 0))
      (ld g (k0_off4 k 7#32 1#32) (k0_off4_inb k 1 1))
      (ld g (k0_off4 k 7#32 2#32) (k0_off4_inb k 1 2))
      (ld g (k0_off4 k 7#32 3#32) (k0_off4_inb k 1 3))
      (ld g (k0_off4 k 7#32 4#32) (k0_off4_inb k 1 4))
      (ld g (k0_off4 k 7#32 5#32) (k0_off4_inb k 1 5))
      (ld g (k0_off4 k 7#32 6#32) (k0_off4_inb k 1 6))
      (ld g (k0_off4 k 14#32 0#32) (k0_off4_inb k 2 0))
      (ld g (k0_off4 k 14#32 1#32) (k0_off4_inb k 2 1))
      (ld g (k0_off4 k 14#32 2#32) (k0_off4_inb k 2 2))
      (ld g (k0_off4 k 14#32 3#32) (k0_off4_inb k 2 3))
      (ld g (k0_off4 k 14#32 4#32) (k0_off4_inb k 2 4))
      (ld g (k0_off4 k 14#32 5#32) (k0_off4_inb k 2 5))
      (ld g (k0_off4 k 14#32 6#32) (k0_off4_inb k 2 6))
      (ld g (k0_off4 k 21#32 0#32) (k0_off4_inb k 3 0))
      (ld g (k0_off4 k 21#32 1#32) (k0_off4_inb k 3 1))
      (ld g (k0_off4 k 21#32 2#32) (k0_off4_inb k 3 2))
      (ld g (k0_off4 k 21#32 3#32) (k0_off4_inb k 3 3))
      (ld g (k0_off4 k 21#32 4#32) (k0_off4_inb k 3 4))
      (ld g (k0_off4 k 21#32 5#32) (k0_off4_inb k 3 5))
      (ld g (k0_off4 k 21#32 6#32) (k0_off4_inb k 3 6)) := rfl

set_option maxHeartbeats 4000000 in
set_option maxRecDepth 65536 in
/-- Trip k of the second loop is the explicit nest over the 56 vectors from vector 1008 + 56 k on. -/
theorem step2_eq_trip2 (g : Chunk F) (k : Fin (Scf.trips k0_t2_loop.lb k0_t2_loop.ub k0_t2_loop.st)) (c : Tup) :
    step2 g k c = trip2 c (ld g (k0_off5 k 0#32 0#32) (k0_off5_inb k 0 0))
      (ld g (k0_off5 k 0#32 1#32) (k0_off5_inb k 0 1))
      (ld g (k0_off5 k 0#32 2#32) (k0_off5_inb k 0 2))
      (ld g (k0_off5 k 0#32 3#32) (k0_off5_inb k 0 3))
      (ld g (k0_off5 k 0#32 4#32) (k0_off5_inb k 0 4))
      (ld g (k0_off5 k 0#32 5#32) (k0_off5_inb k 0 5))
      (ld g (k0_off5 k 0#32 6#32) (k0_off5_inb k 0 6))
      (ld g (k0_off5 k 7#32 0#32) (k0_off5_inb k 1 0))
      (ld g (k0_off5 k 7#32 1#32) (k0_off5_inb k 1 1))
      (ld g (k0_off5 k 7#32 2#32) (k0_off5_inb k 1 2))
      (ld g (k0_off5 k 7#32 3#32) (k0_off5_inb k 1 3))
      (ld g (k0_off5 k 7#32 4#32) (k0_off5_inb k 1 4))
      (ld g (k0_off5 k 7#32 5#32) (k0_off5_inb k 1 5))
      (ld g (k0_off5 k 7#32 6#32) (k0_off5_inb k 1 6))
      (ld g (k0_off5 k 14#32 0#32) (k0_off5_inb k 2 0))
      (ld g (k0_off5 k 14#32 1#32) (k0_off5_inb k 2 1))
      (ld g (k0_off5 k 14#32 2#32) (k0_off5_inb k 2 2))
      (ld g (k0_off5 k 14#32 3#32) (k0_off5_inb k 2 3))
      (ld g (k0_off5 k 14#32 4#32) (k0_off5_inb k 2 4))
      (ld g (k0_off5 k 14#32 5#32) (k0_off5_inb k 2 5))
      (ld g (k0_off5 k 14#32 6#32) (k0_off5_inb k 2 6))
      (ld g (k0_off5 k 21#32 0#32) (k0_off5_inb k 3 0))
      (ld g (k0_off5 k 21#32 1#32) (k0_off5_inb k 3 1))
      (ld g (k0_off5 k 21#32 2#32) (k0_off5_inb k 3 2))
      (ld g (k0_off5 k 21#32 3#32) (k0_off5_inb k 3 3))
      (ld g (k0_off5 k 21#32 4#32) (k0_off5_inb k 3 4))
      (ld g (k0_off5 k 21#32 5#32) (k0_off5_inb k 3 5))
      (ld g (k0_off5 k 21#32 6#32) (k0_off5_inb k 3 6))
      (ld g (k0_off6 k 0#32 0#32) (k0_off6_inb k 0 0))
      (ld g (k0_off6 k 0#32 1#32) (k0_off6_inb k 0 1))
      (ld g (k0_off6 k 0#32 2#32) (k0_off6_inb k 0 2))
      (ld g (k0_off6 k 0#32 3#32) (k0_off6_inb k 0 3))
      (ld g (k0_off6 k 0#32 4#32) (k0_off6_inb k 0 4))
      (ld g (k0_off6 k 0#32 5#32) (k0_off6_inb k 0 5))
      (ld g (k0_off6 k 0#32 6#32) (k0_off6_inb k 0 6))
      (ld g (k0_off6 k 7#32 0#32) (k0_off6_inb k 1 0))
      (ld g (k0_off6 k 7#32 1#32) (k0_off6_inb k 1 1))
      (ld g (k0_off6 k 7#32 2#32) (k0_off6_inb k 1 2))
      (ld g (k0_off6 k 7#32 3#32) (k0_off6_inb k 1 3))
      (ld g (k0_off6 k 7#32 4#32) (k0_off6_inb k 1 4))
      (ld g (k0_off6 k 7#32 5#32) (k0_off6_inb k 1 5))
      (ld g (k0_off6 k 7#32 6#32) (k0_off6_inb k 1 6))
      (ld g (k0_off6 k 14#32 0#32) (k0_off6_inb k 2 0))
      (ld g (k0_off6 k 14#32 1#32) (k0_off6_inb k 2 1))
      (ld g (k0_off6 k 14#32 2#32) (k0_off6_inb k 2 2))
      (ld g (k0_off6 k 14#32 3#32) (k0_off6_inb k 2 3))
      (ld g (k0_off6 k 14#32 4#32) (k0_off6_inb k 2 4))
      (ld g (k0_off6 k 14#32 5#32) (k0_off6_inb k 2 5))
      (ld g (k0_off6 k 14#32 6#32) (k0_off6_inb k 2 6))
      (ld g (k0_off6 k 21#32 0#32) (k0_off6_inb k 3 0))
      (ld g (k0_off6 k 21#32 1#32) (k0_off6_inb k 3 1))
      (ld g (k0_off6 k 21#32 2#32) (k0_off6_inb k 3 2))
      (ld g (k0_off6 k 21#32 3#32) (k0_off6_inb k 3 3))
      (ld g (k0_off6 k 21#32 4#32) (k0_off6_inb k 3 4))
      (ld g (k0_off6 k 21#32 5#32) (k0_off6_inb k 3 5))
      (ld g (k0_off6 k 21#32 6#32) (k0_off6_inb k 3 6)) := rfl

set_option maxHeartbeats 4000000 in
set_option maxRecDepth 65536 in
/-- The tail is the explicit nest over the last 32 vectors. -/
theorem tailC_eq_tailT (g : Chunk F) (c : Tup) :
    tailC g c = tailT c (ld g ![32256] inb_S32768_S16_32256)
      (ld g ![32272] inb_S32768_S16_32272)
      (ld g ![32288] inb_S32768_S16_32288)
      (ld g ![32304] inb_S32768_S16_32304)
      (ld g ![32320] inb_S32768_S16_32320)
      (ld g ![32336] inb_S32768_S16_32336)
      (ld g ![32352] inb_S32768_S16_32352)
      (ld g ![32368] inb_S32768_S16_32368)
      (ld g ![32384] inb_S32768_S16_32384)
      (ld g ![32400] inb_S32768_S16_32400)
      (ld g ![32416] inb_S32768_S16_32416)
      (ld g ![32432] inb_S32768_S16_32432)
      (ld g ![32448] inb_S32768_S16_32448)
      (ld g ![32464] inb_S32768_S16_32464)
      (ld g ![32480] inb_S32768_S16_32480)
      (ld g ![32496] inb_S32768_S16_32496)
      (ld g ![32512] inb_S32768_S16_32512)
      (ld g ![32528] inb_S32768_S16_32528)
      (ld g ![32544] inb_S32768_S16_32544)
      (ld g ![32560] inb_S32768_S16_32560)
      (ld g ![32576] inb_S32768_S16_32576)
      (ld g ![32592] inb_S32768_S16_32592)
      (ld g ![32608] inb_S32768_S16_32608)
      (ld g ![32624] inb_S32768_S16_32624)
      (ld g ![32640] inb_S32768_S16_32640)
      (ld g ![32656] inb_S32768_S16_32656)
      (ld g ![32672] inb_S32768_S16_32672)
      (ld g ![32688] inb_S32768_S16_32688)
      (ld g ![32704] inb_S32768_S16_32704)
      (ld g ![32720] inb_S32768_S16_32720)
      (ld g ![32736] inb_S32768_S16_32736)
      (ld g ![32752] inb_S32768_S16_32752) := rfl

/-! ## Reading a lane of a loaded vector -/

/-- The word at position p of the chunk, as a number (0 past the end). -/
def word (g : Chunk F) (p : ℕ) : ℕ := if h : p < 32768 then BitVec.toNat (g (ix1 ⟨p, h⟩)) else 0

omit [FloatOps F] in
/-- Lane l of the vector loaded at an offset is the chunk's word at offset + l. -/
theorem ld_lane (g : Chunk F) (off : Fin 1 → ℕ) (inb : ∀ a, off a + S16.size a ≤ S32768.size a) (l : S16.Idx) :
    BitVec.toNat (ld g off inb l) = word g (off 0 + (l 0).val) := by
  have hl : (l 0).val < 16 := (l 0).isLt
  have hi : off 0 + 16 ≤ 32768 := inb 0
  have hp : off 0 + (l 0).val < 32768 := by omega
  have key : (Rect.unit (s := S32768) off S16.size inb).toLoadRect.idx l
      = (ix1 ⟨off 0 + (l 0).val, hp⟩ : S32768.Idx) := by
    funext a
    match a with
    | ⟨0, _⟩ =>
      apply Fin.ext
      show off 0 + 1 * (l 0).val = off 0 + (l 0).val
      omega
  rw [word, dif_pos hp]
  simp only [View.readAt_apply, Memref.view_whole, View.read_whole]
  exact congrArg (fun i => BitVec.toNat (g i)) key

omit [FloatOps F] in
/-- First loop, first half of a trip: vector 7 r₁ + r₂ of trip k is vector 56 k + 7 r₁ + r₂ of the chunk. -/
theorem ld_off3 (g : Chunk F) (k : Fin k0_t1_loop.trips) (r₁ : Fin 4) (r₂ : Fin 7) (a b : BitVec 32)
    (ha : a = BitVec.ofNat 32 (7 * r₁.val)) (hb : b = BitVec.ofNat 32 r₂.val)
    (inb : ∀ x, k0_off3 k a b x + S16.size x ≤ S32768.size x) (l : S16.Idx) (m : ℕ) (hm : m = 7 * r₁.val + r₂.val) :
    BitVec.toNat (ld g (k0_off3 k a b) inb l) = word g (16 * (56 * k.val + m) + (l 0).val) := by
  subst ha hb hm
  rw [ld_lane]; congr 1
  have := congrFun (k0_off3_eq k r₁ r₂) 0
  simp only [Matrix.cons_val_zero] at this
  omega

omit [FloatOps F] in
/-- First loop, second half of a trip. -/
theorem ld_off4 (g : Chunk F) (k : Fin k0_t1_loop.trips) (r₁ : Fin 4) (r₂ : Fin 7) (a b : BitVec 32)
    (ha : a = BitVec.ofNat 32 (7 * r₁.val)) (hb : b = BitVec.ofNat 32 r₂.val)
    (inb : ∀ x, k0_off4 k a b x + S16.size x ≤ S32768.size x) (l : S16.Idx) (m : ℕ)
    (hm : m = 28 + 7 * r₁.val + r₂.val) :
    BitVec.toNat (ld g (k0_off4 k a b) inb l) = word g (16 * (56 * k.val + m) + (l 0).val) := by
  subst ha hb hm
  rw [ld_lane]; congr 1
  have := congrFun (k0_off4_eq k r₁ r₂) 0
  simp only [Matrix.cons_val_zero] at this
  omega

omit [FloatOps F] in
/-- Second loop, first half of a trip: 1008 vectors further on. -/
theorem ld_off5 (g : Chunk F) (k : Fin k0_t2_loop.trips) (r₁ : Fin 4) (r₂ : Fin 7) (a b : BitVec 32)
    (ha : a = BitVec.ofNat 32 (7 * r₁.val)) (hb : b = BitVec.ofNat 32 r₂.val)
    (inb : ∀ x, k0_off5 k a b x + S16.size x ≤ S32768.size x) (l : S16.Idx) (m : ℕ) (hm : m = 7 * r₁.val + r₂.val) :
    BitVec.toNat (ld g (k0_off5 k a b) inb l) = word g (16 * (1008 + 56 * k.val + m) + (l 0).val) := by
  subst ha hb hm
  rw [ld_lane]; congr 1
  have := congrFun (k0_off5_eq k r₁ r₂) 0
  simp only [Matrix.cons_val_zero] at this
  omega

omit [FloatOps F] in
/-- Second loop, second half of a trip. -/
theorem ld_off6 (g : Chunk F) (k : Fin k0_t2_loop.trips) (r₁ : Fin 4) (r₂ : Fin 7) (a b : BitVec 32)
    (ha : a = BitVec.ofNat 32 (7 * r₁.val)) (hb : b = BitVec.ofNat 32 r₂.val)
    (inb : ∀ x, k0_off6 k a b x + S16.size x ≤ S32768.size x) (l : S16.Idx) (m : ℕ)
    (hm : m = 28 + 7 * r₁.val + r₂.val) :
    BitVec.toNat (ld g (k0_off6 k a b) inb l) = word g (16 * (1008 + 56 * k.val + m) + (l 0).val) := by
  subst ha hb hm
  rw [ld_lane]; congr 1
  have := congrFun (k0_off6_eq k r₁ r₂) 0
  simp only [Matrix.cons_val_zero] at this
  omega

omit [FloatOps F] in
/-- The tail: a literal offset 16 (2016 + m). -/
theorem ld_lit (g : Chunk F) (off : Fin 1 → ℕ) (inb : ∀ x, off x + S16.size x ≤ S32768.size x) (l : S16.Idx)
    (m : ℕ) (hm : off 0 = 16 * (2016 + m)) :
    BitVec.toNat (ld g off inb l) = word g (16 * (2016 + m) + (l 0).val) := by
  rw [ld_lane, hm]

/-! ## Counting -/

/-- The digits in lane l of the vectors a, a+1, ..., a+n-1 of the chunk. -/
def laneDigits (g : Chunk F) (l a n : ℕ) : List ℕ := (List.range n).map (fun m => word g (16 * (a + m) + l))

omit [FloatOps F] in
/-- Consecutive stretches of vectors concatenate. -/
theorem laneDigits_add (g : Chunk F) (l a n n' : ℕ) :
    laneDigits g l a (n + n') = laneDigits g l a n ++ laneDigits g l (a + n) n' := by
  unfold laneDigits
  rw [List.range_add, List.map_append, List.map_map]
  congr 1
  apply List.map_congr_left
  intro m _
  simp only [Function.comp, Nat.add_assoc]

/-- The ten counters hold, lane by lane, the numbers f l 0, ..., f l 9. -/
def Counts (c : Tup) (f : S16.Idx → ℕ → ℕ) : Prop :=
  ∀ l : S16.Idx, c.1 l = BitVec.ofNat 32 (f l 0) ∧ c.2.1 l = BitVec.ofNat 32 (f l 1)
    ∧ c.2.2.1 l = BitVec.ofNat 32 (f l 2) ∧ c.2.2.2.1 l = BitVec.ofNat 32 (f l 3)
    ∧ c.2.2.2.2.1 l = BitVec.ofNat 32 (f l 4) ∧ c.2.2.2.2.2.1 l = BitVec.ofNat 32 (f l 5)
    ∧ c.2.2.2.2.2.2.1 l = BitVec.ofNat 32 (f l 6) ∧ c.2.2.2.2.2.2.2.1 l = BitVec.ofNat 32 (f l 7)
    ∧ c.2.2.2.2.2.2.2.2.1 l = BitVec.ofNat 32 (f l 8) ∧ c.2.2.2.2.2.2.2.2.2 l = BitVec.ofNat 32 (f l 9)

/-- A trip of the first loop: each counter grows, lane by lane, by the number of the 56 loaded vectors holding its digit there. -/
theorem counts_trip1 (c : Tup) (f : S16.Idx → ℕ → ℕ) (hc : Counts c f) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32)
    (hb : ∀ l : S16.Idx, ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    Counts (trip1 c v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191)
      (fun l d => f l d + (lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count d) := by
  intro l
  obtain ⟨h0, h1, h2, h3, h4, h5, h6, h7, h8, h9⟩ := hc l
  simp only [trip1]
  refine ⟨?_, ?_, ?_, ?_, ?_, ?_, ?_, ?_, ?_, ?_⟩
  · rw [k0_t1_out0_lane c.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h0, ofNat_add_ofNat]
  · rw [k0_t1_out1_lane c.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h1, ofNat_add_ofNat]
  · rw [k0_t1_out2_lane c.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h2, ofNat_add_ofNat]
  · rw [k0_t1_out3_lane c.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h3, ofNat_add_ofNat]
  · rw [k0_t1_out4_lane c.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h4, ofNat_add_ofNat]
  · rw [k0_t1_out5_lane c.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h5, ofNat_add_ofNat]
  · rw [k0_t1_out6_lane c.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h6, ofNat_add_ofNat]
  · rw [k0_t1_out7_lane c.2.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h7, ofNat_add_ofNat]
  · rw [k0_t1_out8_lane c.2.2.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h8, ofNat_add_ofNat]
  · rw [k0_t1_out9_lane c.2.2.2.2.2.2.2.2.2 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h9, ofNat_add_ofNat]

/-- A trip of the second loop: each counter grows, lane by lane, by the number of the 56 loaded vectors holding its digit there. -/
theorem counts_trip2 (c : Tup) (f : S16.Idx → ℕ → ℕ) (hc : Counts c f) (v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 : Vec F S16 .i32)
    (hb : ∀ l : S16.Idx, ∀ v ∈ [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191], BitVec.toNat (v l) ≤ 9) :
    Counts (trip2 c v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191)
      (fun l d => f l d + (lanes [v604, v614, v624, v634, v644, v654, v664, v674, v684, v694, v704, v714, v724, v734, v744, v754, v764, v774, v784, v794, v804, v814, v824, v834, v844, v854, v864, v874, v921, v931, v941, v951, v961, v971, v981, v991, v1001, v1011, v1021, v1031, v1041, v1051, v1061, v1071, v1081, v1091, v1101, v1111, v1121, v1131, v1141, v1151, v1161, v1171, v1181, v1191] l).count d) := by
  intro l
  obtain ⟨h0, h1, h2, h3, h4, h5, h6, h7, h8, h9⟩ := hc l
  simp only [trip2]
  refine ⟨?_, ?_, ?_, ?_, ?_, ?_, ?_, ?_, ?_, ?_⟩
  · rw [k0_t2_out0_lane c.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h0, ofNat_add_ofNat]
  · rw [k0_t2_out1_lane c.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h1, ofNat_add_ofNat]
  · rw [k0_t2_out2_lane c.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h2, ofNat_add_ofNat]
  · rw [k0_t2_out3_lane c.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h3, ofNat_add_ofNat]
  · rw [k0_t2_out4_lane c.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h4, ofNat_add_ofNat]
  · rw [k0_t2_out5_lane c.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h5, ofNat_add_ofNat]
  · rw [k0_t2_out6_lane c.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h6, ofNat_add_ofNat]
  · rw [k0_t2_out7_lane c.2.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h7, ofNat_add_ofNat]
  · rw [k0_t2_out8_lane c.2.2.2.2.2.2.2.2.1 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h8, ofNat_add_ofNat]
  · rw [k0_t2_out9_lane c.2.2.2.2.2.2.2.2.2 v604 v614 v624 v634 v644 v654 v664 v674 v684 v694 v704 v714 v724 v734 v744 v754 v764 v774 v784 v794 v804 v814 v824 v834 v844 v854 v864 v874 v921 v931 v941 v951 v961 v971 v981 v991 v1001 v1011 v1021 v1031 v1041 v1051 v1061 v1071 v1081 v1091 v1101 v1111 v1121 v1131 v1141 v1151 v1161 v1171 v1181 v1191 l (hb l), h9, ofNat_add_ofNat]

/-- The tail: each counter grows, lane by lane, by the number of the 32 loaded vectors holding its digit there. -/
theorem counts_tailT (c : Tup) (f : S16.Idx → ℕ → ℕ) (hc : Counts c f) (v40 v46 v52 v58 v64 v70 v76 v82 v88 v94 v100 v106 v112 v118 v124 v130 v136 v142 v148 v154 v160 v166 v172 v178 v184 v190 v196 v202 v244 v250 v256 v262 : Vec F S16 .i32)
    (hb : ∀ l : S16.Idx, ∀ v ∈ [v40, v46, v52, v58, v64, v70, v76, v82, v88, v94, v100, v106, v112, v118, v124, v130, v136, v142, v148, v154, v160, v166, v172, v178, v184, v190, v196, v202, v244, v250, v256, v262], BitVec.toNat (v l) ≤ 9) :
    Counts (tailT c v40 v46 v52 v58 v64 v70 v76 v82 v88 v94 v100 v106 v112 v118 v124 v130 v136 v142 v148 v154 v160 v166 v172 v178 v184 v190 v196 v202 v244 v250 v256 v262)
      (fun l d => f l d + (lanes [v40, v46, v52, v58, v64, v70, v76, v82, v88, v94, v100, v106, v112, v118, v124, v130, v136, v142, v148, v154, v160, v166, v172, v178, v184, v190, v196, v202, v244, v250, v256, v262] l).count d) := by
  intro l
  obtain ⟨h0, h1, h2, h3, h4, h5, h6, h7, h8, h9⟩ := hc l
  simp only [tailT]
  refine ⟨?_, ?_, ?_, ?_, ?_, ?_, ?_, ?_, ?_, ?_⟩
  · rw [k0_tail_out0_lane c.1 v40 v46 v52 v58 v64 v70 v76 v82 v88 v94 v100 v106 v112 v118 v124 v130 v136 v142 v148 v154 v160 v166 v172 v178 v184 v190 v196 v202 v244 v250 v256 v262 l (hb l), h0, ofNat_add_ofNat]
  · rw [k0_tail_out1_lane c.2.1 v40 v46 v52 v58 v64 v70 v76 v82 v88 v94 v100 v106 v112 v118 v124 v130 v136 v142 v148 v154 v160 v166 v172 v178 v184 v190 v196 v202 v244 v250 v256 v262 l (hb l), h1, ofNat_add_ofNat]
  · rw [k0_tail_out2_lane c.2.2.1 v40 v46 v52 v58 v64 v70 v76 v82 v88 v94 v100 v106 v112 v118 v124 v130 v136 v142 v148 v154 v160 v166 v172 v178 v184 v190 v196 v202 v244 v250 v256 v262 l (hb l), h2, ofNat_add_ofNat]
  · rw [k0_tail_out3_lane c.2.2.2.1 v40 v46 v52 v58 v64 v70 v76 v82 v88 v94 v100 v106 v112 v118 v124 v130 v136 v142 v148 v154 v160 v166 v172 v178 v184 v190 v196 v202 v244 v250 v256 v262 l (hb l), h3, ofNat_add_ofNat]
  · rw [k0_tail_out4_lane c.2.2.2.2.1 v40 v46 v52 v58 v64 v70 v76 v82 v88 v94 v100 v106 v112 v118 v124 v130 v136 v142 v148 v154 v160 v166 v172 v178 v184 v190 v196 v202 v244 v250 v256 v262 l (hb l), h4, ofNat_add_ofNat]
  · rw [k0_tail_out5_lane c.2.2.2.2.2.1 v40 v46 v52 v58 v64 v70 v76 v82 v88 v94 v100 v106 v112 v118 v124 v130 v136 v142 v148 v154 v160 v166 v172 v178 v184 v190 v196 v202 v244 v250 v256 v262 l (hb l), h5, ofNat_add_ofNat]
  · rw [k0_tail_out6_lane c.2.2.2.2.2.2.1 v40 v46 v52 v58 v64 v70 v76 v82 v88 v94 v100 v106 v112 v118 v124 v130 v136 v142 v148 v154 v160 v166 v172 v178 v184 v190 v196 v202 v244 v250 v256 v262 l (hb l), h6, ofNat_add_ofNat]
  · rw [k0_tail_out7_lane c.2.2.2.2.2.2.2.1 v40 v46 v52 v58 v64 v70 v76 v82 v88 v94 v100 v106 v112 v118 v124 v130 v136 v142 v148 v154 v160 v166 v172 v178 v184 v190 v196 v202 v244 v250 v256 v262 l (hb l), h7, ofNat_add_ofNat]
  · rw [k0_tail_out8_lane c.2.2.2.2.2.2.2.2.1 v40 v46 v52 v58 v64 v70 v76 v82 v88 v94 v100 v106 v112 v118 v124 v130 v136 v142 v148 v154 v160 v166 v172 v178 v184 v190 v196 v202 v244 v250 v256 v262 l (hb l), h8, ofNat_add_ofNat]
  · rw [k0_tail_out9_lane c.2.2.2.2.2.2.2.2.2 v40 v46 v52 v58 v64 v70 v76 v82 v88 v94 v100 v106 v112 v118 v124 v130 v136 v142 v148 v154 v160 v166 v172 v178 v184 v190 v196 v202 v244 v250 v256 v262 l (hb l), h9, ofNat_add_ofNat]

omit [FloatOps F] in
/-- The 56 vectors trip k of the first loop loads are the vectors 56 k, ..., 56 k + 55 of the chunk. -/
theorem lanes_step1 (g : Chunk F) (k : Fin (Scf.trips k0_t1_loop.lb k0_t1_loop.ub k0_t1_loop.st)) (l : S16.Idx) :
    lanes [(ld g (k0_off3 k 0#32 0#32) (k0_off3_inb k 0 0)),
      (ld g (k0_off3 k 0#32 1#32) (k0_off3_inb k 0 1)),
      (ld g (k0_off3 k 0#32 2#32) (k0_off3_inb k 0 2)),
      (ld g (k0_off3 k 0#32 3#32) (k0_off3_inb k 0 3)),
      (ld g (k0_off3 k 0#32 4#32) (k0_off3_inb k 0 4)),
      (ld g (k0_off3 k 0#32 5#32) (k0_off3_inb k 0 5)),
      (ld g (k0_off3 k 0#32 6#32) (k0_off3_inb k 0 6)),
      (ld g (k0_off3 k 7#32 0#32) (k0_off3_inb k 1 0)),
      (ld g (k0_off3 k 7#32 1#32) (k0_off3_inb k 1 1)),
      (ld g (k0_off3 k 7#32 2#32) (k0_off3_inb k 1 2)),
      (ld g (k0_off3 k 7#32 3#32) (k0_off3_inb k 1 3)),
      (ld g (k0_off3 k 7#32 4#32) (k0_off3_inb k 1 4)),
      (ld g (k0_off3 k 7#32 5#32) (k0_off3_inb k 1 5)),
      (ld g (k0_off3 k 7#32 6#32) (k0_off3_inb k 1 6)),
      (ld g (k0_off3 k 14#32 0#32) (k0_off3_inb k 2 0)),
      (ld g (k0_off3 k 14#32 1#32) (k0_off3_inb k 2 1)),
      (ld g (k0_off3 k 14#32 2#32) (k0_off3_inb k 2 2)),
      (ld g (k0_off3 k 14#32 3#32) (k0_off3_inb k 2 3)),
      (ld g (k0_off3 k 14#32 4#32) (k0_off3_inb k 2 4)),
      (ld g (k0_off3 k 14#32 5#32) (k0_off3_inb k 2 5)),
      (ld g (k0_off3 k 14#32 6#32) (k0_off3_inb k 2 6)),
      (ld g (k0_off3 k 21#32 0#32) (k0_off3_inb k 3 0)),
      (ld g (k0_off3 k 21#32 1#32) (k0_off3_inb k 3 1)),
      (ld g (k0_off3 k 21#32 2#32) (k0_off3_inb k 3 2)),
      (ld g (k0_off3 k 21#32 3#32) (k0_off3_inb k 3 3)),
      (ld g (k0_off3 k 21#32 4#32) (k0_off3_inb k 3 4)),
      (ld g (k0_off3 k 21#32 5#32) (k0_off3_inb k 3 5)),
      (ld g (k0_off3 k 21#32 6#32) (k0_off3_inb k 3 6)),
      (ld g (k0_off4 k 0#32 0#32) (k0_off4_inb k 0 0)),
      (ld g (k0_off4 k 0#32 1#32) (k0_off4_inb k 0 1)),
      (ld g (k0_off4 k 0#32 2#32) (k0_off4_inb k 0 2)),
      (ld g (k0_off4 k 0#32 3#32) (k0_off4_inb k 0 3)),
      (ld g (k0_off4 k 0#32 4#32) (k0_off4_inb k 0 4)),
      (ld g (k0_off4 k 0#32 5#32) (k0_off4_inb k 0 5)),
      (ld g (k0_off4 k 0#32 6#32) (k0_off4_inb k 0 6)),
      (ld g (k0_off4 k 7#32 0#32) (k0_off4_inb k 1 0)),
      (ld g (k0_off4 k 7#32 1#32) (k0_off4_inb k 1 1)),
      (ld g (k0_off4 k 7#32 2#32) (k0_off4_inb k 1 2)),
      (ld g (k0_off4 k 7#32 3#32) (k0_off4_inb k 1 3)),
      (ld g (k0_off4 k 7#32 4#32) (k0_off4_inb k 1 4)),
      (ld g (k0_off4 k 7#32 5#32) (k0_off4_inb k 1 5)),
      (ld g (k0_off4 k 7#32 6#32) (k0_off4_inb k 1 6)),
      (ld g (k0_off4 k 14#32 0#32) (k0_off4_inb k 2 0)),
      (ld g (k0_off4 k 14#32 1#32) (k0_off4_inb k 2 1)),
      (ld g (k0_off4 k 14#32 2#32) (k0_off4_inb k 2 2)),
      (ld g (k0_off4 k 14#32 3#32) (k0_off4_inb k 2 3)),
      (ld g (k0_off4 k 14#32 4#32) (k0_off4_inb k 2 4)),
      (ld g (k0_off4 k 14#32 5#32) (k0_off4_inb k 2 5)),
      (ld g (k0_off4 k 14#32 6#32) (k0_off4_inb k 2 6)),
      (ld g (k0_off4 k 21#32 0#32) (k0_off4_inb k 3 0)),
      (ld g (k0_off4 k 21#32 1#32) (k0_off4_inb k 3 1)),
      (ld g (k0_off4 k 21#32 2#32) (k0_off4_inb k 3 2)),
      (ld g (k0_off4 k 21#32 3#32) (k0_off4_inb k 3 3)),
      (ld g (k0_off4 k 21#32 4#32) (k0_off4_inb k 3 4)),
      (ld g (k0_off4 k 21#32 5#32) (k0_off4_inb k 3 5)),
      (ld g (k0_off4 k 21#32 6#32) (k0_off4_inb k 3 6))] l
      = laneDigits g (l 0).val (56 * k.val) 56 := by
  have e0 := ld_off3 g k 0 0 0#32 0#32 rfl rfl (k0_off3_inb k 0 0) l 0 rfl
  have e1 := ld_off3 g k 0 1 0#32 1#32 rfl rfl (k0_off3_inb k 0 1) l 1 rfl
  have e2 := ld_off3 g k 0 2 0#32 2#32 rfl rfl (k0_off3_inb k 0 2) l 2 rfl
  have e3 := ld_off3 g k 0 3 0#32 3#32 rfl rfl (k0_off3_inb k 0 3) l 3 rfl
  have e4 := ld_off3 g k 0 4 0#32 4#32 rfl rfl (k0_off3_inb k 0 4) l 4 rfl
  have e5 := ld_off3 g k 0 5 0#32 5#32 rfl rfl (k0_off3_inb k 0 5) l 5 rfl
  have e6 := ld_off3 g k 0 6 0#32 6#32 rfl rfl (k0_off3_inb k 0 6) l 6 rfl
  have e7 := ld_off3 g k 1 0 7#32 0#32 rfl rfl (k0_off3_inb k 1 0) l 7 rfl
  have e8 := ld_off3 g k 1 1 7#32 1#32 rfl rfl (k0_off3_inb k 1 1) l 8 rfl
  have e9 := ld_off3 g k 1 2 7#32 2#32 rfl rfl (k0_off3_inb k 1 2) l 9 rfl
  have e10 := ld_off3 g k 1 3 7#32 3#32 rfl rfl (k0_off3_inb k 1 3) l 10 rfl
  have e11 := ld_off3 g k 1 4 7#32 4#32 rfl rfl (k0_off3_inb k 1 4) l 11 rfl
  have e12 := ld_off3 g k 1 5 7#32 5#32 rfl rfl (k0_off3_inb k 1 5) l 12 rfl
  have e13 := ld_off3 g k 1 6 7#32 6#32 rfl rfl (k0_off3_inb k 1 6) l 13 rfl
  have e14 := ld_off3 g k 2 0 14#32 0#32 rfl rfl (k0_off3_inb k 2 0) l 14 rfl
  have e15 := ld_off3 g k 2 1 14#32 1#32 rfl rfl (k0_off3_inb k 2 1) l 15 rfl
  have e16 := ld_off3 g k 2 2 14#32 2#32 rfl rfl (k0_off3_inb k 2 2) l 16 rfl
  have e17 := ld_off3 g k 2 3 14#32 3#32 rfl rfl (k0_off3_inb k 2 3) l 17 rfl
  have e18 := ld_off3 g k 2 4 14#32 4#32 rfl rfl (k0_off3_inb k 2 4) l 18 rfl
  have e19 := ld_off3 g k 2 5 14#32 5#32 rfl rfl (k0_off3_inb k 2 5) l 19 rfl
  have e20 := ld_off3 g k 2 6 14#32 6#32 rfl rfl (k0_off3_inb k 2 6) l 20 rfl
  have e21 := ld_off3 g k 3 0 21#32 0#32 rfl rfl (k0_off3_inb k 3 0) l 21 rfl
  have e22 := ld_off3 g k 3 1 21#32 1#32 rfl rfl (k0_off3_inb k 3 1) l 22 rfl
  have e23 := ld_off3 g k 3 2 21#32 2#32 rfl rfl (k0_off3_inb k 3 2) l 23 rfl
  have e24 := ld_off3 g k 3 3 21#32 3#32 rfl rfl (k0_off3_inb k 3 3) l 24 rfl
  have e25 := ld_off3 g k 3 4 21#32 4#32 rfl rfl (k0_off3_inb k 3 4) l 25 rfl
  have e26 := ld_off3 g k 3 5 21#32 5#32 rfl rfl (k0_off3_inb k 3 5) l 26 rfl
  have e27 := ld_off3 g k 3 6 21#32 6#32 rfl rfl (k0_off3_inb k 3 6) l 27 rfl
  have e28 := ld_off4 g k 0 0 0#32 0#32 rfl rfl (k0_off4_inb k 0 0) l 28 rfl
  have e29 := ld_off4 g k 0 1 0#32 1#32 rfl rfl (k0_off4_inb k 0 1) l 29 rfl
  have e30 := ld_off4 g k 0 2 0#32 2#32 rfl rfl (k0_off4_inb k 0 2) l 30 rfl
  have e31 := ld_off4 g k 0 3 0#32 3#32 rfl rfl (k0_off4_inb k 0 3) l 31 rfl
  have e32 := ld_off4 g k 0 4 0#32 4#32 rfl rfl (k0_off4_inb k 0 4) l 32 rfl
  have e33 := ld_off4 g k 0 5 0#32 5#32 rfl rfl (k0_off4_inb k 0 5) l 33 rfl
  have e34 := ld_off4 g k 0 6 0#32 6#32 rfl rfl (k0_off4_inb k 0 6) l 34 rfl
  have e35 := ld_off4 g k 1 0 7#32 0#32 rfl rfl (k0_off4_inb k 1 0) l 35 rfl
  have e36 := ld_off4 g k 1 1 7#32 1#32 rfl rfl (k0_off4_inb k 1 1) l 36 rfl
  have e37 := ld_off4 g k 1 2 7#32 2#32 rfl rfl (k0_off4_inb k 1 2) l 37 rfl
  have e38 := ld_off4 g k 1 3 7#32 3#32 rfl rfl (k0_off4_inb k 1 3) l 38 rfl
  have e39 := ld_off4 g k 1 4 7#32 4#32 rfl rfl (k0_off4_inb k 1 4) l 39 rfl
  have e40 := ld_off4 g k 1 5 7#32 5#32 rfl rfl (k0_off4_inb k 1 5) l 40 rfl
  have e41 := ld_off4 g k 1 6 7#32 6#32 rfl rfl (k0_off4_inb k 1 6) l 41 rfl
  have e42 := ld_off4 g k 2 0 14#32 0#32 rfl rfl (k0_off4_inb k 2 0) l 42 rfl
  have e43 := ld_off4 g k 2 1 14#32 1#32 rfl rfl (k0_off4_inb k 2 1) l 43 rfl
  have e44 := ld_off4 g k 2 2 14#32 2#32 rfl rfl (k0_off4_inb k 2 2) l 44 rfl
  have e45 := ld_off4 g k 2 3 14#32 3#32 rfl rfl (k0_off4_inb k 2 3) l 45 rfl
  have e46 := ld_off4 g k 2 4 14#32 4#32 rfl rfl (k0_off4_inb k 2 4) l 46 rfl
  have e47 := ld_off4 g k 2 5 14#32 5#32 rfl rfl (k0_off4_inb k 2 5) l 47 rfl
  have e48 := ld_off4 g k 2 6 14#32 6#32 rfl rfl (k0_off4_inb k 2 6) l 48 rfl
  have e49 := ld_off4 g k 3 0 21#32 0#32 rfl rfl (k0_off4_inb k 3 0) l 49 rfl
  have e50 := ld_off4 g k 3 1 21#32 1#32 rfl rfl (k0_off4_inb k 3 1) l 50 rfl
  have e51 := ld_off4 g k 3 2 21#32 2#32 rfl rfl (k0_off4_inb k 3 2) l 51 rfl
  have e52 := ld_off4 g k 3 3 21#32 3#32 rfl rfl (k0_off4_inb k 3 3) l 52 rfl
  have e53 := ld_off4 g k 3 4 21#32 4#32 rfl rfl (k0_off4_inb k 3 4) l 53 rfl
  have e54 := ld_off4 g k 3 5 21#32 5#32 rfl rfl (k0_off4_inb k 3 5) l 54 rfl
  have e55 := ld_off4 g k 3 6 21#32 6#32 rfl rfl (k0_off4_inb k 3 6) l 55 rfl
  simp only [lanes, List.map_cons, List.map_nil, e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55]
  rfl

omit [FloatOps F] in
/-- The 56 vectors trip k of the second loop loads are the vectors 1008 + 56 k, ..., 1008 + 56 k + 55 of the chunk. -/
theorem lanes_step2 (g : Chunk F) (k : Fin (Scf.trips k0_t2_loop.lb k0_t2_loop.ub k0_t2_loop.st)) (l : S16.Idx) :
    lanes [(ld g (k0_off5 k 0#32 0#32) (k0_off5_inb k 0 0)),
      (ld g (k0_off5 k 0#32 1#32) (k0_off5_inb k 0 1)),
      (ld g (k0_off5 k 0#32 2#32) (k0_off5_inb k 0 2)),
      (ld g (k0_off5 k 0#32 3#32) (k0_off5_inb k 0 3)),
      (ld g (k0_off5 k 0#32 4#32) (k0_off5_inb k 0 4)),
      (ld g (k0_off5 k 0#32 5#32) (k0_off5_inb k 0 5)),
      (ld g (k0_off5 k 0#32 6#32) (k0_off5_inb k 0 6)),
      (ld g (k0_off5 k 7#32 0#32) (k0_off5_inb k 1 0)),
      (ld g (k0_off5 k 7#32 1#32) (k0_off5_inb k 1 1)),
      (ld g (k0_off5 k 7#32 2#32) (k0_off5_inb k 1 2)),
      (ld g (k0_off5 k 7#32 3#32) (k0_off5_inb k 1 3)),
      (ld g (k0_off5 k 7#32 4#32) (k0_off5_inb k 1 4)),
      (ld g (k0_off5 k 7#32 5#32) (k0_off5_inb k 1 5)),
      (ld g (k0_off5 k 7#32 6#32) (k0_off5_inb k 1 6)),
      (ld g (k0_off5 k 14#32 0#32) (k0_off5_inb k 2 0)),
      (ld g (k0_off5 k 14#32 1#32) (k0_off5_inb k 2 1)),
      (ld g (k0_off5 k 14#32 2#32) (k0_off5_inb k 2 2)),
      (ld g (k0_off5 k 14#32 3#32) (k0_off5_inb k 2 3)),
      (ld g (k0_off5 k 14#32 4#32) (k0_off5_inb k 2 4)),
      (ld g (k0_off5 k 14#32 5#32) (k0_off5_inb k 2 5)),
      (ld g (k0_off5 k 14#32 6#32) (k0_off5_inb k 2 6)),
      (ld g (k0_off5 k 21#32 0#32) (k0_off5_inb k 3 0)),
      (ld g (k0_off5 k 21#32 1#32) (k0_off5_inb k 3 1)),
      (ld g (k0_off5 k 21#32 2#32) (k0_off5_inb k 3 2)),
      (ld g (k0_off5 k 21#32 3#32) (k0_off5_inb k 3 3)),
      (ld g (k0_off5 k 21#32 4#32) (k0_off5_inb k 3 4)),
      (ld g (k0_off5 k 21#32 5#32) (k0_off5_inb k 3 5)),
      (ld g (k0_off5 k 21#32 6#32) (k0_off5_inb k 3 6)),
      (ld g (k0_off6 k 0#32 0#32) (k0_off6_inb k 0 0)),
      (ld g (k0_off6 k 0#32 1#32) (k0_off6_inb k 0 1)),
      (ld g (k0_off6 k 0#32 2#32) (k0_off6_inb k 0 2)),
      (ld g (k0_off6 k 0#32 3#32) (k0_off6_inb k 0 3)),
      (ld g (k0_off6 k 0#32 4#32) (k0_off6_inb k 0 4)),
      (ld g (k0_off6 k 0#32 5#32) (k0_off6_inb k 0 5)),
      (ld g (k0_off6 k 0#32 6#32) (k0_off6_inb k 0 6)),
      (ld g (k0_off6 k 7#32 0#32) (k0_off6_inb k 1 0)),
      (ld g (k0_off6 k 7#32 1#32) (k0_off6_inb k 1 1)),
      (ld g (k0_off6 k 7#32 2#32) (k0_off6_inb k 1 2)),
      (ld g (k0_off6 k 7#32 3#32) (k0_off6_inb k 1 3)),
      (ld g (k0_off6 k 7#32 4#32) (k0_off6_inb k 1 4)),
      (ld g (k0_off6 k 7#32 5#32) (k0_off6_inb k 1 5)),
      (ld g (k0_off6 k 7#32 6#32) (k0_off6_inb k 1 6)),
      (ld g (k0_off6 k 14#32 0#32) (k0_off6_inb k 2 0)),
      (ld g (k0_off6 k 14#32 1#32) (k0_off6_inb k 2 1)),
      (ld g (k0_off6 k 14#32 2#32) (k0_off6_inb k 2 2)),
      (ld g (k0_off6 k 14#32 3#32) (k0_off6_inb k 2 3)),
      (ld g (k0_off6 k 14#32 4#32) (k0_off6_inb k 2 4)),
      (ld g (k0_off6 k 14#32 5#32) (k0_off6_inb k 2 5)),
      (ld g (k0_off6 k 14#32 6#32) (k0_off6_inb k 2 6)),
      (ld g (k0_off6 k 21#32 0#32) (k0_off6_inb k 3 0)),
      (ld g (k0_off6 k 21#32 1#32) (k0_off6_inb k 3 1)),
      (ld g (k0_off6 k 21#32 2#32) (k0_off6_inb k 3 2)),
      (ld g (k0_off6 k 21#32 3#32) (k0_off6_inb k 3 3)),
      (ld g (k0_off6 k 21#32 4#32) (k0_off6_inb k 3 4)),
      (ld g (k0_off6 k 21#32 5#32) (k0_off6_inb k 3 5)),
      (ld g (k0_off6 k 21#32 6#32) (k0_off6_inb k 3 6))] l
      = laneDigits g (l 0).val (1008 + 56 * k.val) 56 := by
  have e0 := ld_off5 g k 0 0 0#32 0#32 rfl rfl (k0_off5_inb k 0 0) l 0 rfl
  have e1 := ld_off5 g k 0 1 0#32 1#32 rfl rfl (k0_off5_inb k 0 1) l 1 rfl
  have e2 := ld_off5 g k 0 2 0#32 2#32 rfl rfl (k0_off5_inb k 0 2) l 2 rfl
  have e3 := ld_off5 g k 0 3 0#32 3#32 rfl rfl (k0_off5_inb k 0 3) l 3 rfl
  have e4 := ld_off5 g k 0 4 0#32 4#32 rfl rfl (k0_off5_inb k 0 4) l 4 rfl
  have e5 := ld_off5 g k 0 5 0#32 5#32 rfl rfl (k0_off5_inb k 0 5) l 5 rfl
  have e6 := ld_off5 g k 0 6 0#32 6#32 rfl rfl (k0_off5_inb k 0 6) l 6 rfl
  have e7 := ld_off5 g k 1 0 7#32 0#32 rfl rfl (k0_off5_inb k 1 0) l 7 rfl
  have e8 := ld_off5 g k 1 1 7#32 1#32 rfl rfl (k0_off5_inb k 1 1) l 8 rfl
  have e9 := ld_off5 g k 1 2 7#32 2#32 rfl rfl (k0_off5_inb k 1 2) l 9 rfl
  have e10 := ld_off5 g k 1 3 7#32 3#32 rfl rfl (k0_off5_inb k 1 3) l 10 rfl
  have e11 := ld_off5 g k 1 4 7#32 4#32 rfl rfl (k0_off5_inb k 1 4) l 11 rfl
  have e12 := ld_off5 g k 1 5 7#32 5#32 rfl rfl (k0_off5_inb k 1 5) l 12 rfl
  have e13 := ld_off5 g k 1 6 7#32 6#32 rfl rfl (k0_off5_inb k 1 6) l 13 rfl
  have e14 := ld_off5 g k 2 0 14#32 0#32 rfl rfl (k0_off5_inb k 2 0) l 14 rfl
  have e15 := ld_off5 g k 2 1 14#32 1#32 rfl rfl (k0_off5_inb k 2 1) l 15 rfl
  have e16 := ld_off5 g k 2 2 14#32 2#32 rfl rfl (k0_off5_inb k 2 2) l 16 rfl
  have e17 := ld_off5 g k 2 3 14#32 3#32 rfl rfl (k0_off5_inb k 2 3) l 17 rfl
  have e18 := ld_off5 g k 2 4 14#32 4#32 rfl rfl (k0_off5_inb k 2 4) l 18 rfl
  have e19 := ld_off5 g k 2 5 14#32 5#32 rfl rfl (k0_off5_inb k 2 5) l 19 rfl
  have e20 := ld_off5 g k 2 6 14#32 6#32 rfl rfl (k0_off5_inb k 2 6) l 20 rfl
  have e21 := ld_off5 g k 3 0 21#32 0#32 rfl rfl (k0_off5_inb k 3 0) l 21 rfl
  have e22 := ld_off5 g k 3 1 21#32 1#32 rfl rfl (k0_off5_inb k 3 1) l 22 rfl
  have e23 := ld_off5 g k 3 2 21#32 2#32 rfl rfl (k0_off5_inb k 3 2) l 23 rfl
  have e24 := ld_off5 g k 3 3 21#32 3#32 rfl rfl (k0_off5_inb k 3 3) l 24 rfl
  have e25 := ld_off5 g k 3 4 21#32 4#32 rfl rfl (k0_off5_inb k 3 4) l 25 rfl
  have e26 := ld_off5 g k 3 5 21#32 5#32 rfl rfl (k0_off5_inb k 3 5) l 26 rfl
  have e27 := ld_off5 g k 3 6 21#32 6#32 rfl rfl (k0_off5_inb k 3 6) l 27 rfl
  have e28 := ld_off6 g k 0 0 0#32 0#32 rfl rfl (k0_off6_inb k 0 0) l 28 rfl
  have e29 := ld_off6 g k 0 1 0#32 1#32 rfl rfl (k0_off6_inb k 0 1) l 29 rfl
  have e30 := ld_off6 g k 0 2 0#32 2#32 rfl rfl (k0_off6_inb k 0 2) l 30 rfl
  have e31 := ld_off6 g k 0 3 0#32 3#32 rfl rfl (k0_off6_inb k 0 3) l 31 rfl
  have e32 := ld_off6 g k 0 4 0#32 4#32 rfl rfl (k0_off6_inb k 0 4) l 32 rfl
  have e33 := ld_off6 g k 0 5 0#32 5#32 rfl rfl (k0_off6_inb k 0 5) l 33 rfl
  have e34 := ld_off6 g k 0 6 0#32 6#32 rfl rfl (k0_off6_inb k 0 6) l 34 rfl
  have e35 := ld_off6 g k 1 0 7#32 0#32 rfl rfl (k0_off6_inb k 1 0) l 35 rfl
  have e36 := ld_off6 g k 1 1 7#32 1#32 rfl rfl (k0_off6_inb k 1 1) l 36 rfl
  have e37 := ld_off6 g k 1 2 7#32 2#32 rfl rfl (k0_off6_inb k 1 2) l 37 rfl
  have e38 := ld_off6 g k 1 3 7#32 3#32 rfl rfl (k0_off6_inb k 1 3) l 38 rfl
  have e39 := ld_off6 g k 1 4 7#32 4#32 rfl rfl (k0_off6_inb k 1 4) l 39 rfl
  have e40 := ld_off6 g k 1 5 7#32 5#32 rfl rfl (k0_off6_inb k 1 5) l 40 rfl
  have e41 := ld_off6 g k 1 6 7#32 6#32 rfl rfl (k0_off6_inb k 1 6) l 41 rfl
  have e42 := ld_off6 g k 2 0 14#32 0#32 rfl rfl (k0_off6_inb k 2 0) l 42 rfl
  have e43 := ld_off6 g k 2 1 14#32 1#32 rfl rfl (k0_off6_inb k 2 1) l 43 rfl
  have e44 := ld_off6 g k 2 2 14#32 2#32 rfl rfl (k0_off6_inb k 2 2) l 44 rfl
  have e45 := ld_off6 g k 2 3 14#32 3#32 rfl rfl (k0_off6_inb k 2 3) l 45 rfl
  have e46 := ld_off6 g k 2 4 14#32 4#32 rfl rfl (k0_off6_inb k 2 4) l 46 rfl
  have e47 := ld_off6 g k 2 5 14#32 5#32 rfl rfl (k0_off6_inb k 2 5) l 47 rfl
  have e48 := ld_off6 g k 2 6 14#32 6#32 rfl rfl (k0_off6_inb k 2 6) l 48 rfl
  have e49 := ld_off6 g k 3 0 21#32 0#32 rfl rfl (k0_off6_inb k 3 0) l 49 rfl
  have e50 := ld_off6 g k 3 1 21#32 1#32 rfl rfl (k0_off6_inb k 3 1) l 50 rfl
  have e51 := ld_off6 g k 3 2 21#32 2#32 rfl rfl (k0_off6_inb k 3 2) l 51 rfl
  have e52 := ld_off6 g k 3 3 21#32 3#32 rfl rfl (k0_off6_inb k 3 3) l 52 rfl
  have e53 := ld_off6 g k 3 4 21#32 4#32 rfl rfl (k0_off6_inb k 3 4) l 53 rfl
  have e54 := ld_off6 g k 3 5 21#32 5#32 rfl rfl (k0_off6_inb k 3 5) l 54 rfl
  have e55 := ld_off6 g k 3 6 21#32 6#32 rfl rfl (k0_off6_inb k 3 6) l 55 rfl
  simp only [lanes, List.map_cons, List.map_nil, e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55]
  rfl

omit [FloatOps F] in
/-- The 32 vectors the tail loads are the vectors 2016, ..., 2047 of the chunk. -/
theorem lanes_tail (g : Chunk F) (l : S16.Idx) :
    lanes [(ld g ![32256] inb_S32768_S16_32256),
      (ld g ![32272] inb_S32768_S16_32272),
      (ld g ![32288] inb_S32768_S16_32288),
      (ld g ![32304] inb_S32768_S16_32304),
      (ld g ![32320] inb_S32768_S16_32320),
      (ld g ![32336] inb_S32768_S16_32336),
      (ld g ![32352] inb_S32768_S16_32352),
      (ld g ![32368] inb_S32768_S16_32368),
      (ld g ![32384] inb_S32768_S16_32384),
      (ld g ![32400] inb_S32768_S16_32400),
      (ld g ![32416] inb_S32768_S16_32416),
      (ld g ![32432] inb_S32768_S16_32432),
      (ld g ![32448] inb_S32768_S16_32448),
      (ld g ![32464] inb_S32768_S16_32464),
      (ld g ![32480] inb_S32768_S16_32480),
      (ld g ![32496] inb_S32768_S16_32496),
      (ld g ![32512] inb_S32768_S16_32512),
      (ld g ![32528] inb_S32768_S16_32528),
      (ld g ![32544] inb_S32768_S16_32544),
      (ld g ![32560] inb_S32768_S16_32560),
      (ld g ![32576] inb_S32768_S16_32576),
      (ld g ![32592] inb_S32768_S16_32592),
      (ld g ![32608] inb_S32768_S16_32608),
      (ld g ![32624] inb_S32768_S16_32624),
      (ld g ![32640] inb_S32768_S16_32640),
      (ld g ![32656] inb_S32768_S16_32656),
      (ld g ![32672] inb_S32768_S16_32672),
      (ld g ![32688] inb_S32768_S16_32688),
      (ld g ![32704] inb_S32768_S16_32704),
      (ld g ![32720] inb_S32768_S16_32720),
      (ld g ![32736] inb_S32768_S16_32736),
      (ld g ![32752] inb_S32768_S16_32752)] l
      = laneDigits g (l 0).val 2016 32 := by
  have e0 := ld_lit g ![32256] inb_S32768_S16_32256 l 0 rfl
  have e1 := ld_lit g ![32272] inb_S32768_S16_32272 l 1 rfl
  have e2 := ld_lit g ![32288] inb_S32768_S16_32288 l 2 rfl
  have e3 := ld_lit g ![32304] inb_S32768_S16_32304 l 3 rfl
  have e4 := ld_lit g ![32320] inb_S32768_S16_32320 l 4 rfl
  have e5 := ld_lit g ![32336] inb_S32768_S16_32336 l 5 rfl
  have e6 := ld_lit g ![32352] inb_S32768_S16_32352 l 6 rfl
  have e7 := ld_lit g ![32368] inb_S32768_S16_32368 l 7 rfl
  have e8 := ld_lit g ![32384] inb_S32768_S16_32384 l 8 rfl
  have e9 := ld_lit g ![32400] inb_S32768_S16_32400 l 9 rfl
  have e10 := ld_lit g ![32416] inb_S32768_S16_32416 l 10 rfl
  have e11 := ld_lit g ![32432] inb_S32768_S16_32432 l 11 rfl
  have e12 := ld_lit g ![32448] inb_S32768_S16_32448 l 12 rfl
  have e13 := ld_lit g ![32464] inb_S32768_S16_32464 l 13 rfl
  have e14 := ld_lit g ![32480] inb_S32768_S16_32480 l 14 rfl
  have e15 := ld_lit g ![32496] inb_S32768_S16_32496 l 15 rfl
  have e16 := ld_lit g ![32512] inb_S32768_S16_32512 l 16 rfl
  have e17 := ld_lit g ![32528] inb_S32768_S16_32528 l 17 rfl
  have e18 := ld_lit g ![32544] inb_S32768_S16_32544 l 18 rfl
  have e19 := ld_lit g ![32560] inb_S32768_S16_32560 l 19 rfl
  have e20 := ld_lit g ![32576] inb_S32768_S16_32576 l 20 rfl
  have e21 := ld_lit g ![32592] inb_S32768_S16_32592 l 21 rfl
  have e22 := ld_lit g ![32608] inb_S32768_S16_32608 l 22 rfl
  have e23 := ld_lit g ![32624] inb_S32768_S16_32624 l 23 rfl
  have e24 := ld_lit g ![32640] inb_S32768_S16_32640 l 24 rfl
  have e25 := ld_lit g ![32656] inb_S32768_S16_32656 l 25 rfl
  have e26 := ld_lit g ![32672] inb_S32768_S16_32672 l 26 rfl
  have e27 := ld_lit g ![32688] inb_S32768_S16_32688 l 27 rfl
  have e28 := ld_lit g ![32704] inb_S32768_S16_32704 l 28 rfl
  have e29 := ld_lit g ![32720] inb_S32768_S16_32720 l 29 rfl
  have e30 := ld_lit g ![32736] inb_S32768_S16_32736 l 30 rfl
  have e31 := ld_lit g ![32752] inb_S32768_S16_32752 l 31 rfl
  simp only [lanes, List.map_cons, List.map_nil, e0, e1, e2, e3, e4, e5, e6, e7, e8, e9, e10, e11, e12, e13, e14, e15, e16, e17, e18, e19, e20, e21, e22, e23, e24, e25, e26, e27, e28, e29, e30, e31]
  rfl

omit [FloatOps F] in
/-- Where every word below 16 (a + n) is at most 9, so are the lane digits of the vectors a, ..., a + n - 1. -/
theorem laneDigits_le (g : Chunk F) (l a n N : ℕ) (hl : l < 16) (hN : 16 * (a + n) ≤ N)
    (hg : ∀ p, p < N → word g p ≤ 9) : ∀ x ∈ laneDigits g l a n, x ≤ 9 := by
  intro x hx
  obtain ⟨m, hm, rfl⟩ := List.mem_map.mp hx
  have := List.mem_range.mp hm
  exact hg _ (by omega)

omit [FloatOps F] in
/-- Chunks that agree below 16 (a + n) have the same lane digits of the vectors a, ..., a + n - 1. -/
theorem laneDigits_congr (g g' : Chunk F) (l a n N : ℕ) (hl : l < 16) (hN : 16 * (a + n) ≤ N)
    (hg : ∀ p, p < N → word g p = word g' p) : laneDigits g l a n = laneDigits g' l a n := by
  apply List.map_congr_left
  intro m hm
  have := List.mem_range.mp hm
  exact hg _ (by omega)

/-- Trip k of the first loop adds, lane by lane, the digit counts of the vectors 56 k, ..., 56 k + 55. -/
theorem counts_step1 (g : Chunk F) (k : Fin (Scf.trips k0_t1_loop.lb k0_t1_loop.ub k0_t1_loop.st)) (c : Tup)
    (f : S16.Idx → ℕ → ℕ) (hc : Counts c f) (hg : ∀ p, p < 16128 → word g p ≤ 9) :
    Counts (step1 g k c) (fun l d => f l d + (laneDigits g (l 0).val (56 * k.val) 56).count d) := by
  have hk : k.val < 18 := k.isLt
  rw [step1_eq_trip1]
  have := counts_trip1 c f hc _ _ _ _ _ _ _ _ _ _ _ _ _ _ _ _ _ _ _ _ _ _ _ _ _ _ _ _ _ _ _ _ _ _ _ _ _ _ _ _ _ _ _ _ _ _ _ _ _ _ _ _ _ _ _ _ (by
    intro l v hv
    have hm := List.mem_map_of_mem (f := fun v : Vec F S16 .i32 => BitVec.toNat (v l)) hv
    change BitVec.toNat (v l) ∈ lanes _ l at hm
    rw [lanes_step1 g k l] at hm
    exact laneDigits_le g _ _ _ 16128 (l 0).isLt (by omega) hg _ hm)
  simpa only [lanes_step1] using this

/-- Trip k of the second loop adds, lane by lane, the digit counts of the vectors 1008 + 56 k, ..., 1008 + 56 k + 55. -/
theorem counts_step2 (g : Chunk F) (k : Fin (Scf.trips k0_t2_loop.lb k0_t2_loop.ub k0_t2_loop.st)) (c : Tup)
    (f : S16.Idx → ℕ → ℕ) (hc : Counts c f) (hg : ∀ p, p < 32768 → word g p ≤ 9) :
    Counts (step2 g k c) (fun l d => f l d + (laneDigits g (l 0).val (1008 + 56 * k.val) 56).count d) := by
  have hk : k.val < 18 := k.isLt
  rw [step2_eq_trip2]
  have := counts_trip2 c f hc _ _ _ _ _ _ _ _ _ _ _ _ _ _ _ _ _ _ _ _ _ _ _ _ _ _ _ _ _ _ _ _ _ _ _ _ _ _ _ _ _ _ _ _ _ _ _ _ _ _ _ _ _ _ _ _ (by
    intro l v hv
    have hm := List.mem_map_of_mem (f := fun v : Vec F S16 .i32 => BitVec.toNat (v l)) hv
    change BitVec.toNat (v l) ∈ lanes _ l at hm
    rw [lanes_step2 g k l] at hm
    exact laneDigits_le g _ _ _ 32768 (l 0).isLt (by omega) hg _ hm)
  simpa only [lanes_step2] using this

/-- The tail adds, lane by lane, the digit counts of the vectors 2016, ..., 2047. -/
theorem counts_tailC (g : Chunk F) (c : Tup) (f : S16.Idx → ℕ → ℕ) (hc : Counts c f)
    (hg : ∀ p, p < 32768 → word g p ≤ 9) :
    Counts (tailC g c) (fun l d => f l d + (laneDigits g (l 0).val 2016 32).count d) := by
  rw [tailC_eq_tailT]
  have := counts_tailT c f hc _ _ _ _ _ _ _ _ _ _ _ _ _ _ _ _ _ _ _ _ _ _ _ _ _ _ _ _ _ _ _ _ (by
    intro l v hv
    have hm := List.mem_map_of_mem (f := fun v : Vec F S16 .i32 => BitVec.toNat (v l)) hv
    change BitVec.toNat (v l) ∈ lanes _ l at hm
    rw [lanes_tail g l] at hm
    exact laneDigits_le g _ _ _ 32768 (l 0).isLt (by omega) hg _ hm)
  simpa only [lanes_tail] using this

/-! ## The loops iterated -/

omit [FloatOps F] in
/-- The starting counters are zero in every lane. -/
theorem counts_init1 : Counts init1 (fun _ _ => 0) := by
  intro l; exact ⟨rfl, rfl, rfl, rfl, rfl, rfl, rfl, rfl, rfl, rfl⟩

/-- After n trips of the first loop the counters hold, lane by lane, the digit counts of the first 56 n vectors. -/
theorem counts_iter1 (g : Chunk F) (hg : ∀ p, p < 16128 → word g p ≤ 9) :
    ∀ n, n ≤ 18 → Counts (iter1 g n) (fun l d => (laneDigits g (l 0).val 0 (56 * n)).count d)
  | 0, _ => by
    have e : (fun (l : S16.Idx) (d : ℕ) => (laneDigits g (l 0).val 0 (56 * 0)).count d) = (fun _ _ => 0) := by
      funext l d; simp [laneDigits]
    rw [e]; exact counts_init1
  | n + 1, hn => by
    have ih := counts_iter1 g hg n (by omega)
    have h18 : n < Scf.trips k0_t1_loop.lb k0_t1_loop.ub k0_t1_loop.st := (show n < 18 by omega)
    have hs : iter1 g (n + 1) = step1 g ⟨n, h18⟩ (iter1 g n) := by rw [iter1, dif_pos h18]
    rw [hs]
    have := counts_step1 g ⟨n, h18⟩ _ _ ih hg
    have e : ∀ (l : S16.Idx) (d : ℕ), (laneDigits g (l 0).val 0 (56 * n)).count d
        + (laneDigits g (l 0).val (56 * n) 56).count d = (laneDigits g (l 0).val 0 (56 * (n + 1))).count d := by
      intro l d
      rw [show 56 * (n + 1) = 56 * n + 56 by ring, laneDigits_add, List.count_append, Nat.zero_add]
    simpa only [e] using this

/-- After n trips of the second loop, from counters holding f₀: f₀ plus the digit counts of the vectors
    1008, ..., 1008 + 56 n - 1. -/
theorem counts_iter2 (g : Chunk F) (c1 : Tup) (f₀ : S16.Idx → ℕ → ℕ) (hc1 : Counts c1 f₀)
    (hg : ∀ p, p < 32768 → word g p ≤ 9) :
    ∀ n, n ≤ 18 → Counts (iter2 g c1 n) (fun l d => f₀ l d + (laneDigits g (l 0).val 1008 (56 * n)).count d)
  | 0, _ => by
    have e : (fun (l : S16.Idx) (d : ℕ) => f₀ l d + (laneDigits g (l 0).val 1008 (56 * 0)).count d) = f₀ := by
      funext l d; simp [laneDigits]
    rw [e]; exact hc1
  | n + 1, hn => by
    have ih := counts_iter2 g c1 f₀ hc1 hg n (by omega)
    have h18 : n < Scf.trips k0_t2_loop.lb k0_t2_loop.ub k0_t2_loop.st := (show n < 18 by omega)
    have hs : iter2 g c1 (n + 1) = step2 g ⟨n, h18⟩ (iter2 g c1 n) := by rw [iter2, dif_pos h18]
    rw [hs]
    have := counts_step2 g ⟨n, h18⟩ _ _ ih hg
    have e : ∀ (l : S16.Idx) (d : ℕ), f₀ l d + (laneDigits g (l 0).val 1008 (56 * n)).count d
        + (laneDigits g (l 0).val (1008 + 56 * n) 56).count d
        = f₀ l d + (laneDigits g (l 0).val 1008 (56 * (n + 1))).count d := by
      intro l d
      rw [show 56 * (n + 1) = 56 * n + 56 by ring, laneDigits_add, List.count_append, Nat.add_assoc]
    simpa only [e] using this

/-- The final counters: where the first-loop chunk agrees with the final one on its first 16128 words and every
    word of the final one is at most 9, each counter holds, lane by lane, its digit's count over all 2048 vectors. -/
theorem counts_final (g0 g1 : Chunk F) (hagree : ∀ p, p < 16128 → word g0 p = word g1 p)
    (h9 : ∀ p, p < 32768 → word g1 p ≤ 9) :
    Counts (tailC g1 (iter2 g1 (iter1 g0 18) 18)) (fun l d => (laneDigits g1 (l 0).val 0 2048).count d) := by
  have h0 : ∀ p, p < 16128 → word g0 p ≤ 9 := fun p hp => by rw [hagree p hp]; exact h9 p (by omega)
  have c1 := counts_iter1 g0 h0 18 le_rfl
  have e1 : (fun (l : S16.Idx) (d : ℕ) => (laneDigits g0 (l 0).val 0 (56 * 18)).count d)
      = (fun (l : S16.Idx) (d : ℕ) => (laneDigits g1 (l 0).val 0 1008).count d) := by
    funext l d
    rw [show 56 * 18 = 1008 by norm_num, laneDigits_congr g0 g1 _ 0 1008 16128 (l 0).isLt (by norm_num) hagree]
  rw [e1] at c1
  have c2 := counts_iter2 g1 _ _ c1 h9 18 le_rfl
  have c3 := counts_tailC g1 _ _ c2 h9
  have e : ∀ (l : S16.Idx) (d : ℕ), (laneDigits g1 (l 0).val 0 1008).count d
      + (laneDigits g1 (l 0).val 1008 (56 * 18)).count d + (laneDigits g1 (l 0).val 2016 32).count d
      = (laneDigits g1 (l 0).val 0 2048).count d := by
    intro l d
    rw [show 2048 = 1008 + 1008 + 32 by norm_num, laneDigits_add, laneDigits_add, List.count_append,
      List.count_append, show 56 * 18 = 1008 by norm_num, Nat.zero_add]
  simpa only [e] using c3

/-! ## The counts as cardinalities -/

/-- A lane index is below 16. -/
theorem lane_lt (l : S16.Idx) : (l 0).val < 16 := (l 0).isLt

/-- Counting a value in the image of a range is counting the indices that hit it. -/
theorem count_map_range (f : ℕ → ℕ) (d : ℕ) : ∀ n, ((List.range n).map f).count d
    = ((Finset.range n).filter (fun v => f v = d)).card
  | 0 => by simp
  | n + 1 => by
    rw [List.range_succ, List.map_append, List.count_append, count_map_range f d n, Finset.range_add_one,
      Finset.filter_insert]
    by_cases h : f n = d
    · rw [if_pos h, Finset.card_insert_of_notMem (by simp)]; simp [h]
    · rw [if_neg h]; simp [h]

/-- Counting over the indices below n, as numbers or as elements of Fin n. -/
theorem card_filter_fin (n : ℕ) (P : ℕ → Prop) [DecidablePred P] :
    (Finset.univ.filter (fun v : Fin n => P v.val)).card = ((Finset.range n).filter P).card := by
  refine Finset.card_bij (fun v _ => v.val) ?_ ?_ ?_
  · intro v hv
    simp only [Finset.mem_filter, Finset.mem_univ, true_and, Finset.mem_range] at hv ⊢
    exact ⟨v.isLt, hv⟩
  · intro a _ b _ h; exact Fin.ext h
  · intro b hb
    simp only [Finset.mem_filter, Finset.mem_range] at hb
    exact ⟨⟨b, hb.1⟩, by simp [hb.2], rfl⟩

omit [FloatOps F] in
/-- The digit count of lane l over all 2048 vectors, as the number of vectors whose word in that lane is the digit. -/
theorem laneDigits_count_card (g : Chunk F) (l : S16.Idx) (d : ℕ) :
    (laneDigits g (l 0).val 0 2048).count d
      = (Finset.univ.filter (fun v : Fin 2048 =>
          BitVec.toNat (g (ix1 ⟨16 * v.val + (l 0).val, by have := v.isLt; have := lane_lt l; omega⟩)) = d)).card := by
  unfold laneDigits
  rw [count_map_range, ← card_filter_fin 2048 (fun v => word g (16 * (0 + v) + (l 0).val) = d)]
  congr 1
  apply Finset.filter_congr
  intro v _
  have hv := v.isLt
  have hl := lane_lt l
  have hp : 16 * (0 + v.val) + (l 0).val < 32768 := by omega
  rw [word, dif_pos hp]
  simp only [Nat.zero_add]

/-- The final counters as cardinalities, from facts about the chunks' words: where the first-loop chunk agrees with
    the final one on its first 16128 words and every word of the final one is at most 9, the counter of digit d holds
    in lane l the number of vectors v of the final chunk whose word 16 v + l is d. -/
theorem counts_final_card (g0 g1 : Chunk F)
    (hagree : ∀ (p : ℕ) (h : p < 32768), p < 16128 → g0 (ix1 ⟨p, h⟩) = g1 (ix1 ⟨p, h⟩))
    (h9 : ∀ (p : ℕ) (h : p < 32768), BitVec.toNat (g1 (ix1 ⟨p, h⟩)) ≤ 9) :
    Counts (tailC g1 (iter2 g1 (iter1 g0 18) 18)) (fun l d =>
      (Finset.univ.filter (fun v : Fin 2048 =>
        BitVec.toNat (g1 (ix1 ⟨16 * v.val + (l 0).val, by have := v.isLt; have := lane_lt l; omega⟩)) = d)).card) := by
  have ha : ∀ p, p < 16128 → word g0 p = word g1 p := by
    intro p hp
    have h : p < 32768 := by omega
    rw [word, word, dif_pos h, dif_pos h, hagree p h hp]
  have hb : ∀ p, p < 32768 → word g1 p ≤ 9 := by
    intro p hp
    rw [word, dif_pos hp]; exact h9 p hp
  have := counts_final g0 g1 ha hb
  simpa only [laneDigits_count_card] using this

end Cert.Proof.KI

end
-- ==== Proof.KI.Regroup.lean ====
/-
  Counting the words of a chunk lane by lane. A chunk of 32768 words is 2048 vectors of 16 lanes, word p in lane
  p mod 16 of vector p div 16. The words with a property are the words with it in lane 0, in lane 1, ..., in lane 15.
-/
import Mathlib.Tactic

namespace Cert.Proof.KI.Regroup

/-- The sum over the 16 lanes of the number of vectors whose word in that lane has the property is the number of
    words of the chunk that have it. -/
theorem card_lanes (P : Fin 32768 → Prop) [DecidablePred P] :
    ∑ l : Fin 16, (Finset.univ.filter
        (fun v : Fin 2048 => P ⟨16 * v.val + l.val, by have := v.isLt; have := l.isLt; omega⟩)).card
      = (Finset.univ.filter P).card := by
  simp only [Finset.card_filter]
  rw [Finset.sum_comm, ← Fintype.sum_prod_type']
  refine Fintype.sum_equiv ((finProdFinEquiv (m := 2048) (n := 16)).trans (finCongr (by norm_num))) _ _ ?_
  intro x
  have e : (⟨16 * x.1.val + x.2.val, by have := x.1.isLt; have := x.2.isLt; omega⟩ : Fin 32768)
      = ((finProdFinEquiv (m := 2048) (n := 16)).trans (finCongr (by norm_num))) x := by
    apply Fin.ext
    simp [finProdFinEquiv]
    ring
  rw [e]

end Cert.Proof.KI.Regroup
-- ==== Proof.KI.ValCounts.lean ====
/-
  The worker's final lane counts, over what the two copies leave in the chunk, and their totals.

  Once both copies have landed, word p of the chunk is the worker's digit at position 32768 w + p (and the first 16128
  words already were after the first copy), all at most 9. So the ten final counters hold, lane by lane, the number of
  vectors whose word in that lane is the digit; over the sixteen lanes these add up to the worker's count of the digit,
  a number far below 2^31.
-/
import proofs.«205564_g40879498729249_retrytranche2_1872_24_alg».proof.Proof.KI.ValLoops
import proofs.«205564_g40879498729249_retrytranche2_1872_24_alg».proof.Proof.KI.ValGlue
import proofs.«205564_g40879498729249_retrytranche2_1872_24_alg».proof.Proof.KI.Regroup
import proofs.«205564_g40879498729249_retrytranche2_1872_24_alg».proof.Proof.KI.RowIs

noncomputable section

namespace Cert.Proof.KI

open Cert.KernelIdeal Cert.KernelIdeal.Gen

open Idealize.ShloMosaic Idealize.ShloMosaic.ValueIdx
open Idealize.SL.Sem

variable (m : (ℓ : Loc nD τ sig) → Buf (Elt Ideal) ℓ)

/-- The final counters over the landed chunk: in lane l the counter of digit dd holds the number of vectors whose word
    in that lane is dd. -/
theorem counts_landed_card (hdig : ∀ d n, ((m (dLoc d)) n).toNat ≤ 9) (d : Dev nD) (Lc : grid0.Coords)
    (f0 : Chunk Ideal) :
    Counts (tailC (landed1 m d Lc f0) (iter2 (landed1 m d Lc f0) (iter1 (landed0 m d Lc f0) 18) 18))
      (fun l dd => (Finset.univ.filter (fun v : Fin 2048 =>
        BitVec.toNat (landed1 m d Lc f0 (ix1 ⟨16 * v.val + (l 0).val,
          by have := v.isLt; have := lane_lt l; omega⟩)) = dd)).card) := by
  refine counts_final_card (landed0 m d Lc f0) (landed1 m d Lc f0) ?_ ?_
  · intro p h hp
    rw [landed0_apply m d Lc f0 p hp, landed1_apply m d Lc f0 p h]
  · intro p h
    rw [landed1_apply m d Lc f0 p h]
    exact hdig d _

/-- Over the sixteen lanes, the lane counts of a digit add up to the worker's count of it. -/
theorem cnt_bridge (d : Dev nD) (Lc : grid0.Coords) (f0 : Chunk Ideal) (dd : Fin 10) :
    ∑ l : Fin 16, (Finset.univ.filter (fun v : Fin 2048 =>
        BitVec.toNat (landed1 m d Lc f0 (ix1 ⟨16 * v.val + l.val,
          by have := v.isLt; have := l.isLt; omega⟩)) = dd.val)).card
      = cntOf (m (dLoc d)) (wL Lc) dd := by
  refine (Regroup.card_lanes (fun p : Fin 32768 => BitVec.toNat (landed1 m d Lc f0 (ix1 p)) = dd.val)).trans ?_
  unfold cntOf
  refine congrArg Finset.card (Finset.filter_congr (fun p _ => ?_))
  have e : landed1 m d Lc f0 (ix1 p)
      = (m (dLoc d)) (ix1 (⟨(wL Lc).val * 32768 + p.val, by have := (wL Lc).isLt; have := p.isLt; omega⟩ : Fin 1048576)) :=
    (landed1_apply m d Lc f0 p.val p.isLt).trans
      (congrArg (fun k : Fin 1048576 => (m (dLoc d)) (ix1 k))
        (Fin.ext (by show 32768 * (wL Lc).val + p.val = (wL Lc).val * 32768 + p.val; omega)))
  rw [e]

omit m in
/-- Over the sixteen lanes, the lane counts of any value add up to less than 2^31 (each is at most 2048). -/
theorem cnt_sum_lt {F : FTy → Type} (g : Chunk F) (dd : ℕ) :
    ∑ l : Fin 16, (Finset.univ.filter (fun v : Fin 2048 =>
        BitVec.toNat (g (ix1 ⟨16 * v.val + l.val, by have := v.isLt; have := l.isLt; omega⟩)) = dd)).card
      < 2 ^ 31 := by
  have h : ∀ l : Fin 16, (Finset.univ.filter (fun v : Fin 2048 =>
      BitVec.toNat (g (ix1 ⟨16 * v.val + l.val, by have := v.isLt; have := l.isLt; omega⟩)) = dd)).card ≤ 2048 :=
    fun l => (Finset.card_filter_le _ _).trans (by simp)
  calc _ ≤ ∑ _l : Fin 16, 2048 := Finset.sum_le_sum (fun l _ => h l)
    _ = 32768 := by simp
    _ < 2 ^ 31 := by norm_num

/-- The final counters over the landed chunk hold lane counts that, over the sixteen lanes, add up to the worker's
    count of each digit. -/
theorem counts_landed (hdig : ∀ d n, ((m (dLoc d)) n).toNat ≤ 9) (d : Dev nD) (Lc : grid0.Coords)
    (f0 : Chunk Ideal) :
    ∃ f : S16.Idx → ℕ → ℕ,
      Counts (tailC (landed1 m d Lc f0) (iter2 (landed1 m d Lc f0) (iter1 (landed0 m d Lc f0) 18) 18)) f
        ∧ ∀ dd : Fin 10, ∑ l : Fin 16, f (ix1 l) dd.val = cntOf (m (dLoc d)) (wL Lc) dd :=
  ⟨_, counts_landed_card m hdig d Lc f0, fun dd => cnt_bridge m d Lc f0 dd⟩

/-- The lane counts of the package above, each at most 2048, add up over the sixteen lanes to less than 2^31: here
    for the worker's count itself. -/
theorem cntOf_lt (dg : IVec Cert.Spec.SN 32) (w : Fin 32) (dd : Fin 10) : cntOf dg w dd < 2 ^ 31 := by
  unfold cntOf
  have h : (Finset.univ.filter (fun p : Fin 32768 =>
      (dg (ix1 ⟨w.val * 32768 + p.val, by omega⟩)).toNat = dd.val)).card ≤ 32768 :=
    (Finset.card_filter_le _ _).trans (by simp)
  exact lt_of_le_of_lt h (by norm_num)

end Cert.Proof.KI

end
-- ==== Proof.KI.ValRowLemmas.lean ====
/-
  Reading the small scratch buffers of a worker's last stage, lane by lane.

  A 256-word buffer is sixteen slots of sixteen words. The count vectors are written one per slot; an indexed load at
  16 * lane + l reads word l of slot (lane); an indexed store at 16 * lane + l writes, for every lane, word l of slot
  (lane), and distinct lanes write distinct words. Sixteen such loads, added up, give per lane the sum of the words of
  that lane's slot; sixteen such stores of one vector T fill every word of slot x with T's lane x.
-/
import proofs.«205564_g40879498729249_retrytranche2_1872_24_alg».proof.Proof.KI.Tile
import Idealize.ShloMosaic.Lib.ValueIdx
import Idealize.ShloMosaic.Lib.Pipeline.FrameBody

noncomputable section

namespace Cert.Proof.KI.ValRow

open Idealize.ShloMosaic Idealize.ShloMosaic.ValueIdx Cert.KernelIdeal Cert.KernelIdeal.Gen

/-! ## Slots of a covering list of writes -/

section Canon
variable {Val : EltTy → Type} [∀ e, Nonempty (Val e)] {e : EltTy}

/-- A sixteen-word write at word o is read back at word o + l as its lane l. -/
theorem canon_unit16_hit (o : ℕ) (inb : ∀ a, (![o] : Fin 1 → ℕ) a + S16.size a ≤ S256.size a)
    (w : (Rect.unit (s := S256) ![o] S16.size inb).shape.Idx → Val e) (L : List (View.Piece Val S256 e))
    (l : Fin 16) (hlt : o + l.val < 256) :
    View.canon (⟨Rect.unit (s := S256) ![o] S16.size inb, w⟩ :: L) (ix1 ⟨o + l.val, hlt⟩) = w (ix1 l) := by
  have he : (Rect.unit (s := S256) ![o] S16.size inb).emb (ix1 l) = ix1 ⟨o + l.val, hlt⟩ := by
    funext a; apply Fin.ext
    obtain rfl : a = 0 := Subsingleton.elim _ _
    show o + 1 * l.val = o + l.val
    omega
  rw [← he]
  exact View.canon_cons_emb _ w L _

/-- A sixteen-word write at word o is not seen at a word of another slot. -/
theorem canon_unit16_miss (o o' : ℕ) (inb : ∀ a, (![o] : Fin 1 → ℕ) a + S16.size a ≤ S256.size a)
    (w : (Rect.unit (s := S256) ![o] S16.size inb).shape.Idx → Val e) (L : List (View.Piece Val S256 e))
    (l : Fin 16) (hlt : o' + l.val < 256) (h : o' + 16 ≤ o ∨ o + 16 ≤ o') :
    View.canon (⟨Rect.unit (s := S256) ![o] S16.size inb, w⟩ :: L) (ix1 ⟨o' + l.val, hlt⟩)
      = View.canon L (ix1 ⟨o' + l.val, hlt⟩) := by
  refine View.canon_cons_of_not_mem _ L ?_
  rw [Rect.mem_set_unit]
  intro hm
  have h0 := hm 0
  have e1 : ((ix1 (⟨o' + l.val, hlt⟩ : Fin 256) : S256.Idx) 0).val = o' + l.val := rfl
  have e2 : (![o] : Fin 1 → ℕ) 0 = o := rfl
  have e3 : S16.size 0 = 16 := rfl
  rw [e1, e2, e3] at h0
  omega

/-- A write of the whole buffer is read back as written. -/
theorem canon_whole (w : (Rect.whole S256).shape.Idx → Val e) (L : List (View.Piece Val S256 e)) (y : S256.Idx) :
    View.canon (⟨Rect.whole S256, w⟩ :: L) y = w y := by
  have := View.canon_cons_emb (Rect.whole S256) w L y
  rwa [Rect.emb_whole_apply] at this

end Canon

/-! ## The index vectors 16 * lane + l -/

/-- The index vector of offset l: lane x holds 16 x + l. -/
noncomputable def idxv (l : ℕ) : IVec S16 32 :=
  addi (muli tile_frame.sl.v367 (broadcast S16 16#32)) (broadcast S16 (BitVec.ofNat 32 l))

theorem idxv_toNat (l : ℕ) (hl : l < 16) (x : S16.Idx) : (idxv l x).toNat = 16 * (x 0).val + l := by
  show (BitVec.ofNat 32 (0 * 16 + (x 0).val) * 16#32 + BitVec.ofNat 32 l).toNat = _
  have hx : (x 0).val < 16 := (x 0).isLt
  rw [BitVec.toNat_add, BitVec.toNat_mul, BitVec.toNat_ofNat, BitVec.toNat_ofNat, BitVec.toNat_ofNat]
  omega

theorem idxv_lt (l : ℕ) (hl : l < 16) : ∀ a x, ((![idxv l] : Fin 1 → IVec S16 32) a x).toNat < S256.size a := by
  intro a x
  obtain rfl : a = 0 := Subsingleton.elim _ _
  show (idxv l x).toNat < 256
  rw [idxv_toNat l hl]
  have hx : (x 0).val < 16 := (x 0).isLt
  omega

/-- The word an index vector names for lane x. -/
theorem idxAt_idxv (l : ℕ) (hl : l < 16) (h : ∀ a x, ((![idxv l] : Fin 1 → IVec S16 32) a x).toNat < S256.size a) (x : Fin 16) :
    idxAt (s := S256) ![idxv l] h (ix1 x) = ix1 ⟨16 * x.val + l, by have := x.isLt; omega⟩ := by
  funext a; apply Fin.ext
  obtain rfl : a = 0 := Subsingleton.elim _ _
  show (idxv l (ix1 x)).toNat = 16 * x.val + l
  rw [idxv_toNat l hl]

/-- An indexed load at 16 * lane + l reads, in lane x, word l of slot x. -/
theorem loadIdx_idxv (f : Vec Ideal S256 .i32) (l : ℕ) (hl : l < 16)
    (h : ∀ a x, ((![idxv l] : Fin 1 → IVec S16 32) a x).toNat < S256.size a) (x : Fin 16) :
    loadIdx f ![idxv l] h (ix1 x) = f (ix1 ⟨16 * x.val + l, by have := x.isLt; omega⟩) := by
  show f (idxAt (s := S256) ![idxv l] h (ix1 x)) = _
  rw [idxAt_idxv l hl h x]

/-! ## An indexed store whose lanes name distinct words -/

section Store
variable {s : Shape} {e : EltTy} {d : Fin 1 → ℕ}

/-- One lane's step of an unmasked plain indexed store. -/
noncomputable def stepLane (idxs : Fin s.rank → IVec ⟨1, d⟩ 32) (v : Vec Ideal ⟨1, d⟩ e) (h : ∀ a x, (idxs a x).toNat < s.size a)
    (g : Vec Ideal s e) (k : Fin (d 0)) : Vec Ideal s e :=
  fun j => if (∀ a, (j a).val = (idxAt idxs h (Shape.ofLane k) a).val) then v (Shape.ofLane k) else g j

theorem storeIdx_eq_foldl (f : Vec Ideal s e) (idxs : Fin s.rank → IVec ⟨1, d⟩ 32) (v : Vec Ideal ⟨1, d⟩ e)
    (h : ∀ a x, (idxs a x).toNat < s.size a) :
    storeIdx f idxs v (fun _ => 1#1) false h = (List.finRange (d 0)).foldl (stepLane idxs v h) f := by
  unfold storeIdx
  congr 1
  funext g k
  dsimp only
  have h1 : (1#1 : BitVec 1) = 1 := rfl
  rw [if_pos h1]
  funext j
  simp [stepLane]

theorem stepLane_hit (idxs : Fin s.rank → IVec ⟨1, d⟩ 32) (v : Vec Ideal ⟨1, d⟩ e) (h) (g : Vec Ideal s e) (k : Fin (d 0)) :
    stepLane idxs v h g k (idxAt idxs h (Shape.ofLane k)) = v (Shape.ofLane k) := by
  unfold stepLane; rw [if_pos (fun _ => rfl)]

theorem stepLane_miss (idxs : Fin s.rank → IVec ⟨1, d⟩ 32) (v : Vec Ideal ⟨1, d⟩ e) (h) (g : Vec Ideal s e) (k : Fin (d 0))
    (j : s.Idx) (hj : idxAt idxs h (Shape.ofLane k) ≠ j) : stepLane idxs v h g k j = g j := by
  unfold stepLane
  rw [if_neg]
  intro hall
  exact hj (funext fun a => Fin.ext (hall a).symm)

theorem foldl_miss (idxs : Fin s.rank → IVec ⟨1, d⟩ 32) (v : Vec Ideal ⟨1, d⟩ e) (h) (j : s.Idx) :
    ∀ (L : List (Fin (d 0))) (g : Vec Ideal s e), (∀ k ∈ L, idxAt idxs h (Shape.ofLane k) ≠ j) →
      L.foldl (stepLane idxs v h) g j = g j
  | [], _, _ => rfl
  | k :: L, g, hL => by
    rw [List.foldl_cons, foldl_miss idxs v h j L _ (fun k' hk' => hL k' (List.mem_cons_of_mem _ hk')),
      stepLane_miss idxs v h g k j (hL k List.mem_cons_self)]

theorem foldl_hit (idxs : Fin s.rank → IVec ⟨1, d⟩ 32) (v : Vec Ideal ⟨1, d⟩ e) (h)
    (hinj : ∀ k k' : Fin (d 0), idxAt idxs h (Shape.ofLane k) = idxAt idxs h (Shape.ofLane k') → k = k') (k0 : Fin (d 0)) :
    ∀ (L : List (Fin (d 0))) (g : Vec Ideal s e), k0 ∈ L →
      L.foldl (stepLane idxs v h) g (idxAt idxs h (Shape.ofLane k0)) = v (Shape.ofLane k0)
  | [], _, hm => absurd hm List.not_mem_nil
  | k :: L, g, hm => by
    rw [List.foldl_cons]
    by_cases hin : k0 ∈ L
    · exact foldl_hit idxs v h hinj k0 L _ hin
    · have hk : k0 = k := by
        rcases List.mem_cons.mp hm with hk | hk
        · exact hk
        · exact absurd hk hin
      rw [hk]
      rw [foldl_miss idxs v h _ L _ (fun k' hk' he => hin (by rw [hk, ← hinj k' k he]; exact hk')), stepLane_hit]

/-- The word lane k names holds lane k of the stored vector. -/
theorem storeIdx_hit (f : Vec Ideal s e) (idxs : Fin s.rank → IVec ⟨1, d⟩ 32) (v : Vec Ideal ⟨1, d⟩ e) (h)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_hit idxs v h hinj k _ f (List.mem_finRange k)

/-- A word no lane names keeps its contents. -/
theorem storeIdx_miss (f : Vec Ideal s e) (idxs : Fin s.rank → IVec ⟨1, d⟩ 32) (v : Vec Ideal ⟨1, d⟩ e) (h) (j : s.Idx)
    (hj : ∀ k, idxAt idxs h (Shape.ofLane k) ≠ j) :
    storeIdx f idxs v (fun _ => 1#1) false h j = f j := by
  rw [storeIdx_eq_foldl]
  exact foldl_miss idxs v h j _ f (fun k _ => hj k)

end Store

end Cert.Proof.KI.ValRow

end
-- ==== Proof.MeanAlg.lean ====
/-
  The final algebra: the per-worker histograms, weighted by the table rows and scaled, add up to the mean of the
  looked-up rows.

  Under the precondition every table entry is a real number, so the whole computation takes place in the reals.  The
  sum over all 1048576 positions splits into 32 consecutive blocks of 32768; inside a block, positions are grouped by
  the digit they hold, and a group of c positions holding digit d contributes c times row d of the table.
-/
import proofs.«205564_g40879498729249_retrytranche2_1872_24_alg».proof.Proof.Spec
import Mathlib.Tactic

noncomputable section

namespace Cert.MeanAlg

open Idealize.ShloMosaic Idealize.ShloMosaic.ValueIdx Cert.Spec

/-- The embedding of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over 1048576 positions as the sum over 32 blocks of the sums over each block's 32768 positions. -/
theorem sum_blocks (g : Fin 1048576 → ℝ) :
    ∑ n, g n = ∑ w : Fin 32, ∑ p : Fin 32768, g ⟨w.val * 32768 + p.val, by omega⟩ := by
  rw [← Fintype.sum_prod_type']
  symm
  refine Fintype.sum_equiv ((finProdFinEquiv (m := 32) (n := 32768)).trans (finCongr (by norm_num))) _ _ ?_
  intro x
  congr 1
  apply Fin.ext
  simp [finProdFinEquiv]
  ring

/-- A sum of a function of a digit over positions, grouped by the digit's value. -/
theorem sum_by_value (r : Fin 32768 → Fin 10) (h : Fin 10 → ℝ) :
    ∑ p, h (r p) = ∑ d : Fin 10, ((Finset.univ.filter (fun p => r p = d)).card : ℝ) * h d := by
  rw [← Finset.sum_fiberwise Finset.univ r (fun p => h (r p))]
  refine Finset.sum_congr rfl (fun d _ => ?_)
  have : ∑ p ∈ Finset.univ.filter (fun p => r p = d), h (r p) = ∑ p ∈ Finset.univ.filter (fun p => r p = d), h d :=
    Finset.sum_congr rfl (fun p hp => by rw [(Finset.mem_filter.mp hp).2])
  rw [this, Finset.sum_const, nsmul_eq_mul]

/-- The 32 scaled weighted histograms add up to the mean of the looked-up rows. -/
theorem mean_alg (dg : IVec SN 32) (tb : FVec Ideal ST .f32) (hpre : PreOK dg tb)
    (cnt : Fin 32 → Fin 10 → ℕ)
    (hcnt : ∀ (w : Fin 32) (d : Fin 10), cnt w d =
      (Finset.univ.filter
        (fun p : Fin 32768 => (dg (ix1 ⟨w.val * 32768 + p.val, by omega⟩)).toNat = d.val)).card)
    (j : Fin 16) :
    ∑ w : Fin 32, ((∑ d : Fin 10, (((cnt w d : ℝ)) : EReal) * tb (ix2 d j)) * (((1 / 1048576 : ℝ) : ℝ) : EReal))
      = meanRow dg tb (ix1 j) := by
  obtain ⟨hdg, htb⟩ := hpre
  choose T hT using htb
  have hrow : ∀ n, rowOf (dg n) = ⟨(dg n).toNat, by have := hdg n; omega⟩ := fun n =>
    Fin.ext (by simp only [rowOf]; exact Nat.min_eq_left (hdg n))
  simp only [meanRow, hT]
  simp only [← EReal.coe_mul, ← coe_sum]
  have key : ∀ w : Fin 32, ∑ p : Fin 32768, T (ix2 (rowOf (dg (ix1 ⟨w.val * 32768 + p.val, by omega⟩))) j)
      = ∑ d : Fin 10, (cnt w d : ℝ) * T (ix2 d j) := by
    intro w
    refine (sum_by_value (fun p => rowOf (dg (ix1 ⟨w.val * 32768 + p.val, by omega⟩)))
      (fun d => T (ix2 d j))).trans ?_
    refine Finset.sum_congr rfl (fun d _ => ?_)
    have hf : (Finset.univ.filter (fun p : Fin 32768 =>
          rowOf (dg (ix1 ⟨w.val * 32768 + p.val, by omega⟩)) = d))
        = Finset.univ.filter (fun p : Fin 32768 =>
          (dg (ix1 ⟨w.val * 32768 + p.val, by omega⟩)).toNat = d.val) := by
      apply Finset.filter_congr
      intro p _
      rw [hrow]
      exact Fin.ext_iff
    rw [hcnt w d, ← hf]
  rw [EReal.coe_eq_coe_iff, ← Finset.sum_mul]
  refine congrArg (fun x : ℝ => x * (1 / 1048576)) ?_
  have h1 := sum_blocks (fun n => T (ix2 (rowOf (dg (ix1 n))) j))
  have h2 : ∑ w : Fin 32, ∑ p : Fin 32768, T (ix2 (rowOf (dg (ix1 ⟨w.val * 32768 + p.val, by omega⟩))) j)
      = ∑ w : Fin 32, ∑ d : Fin 10, (cnt w d : ℝ) * T (ix2 d j) := Finset.sum_congr rfl (fun w _ => key w)
  exact (h1.trans h2).symm

end Cert.MeanAlg

end
-- ==== Proof.KI.RowVal.lean ====
/-
  The kernel's float tail read at a lane, and the final bridge to the specification, at the ideal values.

  Each worker ends by forming, lane by lane, the sum over the ten digits d of (its count of d, converted from a
  signed word) times (row d of the table), accumulated from 0 in the order d = 0, 1, ..., 9, and scaling it by the
  constant 2^-20. The TensorCore then adds the 32 workers' rows. With the counts being the true per-block counts,
  that total is the mean of the looked-up rows.
-/
import proofs.«205564_g40879498729249_retrytranche2_1872_24_alg».proof.Proof.Gen.KernelIdeal.Skeleton
import proofs.«205564_g40879498729249_retrytranche2_1872_24_alg».proof.Proof.Spec
import proofs.«205564_g40879498729249_retrytranche2_1872_24_alg».proof.Proof.MeanAlg
import Idealize.ShloMosaic.Lib.ValueLayout
import Idealize.ShloMosaic.PureOps.Ideal.Laws

noncomputable section

namespace Cert.Proof.KI.RowVal

open Idealize.ShloMosaic Idealize.ShloMosaic.ValueIdx Cert.KernelIdeal Cert.KernelIdeal.Gen

/-- A natural number below 2^31 as a 32-bit word reads, signed, as itself. -/
theorem toInt_ofNat_lt {m : ℕ} (hm : m < 2 ^ 31) : (BitVec.ofNat 32 m).toInt = (m : Int) := by
  rw [BitVec.toInt_eq_toNat_cond, BitVec.toNat_ofNat, Nat.mod_eq_of_lt (by omega), if_pos (by omega)]

/-- A vector of words all equal to m < 2^31, converted signed to floats, is the real m in every lane. -/
theorem sitofp_lane (r : Vec Ideal S16 .i32) (m : ℕ) (hm : m < 2 ^ 31) (hr : ∀ l, r l = BitVec.ofNat 32 m) (l : S16.Idx) :
    (sitofp .f32 r : FVec Ideal S16 .f32) l = ((m : ℝ) : EReal) := by
  show ((((r l).toInt : ℝ)) : EReal) = _
  rw [hr l, toInt_ofNat_lt hm]
  norm_cast

/-- The f32 pattern 0x35800000 is the real 2^-20. -/
theorem ofBits_two_pow_neg_twenty : Ideal.ofBits .f32 0x35800000#32 = (((1 / 1048576 : ℝ) : ℝ) : EReal) := by
  simp [Ideal.ofBits, Ideal.ieee, -EReal.coe_mul]; norm_num

/-- A sum over the ten digits, accumulated from 0 in increasing order. -/
theorem sum_ten {M : Type*} [AddCommMonoid M] (g : Fin 10 → M) :
    ∑ d, g d = 0 + g 0 + g 1 + g 2 + g 3 + g 4 + g 5 + g 6 + g 7 + g 8 + g 9 := by
  simp only [Fin.sum_univ_castSucc, Fin.sum_univ_zero]
  rfl

/-- THE WORKER'S ROW at lane j: with every lane of the d-th count vector the word of a natural n d < 2^31 and the
    d-th loaded row the table's row d, the stored vector is (the sum over d of n d times the table at (d, j)) times
    1/1048576. -/
theorem rowVal (tb : FVec Ideal Cert.Spec.ST .f32) (n : Fin 10 → ℕ) (hn : ∀ d, n d < 2 ^ 31)
    (r0 r1 r2 r3 r4 r5 r6 r7 r8 r9 : Vec Ideal S16 .i32)
    (hr0 : ∀ l, r0 l = BitVec.ofNat 32 (n 0)) (hr1 : ∀ l, r1 l = BitVec.ofNat 32 (n 1))
    (hr2 : ∀ l, r2 l = BitVec.ofNat 32 (n 2)) (hr3 : ∀ l, r3 l = BitVec.ofNat 32 (n 3))
    (hr4 : ∀ l, r4 l = BitVec.ofNat 32 (n 4)) (hr5 : ∀ l, r5 l = BitVec.ofNat 32 (n 5))
    (hr6 : ∀ l, r6 l = BitVec.ofNat 32 (n 6)) (hr7 : ∀ l, r7 l = BitVec.ofNat 32 (n 7))
    (hr8 : ∀ l, r8 l = BitVec.ofNat 32 (n 8)) (hr9 : ∀ l, r9 l = BitVec.ofNat 32 (n 9))
    (t0 t1 t2 t3 t4 t5 t6 t7 t8 t9 : Vec Ideal S1x16 .f32)
    (ht0 : ∀ j : Fin 16, t0 (ix2 (0 : Fin 1) j) = tb (ix2 0 j)) (ht1 : ∀ j : Fin 16, t1 (ix2 (0 : Fin 1) j) = tb (ix2 1 j))
    (ht2 : ∀ j : Fin 16, t2 (ix2 (0 : Fin 1) j) = tb (ix2 2 j)) (ht3 : ∀ j : Fin 16, t3 (ix2 (0 : Fin 1) j) = tb (ix2 3 j))
    (ht4 : ∀ j : Fin 16, t4 (ix2 (0 : Fin 1) j) = tb (ix2 4 j)) (ht5 : ∀ j : Fin 16, t5 (ix2 (0 : Fin 1) j) = tb (ix2 5 j))
    (ht6 : ∀ j : Fin 16, t6 (ix2 (0 : Fin 1) j) = tb (ix2 6 j)) (ht7 : ∀ j : Fin 16, t7 (ix2 (0 : Fin 1) j) = tb (ix2 7 j))
    (ht8 : ∀ j : Fin 16, t8 (ix2 (0 : Fin 1) j) = tb (ix2 8 j)) (ht9 : ∀ j : Fin 16, t9 (ix2 (0 : Fin 1) j) = tb (ix2 9 j))
    (j : Fin 16) :
    k0_pay1 (k0_pay179 (k0_pay177 r0 t0 r1 t1 r2 t2) (k0_pay178 r3) t3 r4 t4 r5 t5 r6 t6 r7 t7 r8 t8) (k0_pay180 r9) t9 (ix1 j)
      = (∑ d : Fin 10, ((n d : ℝ) : EReal) * tb (ix2 d j)) * (((1 / 1048576 : ℝ) : ℝ) : EReal) := by
  rw [sum_ten]
  simp only [k0_pay1, k0_pay179, k0_pay177, k0_pay178, k0_pay180, mulf_apply, addf_apply, broadcast_apply,
    shapeCast_1a_a_apply,
    sitofp_lane r0 _ (hn 0) hr0, sitofp_lane r1 _ (hn 1) hr1, sitofp_lane r2 _ (hn 2) hr2, sitofp_lane r3 _ (hn 3) hr3,
    sitofp_lane r4 _ (hn 4) hr4, sitofp_lane r5 _ (hn 5) hr5, sitofp_lane r6 _ (hn 6) hr6, sitofp_lane r7 _ (hn 7) hr7,
    sitofp_lane r8 _ (hn 8) hr8, sitofp_lane r9 _ (hn 9) hr9,
    ht0, ht1, ht2, ht3, ht4, ht5, ht6, ht7, ht8, ht9]
  show (_ + _) * Ideal.ofBits .f32 0x35800000#32 = _
  rw [ofBits_two_pow_neg_twenty]
  show (Ideal.ofBits .f32 0x00000000#32 + _ + _ + _ + _ + _ + _ + _ + _ + _ + _) * _ = _
  rw [Ideal.ofBits_zero_f32]

/-- THE BRIDGE: when row w of the [32, 16] block is worker w's scaled weighted row, with the counts the true counts of
    each digit among worker w's 32768 positions, the TensorCore's column sums, cast back to [16], are the mean of
    the looked-up rows. -/
theorem bridge (dg : IVec Cert.Spec.SN 32) (tb : FVec Ideal Cert.Spec.ST .f32) (hpre : Cert.Spec.PreOK dg tb)
    (cnt : Fin 32 → Fin 10 → ℕ)
    (hcnt : ∀ (w : Fin 32) (d : Fin 10), cnt w d =
      (Finset.univ.filter (fun p : Fin 32768 => (dg (ix1 ⟨w.val * 32768 + p.val, by omega⟩)).toNat = d.val)).card)
    (f : Vec Ideal S32x16 .f32)
    (hf : ∀ (w : Fin 32) (j : Fin 16),
      f (ix2 w j) = (∑ d : Fin 10, ((cnt w d : ℝ) : EReal) * tb (ix2 d j)) * (((1 / 1048576 : ℝ) : ℝ) : EReal))
    (h : S1x16.ShapeCasts S16) :
    shapeCast S16 (k1_pay1 (F := Ideal) f) h = Cert.Spec.meanRow dg tb := by
  funext i
  obtain ⟨j, rfl⟩ : ∃ j : Fin 16, i = ix1 j := ⟨i 0, eq_ix1 i⟩
  rw [← Cert.MeanAlg.mean_alg dg tb hpre cnt hcnt j]
  simp only [k1_pay1, shapeCast_shapeCast, shapeCast_self]
  refine (Ideal.multiReduction_add_single (φ := .f32) f _ reduces_S32x16_S16 _ _ (ix1 j)).trans ?_
  exact Finset.sum_congr rfl (fun w _ => by
    have hl : Shape.Reduces.lift reduces_S32x16_S16 (ix1 j) w = ix2 w j := funext fun c => Fin.ext (by
      match c with
      | ⟨0, _⟩ => rfl
      | ⟨1, _⟩ => rfl)
    rw [hl]; exact hf w j)

end Cert.Proof.KI.RowVal

end
-- ==== Proof.KI.ValRow.lean ====
/-
  A worker's last stage, from its ten lane-count vectors to the row it writes out.

  The ten count vectors (digit dd's vector in slot dd) and six zero vectors fill the 256-word count scratch. Sixteen
  indexed loads at 16 * lane + l, added up, leave in lane x the sum of the sixteen words of slot x: for x < 10 the
  worker's total count of digit x. Sixteen indexed stores at the same indices then fill every word of slot x of the
  second scratch with that total, so a plain load of slot dd is the total of digit dd in every lane. The float tail
  turns the ten totals and the ten table rows into the row.
-/
import proofs.«205564_g40879498729249_retrytranche2_1872_24_alg».proof.Proof.KI.ValRowLemmas
import proofs.«205564_g40879498729249_retrytranche2_1872_24_alg».proof.Proof.KI.ValDefs
import proofs.«205564_g40879498729249_retrytranche2_1872_24_alg».proof.Proof.KI.RowVal
import proofs.«205564_g40879498729249_retrytranche2_1872_24_alg».proof.Proof.KI.RowIs
import proofs.«205564_g40879498729249_retrytranche2_1872_24_alg».proof.Proof.KI.ValLoops

noncomputable section

namespace Cert.Proof.KI.ValRow

open Idealize.ShloMosaic Idealize.ShloMosaic.ValueIdx Cert.KernelIdeal Cert.KernelIdeal.Gen Cert.Proof.KI

/-! ## The count scratch -/

/-- The ten count vectors by digit. -/
noncomputable def comp (C : Tup) : Fin 10 → IVec S16 32 :=
  ![C.1, C.2.1, C.2.2.1, C.2.2.2.1, C.2.2.2.2.1, C.2.2.2.2.2.1, C.2.2.2.2.2.2.1, C.2.2.2.2.2.2.2.1, C.2.2.2.2.2.2.2.2.1, C.2.2.2.2.2.2.2.2.2]

/-- Word l of slot x of the count scratch: the count vector of digit x for x < 10, zero above. -/
noncomputable def slotw (C : Tup) (x l : Fin 16) : BitVec 32 :=
  if h : x.val < 10 then comp C ⟨x.val, h⟩ (ix1 l) else 0#32

/-- The sixteen writes that fill the count scratch, last written first. -/
noncomputable def P3 (C : Tup) : List (View.Piece (Elt Ideal) S256 .i32) :=
  [ ⟨Rect.unit (s := S256) ![240] S16.size inb_S256_S16_240, tile_frame.sl.v34⟩,
    ⟨Rect.unit (s := S256) ![224] S16.size inb_S256_S16_224, tile_frame.sl.v34⟩,
    ⟨Rect.unit (s := S256) ![208] S16.size inb_S256_S16_208, tile_frame.sl.v34⟩,
    ⟨Rect.unit (s := S256) ![192] S16.size inb_S256_S16_192, tile_frame.sl.v34⟩,
    ⟨Rect.unit (s := S256) ![176] S16.size inb_S256_S16_176, tile_frame.sl.v34⟩,
    ⟨Rect.unit (s := S256) ![160] S16.size inb_S256_S16_160, tile_frame.sl.v34⟩,
    ⟨Rect.unit (s := S256) ![144] S16.size inb_S256_S16_144, C.2.2.2.2.2.2.2.2.2⟩,
    ⟨Rect.unit (s := S256) ![128] S16.size inb_S256_S16_128, C.2.2.2.2.2.2.2.2.1⟩,
    ⟨Rect.unit (s := S256) ![112] S16.size inb_S256_S16_112, C.2.2.2.2.2.2.2.1⟩,
    ⟨Rect.unit (s := S256) ![96] S16.size inb_S256_S16_96, C.2.2.2.2.2.2.1⟩,
    ⟨Rect.unit (s := S256) ![80] S16.size inb_S256_S16_80, C.2.2.2.2.2.1⟩,
    ⟨Rect.unit (s := S256) ![64] S16.size inb_S256_S16_64, C.2.2.2.2.1⟩,
    ⟨Rect.unit (s := S256) ![48] S16.size inb_S256_S16_48, C.2.2.2.1⟩,
    ⟨Rect.unit (s := S256) ![32] S16.size inb_S256_S16_32, C.2.2.1⟩,
    ⟨Rect.unit (s := S256) ![16] S16.size inb_S256_S16_16, C.2.1⟩,
    ⟨Rect.unit (s := S256) ![0] S16.size inb_S256_S16_0, C.1⟩ ]

/-- The filled count scratch holds, at word 16 x + l, word l of slot x. -/
theorem canon_P3 (C : Tup) (l : Fin 16) : ∀ x : Fin 16,
    View.canon (P3 C) (ix1 ⟨16 * x.val + l.val, by have := x.isLt; have := l.isLt; omega⟩) = slotw C x l
  | ⟨0, _⟩ => by
      show View.canon (P3 C) (ix1 ⟨0 + l.val, by have := l.isLt; omega⟩) = _
      unfold P3
      rw [canon_unit16_miss 240 0 _ _ _ l _ (by omega),
        canon_unit16_miss 224 0 _ _ _ l _ (by omega),
        canon_unit16_miss 208 0 _ _ _ l _ (by omega),
        canon_unit16_miss 192 0 _ _ _ l _ (by omega),
        canon_unit16_miss 176 0 _ _ _ l _ (by omega),
        canon_unit16_miss 160 0 _ _ _ l _ (by omega),
        canon_unit16_miss 144 0 _ _ _ l _ (by omega),
        canon_unit16_miss 128 0 _ _ _ l _ (by omega),
        canon_unit16_miss 112 0 _ _ _ l _ (by omega),
        canon_unit16_miss 96 0 _ _ _ l _ (by omega),
        canon_unit16_miss 80 0 _ _ _ l _ (by omega),
        canon_unit16_miss 64 0 _ _ _ l _ (by omega),
        canon_unit16_miss 48 0 _ _ _ l _ (by omega),
        canon_unit16_miss 32 0 _ _ _ l _ (by omega),
        canon_unit16_miss 16 0 _ _ _ l _ (by omega),
        canon_unit16_hit 0 _ _ _ l _]
      rfl
  | ⟨1, _⟩ => by
      show View.canon (P3 C) (ix1 ⟨16 + l.val, by have := l.isLt; omega⟩) = _
      unfold P3
      rw [canon_unit16_miss 240 16 _ _ _ l _ (by omega),
        canon_unit16_miss 224 16 _ _ _ l _ (by omega),
        canon_unit16_miss 208 16 _ _ _ l _ (by omega),
        canon_unit16_miss 192 16 _ _ _ l _ (by omega),
        canon_unit16_miss 176 16 _ _ _ l _ (by omega),
        canon_unit16_miss 160 16 _ _ _ l _ (by omega),
        canon_unit16_miss 144 16 _ _ _ l _ (by omega),
        canon_unit16_miss 128 16 _ _ _ l _ (by omega),
        canon_unit16_miss 112 16 _ _ _ l _ (by omega),
        canon_unit16_miss 96 16 _ _ _ l _ (by omega),
        canon_unit16_miss 80 16 _ _ _ l _ (by omega),
        canon_unit16_miss 64 16 _ _ _ l _ (by omega),
        canon_unit16_miss 48 16 _ _ _ l _ (by omega),
        canon_unit16_miss 32 16 _ _ _ l _ (by omega),
        canon_unit16_hit 16 _ _ _ l _]
      rfl
  | ⟨2, _⟩ => by
      show View.canon (P3 C) (ix1 ⟨32 + l.val, by have := l.isLt; omega⟩) = _
      unfold P3
      rw [canon_unit16_miss 240 32 _ _ _ l _ (by omega),
        canon_unit16_miss 224 32 _ _ _ l _ (by omega),
        canon_unit16_miss 208 32 _ _ _ l _ (by omega),
        canon_unit16_miss 192 32 _ _ _ l _ (by omega),
        canon_unit16_miss 176 32 _ _ _ l _ (by omega),
        canon_unit16_miss 160 32 _ _ _ l _ (by omega),
        canon_unit16_miss 144 32 _ _ _ l _ (by omega),
        canon_unit16_miss 128 32 _ _ _ l _ (by omega),
        canon_unit16_miss 112 32 _ _ _ l _ (by omega),
        canon_unit16_miss 96 32 _ _ _ l _ (by omega),
        canon_unit16_miss 80 32 _ _ _ l _ (by omega),
        canon_unit16_miss 64 32 _ _ _ l _ (by omega),
        canon_unit16_miss 48 32 _ _ _ l _ (by omega),
        canon_unit16_hit 32 _ _ _ l _]
      rfl
  | ⟨3, _⟩ => by
      show View.canon (P3 C) (ix1 ⟨48 + l.val, by have := l.isLt; omega⟩) = _
      unfold P3
      rw [canon_unit16_miss 240 48 _ _ _ l _ (by omega),
        canon_unit16_miss 224 48 _ _ _ l _ (by omega),
        canon_unit16_miss 208 48 _ _ _ l _ (by omega),
        canon_unit16_miss 192 48 _ _ _ l _ (by omega),
        canon_unit16_miss 176 48 _ _ _ l _ (by omega),
        canon_unit16_miss 160 48 _ _ _ l _ (by omega),
        canon_unit16_miss 144 48 _ _ _ l _ (by omega),
        canon_unit16_miss 128 48 _ _ _ l _ (by omega),
        canon_unit16_miss 112 48 _ _ _ l _ (by omega),
        canon_unit16_miss 96 48 _ _ _ l _ (by omega),
        canon_unit16_miss 80 48 _ _ _ l _ (by omega),
        canon_unit16_miss 64 48 _ _ _ l _ (by omega),
        canon_unit16_hit 48 _ _ _ l _]
      rfl
  | ⟨4, _⟩ => by
      show View.canon (P3 C) (ix1 ⟨64 + l.val, by have := l.isLt; omega⟩) = _
      unfold P3
      rw [canon_unit16_miss 240 64 _ _ _ l _ (by omega),
        canon_unit16_miss 224 64 _ _ _ l _ (by omega),
        canon_unit16_miss 208 64 _ _ _ l _ (by omega),
        canon_unit16_miss 192 64 _ _ _ l _ (by omega),
        canon_unit16_miss 176 64 _ _ _ l _ (by omega),
        canon_unit16_miss 160 64 _ _ _ l _ (by omega),
        canon_unit16_miss 144 64 _ _ _ l _ (by omega),
        canon_unit16_miss 128 64 _ _ _ l _ (by omega),
        canon_unit16_miss 112 64 _ _ _ l _ (by omega),
        canon_unit16_miss 96 64 _ _ _ l _ (by omega),
        canon_unit16_miss 80 64 _ _ _ l _ (by omega),
        canon_unit16_hit 64 _ _ _ l _]
      rfl
  | ⟨5, _⟩ => by
      show View.canon (P3 C) (ix1 ⟨80 + l.val, by have := l.isLt; omega⟩) = _
      unfold P3
      rw [canon_unit16_miss 240 80 _ _ _ l _ (by omega),
        canon_unit16_miss 224 80 _ _ _ l _ (by omega),
        canon_unit16_miss 208 80 _ _ _ l _ (by omega),
        canon_unit16_miss 192 80 _ _ _ l _ (by omega),
        canon_unit16_miss 176 80 _ _ _ l _ (by omega),
        canon_unit16_miss 160 80 _ _ _ l _ (by omega),
        canon_unit16_miss 144 80 _ _ _ l _ (by omega),
        canon_unit16_miss 128 80 _ _ _ l _ (by omega),
        canon_unit16_miss 112 80 _ _ _ l _ (by omega),
        canon_unit16_miss 96 80 _ _ _ l _ (by omega),
        canon_unit16_hit 80 _ _ _ l _]
      rfl
  | ⟨6, _⟩ => by
      show View.canon (P3 C) (ix1 ⟨96 + l.val, by have := l.isLt; omega⟩) = _
      unfold P3
      rw [canon_unit16_miss 240 96 _ _ _ l _ (by omega),
        canon_unit16_miss 224 96 _ _ _ l _ (by omega),
        canon_unit16_miss 208 96 _ _ _ l _ (by omega),
        canon_unit16_miss 192 96 _ _ _ l _ (by omega),
        canon_unit16_miss 176 96 _ _ _ l _ (by omega),
        canon_unit16_miss 160 96 _ _ _ l _ (by omega),
        canon_unit16_miss 144 96 _ _ _ l _ (by omega),
        canon_unit16_miss 128 96 _ _ _ l _ (by omega),
        canon_unit16_miss 112 96 _ _ _ l _ (by omega),
        canon_unit16_hit 96 _ _ _ l _]
      rfl
  | ⟨7, _⟩ => by
      show View.canon (P3 C) (ix1 ⟨112 + l.val, by have := l.isLt; omega⟩) = _
      unfold P3
      rw [canon_unit16_miss 240 112 _ _ _ l _ (by omega),
        canon_unit16_miss 224 112 _ _ _ l _ (by omega),
        canon_unit16_miss 208 112 _ _ _ l _ (by omega),
        canon_unit16_miss 192 112 _ _ _ l _ (by omega),
        canon_unit16_miss 176 112 _ _ _ l _ (by omega),
        canon_unit16_miss 160 112 _ _ _ l _ (by omega),
        canon_unit16_miss 144 112 _ _ _ l _ (by omega),
        canon_unit16_miss 128 112 _ _ _ l _ (by omega),
        canon_unit16_hit 112 _ _ _ l _]
      rfl
  | ⟨8, _⟩ => by
      show View.canon (P3 C) (ix1 ⟨128 + l.val, by have := l.isLt; omega⟩) = _
      unfold P3
      rw [canon_unit16_miss 240 128 _ _ _ l _ (by omega),
        canon_unit16_miss 224 128 _ _ _ l _ (by omega),
        canon_unit16_miss 208 128 _ _ _ l _ (by omega),
        canon_unit16_miss 192 128 _ _ _ l _ (by omega),
        canon_unit16_miss 176 128 _ _ _ l _ (by omega),
        canon_unit16_miss 160 128 _ _ _ l _ (by omega),
        canon_unit16_miss 144 128 _ _ _ l _ (by omega),
        canon_unit16_hit 128 _ _ _ l _]
      rfl
  | ⟨9, _⟩ => by
      show View.canon (P3 C) (ix1 ⟨144 + l.val, by have := l.isLt; omega⟩) = _
      unfold P3
      rw [canon_unit16_miss 240 144 _ _ _ l _ (by omega),
        canon_unit16_miss 224 144 _ _ _ l _ (by omega),
        canon_unit16_miss 208 144 _ _ _ l _ (by omega),
        canon_unit16_miss 192 144 _ _ _ l _ (by omega),
        canon_unit16_miss 176 144 _ _ _ l _ (by omega),
        canon_unit16_miss 160 144 _ _ _ l _ (by omega),
        canon_unit16_hit 144 _ _ _ l _]
      rfl
  | ⟨10, _⟩ => by
      show View.canon (P3 C) (ix1 ⟨160 + l.val, by have := l.isLt; omega⟩) = _
      unfold P3
      rw [canon_unit16_miss 240 160 _ _ _ l _ (by omega),
        canon_unit16_miss 224 160 _ _ _ l _ (by omega),
        canon_unit16_miss 208 160 _ _ _ l _ (by omega),
        canon_unit16_miss 192 160 _ _ _ l _ (by omega),
        canon_unit16_miss 176 160 _ _ _ l _ (by omega),
        canon_unit16_hit 160 _ _ _ l _]
      rfl
  | ⟨11, _⟩ => by
      show View.canon (P3 C) (ix1 ⟨176 + l.val, by have := l.isLt; omega⟩) = _
      unfold P3
      rw [canon_unit16_miss 240 176 _ _ _ l _ (by omega),
        canon_unit16_miss 224 176 _ _ _ l _ (by omega),
        canon_unit16_miss 208 176 _ _ _ l _ (by omega),
        canon_unit16_miss 192 176 _ _ _ l _ (by omega),
        canon_unit16_hit 176 _ _ _ l _]
      rfl
  | ⟨12, _⟩ => by
      show View.canon (P3 C) (ix1 ⟨192 + l.val, by have := l.isLt; omega⟩) = _
      unfold P3
      rw [canon_unit16_miss 240 192 _ _ _ l _ (by omega),
        canon_unit16_miss 224 192 _ _ _ l _ (by omega),
        canon_unit16_miss 208 192 _ _ _ l _ (by omega),
        canon_unit16_hit 192 _ _ _ l _]
      rfl
  | ⟨13, _⟩ => by
      show View.canon (P3 C) (ix1 ⟨208 + l.val, by have := l.isLt; omega⟩) = _
      unfold P3
      rw [canon_unit16_miss 240 208 _ _ _ l _ (by omega),
        canon_unit16_miss 224 208 _ _ _ l _ (by omega),
        canon_unit16_hit 208 _ _ _ l _]
      rfl
  | ⟨14, _⟩ => by
      show View.canon (P3 C) (ix1 ⟨224 + l.val, by have := l.isLt; omega⟩) = _
      unfold P3
      rw [canon_unit16_miss 240 224 _ _ _ l _ (by omega),
        canon_unit16_hit 224 _ _ _ l _]
      rfl
  | ⟨15, _⟩ => by
      show View.canon (P3 C) (ix1 ⟨240 + l.val, by have := l.isLt; omega⟩) = _
      unfold P3
      rw [canon_unit16_hit 240 _ _ _ l _]
      rfl
  | ⟨k + 16, hk⟩ => absurd hk (by omega)

/-- What a whole load of the count scratch reads. -/
noncomputable def F3 (C : Tup) : Vec Ideal S256 .i32 :=
  (Memref.whole cc0_scratch3).view.readCov (P3 C) (LoadRect.whole S256)

theorem F3_apply (C : Tup) (x l : Fin 16) :
    F3 C (ix1 ⟨16 * x.val + l.val, by have := x.isLt; have := l.isLt; omega⟩) = slotw C x l := by
  unfold F3
  rw [View.readCov_eq_canon']
  show View.canon (P3 C) ((Rect.whole S256).emb (ix1 ⟨16 * x.val + l.val, _⟩)) = _
  rw [Rect.emb_whole_apply]
  exact canon_P3 C l x

/-! ## The sixteen indexed loads, added up -/

/-- The indexed load of offset l. -/
noncomputable def gat (S : Vec Ideal S256 .i32) (l : ℕ) (hl : l < 16) : Vec Ideal S16 .i32 :=
  loadIdx S ![idxv l] (idxv_lt l hl)

/-- The totals: the sixteen indexed loads accumulated from zero, offsets 0 to 15 in order. -/
noncomputable def tot (S : Vec Ideal S256 .i32) : IVec S16 32 :=
  k0_pay159 (F := Ideal) (addi (addi (addi (addi (addi (addi (addi (addi (addi (addi (addi (addi (addi (addi tile_frame.sl.v34 (gat S 0 (by decide))) (gat S 1 (by decide))) (gat S 2 (by decide))) (gat S 3 (by decide))) (gat S 4 (by decide))) (gat S 5 (by decide))) (gat S 6 (by decide))) (gat S 7 (by decide))) (gat S 8 (by decide))) (gat S 9 (by decide))) (gat S 10 (by decide))) (gat S 11 (by decide))) (gat S 12 (by decide))) (gat S 13 (by decide)))
    (gat S 14 (by decide)) (gat S 15 (by decide))

theorem addi_apply (a b : IVec S16 32) (i : S16.Idx) : addi a b i = a i + b i := rfl
theorem v34_apply (i : S16.Idx) : tile_frame.sl.v34 i = BitVec.ofNat 32 0 := rfl

/-- A sum over sixteen lanes, accumulated from 0 in increasing order. -/
theorem sum_sixteen {M : Type*} [AddCommMonoid M] (g : Fin 16 → M) :
    ∑ l, g l = 0 + g 0 + g 1 + g 2 + g 3 + g 4 + g 5 + g 6 + g 7 + g 8 + g 9 + g 10 + g 11 + g 12 + g 13 + g 14 + g 15 := by
  simp only [Fin.sum_univ_castSucc, Fin.sum_univ_zero]
  rfl

/-- When word l of slot x is the word of the natural number N x l, lane x of the totals is the word of their sum. -/
theorem tot_apply (S : Vec Ideal S256 .i32) (N : Fin 16 → Fin 16 → ℕ)
    (hS : ∀ x l : Fin 16, S (ix1 ⟨16 * x.val + l.val, by have := x.isLt; have := l.isLt; omega⟩) = BitVec.ofNat 32 (N x l))
    (x : Fin 16) : tot S (ix1 x) = BitVec.ofNat 32 (∑ l : Fin 16, N x l) := by
  have g : ∀ (l : ℕ) (hl : l < 16), gat S l hl (ix1 x) = BitVec.ofNat 32 (N x ⟨l, hl⟩) := fun l hl => by
    unfold gat
    rw [loadIdx_idxv S l hl _ x]
    exact hS x ⟨l, hl⟩
  rw [sum_sixteen]
  simp only [tot, k0_pay159, addi_apply, v34_apply, g, BitVec.ofNat_add]
  rfl

/-! ## The sixteen indexed stores -/

theorem ofLane_eq_ix1 (k : Fin 16) : (Shape.ofLane (d := ![16]) k : S16.Idx) = ix1 k := by
  funext a
  obtain rfl : a = 0 := Subsingleton.elim _ _
  rfl

/-- An indexed store of T at 16 * lane + l' writes word l' of every slot x with T's lane x, and no other word. -/
theorem scat_apply (f : Vec Ideal S256 .i32) (T : Vec Ideal S16 .i32) (l' : ℕ) (hl' : l' < 16)
    (h : ∀ a x, ((![idxv l'] : Fin 1 → IVec S16 32) a x).toNat < S256.size a) (x l : Fin 16) :
    storeIdx (d := ![16]) f ![idxv l'] T (fun _ => 1#1) false h (ix1 ⟨16 * x.val + l.val, by have := x.isLt; have := l.isLt; omega⟩)
      = if l.val = l' then T (ix1 x) else f (ix1 ⟨16 * x.val + l.val, by have := x.isLt; have := l.isLt; omega⟩) := by
  have hlane : ∀ k : Fin 16, idxAt (s := S256) ![idxv l'] h (Shape.ofLane (d := ![16]) k)
      = ix1 ⟨16 * k.val + l', by have := k.isLt; omega⟩ := fun k => by
    rw [ofLane_eq_ix1]; exact idxAt_idxv l' hl' h k
  have hval : ∀ (a b : Fin 256), (ix1 a : S256.Idx) = ix1 b → a.val = b.val := fun a b e =>
    congrArg (fun (i : S256.Idx) => (i 0).val) e
  split_ifs with hc
  · have e : (ix1 ⟨16 * x.val + l.val, by have := x.isLt; have := l.isLt; omega⟩ : S256.Idx)
        = idxAt (s := S256) ![idxv l'] h (Shape.ofLane (d := ![16]) x) := by
      rw [hlane x]; congr 2; omega
    rw [e, storeIdx_hit (d := ![16]) f ![idxv l'] T h (fun k k' hk => by
      rw [hlane k, hlane k'] at hk
      have := hval _ _ hk
      exact Fin.ext (by simpa using this)) x, ofLane_eq_ix1]
  · refine storeIdx_miss (d := ![16]) f ![idxv l'] T h _ (fun k hk => ?_)
    rw [hlane k] at hk
    have := hval _ _ hk
    have hk16 := k.isLt; have hx16 := x.isLt; have hl16 := l.isLt
    simp only at this
    omega

/-- After the store of offset l', the words of offsets up to l' of every slot x hold T's lane x, if those below l'
    did before. -/
theorem store_inv (f : Vec Ideal S256 .i32) (T : Vec Ideal S16 .i32) (l' : ℕ) (hl' : l' < 16)
    (h : ∀ a x, ((![idxv l'] : Fin 1 → IVec S16 32) a x).toNat < S256.size a)
    (hinv : ∀ x l : Fin 16, l.val < l' → f (ix1 ⟨16 * x.val + l.val, by have := x.isLt; have := l.isLt; omega⟩) = T (ix1 x))
    (x l : Fin 16) (hl : l.val < l' + 1) :
    storeIdx (d := ![16]) f ![idxv l'] T (fun _ => 1#1) false h (ix1 ⟨16 * x.val + l.val, by have := x.isLt; have := l.isLt; omega⟩)
      = T (ix1 x) := by
  rw [scat_apply f T l' hl' h x l]
  split_ifs with hc
  · rfl
  · exact hinv x l (by omega)

/-! ## The run's own values -/

section Chain

variable (m : (ℓ : Loc nD τ sig) → Buf (Elt Ideal) ℓ) (d : Dev nD) (Lc : grid0.Coords)
  (f1 : Buf (Elt Ideal) ((thr d Lc).loc cc0_scratch1)) (f2 : Buf (Elt Ideal) ((thr d Lc).loc cc0_scratch2))
  (f4 : Buf (Elt Ideal) ((thr d Lc).loc cc0_scratch4)) (g1 : Chunk Ideal) (c2 : Tup)

/-- Each of the sixteen whole loads of the count scratch reads the filled scratch. -/
theorem f_eq : tile_frame.sl.f g1 c2 = F3 (tailC g1 c2) := rfl

/-- The totals vector the run computes is the sixteen indexed loads added up. -/
theorem r21_eq : tile_frame.sl.r_21 g1 c2 = tot (F3 (tailC g1 c2)) := rfl

/-- A whole load after a whole write reads what was written. -/
theorem readCov_whole_cons (w : (Rect.whole S256).shape.Idx → Elt Ideal .i32) (L : List (View.Piece (Elt Ideal) S256 .i32)) :
    (Memref.whole cc0_scratch4).view.readCov (⟨Rect.whole S256, w⟩ :: L) (LoadRect.whole S256) = w :=
  View.readCov_cons_toLoadRect _ (Rect.whole S256) w L

/-- After the sixteen indexed stores every word of slot x of the second scratch holds lane x of the totals. -/
theorem Hs4_read (x l : Fin 16) :
    View.canon (tile_frame.sl.Hs4_16 d Lc f4 g1 c2) (ix1 ⟨16 * x.val + l.val, by have := x.isLt; have := l.isLt; omega⟩)
      = tile_frame.sl.r_21 g1 c2 (ix1 x) := by
  have j0 : ∀ x l : Fin 16, l.val < 1 → tile_frame.sl.f_16 d Lc f4 g1 c2 (ix1 ⟨16 * x.val + l.val, by have := x.isLt; have := l.isLt; omega⟩) = tile_frame.sl.r_21 g1 c2 (ix1 x) := by
    intro x l hl
    unfold tile_frame.sl.f_16
    rw [readCov_whole_cons]
    exact store_inv _ (tile_frame.sl.r_21 g1 c2) 0 (by decide) _ (fun _ l h => absurd h (Nat.not_lt_zero _)) x l hl
  have j1 : ∀ x l : Fin 16, l.val < 2 → tile_frame.sl.f_17 d Lc f4 g1 c2 (ix1 ⟨16 * x.val + l.val, by have := x.isLt; have := l.isLt; omega⟩) = tile_frame.sl.r_21 g1 c2 (ix1 x) := by
    intro x l hl
    unfold tile_frame.sl.f_17
    rw [readCov_whole_cons]
    exact store_inv _ (tile_frame.sl.r_21 g1 c2) 1 (by decide) _ j0 x l hl
  have j2 : ∀ x l : Fin 16, l.val < 3 → tile_frame.sl.f_18 d Lc f4 g1 c2 (ix1 ⟨16 * x.val + l.val, by have := x.isLt; have := l.isLt; omega⟩) = tile_frame.sl.r_21 g1 c2 (ix1 x) := by
    intro x l hl
    unfold tile_frame.sl.f_18
    rw [readCov_whole_cons]
    exact store_inv _ (tile_frame.sl.r_21 g1 c2) 2 (by decide) _ j1 x l hl
  have j3 : ∀ x l : Fin 16, l.val < 4 → tile_frame.sl.f_19 d Lc f4 g1 c2 (ix1 ⟨16 * x.val + l.val, by have := x.isLt; have := l.isLt; omega⟩) = tile_frame.sl.r_21 g1 c2 (ix1 x) := by
    intro x l hl
    unfold tile_frame.sl.f_19
    rw [readCov_whole_cons]
    exact store_inv _ (tile_frame.sl.r_21 g1 c2) 3 (by decide) _ j2 x l hl
  have j4 : ∀ x l : Fin 16, l.val < 5 → tile_frame.sl.f_20 d Lc f4 g1 c2 (ix1 ⟨16 * x.val + l.val, by have := x.isLt; have := l.isLt; omega⟩) = tile_frame.sl.r_21 g1 c2 (ix1 x) := by
    intro x l hl
    unfold tile_frame.sl.f_20
    rw [readCov_whole_cons]
    exact store_inv _ (tile_frame.sl.r_21 g1 c2) 4 (by decide) _ j3 x l hl
  have j5 : ∀ x l : Fin 16, l.val < 6 → tile_frame.sl.f_21 d Lc f4 g1 c2 (ix1 ⟨16 * x.val + l.val, by have := x.isLt; have := l.isLt; omega⟩) = tile_frame.sl.r_21 g1 c2 (ix1 x) := by
    intro x l hl
    unfold tile_frame.sl.f_21
    rw [readCov_whole_cons]
    exact store_inv _ (tile_frame.sl.r_21 g1 c2) 5 (by decide) _ j4 x l hl
  have j6 : ∀ x l : Fin 16, l.val < 7 → tile_frame.sl.f_22 d Lc f4 g1 c2 (ix1 ⟨16 * x.val + l.val, by have := x.isLt; have := l.isLt; omega⟩) = tile_frame.sl.r_21 g1 c2 (ix1 x) := by
    intro x l hl
    unfold tile_frame.sl.f_22
    rw [readCov_whole_cons]
    exact store_inv _ (tile_frame.sl.r_21 g1 c2) 6 (by decide) _ j5 x l hl
  have j7 : ∀ x l : Fin 16, l.val < 8 → tile_frame.sl.f_23 d Lc f4 g1 c2 (ix1 ⟨16 * x.val + l.val, by have := x.isLt; have := l.isLt; omega⟩) = tile_frame.sl.r_21 g1 c2 (ix1 x) := by
    intro x l hl
    unfold tile_frame.sl.f_23
    rw [readCov_whole_cons]
    exact store_inv _ (tile_frame.sl.r_21 g1 c2) 7 (by decide) _ j6 x l hl
  have j8 : ∀ x l : Fin 16, l.val < 9 → tile_frame.sl.f_24 d Lc f4 g1 c2 (ix1 ⟨16 * x.val + l.val, by have := x.isLt; have := l.isLt; omega⟩) = tile_frame.sl.r_21 g1 c2 (ix1 x) := by
    intro x l hl
    unfold tile_frame.sl.f_24
    rw [readCov_whole_cons]
    exact store_inv _ (tile_frame.sl.r_21 g1 c2) 8 (by decide) _ j7 x l hl
  have j9 : ∀ x l : Fin 16, l.val < 10 → tile_frame.sl.f_25 d Lc f4 g1 c2 (ix1 ⟨16 * x.val + l.val, by have := x.isLt; have := l.isLt; omega⟩) = tile_frame.sl.r_21 g1 c2 (ix1 x) := by
    intro x l hl
    unfold tile_frame.sl.f_25
    rw [readCov_whole_cons]
    exact store_inv _ (tile_frame.sl.r_21 g1 c2) 9 (by decide) _ j8 x l hl
  have j10 : ∀ x l : Fin 16, l.val < 11 → tile_frame.sl.f_26 d Lc f4 g1 c2 (ix1 ⟨16 * x.val + l.val, by have := x.isLt; have := l.isLt; omega⟩) = tile_frame.sl.r_21 g1 c2 (ix1 x) := by
    intro x l hl
    unfold tile_frame.sl.f_26
    rw [readCov_whole_cons]
    exact store_inv _ (tile_frame.sl.r_21 g1 c2) 10 (by decide) _ j9 x l hl
  have j11 : ∀ x l : Fin 16, l.val < 12 → tile_frame.sl.f_27 d Lc f4 g1 c2 (ix1 ⟨16 * x.val + l.val, by have := x.isLt; have := l.isLt; omega⟩) = tile_frame.sl.r_21 g1 c2 (ix1 x) := by
    intro x l hl
    unfold tile_frame.sl.f_27
    rw [readCov_whole_cons]
    exact store_inv _ (tile_frame.sl.r_21 g1 c2) 11 (by decide) _ j10 x l hl
  have j12 : ∀ x l : Fin 16, l.val < 13 → tile_frame.sl.f_28 d Lc f4 g1 c2 (ix1 ⟨16 * x.val + l.val, by have := x.isLt; have := l.isLt; omega⟩) = tile_frame.sl.r_21 g1 c2 (ix1 x) := by
    intro x l hl
    unfold tile_frame.sl.f_28
    rw [readCov_whole_cons]
    exact store_inv _ (tile_frame.sl.r_21 g1 c2) 12 (by decide) _ j11 x l hl
  have j13 : ∀ x l : Fin 16, l.val < 14 → tile_frame.sl.f_29 d Lc f4 g1 c2 (ix1 ⟨16 * x.val + l.val, by have := x.isLt; have := l.isLt; omega⟩) = tile_frame.sl.r_21 g1 c2 (ix1 x) := by
    intro x l hl
    unfold tile_frame.sl.f_29
    rw [readCov_whole_cons]
    exact store_inv _ (tile_frame.sl.r_21 g1 c2) 13 (by decide) _ j12 x l hl
  have j14 : ∀ x l : Fin 16, l.val < 15 → tile_frame.sl.f_30 d Lc f4 g1 c2 (ix1 ⟨16 * x.val + l.val, by have := x.isLt; have := l.isLt; omega⟩) = tile_frame.sl.r_21 g1 c2 (ix1 x) := by
    intro x l hl
    unfold tile_frame.sl.f_30
    rw [readCov_whole_cons]
    exact store_inv _ (tile_frame.sl.r_21 g1 c2) 14 (by decide) _ j13 x l hl
  unfold tile_frame.sl.Hs4_16
  rw [canon_whole]
  exact store_inv _ (tile_frame.sl.r_21 g1 c2) 15 (by decide) _ j14 x l (by have := l.isLt; omega)

end Chain

section Row

variable (m : (ℓ : Loc nD τ sig) → Buf (Elt Ideal) ℓ) (d : Dev nD) (Lc : grid0.Coords)
  (f1 : Buf (Elt Ideal) ((thr d Lc).loc cc0_scratch1)) (f2 : Buf (Elt Ideal) ((thr d Lc).loc cc0_scratch2))
  (f4 : Buf (Elt Ideal) ((thr d Lc).loc cc0_scratch4)) (g1 : Chunk Ideal) (c2 : Tup)

/-- A sixteen-word load of slot dd of the second scratch reads lane dd of the totals in every lane. -/
theorem slot_read (o dd : ℕ) (hdd : dd < 16) (ho : o = 16 * dd)
    (inb : ∀ a, (![o] : Fin 1 → ℕ) a + S16.size a ≤ S256.size a) (y : S16.Idx) :
    (Memref.whole cc0_scratch4).view.readCov (tile_frame.sl.Hs4_16 d Lc f4 g1 c2)
        (Rect.unit (s := S256) ![o] S16.size inb).toLoadRect y
      = tile_frame.sl.r_21 g1 c2 (ix1 ⟨dd, hdd⟩) := by
  subst ho
  rw [View.readCov_eq_canon']
  have e : (Rect.unit (s := S256) ![16 * dd] S16.size inb).toLoadRect.idx y
      = ix1 ⟨16 * (⟨dd, hdd⟩ : Fin 16).val + (y 0).val, by have hy : (y 0).val < 16 := (y 0).isLt; omega⟩ := by
    funext a; apply Fin.ext
    obtain rfl : a = 0 := Subsingleton.elim _ _
    show 16 * dd + 1 * (y 0).val = 16 * dd + (y 0).val
    omega
  show View.canon _ ((Rect.unit (s := S256) ![16 * dd] S16.size inb).toLoadRect.idx y) = _
  rw [e]
  exact Hs4_read d Lc f4 g1 c2 ⟨dd, hdd⟩ (y 0)

/-- A row load of the worker's copy of the table reads the table's row. -/
theorem trow (r : ℕ) (hr : r < 10) (inb : ∀ a, (![r, 0] : Fin 2 → ℕ) a + S1x16.size a ≤ S10x16.size a) (j : Fin 16) :
    View.readAt (Elt Ideal) (Memref.whole cc0_scratch1).view (Rect.unit (s := S10x16) ![r, 0] S1x16.size inb).toLoadRect
        (View.write (Elt Ideal) (Memref.whole cc0_scratch1).view f1 (tile_frame.sl.dma0_2 m d) Finset.univ) (ix2 (0 : Fin 1) j)
      = (m (tLoc d)) (ix2 ⟨r, hr⟩ j) := by
  rw [View.readAt_apply, View.read_write_univ]
  have e : (Rect.unit (s := S10x16) ![r, 0] S1x16.size inb).toLoadRect.idx (ix2 (0 : Fin 1) j) = ix2 ⟨r, hr⟩ j := by
    funext a; apply Fin.ext
    match a with
    | ⟨0, _⟩ => show r + 1 * 0 = r; omega
    | ⟨1, _⟩ => show 0 + 1 * j.val = j.val; omega
  rw [e]
  rfl

/-- THE ROW FROM THE TEN COUNT VECTORS: when lane l of digit dd's final count vector is the word of the natural number
    n dd l, and each digit's lanes add up to less than 2^31, the row the worker copies out holds at column j the sum
    over the digits of (the total of the digit's lanes) times (the table at (dd, j)), times 1/1048576. -/
theorem dma24_of_counts (n : Fin 10 → Fin 16 → ℕ)
    (hC : ∀ (dd : Fin 10) (l : Fin 16), comp (tailC g1 c2) dd (ix1 l) = BitVec.ofNat 32 (n dd l))
    (hn : ∀ dd, ∑ l : Fin 16, n dd l < 2 ^ 31) (j : Fin 16) :
    tile_frame.sl.dma24 m d Lc f1 f2 f4 g1 c2 (ix1 j)
      = (∑ dd : Fin 10, (((∑ l : Fin 16, n dd l : ℕ) : ℝ) : EReal) * (m (tLoc d)) (ix2 dd j))
          * (((1 / 1048576 : ℝ) : ℝ) : EReal) := by
  have hS : ∀ x l : Fin 16, F3 (tailC g1 c2) (ix1 ⟨16 * x.val + l.val, by have := x.isLt; have := l.isLt; omega⟩)
      = BitVec.ofNat 32 ((fun (x l : Fin 16) => if h : x.val < 10 then n ⟨x.val, h⟩ l else 0) x l) := fun x l => by
    rw [F3_apply]
    unfold slotw
    by_cases h : x.val < 10
    · rw [dif_pos h]; simp only [dif_pos h]; exact hC ⟨x.val, h⟩ l
    · rw [dif_neg h]; simp only [dif_neg h]
  have hTd : ∀ dd : Fin 10, tile_frame.sl.r_21 g1 c2 (ix1 ⟨dd.val, by have := dd.isLt; omega⟩)
      = BitVec.ofNat 32 (∑ l : Fin 16, n dd l) := fun dd => by
    rw [r21_eq, tot_apply _ _ hS]
    refine congrArg (BitVec.ofNat 32) (Finset.sum_congr rfl (fun l _ => ?_))
    simp only [dif_pos dd.isLt]
  have e0 : (Rect.unit (s := S16) ![0] S16.size inb_S16_S16_0).emb (ix1 j) = ix1 j := by
    funext a; apply Fin.ext
    obtain rfl : a = 0 := Subsingleton.elim _ _
    show 0 + 1 * j.val = j.val
    omega
  unfold tile_frame.sl.dma24
  rw [ReadAs.apply_same]
  unfold tile_frame.sl.Hs2_1
  rw [← e0, View.read_writes_cons_emb]
  unfold tile_frame.sl.r_24 tile_frame.sl.r_22 tile_frame.sl.r_23 tile_frame.sl.r_25
  exact Cert.Proof.KI.RowVal.rowVal (m (tLoc d)) (fun dd => ∑ l : Fin 16, n dd l) hn
    (tile_frame.sl.v530 d Lc f4 g1 c2) (tile_frame.sl.v536 d Lc f4 g1 c2) (tile_frame.sl.v542 d Lc f4 g1 c2) (tile_frame.sl.v548 d Lc f4 g1 c2) (tile_frame.sl.v554 d Lc f4 g1 c2) (tile_frame.sl.v560 d Lc f4 g1 c2) (tile_frame.sl.v566 d Lc f4 g1 c2) (tile_frame.sl.v572 d Lc f4 g1 c2) (tile_frame.sl.v578 d Lc f4 g1 c2) (tile_frame.sl.v584 d Lc f4 g1 c2)
    (fun y => by
      unfold tile_frame.sl.v530
      exact (slot_read d Lc f4 g1 c2 0 0 (by decide) (by norm_num) _ y).trans (hTd 0))
    (fun y => by
      unfold tile_frame.sl.v536
      exact (slot_read d Lc f4 g1 c2 16 1 (by decide) (by norm_num) _ y).trans (hTd 1))
    (fun y => by
      unfold tile_frame.sl.v542
      exact (slot_read d Lc f4 g1 c2 32 2 (by decide) (by norm_num) _ y).trans (hTd 2))
    (fun y => by
      unfold tile_frame.sl.v548
      exact (slot_read d Lc f4 g1 c2 48 3 (by decide) (by norm_num) _ y).trans (hTd 3))
    (fun y => by
      unfold tile_frame.sl.v554
      exact (slot_read d Lc f4 g1 c2 64 4 (by decide) (by norm_num) _ y).trans (hTd 4))
    (fun y => by
      unfold tile_frame.sl.v560
      exact (slot_read d Lc f4 g1 c2 80 5 (by decide) (by norm_num) _ y).trans (hTd 5))
    (fun y => by
      unfold tile_frame.sl.v566
      exact (slot_read d Lc f4 g1 c2 96 6 (by decide) (by norm_num) _ y).trans (hTd 6))
    (fun y => by
      unfold tile_frame.sl.v572
      exact (slot_read d Lc f4 g1 c2 112 7 (by decide) (by norm_num) _ y).trans (hTd 7))
    (fun y => by
      unfold tile_frame.sl.v578
      exact (slot_read d Lc f4 g1 c2 128 8 (by decide) (by norm_num) _ y).trans (hTd 8))
    (fun y => by
      unfold tile_frame.sl.v584
      exact (slot_read d Lc f4 g1 c2 144 9 (by decide) (by norm_num) _ y).trans (hTd 9))
    (tile_frame.sl.v533_ld m d Lc f1) (tile_frame.sl.v539_ld m d Lc f1) (tile_frame.sl.v545_ld m d Lc f1) (tile_frame.sl.v551_ld m d Lc f1) (tile_frame.sl.v557_ld m d Lc f1) (tile_frame.sl.v563_ld m d Lc f1) (tile_frame.sl.v569_ld m d Lc f1) (tile_frame.sl.v575_ld m d Lc f1) (tile_frame.sl.v581_ld m d Lc f1) (tile_frame.sl.v587_ld m d Lc f1)
    (fun j' => by
      unfold tile_frame.sl.v533_ld
      exact trow m d Lc f1 0 (by decide) _ j')
    (fun j' => by
      unfold tile_frame.sl.v539_ld
      exact trow m d Lc f1 1 (by decide) _ j')
    (fun j' => by
      unfold tile_frame.sl.v545_ld
      exact trow m d Lc f1 2 (by decide) _ j')
    (fun j' => by
      unfold tile_frame.sl.v551_ld
      exact trow m d Lc f1 3 (by decide) _ j')
    (fun j' => by
      unfold tile_frame.sl.v557_ld
      exact trow m d Lc f1 4 (by decide) _ j')
    (fun j' => by
      unfold tile_frame.sl.v563_ld
      exact trow m d Lc f1 5 (by decide) _ j')
    (fun j' => by
      unfold tile_frame.sl.v569_ld
      exact trow m d Lc f1 6 (by decide) _ j')
    (fun j' => by
      unfold tile_frame.sl.v575_ld
      exact trow m d Lc f1 7 (by decide) _ j')
    (fun j' => by
      unfold tile_frame.sl.v581_ld
      exact trow m d Lc f1 8 (by decide) _ j')
    (fun j' => by
      unfold tile_frame.sl.v587_ld
      exact trow m d Lc f1 9 (by decide) _ j')
    j

/-- The same, from the ten counters holding lane by lane the numbers n l 0, ..., n l 9. -/
theorem dma24_of_Counts (n : S16.Idx → ℕ → ℕ) (hC : Counts (tailC g1 c2) n)
    (hb : ∀ dd : Fin 10, (∑ l : Fin 16, n (ix1 l) dd.val) < 2 ^ 31) (j : Fin 16) :
    tile_frame.sl.dma24 m d Lc f1 f2 f4 g1 c2 (ix1 j)
      = (∑ dd : Fin 10, (((∑ l : Fin 16, n (ix1 l) dd.val : ℕ) : ℝ) : EReal) * (m (tLoc d)) (ix2 dd j))
          * (((1 / 1048576 : ℝ) : ℝ) : EReal) :=
  dma24_of_counts m d Lc f1 f2 f4 g1 c2 (fun dd l => n (ix1 l) dd.val) (fun dd l => by
    have h := hC (ix1 l)
    match dd with
    | ⟨0, _⟩ => exact h.1
    | ⟨1, _⟩ => exact h.2.1
    | ⟨2, _⟩ => exact h.2.2.1
    | ⟨3, _⟩ => exact h.2.2.2.1
    | ⟨4, _⟩ => exact h.2.2.2.2.1
    | ⟨5, _⟩ => exact h.2.2.2.2.2.1
    | ⟨6, _⟩ => exact h.2.2.2.2.2.2.1
    | ⟨7, _⟩ => exact h.2.2.2.2.2.2.2.1
    | ⟨8, _⟩ => exact h.2.2.2.2.2.2.2.2.1
    | ⟨9, _⟩ => exact h.2.2.2.2.2.2.2.2.2
    | ⟨k + 10, hk⟩ => exact absurd hk (by omega)) hb j

end Row

end Cert.Proof.KI.ValRow

end
-- ==== Proof.KI.ValFinal.lean ====
/-
  The worker's written row is its value: the pieces put together.

  Once both copies have landed the chunk holds the worker's 32768 digits. The ten lane-count vectors after all the
  blocks hold, lane by lane, the number of vectors of the chunk whose word in that lane reads each digit; summed over
  the sixteen lanes that is the worker's count of the digit. The row the task writes out is, per column, the sum over
  the digits of (count) times (table row), times 1/1048576, and it is read back at (w, j) as the written vector at j.
-/
import proofs.«205564_g40879498729249_retrytranche2_1872_24_alg».proof.Proof.KI.ValGlue
import proofs.«205564_g40879498729249_retrytranche2_1872_24_alg».proof.Proof.KI.ValCounts
import proofs.«205564_g40879498729249_retrytranche2_1872_24_alg».proof.Proof.KI.ValRow

noncomputable section

namespace Cert.Proof.KI

open Cert.KernelIdeal Cert.KernelIdeal.Gen

open Idealize.ShloMosaic Idealize.ShloMosaic.ValueIdx
open Idealize.ShloMosaic.SparseCore (S V T)
open Idealize.SL.Sem

variable (m : (ℓ : Loc nD τ sig) → Buf (Elt Ideal) ℓ)

theorem row_is_final (hdig : ∀ d n, ((m (dLoc d)) n).toNat ≤ 9) :
    ∀ (d : Dev nD) (Lc : grid0.Coords) (f0 : Chunk Ideal) (f1 : Buf (Elt Ideal) ((thr d Lc).loc cc0_scratch1))
      (f2 : Buf (Elt Ideal) ((thr d Lc).loc cc0_scratch2)) (f4 : Buf (Elt Ideal) ((thr d Lc).loc cc0_scratch4)),
      RowIs m d (wL Lc) ((oRowK Lc).view.writes (Elt Ideal) (m (oLoc d))
        [⟨Rect.whole S16, tile_frame.sl.dma24 m d Lc f1 f2 f4 (landed1 m d Lc f0) (iter2 (landed1 m d Lc f0) (iter1 (landed0 m d Lc f0) 18) 18)⟩]) := by
  intro d Lc f0 f1 f2 f4 j
  obtain ⟨n, hC, hn⟩ := counts_landed m hdig d Lc f0
  rw [rowK_write_apply]
  rw [ValRow.dma24_of_Counts m d Lc f1 f2 f4 (landed1 m d Lc f0) (iter2 (landed1 m d Lc f0) (iter1 (landed0 m d Lc f0) 18) 18) n hC
    (fun dd => by rw [hn]; exact cntOf_lt _ _ _) j]
  refine congrArg (· * _) (Finset.sum_congr rfl fun dd _ => ?_)
  rw [hn]

end Cert.Proof.KI

end
-- ==== Proof.KI.TileVal.lean ====
/-
  One tile's body obligation at the ideal values, with the row predicate that says the row holds the worker's value.
-/
import proofs.«205564_g40879498729249_retrytranche2_1872_24_alg».proof.Proof.KI.TileValOf
import proofs.«205564_g40879498729249_retrytranche2_1872_24_alg».proof.Proof.KI.ValFinal

noncomputable section

namespace Cert.Proof.KI

open Cert.KernelIdeal Cert.KernelIdeal.Gen

open Idealize.ShloMosaic
open Idealize.SL.Sem

variable (m : (ℓ : Loc nD τ sig) → Buf (Elt Ideal) ℓ)

theorem tile_val (hdig : ∀ d n, ((m (dLoc d)) n).toNat ≤ 9) : TileBody (F := Ideal) m (RowIs m) :=
  tile_val_of m (row_is_final m hdig)

end Cert.Proof.KI

end
-- ==== Proof.KI.RowIsLocal.lean ====
/-
  The worker's row value reads only its own row: arrays that agree on row w satisfy it alike.
-/
import proofs.«205564_g40879498729249_retrytranche2_1872_24_alg».proof.Proof.KI.RowIs
import proofs.«205564_g40879498729249_retrytranche2_1872_24_alg».proof.Proof.KI.Launch

noncomputable section

namespace Cert.Proof.KI

open Cert.KernelIdeal Cert.KernelIdeal.Gen

open Idealize.ShloMosaic Idealize.ShloMosaic.ValueIdx
open Idealize.SL.Sem

variable (m : (ℓ : Loc nD τ sig) → Buf (Elt Ideal) ℓ)

theorem rowIs_local : RowLocal (RowIs m) := by
  intro d w f f' h hf j
  rw [← h (ix2 w j) (ix2_mem_rowSet w j)]
  exact hf j

end Cert.Proof.KI

end
-- ==== Proof.Ref.Ops.lean ====
/-
  The reference program as a straight line of its host operations, the calls unfolded at their call sites,
  and the composed pure term of the two arguments that the line leaves in the result buffer, stage by stage.
-/
import proofs.«205564_g40879498729249_retrytranche2_1872_24_alg».proof.Proof.Gen.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The composed term, stage by stage -/

/-- A digit below zero (read signed) is moved up by ten; any other is kept. -/
def wrapped (dg : IVec S1048576 32) : IVec S1048576 32 :=
  select (cmpi .slt dg (broadcastInDim S1048576 ![] bcast_S_S1048576 (constantI S_ 32 0#32)))
    (addi dg (broadcastInDim S1048576 ![] bcast_S_S1048576 (constantI S_ 32 10#32))) dg

/-- The wrapped digits as a column of start indices. -/
def startIdx (dg : IVec S1048576 32) : IVec S1048576x1 32 :=
  broadcastInDim S1048576x1 ![0] bcast_S1048576_S1048576x1_0 (wrapped dg)

/-- Per position: is the start index between 0 and 9 (signed)? -/
def inRange (dg : IVec S1048576 32) : IVec S1048576 1 :=
  Host.reduce IntOp.andi
    (andi (cmpi .sge (startIdx dg) (broadcastInDim S1048576x1 ![] bcast_S_S1048576x1 (constantI S_ 32 0#32)))
      (cmpi .sle (startIdx dg) (broadcastInDim S1048576x1 ![0, 1] bcast_S1x1_S1048576x1_0_1
        (broadcastInDim S1x1 ![1] bcast_S1_S1x1_1 (constantI S1 32 9#32)))))
    (constantI S_ 1 1#1) reducesTo_S1048576x1_S1048576_d1 h_S_

/-- The looked-up rows: the gathered row where the index is in range, the fill value elsewhere. -/
def taken (dg : IVec S1048576 32) (tb : FVec F S10x16 .f32) : FVec F S1048576x16 .f32 :=
  select (broadcastInDim S1048576x16 ![0] bcast_S1048576_S1048576x16_0 (inRange dg))
    (Host.gather gather_S10x16_S1048576x1_S1048576x16_1_0_n_n_0_1_116 tb (startIdx dg))
    (broadcastInDim S1048576x16 ![] bcast_S_S1048576x16 (constant S_ .f32 0x7FC00000#32))

/-- The reference's result: the column sums of the looked-up rows, divided by 2^20. -/
def refTerm (dg : IVec S1048576 32) (tb : FVec F S10x16 .f32) : FVec F S16 .f32 :=
  Host.divf (Host.reduceAdd (taken dg tb) (constant S_ .f32 0x00000000#32) reducesTo_S1048576x16_S16_d0 h_S_)
    (broadcastInDim S16 ![] bcast_S_S16 (constant S_ .f32 0x49800000#32))

/-! ## The operations -/

/-- @main's operations in order, the two calls unfolded: the twenty-three of the lookup (one of them the
    inner select), then the sum's initial value, the sum, the divisor, its broadcast, the division. -/
abbrev ops : List (HloOp τ sig (Elt F)) :=
  [ TRef.nullary main_call0.c (constantI S_ 32 0#32),
    TRef.unary main_call0.c main_call0.v0 (broadcastInDim S1048576 ![] bcast_S_S1048576),
    TRef.binary (.of main_arg0) main_call0.v0 main_call0.v1 (cmpi .slt),
    TRef.nullary main_call0.c_0 (constantI S_ 32 10#32),
    TRef.unary main_call0.c_0 main_call0.v2 (broadcastInDim S1048576 ![] bcast_S_S1048576),
    TRef.binary (.of main_arg0) main_call0.v2 main_call0.v3 addi,
    TRef.ternary main_call0.v1 main_call0.v3 (.of main_arg0) main_call0.call0.v0 select,
    TRef.unary main_call0.call0.v0 main_call0.v5 (broadcastInDim S1048576x1 ![0] bcast_S1048576_S1048576x1_0),
    TRef.nullary main_call0.c_1 (constantI S1 32 9#32),
    TRef.nullary main_call0.c_2 (constantI S_ 32 0#32),
    TRef.unary main_call0.c_2 main_call0.v6 (broadcastInDim S1048576x1 ![] bcast_S_S1048576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1048576x1 ![0, 1] bcast_S1x1_S1048576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1048576x1_S1048576_d1 h_S_),
    TRef.binary (.of main_arg1) main_call0.v5 main_call0.v13 (fun x i => Host.gather gather_S10x16_S1048576x1_S1048576x16_1_0_n_n_0_1_116 x i),
    TRef.unary main_call0.v12 main_call0.v14 (broadcastInDim S1048576x16 ![0] bcast_S1048576_S1048576x16_0),
    TRef.nullary main_call0.cst (constant S_ .f32 0x7FC00000#32),
    TRef.unary main_call0.cst main_call0.v15 (broadcastInDim S1048576x16 ![] bcast_S_S1048576x16),
    TRef.ternary main_call0.v14 main_call0.v13 main_call0.v15 main_call0.v16 select,
    nullary main_cst (constant S_ .f32 0x00000000#32),
    binary main_v0 main_cst main_v1 ((fun x v => Host.reduceAdd x v reducesTo_S1048576x16_S16_d0 h_S_) : (⟨S1048576x16, .f32⟩ : BufTy).Contents (Elt F) → (⟨S_, .f32⟩ : BufTy).Contents (Elt F) → (⟨S16, .f32⟩ : BufTy).Contents (Elt F)),
    nullary main_cst_0 (constant S_ .f32 0x49800000#32),
    unary main_cst_0 main_v2 (broadcastInDim S16 ![] bcast_S_S16 : (⟨S_, .f32⟩ : BufTy).Contents (Elt F) → (⟨S16, .f32⟩ : BufTy).Contents (Elt F)),
    binary main_v1 main_v2 main_v3 (Host.divf : (⟨S16, .f32⟩ : BufTy).Contents (Elt F) → (⟨S16, .f32⟩ : BufTy).Contents (Elt F) → (⟨S16, .f32⟩ : BufTy).Contents (Elt F)) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub ..⟩

end Cert.RefRun

end
-- ==== Proof.Ref.Run.lean ====
/-
  The run of the reference program: every weakly fair execution ends with the result buffer at the operations'
  composed pure term of the two arguments, the arguments unchanged. The fold of the operations is read in four
  consecutive stretches, each from an arbitrary valuation: the start indices, the range mask, the looked-up
  rows, the mean.
-/
import proofs.«205564_g40879498729249_retrytranche2_1872_24_alg».proof.Proof.Ref.Ops

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The fold of two lines run one after the other is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first stretch: the wrap of negative digits and the column of start indices. -/
abbrev opsA : List (HloOp τ sig (Elt F)) :=
  [ TRef.nullary main_call0.c (constantI S_ 32 0#32),
    TRef.unary main_call0.c main_call0.v0 (broadcastInDim S1048576 ![] bcast_S_S1048576),
    TRef.binary (.of main_arg0) main_call0.v0 main_call0.v1 (cmpi .slt),
    TRef.nullary main_call0.c_0 (constantI S_ 32 10#32),
    TRef.unary main_call0.c_0 main_call0.v2 (broadcastInDim S1048576 ![] bcast_S_S1048576),
    TRef.binary (.of main_arg0) main_call0.v2 main_call0.v3 addi,
    TRef.ternary main_call0.v1 main_call0.v3 (.of main_arg0) main_call0.call0.v0 select,
    TRef.unary main_call0.call0.v0 main_call0.v5 (broadcastInDim S1048576x1 ![0] bcast_S1048576_S1048576x1_0) ]

/-- The second stretch: the two range tests and their reduction to the mask. -/
abbrev opsB : List (HloOp τ sig (Elt F)) :=
  [ TRef.nullary main_call0.c_1 (constantI S1 32 9#32),
    TRef.nullary main_call0.c_2 (constantI S_ 32 0#32),
    TRef.unary main_call0.c_2 main_call0.v6 (broadcastInDim S1048576x1 ![] bcast_S_S1048576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1048576x1 ![0, 1] bcast_S1x1_S1048576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1048576x1_S1048576_d1 h_S_) ]

/-- The third stretch: the gather and the masked select. -/
abbrev opsC : List (HloOp τ sig (Elt F)) :=
  [ TRef.binary (.of main_arg1) main_call0.v5 main_call0.v13 (fun x i => Host.gather gather_S10x16_S1048576x1_S1048576x16_1_0_n_n_0_1_116 x i),
    TRef.unary main_call0.v12 main_call0.v14 (broadcastInDim S1048576x16 ![0] bcast_S1048576_S1048576x16_0),
    TRef.nullary main_call0.cst (constant S_ .f32 0x7FC00000#32),
    TRef.unary main_call0.cst main_call0.v15 (broadcastInDim S1048576x16 ![] bcast_S_S1048576x16),
    TRef.ternary main_call0.v14 main_call0.v13 main_call0.v15 main_call0.v16 select ]

/-- The fourth stretch: the column sums and the division. -/
abbrev opsD : List (HloOp τ sig (Elt F)) :=
  [ nullary main_cst (constant S_ .f32 0x00000000#32),
    binary main_v0 main_cst main_v1 ((fun x v => Host.reduceAdd x v reducesTo_S1048576x16_S16_d0 h_S_) : (⟨S1048576x16, .f32⟩ : BufTy).Contents (Elt F) → (⟨S_, .f32⟩ : BufTy).Contents (Elt F) → (⟨S16, .f32⟩ : BufTy).Contents (Elt F)),
    nullary main_cst_0 (constant S_ .f32 0x49800000#32),
    unary main_cst_0 main_v2 (broadcastInDim S16 ![] bcast_S_S16 : (⟨S_, .f32⟩ : BufTy).Contents (Elt F) → (⟨S16, .f32⟩ : BufTy).Contents (Elt F)),
    binary main_v1 main_v2 main_v3 (Host.divf : (⟨S16, .f32⟩ : BufTy).Contents (Elt F) → (⟨S16, .f32⟩ : BufTy).Contents (Elt F) → (⟨S16, .f32⟩ : BufTy).Contents (Elt F)) ]

/-- The line is the four stretches in order. -/
theorem ops_split : (ops : List (HloOp τ sig (Elt F))) = opsA ++ (opsB ++ (opsC ++ opsD)) := rfl

section Stretches
attribute [local irreducible] Host.reduce Host.gather Host.reduceAdd

/-- After the first stretch the start-index column holds the wrapped digits. -/
theorem afterA_v5 (W : Valuation τ sig (Elt F)) :
    after opsA W (main_call0_v5 : DevRef τ sig) = startIdx (W (main_arg0 : DevRef τ sig)) := by
  simp only [after_cons, after_nil]
  rfl

theorem afterA_arg1 (W : Valuation τ sig (Elt F)) :
    after opsA W (main_arg1 : DevRef τ sig) = W (main_arg1 : DevRef τ sig) := by
  simp only [after_cons, after_nil]
  rfl

/-- After the second stretch the mask buffer holds the reduction of the two range tests of the start indices. -/
theorem afterB_v12 (W : Valuation τ sig (Elt F)) :
    after opsB W (main_call0_v12 : DevRef τ sig)
      = Host.reduce IntOp.andi
          (andi (cmpi .sge (W (main_call0_v5 : DevRef τ sig)) (broadcastInDim S1048576x1 ![] bcast_S_S1048576x1 (constantI S_ 32 0#32)))
            (cmpi .sle (W (main_call0_v5 : DevRef τ sig)) (broadcastInDim S1048576x1 ![0, 1] bcast_S1x1_S1048576x1_0_1
              (broadcastInDim S1x1 ![1] bcast_S1_S1x1_1 (constantI S1 32 9#32)))))
          (constantI S_ 1 1#1) reducesTo_S1048576x1_S1048576_d1 h_S_ := by
  simp only [after_cons, after_nil]
  rfl

theorem afterB_v5 (W : Valuation τ sig (Elt F)) :
    after opsB W (main_call0_v5 : DevRef τ sig) = W (main_call0_v5 : DevRef τ sig) := by
  simp only [after_cons, after_nil]
  rfl

theorem afterB_arg1 (W : Valuation τ sig (Elt F)) :
    after opsB W (main_arg1 : DevRef τ sig) = W (main_arg1 : DevRef τ sig) := by
  simp only [after_cons, after_nil]
  rfl

/-- After the third stretch the rows buffer holds the gathered rows under the mask. -/
theorem afterC_v0 (W : Valuation τ sig (Elt F)) :
    after opsC W (main_v0 : DevRef τ sig)
      = select (broadcastInDim S1048576x16 ![0] bcast_S1048576_S1048576x16_0 (W (main_call0_v12 : DevRef τ sig)))
          (Host.gather gather_S10x16_S1048576x1_S1048576x16_1_0_n_n_0_1_116 (W (main_arg1 : DevRef τ sig)) (W (main_call0_v5 : DevRef τ sig)))
          (broadcastInDim S1048576x16 ![] bcast_S_S1048576x16 (constant S_ .f32 0x7FC00000#32)) := by
  simp only [after_cons, after_nil]
  rfl

/-- After the fourth stretch the result buffer holds the column sums of the rows buffer divided by 2^20. -/
theorem afterD_v3 (W : Valuation τ sig (Elt F)) :
    after opsD W (main_v3 : DevRef τ sig)
      = Host.divf (Host.reduceAdd (W (main_v0 : DevRef τ sig)) (constant S_ .f32 0x00000000#32) reducesTo_S1048576x16_S16_d0 h_S_)
          (broadcastInDim S16 ![] bcast_S_S16 (constant S_ .f32 0x49800000#32)) := by
  simp only [after_cons, after_nil]
  rfl

end Stretches

/-- The fold of the whole line read at the result buffer is the composed term. -/
theorem out_eq (V : Valuation τ sig (Elt F)) :
    after ops V (main_v3 : DevRef τ sig) = refTerm (V (main_arg0 : DevRef τ sig)) (V (main_arg1 : DevRef τ sig)) := by
  rw [ops_split, after_append, after_append, after_append, afterD_v3, afterC_v0, afterB_v12, afterB_v5, afterB_arg1,
    afterA_v5, afterA_arg1]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- On the one device, from any memory with zero counters: every weakly fair execution of @main terminates with
    the result buffer at the composed term of the arguments' launch contents, and the arguments unchanged. -/
theorem run (m : (ℓ : Loc nD τ sig) → Buf (Elt F) ℓ) (g : Dev nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread Cert.ReferenceIdeal.nD Cert.ReferenceIdeal.τ).loc Cert.ReferenceIdeal.main_v3)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run defs _ _).mono (fun _ h c => ⟨(h c main_v3).trans (out_eq _), (h c main_arg0).trans (arg0_eq _), (h c main_arg1).trans (arg1_eq _)⟩)
    (run_seq scopedRefs_eq scopedSems_eq defs main (fun _ => ops) main_eq (fun _ => ops_sub) m g)

end Cert.RefRun

end
-- ==== Proof.Ref.Frame.lean ====
/-
  The reference's frame claim: it runs, and its two argument arrays end unchanged. This is the run's post with the
  result's conjunct dropped; the precondition is not needed.
-/
import proofs.«205564_g40879498729249_retrytranche2_1872_24_alg».proof.Defs
import proofs.«205564_g40879498729249_retrytranche2_1872_24_alg».proof.Proof.Gen.ReferenceIdeal
import proofs.«205564_g40879498729249_retrytranche2_1872_24_alg».proof.Proof.Gen.Pre_input_domain
import proofs.«205564_g40879498729249_retrytranche2_1872_24_alg».proof.Proof.Ref.Run

noncomputable section

namespace Cert.RefRun

open Idealize.ShloMosaic Idealize.SL.Sem

theorem frame_ri : Cert.frame_ReferenceIdeal :=
  fun m g _ => (θ_run _ _ _).mono (fun _ h c => (h c).2) (run m g)

end Cert.RefRun

end
-- ==== Proof.LibGatherAt.lean ====
/-
  A gather along the leading axis read at an index. With one start index per result row (a column of start indices),
  the result's row e is the operand's row at the start index of e, read as a signed integer and clamped onto the axis:
  for a matrix operand every column j of that row, for a vector operand its one entry.
-/
import Idealize.ShloMosaic.Lib.ValueIdx

namespace Cert.GatherAt

open Idealize.ShloMosaic Idealize.ShloMosaic.ValueIdx

variable {α : Type}

/-- Rows of an [N, C] operand at an [E, 1] column of start indices: result [E, C]. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an [N] operand at an [E, 1] column of start indices: result [E]. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather at (e, j): the operand at (the start index of e, clamped; j). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 ⟨min (idx (ix2 e ⟨0, Nat.one_pos⟩)).toInt.toNat (N - 1), by omega⟩ j) := by
  unfold Host.gather
  refine congrArg x (funext fun a => Fin.ext ?_)
  show (rowDims N C E wf).start (ix2 e j) idx a + (rowDims N C E wf).batchCoord (ix2 e j) a
    + (rowDims N C E wf).offCoord (ix2 e j) a = _
  rw [GatherDims.batchCoord_eq_zero _ _ _ List.not_mem_nil]
  have h0 : (rowDims N C E wf).start (ix2 e j) idx (0 : Fin 2) + 0 + (rowDims N C E wf).offCoord (ix2 e j) (0 : Fin 2)
      = min (idx (ix2 e ⟨0, Nat.one_pos⟩)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims N C E wf).start (ix2 e j) idx (1 : Fin 2) + 0 + (rowDims N C E wf).offCoord (ix2 e j) (1 : Fin 2)
      = j.val := by
    have hs : (rowDims N C E wf).start (ix2 e j) idx (1 : Fin 2) = 0 := by
      unfold GatherDims.start
      rw [dif_neg (fun h => Nat.one_ne_zero (congrArg Fin.val (List.mem_singleton.mp h)))]
    have hk : (1 : Fin 2) ∈ (rowDims N C E wf).sKept :=
      (GatherDims.mem_sKept _ _).mpr ⟨fun h => Nat.one_ne_zero (congrArg Fin.val (List.mem_singleton.mp h)), List.not_mem_nil⟩
    have ho : (rowDims N C E wf).offCoord (ix2 e j) (1 : Fin 2) = j.val := by
      unfold GatherDims.offCoord
      rw [dif_pos hk]
      rfl
    rw [hs, ho]
    omega
  match a with
  | ⟨0, _⟩ => exact h0
  | ⟨1, _⟩ => exact h1

/-- The vector gather at e: the operand at the start index of e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e ⟨0, Nat.one_pos⟩)).toInt.toNat (N - 1), by omega⟩) := by
  unfold Host.gather
  refine congrArg x (funext fun a => Fin.ext ?_)
  obtain rfl : a = 0 := Subsingleton.elim _ _
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.GatherAt
-- ==== Proof.LibReduceAnd.lean ====
/-
  A reduction by `and` over one-bit words whose operand is 1 everywhere, started from 1, is 1 at every result index.
-/
import Idealize.ShloMosaic.Lib.ReduceAll

namespace Cert.MaskFacts

open Idealize.ShloMosaic

/-- A left fold by `and` from 1 over a list of ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

variable {s t u : Shape} {axes : List (Fin s.rank)}

/-- The reduction by `and` of an operand that is 1 everywhere, from 1, is 1. -/
theorem reduce_andi_one (x : s.Idx → BitVec 1) (init : u.Idx → BitVec 1) (h : s.ReducesTo axes t) (hu : 0 < u.numel)
    (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

end Cert.MaskFacts
-- ==== Proof.Ref.Term.lean ====
/-
  The reference's composed term is the mean of the looked-up rows. Under the precondition every digit read
  unsigned is at most 9, so read signed it is not negative and the wrap keeps it; it passes both range tests, so
  the mask is 1 at every position and the select keeps the gathered row; the gather reads the table at the row
  the digit names (the clamp onto 0..9 is not active); the sum over axis 0 from 0 is the finite sum over the
  positions; and division by 2^20, a real number that is not zero, is the product with 1/1048576.
-/
import proofs.«205564_g40879498729249_retrytranche2_1872_24_alg».proof.Proof.Ref.Ops
import proofs.«205564_g40879498729249_retrytranche2_1872_24_alg».proof.Proof.Spec
import proofs.«205564_g40879498729249_retrytranche2_1872_24_alg».proof.Proof.LibGatherAt
import proofs.«205564_g40879498729249_retrytranche2_1872_24_alg».proof.Proof.LibReduceAnd
import Idealize.ShloMosaic.Lib.IdealHost
import Idealize.ShloMosaic.Lib.Pipeline.Value

noncomputable section

namespace Cert.RefRun

open Cert.ReferenceIdeal Idealize.ShloMosaic Idealize.ShloMosaic.ValueIdx
open Cert.ReferenceIdeal.Facts₀

variable {F : FTy → Type} [FloatOps F]

/-- A 32-bit word at most 9 reads the same signed and unsigned. -/
theorem toInt_of_le_nine {v : BitVec 32} (h : v.toNat ≤ 9) : v.toInt = (v.toNat : Int) := by
  rw [BitVec.toInt_eq_toNat_cond, if_pos (by omega)]

theorem toInt_zero32 : (0#32 : BitVec 32).toInt = 0 := by decide
theorem toInt_nine32 : (9#32 : BitVec 32).toInt = 9 := by decide

/-- A digit at most 9 is not negative, so the wrap keeps it. -/
theorem wrapped_apply (dg : IVec S1048576 32) (n : Fin 1048576) (h : (dg (ix1 n)).toNat ≤ 9) :
    wrapped dg (ix1 n) = dg (ix1 n) := by
  have hne : ¬ IntOp.cmpi .slt (dg (ix1 n)) (0#32) = 1#1 := by
    rw [IntOp.cmpi_slt, toInt_of_le_nine h, toInt_zero32]
    omega
  show Scalar.select (IntOp.cmpi .slt (dg (ix1 n)) (0#32)) _ (dg (ix1 n)) = _
  unfold Scalar.select
  exact if_neg hne

/-- The column of start indices at (n, 0) is the wrapped digit at n. -/
theorem startIdx_apply (dg : IVec S1048576 32) (i : S1048576x1.Idx) : startIdx dg i = wrapped dg (ix1 (i 0)) := by
  unfold startIdx
  refine broadcastInDim_apply _ _ _ _ (ix1 (i 0)) (fun a => ?_)
  obtain rfl : a = 0 := Subsingleton.elim _ _
  split
  · next h1 => exact absurd h1 (by decide)
  · rfl

/-- Under the precondition the start index at (n, 0) is the digit at n. -/
theorem startIdx_eq (dg : IVec S1048576 32) (hd : ∀ n, (dg n).toNat ≤ 9) (i : S1048576x1.Idx) :
    startIdx dg i = dg (ix1 (i 0)) :=
  (startIdx_apply dg i).trans (wrapped_apply dg (i 0) (hd _))

/-- Under the precondition every start index passes both range tests. -/
theorem tests_apply (dg : IVec S1048576 32) (hd : ∀ n, (dg n).toNat ≤ 9) (i : S1048576x1.Idx) :
    andi (cmpi .sge (startIdx dg) (broadcastInDim S1048576x1 ![] bcast_S_S1048576x1 (constantI S_ 32 0#32)))
      (cmpi .sle (startIdx dg) (broadcastInDim S1048576x1 ![0, 1] bcast_S1x1_S1048576x1_0_1
        (broadcastInDim S1x1 ![1] bcast_S1_S1x1_1 (constantI S1 32 9#32)))) i = 1#1 := by
  show IntOp.andi (IntOp.cmpi .sge (startIdx dg i) (0#32)) (IntOp.cmpi .sle (startIdx dg i) (9#32)) = 1#1
  have hv := hd (ix1 (i 0))
  rw [startIdx_eq dg hd i, IntOp.andi_eq_one, IntOp.cmpi_sge, IntOp.cmpi_sle, toInt_of_le_nine hv, toInt_zero32, toInt_nine32]
  constructor <;> omega

/-- Under the precondition the mask is 1 at every position. -/
theorem inRange_apply (dg : IVec S1048576 32) (hd : ∀ n, (dg n).toNat ≤ 9) (j : S1048576.Idx) : inRange dg j = 1#1 := by
  unfold inRange
  exact Cert.MaskFacts.reduce_andi_one _ _ _ _ _ rfl (tests_apply dg hd)

/-- Under the precondition the looked-up row at position n is the table's row named by the digit at n. -/
theorem taken_apply (dg : IVec S1048576 32) (tb : FVec F S10x16 .f32) (hd : ∀ n, (dg n).toNat ≤ 9) (n : Fin 1048576) (c : Fin 16) :
    taken dg tb (ix2 n c) = tb (ix2 (Cert.Spec.rowOf (dg (ix1 n))) c) := by
  have hm : broadcastInDim S1048576x16 ![0] bcast_S1048576_S1048576x16_0 (inRange dg) (ix2 n c) = 1#1 := by
    have e : broadcastInDim S1048576x16 ![0] bcast_S1048576_S1048576x16_0 (inRange dg) (ix2 n c) = inRange dg (ix1 n) :=
      broadcastInDim_apply _ _ _ _ (ix1 n) (fun a => by
        obtain rfl : a = 0 := Subsingleton.elim _ _
        split
        · next h1 => exact absurd h1 (by decide)
        · rfl)
    rw [e, inRange_apply dg hd]
  unfold taken
  rw [select_apply, hm, select_one]
  refine (Cert.GatherAt.gather_rows_apply (N := 10) (C := 16) (E := 1048576) (by decide)
    gather_S10x16_S1048576x1_S1048576x16_1_0_n_n_0_1_116_wf tb (startIdx dg) n c).trans ?_
  refine congrArg (fun r => tb (ix2 r c)) (Fin.ext ?_)
  show min (startIdx dg (ix2 n ⟨0, Nat.one_pos⟩)).toInt.toNat (10 - 1) = min (dg (ix1 n)).toNat 9
  have hs : startIdx dg (ix2 n ⟨0, Nat.one_pos⟩) = dg (ix1 n) := startIdx_eq dg hd _
  rw [hs, toInt_of_le_nine (hd _), Int.toNat_natCast]

/-- The f32 pattern 0x49800000 is the real 2^20. -/
theorem ofBits_two_pow_twenty : Ideal.ofBits .f32 0x49800000#32 = ((1048576 : ℝ) : EReal) := by
  simp [Ideal.ofBits, Ideal.ieee, -EReal.coe_mul]; norm_num

/-- Under the precondition the reference's composed term is the mean of the looked-up rows. -/
theorem refTerm_eq (dg : IVec Cert.Spec.SN 32) (tb : FVec Ideal Cert.Spec.ST .f32) (h : Cert.Spec.PreOK dg tb) :
    refTerm dg tb = Cert.Spec.meanRow dg tb := by
  funext j
  have hR : S1048576x16.Reduces [0] S16 := by decide
  have hlift : ∀ k : Fin 1048576, hR.lift j k = ix2 k (j 0) := fun k => funext fun c => Fin.ext (by
    match c with
    | ⟨0, _⟩ => rfl
    | ⟨1, _⟩ => rfl)
  show Ideal.div (Ideal.hostReduceAdd reducesTo_S1048576x16_S16_d0 (taken dg tb) (Ideal.ofBits .f32 0x00000000#32) j)
    (Ideal.ofBits .f32 0x49800000#32) = _
  rw [Ideal.hostReduceAdd_single _ hR, Ideal.ofBits_zero_f32, zero_add, ofBits_two_pow_twenty, Ideal.div_coe (by norm_num)]
  unfold Cert.Spec.meanRow
  refine congrArg (· * (((1 / 1048576 : ℝ) : ℝ) : EReal)) ?_
  exact Finset.sum_congr rfl (fun k _ => by rw [hlift k]; exact taken_apply dg tb h.1 k (j 0))

end Cert.RefRun

end
-- ==== Proof.Ref.Pre.lean ====
/-
  The precondition opened. The printed predicate is the conjunction of two reductions by "and": over the table,
  of |entry| < +inf, and over the digits, of 0 <= digit <= 9 read signed. When it is 1, every table entry is a
  real number and every digit, read unsigned, is at most 9.
-/
import proofs.«205564_g40879498729249_retrytranche2_1872_24_alg».proof.Pre_input_domain
import proofs.«205564_g40879498729249_retrytranche2_1872_24_alg».proof.Proof.Spec
import Idealize.ShloMosaic.Lib.ReduceAll
import Idealize.ShloMosaic.Lib.IdealHost

noncomputable section

namespace Cert.RefRun

open Idealize.ShloMosaic Idealize.ShloMosaic.ValueIdx

/-- The shape of rank 0 has one index. -/
instance subsingleton_scalarIdx : Subsingleton (⟨0, ![]⟩ : Shape).Idx := ⟨fun a b => funext fun d => d.elim0⟩

/-- A 32-bit word between 0 and 9 read signed is at most 9 read unsigned. -/
theorem toNat_le_nine_of_toInt {v : BitVec 32} (h0 : (0#32 : BitVec 32).toInt ≤ v.toInt) (h9 : v.toInt ≤ (9#32 : BitVec 32).toInt) :
    v.toNat ≤ 9 := by
  have e0 : (0#32 : BitVec 32).toInt = 0 := by decide
  have e9 : (9#32 : BitVec 32).toInt = 9 := by decide
  rw [e0] at h0; rw [e9] at h9
  have hlt := v.isLt
  rw [BitVec.toInt_eq_toNat_cond] at h0 h9
  split_ifs at h0 h9 <;> omega

/-- When the predicate is 1, every digit read unsigned is at most 9: the second reduction is 1, so each digit
    passes both signed comparisons. -/
theorem digits_le_of_fn {F : FTy → Type} [FloatOps F] [Cert.Pre_input_domain.Facts]
    (dg : IVec Cert.Pre_input_domain.S1048576 32) (tb : FVec F Cert.Pre_input_domain.S10x16 .f32)
    (h : Cert.Pre_input_domain.fn (F := F) dg tb = fun _ => 1#1) : ∀ n, (dg n).toNat ≤ 9 := by
  intro n
  have h0 := congrFun h ValueIdx.ix0
  dsimp only [Cert.Pre_input_domain.fn] at h0
  obtain ⟨-, h2⟩ := IntOp.andi_eq_one.1 h0
  have h3 := Host.reduce_andi_all _ _ _ _ _ h2 n
  obtain ⟨hge, hle⟩ := IntOp.andi_eq_one.1 h3
  exact toNat_le_nine_of_toInt (IntOp.cmpi_sge.1 hge) (IntOp.cmpi_sle.1 hle)

/-- An extended real whose absolute value is below +inf is a real number. -/
theorem real_of_abs_lt_top (x : EReal) (h : Ideal.cmp .olt (max x (-x)) ⊤ = 1#1) : ∃ r : ℝ, x = ((r : ℝ) : EReal) := by
  induction x using EReal.rec with
  | bot => exact absurd h (by simp [Ideal.cmp])
  | top => exact absurd h (by simp [Ideal.cmp])
  | coe r => exact ⟨r, rfl⟩

/-- When the predicate is 1 at the ideal values, the precondition of the specification holds. -/
theorem preOK_of_fn [Cert.Pre_input_domain.Facts]
    (dg : IVec Cert.Pre_input_domain.S1048576 32) (tb : FVec Ideal Cert.Pre_input_domain.S10x16 .f32)
    (h : Cert.Pre_input_domain.fn (F := Ideal) dg tb = fun _ => 1#1) : Cert.Spec.PreOK dg tb := by
  refine ⟨digits_le_of_fn dg tb h, fun i => ?_⟩
  have h0 := congrFun h ValueIdx.ix0
  dsimp only [Cert.Pre_input_domain.fn] at h0
  obtain ⟨h1, -⟩ := IntOp.andi_eq_one.1 h0
  have h3 := Host.reduce_andi_all _ _ _ _ _ h1 i
  have hinf : Ideal.ofBits .f32 0x7F800000#32 = ⊤ := by simp [Ideal.ofBits, Ideal.ieee]
  have h4 : Ideal.cmp .olt (max (tb i) (-(tb i))) (Ideal.ofBits .f32 0x7F800000#32) = 1#1 := h3
  rw [hinf] at h4
  exact real_of_abs_lt_top _ h4

end Cert.RefRun

end
-- ==== Proof.lean ====
/-
  The certificate's claim, assembled.

  Both printed kernels run to the end from any memory with zero counters and leave the digits and the table unchanged:
  the launch of the SparseCore call, the folding TensorCore kernel and the reshape, from one tile's task run at a
  symbolic place. The reference runs likewise. At the ideal values, under the precondition (every digit at most 9, every
  table entry a real number), the kernel's thirty-two workers each leave the count-weighted sum of the table's rows over
  their block of 32768 digits, scaled by 1/1048576; the column sums of those rows are the mean of the looked-up rows,
  which is also what the reference's gather, sum and division compute. No operation was rewritten by the ideal pass, so
  the idealization claim is the trivial one.
-/
import proofs.«205564_g40879498729249_retrytranche2_1872_24_alg».proof.Defs
import proofs.«205564_g40879498729249_retrytranche2_1872_24_alg».proof.Proof.Gen.Kernel
import proofs.«205564_g40879498729249_retrytranche2_1872_24_alg».proof.Proof.Gen.KernelIdeal
import proofs.«205564_g40879498729249_retrytranche2_1872_24_alg».proof.Proof.Gen.ReferenceIdeal
import proofs.«205564_g40879498729249_retrytranche2_1872_24_alg».proof.Proof.Gen.Pre_input_domain
import proofs.«205564_g40879498729249_retrytranche2_1872_24_alg».proof.Proof.K.Launch
import proofs.«205564_g40879498729249_retrytranche2_1872_24_alg».proof.Proof.K.Tile
import proofs.«205564_g40879498729249_retrytranche2_1872_24_alg».proof.Proof.KI.Launch
import proofs.«205564_g40879498729249_retrytranche2_1872_24_alg».proof.Proof.KI.Tile
import proofs.«205564_g40879498729249_retrytranche2_1872_24_alg».proof.Proof.KI.TileVal
import proofs.«205564_g40879498729249_retrytranche2_1872_24_alg».proof.Proof.KI.RowIsLocal
import proofs.«205564_g40879498729249_retrytranche2_1872_24_alg».proof.Proof.KI.RowVal
import proofs.«205564_g40879498729249_retrytranche2_1872_24_alg».proof.Proof.Ref.Frame
import proofs.«205564_g40879498729249_retrytranche2_1872_24_alg».proof.Proof.Ref.Term
import proofs.«205564_g40879498729249_retrytranche2_1872_24_alg».proof.Proof.Ref.Pre

noncomputable section

namespace Cert.Proof

open Idealize.ShloMosaic Idealize.SL.Sem

/-- The kernel as printed runs and leaves its arguments unchanged: its run with the row predicate that says nothing. -/
theorem frame_k : Cert.frame_Kernel := fun m g _ =>
  (θ_run Cert.Kernel.defs _ _).mono (fun _ h c => ⟨(h c).2.1, (h c).2.2⟩)
    (Cert.Proof.K.run_main_k1 (F := Bits) m g (fun _ _ _ => True) (fun _ _ _ _ _ _ => trivial) (Cert.Proof.K.tile_frame m))

/-- The same of the idealized kernel. -/
theorem frame_ki : Cert.frame_KernelIdeal := fun m g _ =>
  (θ_run Cert.KernelIdeal.defs _ _).mono (fun _ h c => ⟨(h c).2.1, (h c).2.2⟩)
    (Cert.Proof.KI.run_main_k1 (F := Ideal) m g (fun _ _ _ => True) (fun _ _ _ _ _ _ => trivial) (Cert.Proof.KI.tile_frame m))

/-- At the ideal values, under the precondition, both programs end with the mean of the looked-up rows: the kernel's
    thirty-two rows hold the workers' count-weighted sums, whose fold is the mean; the reference's term is the mean. -/
theorem algebraic : Cert.algebraic_KernelIdeal_ReferenceIdeal := fun m g m' g' hpre hagree =>
  have hPre : ∀ c : Dev Cert.KernelIdeal.nD, Cert.Spec.PreOK (m (Cert.Proof.KI.dLoc c)) (m (Cert.Proof.KI.tLoc c)) :=
    fun c => Cert.RefRun.preOK_of_fn _ _ (hpre c)
  ⟨fun c => Cert.Spec.meanRow (m (Cert.Proof.KI.dLoc c)) (m (Cert.Proof.KI.tLoc c)),
    (θ_run Cert.KernelIdeal.defs _ _).mono (fun _ h c => by
        obtain ⟨⟨f, hf, h2⟩, h0, h1⟩ := h c
        exact ⟨h2.trans (Cert.Proof.KI.RowVal.bridge _ _ (hPre c) (Cert.Proof.KI.cntOf (m (Cert.Proof.KI.dLoc c))) (fun _ _ => rfl) f
          (fun w j => hf w j) _), h0, h1⟩)
      (Cert.Proof.KI.run_main_k1 (F := Ideal) m g (Cert.Proof.KI.RowIs m) (Cert.Proof.KI.rowIs_local m)
        (Cert.Proof.KI.tile_val m fun d n => (hPre d).1 n)),
    (θ_run Cert.ReferenceIdeal.defs _ _).mono (fun _ h c => by
        obtain ⟨h3, h0, h1⟩ := h c
        refine ⟨?_, h0, h1⟩
        rw [h3, (hagree c).1, (hagree c).2]
        exact Cert.RefRun.refTerm_eq _ _ (hPre c))
      (Cert.RefRun.run (F := Ideal) m' g')⟩

theorem claim : Cert.Claim :=
  ⟨Cert.Kernel.Gen.facts, Cert.KernelIdeal.Gen.facts, Cert.ReferenceIdeal.Gen.facts, Cert.Pre_input_domain.Gen.facts,
    frame_k, frame_ki, Cert.RefRun.frame_ri, trivial, algebraic⟩

end Cert.Proof

end
